-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83_0)) (v1 : (c : Dev Cert.KernelIdeal.nD) → Buf (Elt Ideal) ((c.tc : Thread Cert.KernelIdeal.nD Cert.KernelIdeal.τ).loc Cert.KernelIdeal.main_v83_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83_0) = v0 c
          ∧ r.2.mem ((c.tc : Thread Cert.KernelIdeal.nD Cert.KernelIdeal.τ).loc Cert.KernelIdeal.main_v83_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_arg9 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S64x2 .f32) (main_arg7 : FVec F S2 .f32) (main_arg8 : FVec F S2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : IVec S2x1600000 32) (main_arg1 : FVec F S100000x64 .f32) (main_arg2 : FVec F S64x64 .f32) (main_arg3 : FVec F S64 .f32) (main_arg4 : FVec F S64 .f32) (main_arg5 : FVec F S64 .f32) (main_arg6 : FVec F S64x2 .f32) (main_arg7 : FVec F S2 .f32) (main_arg8 : FVec F S2 .f32) (main_arg9 : FVec F S2 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x64 : Shape := ⟨2, ![2000, 64]⟩
abbrev S1700000x64 : Shape := ⟨2, ![1700000, 64]⟩
abbrev S1x64 : Shape := ⟨2, ![1, 64]⟩
abbrev S100000x2 : Shape := ⟨2, ![100000, 2]⟩
abbrev S2000x2 : Shape := ⟨2, ![2000, 2]⟩
abbrev S1700000x2 : Shape := ⟨2, ![1700000, 2]⟩
abbrev S1x2 : Shape := ⟨2, ![1, 2]⟩
abbrev S2000 : Shape := ⟨1, ![2000]⟩
abbrev S2000x1 : Shape := ⟨2, ![2000, 1]⟩

abbrev nBuf : Space → Nat
  | .hbm => 115
  | .vmem => 40
  | .smem => 0
  | _ => 0

abbrev bufTy : (tb : Table) → Fin (tcTables nBuf tb) → BufTy
  | .hbm, ⟨0, _⟩ => ⟨S2x1600000, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S2, .f32⟩
  | .hbm, ⟨9, _⟩ => ⟨S2, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S_, .f32⟩
  | .hbm, ⟨28, _⟩ => ⟨S1700000, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S100000x64, .f32⟩
  | .hbm, ⟨82, _⟩ => ⟨S100000x2, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x2, .f32⟩
  | .hbm, ⟨92, _⟩ => ⟨S1700000x1, .f32⟩
  | .hbm, ⟨93, _⟩ => ⟨S1700000x2, .f32⟩
  | .hbm, ⟨94, _⟩ => ⟨S1700000x2, .f32⟩
  | .hbm, ⟨95, _⟩ => ⟨S_, .f32⟩
  | .hbm, ⟨96, _⟩ => ⟨S100000x2, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S100000x2, .f32⟩
  | .hbm, ⟨106, _⟩ => ⟨S1x2, .f32⟩
  | .hbm, ⟨107, _⟩ => ⟨S100000x2, .f32⟩
  | .hbm, ⟨108, _⟩ => ⟨S100000x2, .f32⟩
  | .hbm, ⟨109, _⟩ => ⟨S1x2, .f32⟩
  | .hbm, ⟨110, _⟩ => ⟨S1x2, .f32⟩
  | .hbm, ⟨111, _⟩ => ⟨S1x2, .f32⟩
  | .hbm, ⟨112, _⟩ => ⟨S1x2, .f32⟩
  | .hbm, ⟨113, _⟩ => ⟨S100000x2, .f32⟩
  | .hbm, ⟨114, _⟩ => ⟨S100000x2, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S64x2, .f32⟩
  | .local _ .vmem, ⟨22, _⟩ => ⟨S2000x2, .f32⟩
  | .local _ .vmem, ⟨23, _⟩ => ⟨S2000x2, .f32⟩
  | .local _ .vmem, ⟨24, _⟩ => ⟨S2000x2, .f32⟩
  | .local _ .vmem, ⟨25, _⟩ => ⟨S2000x2, .f32⟩
  | .local _ .vmem, ⟨26, _⟩ => ⟨S1x2, .f32⟩
  | .local _ .vmem, ⟨27, _⟩ => ⟨S1x2, .f32⟩
  | .local _ .vmem, ⟨28, _⟩ => ⟨S1x2, .f32⟩
  | .local _ .vmem, ⟨29, _⟩ => ⟨S1x2, .f32⟩
  | .local _ .vmem, ⟨30, _⟩ => ⟨S2000x2, .f32⟩
  | .local _ .vmem, ⟨31, _⟩ => ⟨S2000x2, .f32⟩
  | .local _ .vmem, ⟨32, _⟩ => ⟨S1x2, .f32⟩
  | .local _ .vmem, ⟨33, _⟩ => ⟨S1x2, .f32⟩
  | .local _ .vmem, ⟨34, _⟩ => ⟨S1x2, .f32⟩
  | .local _ .vmem, ⟨35, _⟩ => ⟨S1x2, .f32⟩
  | .local _ .vmem, ⟨36, _⟩ => ⟨S2000x2, .f32⟩
  | .local _ .vmem, ⟨37, _⟩ => ⟨S2000x2, .f32⟩
  | .local _ .vmem, ⟨38, _⟩ => ⟨S2000x2, .f32⟩
  | .local _ .vmem, ⟨39, _⟩ => ⟨S2000x2, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54_0 : Ref sig .tc := ⟨.hbm, 77, rfl⟩
abbrev main_v54_1 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_13 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80_0 : Ref sig .tc := ⟨.hbm, 109, rfl⟩
abbrev main_v80_1 : Ref sig .tc := ⟨.hbm, 110, rfl⟩
abbrev main_v81 : Ref sig .tc := ⟨.hbm, 111, rfl⟩
abbrev main_v82 : Ref sig .tc := ⟨.hbm, 112, rfl⟩
abbrev main_v83_0 : Ref sig .tc := ⟨.hbm, 113, rfl⟩
abbrev main_v83_1 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_scratch0 : Ref sig .tc := ⟨.vmem, 28, rfl⟩
abbrev cc4_scratch1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc5_stg6_0 : Ref sig .tc := ⟨.vmem, 38, rfl⟩
abbrev cc5_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc5_sem6_0 : DmaSem sig := 34
abbrev cc5_sem6_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x2 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x2 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S2000x64_S2000x64 : S2000x64.ShapeCasts S2000x64
  reduces_S2000x64_S64 : S2000x64.Reduces [0] S64
  shapeCasts_S64_S1x64 : S64.ShapeCasts S1x64
  broadcasts_S1x64_S2000x64 : S1x64.Broadcasts S2000x64
  inb_S64x2_S64x2_0_0 : ∀ a, (![0, 0] : Fin 2 → Nat) a + S64x2.size a ≤ S64x2.size a
  h_S64x2 : 0 < S64x2.numel
  inb_S2000x2_S2000x2_0_0 : ∀ a, (![0, 0] : Fin 2 → Nat) a + S2000x2.size a ≤ S2000x2.size a
  h_S2000x2 : 0 < S2000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  inb_S1x2_S1x2_0_0 : ∀ a, (![0, 0] : Fin 2 → Nat) a + S1x2.size a ≤ S1x2.size a
  h_S1x2 : 0 < S1x2.numel
  shapeCasts_S1x2_S1x2 : S1x2.ShapeCasts S1x2
  shapeCasts_S2000x2_S2000x2 : S2000x2.ShapeCasts S2000x2
  reduces_S2000x2_S2 : S2000x2.Reduces [0] S2
  shapeCasts_S2_S1x2 : S2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x2_S2000x2_1_0_0_1_n_n_wf : DotDims.WF S2000x64 S64x2 S2000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S100000x2.size a
  hwx3_2 : ∀ i : grid3.Coords, EltTy.bits .f32 = 32 ∨ (Rect.block (s := S100000x2) S2000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x2.size a ≤ S100000x2.size a
  hwx4_0 : ∀ i : grid4.Coords, EltTy.bits .f32 = 32 ∨ (Rect.block (s := S100000x2) S2000x2.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x2.size a ≤ S1x2.size a
  hwx4_1 : ∀ i : grid4.Coords, EltTy.bits .f32 = 32 ∨ (Rect.block (s := S1x2) S1x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x2.size a ≤ S100000x2.size a
  hwx5_0 : ∀ i : grid5.Coords, EltTy.bits .f32 = 32 ∨ (Rect.block (s := S100000x2) S2000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2.size a ≤ S1x2.size a
  hwx5_2 : ∀ i : grid5.Coords, EltTy.bits .f32 = 32 ∨ (Rect.block (s := S1x2) S1x2.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2.size a ≤ S1x2.size a
  hwx5_4 : ∀ i : grid5.Coords, EltTy.bits .f32 = 32 ∨ (Rect.block (s := S1x2) S1x2.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x2.size a ≤ S100000x2.size a
  hwx5_5 : ∀ i : grid5.Coords, EltTy.bits .f32 = 32 ∨ (Rect.block (s := S100000x2) S2000x2.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x2.size a ≤ S100000x2.size a
  hwx5_6 : ∀ i : grid5.Coords, EltTy.bits .f32 = 32 ∨ (Rect.block (s := S100000x2) S2000x2.size (cc5_transform_6 i) (hinb5_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg1) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v53) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54_0) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54_1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S2000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80_0) S1x2.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80_1) S1x2.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v79) S2000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80_0) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80_1) S1x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83_0) S2000x2.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v83_1) S2000x2.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S2x1600000 : Shape := ⟨2, ![2, 1600000]⟩
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 217
  | .vmem => 0
  | .smem => 0
  | _ => 0

abbrev hbmTy0_0 (i : Nat) : BufTy := match i % 128 with
  | 0 => ⟨S2x1600000, .i32⟩
  | 1 => ⟨S100000x64, .f32⟩
  | 2 => ⟨S64x64, .f32⟩
  | 3 => ⟨S64, .f32⟩
  | 4 => ⟨S64, .f32⟩
  | 5 => ⟨S64, .f32⟩
  | 6 => ⟨S64x2, .f32⟩
  | 7 => ⟨S2, .f32⟩
  | 8 => ⟨S2, .f32⟩
  | 9 => ⟨S2, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S_, .f32⟩
  | 28 => ⟨S1700000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S_, .f32⟩
  | 112 => ⟨S64, .f32⟩
  | 113 => ⟨S64, .f32⟩
  | 114 => ⟨S64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x2, .f32⟩
  | 125 => ⟨S_, .i32⟩
  | 126 => ⟨S1700000, .i32⟩
  | 127 => ⟨S1700000, .i1⟩
  | _ => ⟨S2x1600000, .i32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x2, .f32⟩
  | 6 => ⟨S1700000x1, .f32⟩
  | 7 => ⟨S1700000x2, .f32⟩
  | 8 => ⟨S1700000x2, .f32⟩
  | 9 => ⟨S_, .f32⟩
  | 10 => ⟨S100000x2, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S100000x2, .f32⟩
  | 20 => ⟨S1x2, .f32⟩
  | 21 => ⟨S100000x2, .f32⟩
  | 22 => ⟨S100000x2, .f32⟩
  | 23 => ⟨S_, .f32⟩
  | 24 => ⟨S2, .f32⟩
  | 25 => ⟨S_, .f32⟩
  | 26 => ⟨S2, .f32⟩
  | 27 => ⟨S2, .f32⟩
  | 28 => ⟨S_, .i32⟩
  | 29 => ⟨S_, .f32⟩
  | 30 => ⟨S2, .f32⟩
  | 31 => ⟨S1x2, .f32⟩
  | 32 => ⟨S_, .f32⟩
  | 33 => ⟨S1x2, .f32⟩
  | 34 => ⟨S1x2, .f32⟩
  | 35 => ⟨S100000x2, .f32⟩
  | 36 => ⟨S100000x2, .f32⟩
  | 37 => ⟨S100000x2, .f32⟩
  | 38 => ⟨S_, .f32⟩
  | 39 => ⟨S_, .f32⟩
  | 40 => ⟨S_, .f32⟩
  | 41 => ⟨S_, .f32⟩
  | 42 => ⟨S2, .f32⟩
  | 43 => ⟨S2, .f32⟩
  | 44 => ⟨S2, .f32⟩
  | 45 => ⟨S_, .f32⟩
  | 46 => ⟨S_, .i1⟩
  | 47 => ⟨S_, .f32⟩
  | 48 => ⟨S_, .f32⟩
  | 49 => ⟨S2, .f32⟩
  | 50 => ⟨S2, .f32⟩
  | 51 => ⟨S1x2, .f32⟩
  | 52 => ⟨S100000x2, .f32⟩
  | 53 => ⟨S100000x2, .f32⟩
  | 54 => ⟨S1x2, .f32⟩
  | 55 => ⟨S100000x2, .f32⟩
  | 56 => ⟨S100000x2, .f32⟩
  | 57 => ⟨S_, .f32⟩
  | 58 => ⟨S2, .f32⟩
  | 59 => ⟨S2, .f32⟩
  | 60 => ⟨S2, .f32⟩
  | 61 => ⟨S1x2, .f32⟩
  | 62 => ⟨S100000x2, .f32⟩
  | 63 => ⟨S100000x2, .f32⟩
  | 64 => ⟨S1x2, .f32⟩
  | 65 => ⟨S100000x2, .f32⟩
  | 66 => ⟨S100000x2, .f32⟩
  | 67 => ⟨S100000x2, .f32⟩
  | 68 => ⟨S100000x2, .f32⟩
  | 69 => ⟨S_, .f32⟩
  | 70 => ⟨S100000x2, .f32⟩
  | 71 => ⟨S100000x2, .f32⟩
  | 72 => ⟨S_, .f32⟩
  | 73 => ⟨S100000x2, .f32⟩
  | 74 => ⟨S100000x2, .f32⟩
  | 75 => ⟨S_, .f32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x2, .f32⟩
  | 82 => ⟨S100000x2, .f32⟩
  | 83 => ⟨S100000x2, .f32⟩
  | 84 => ⟨S_, .f32⟩
  | 85 => ⟨S100000, .f32⟩
  | 86 => ⟨S100000x1, .f32⟩
  | 87 => ⟨S100000x2, .f32⟩
  | 88 => ⟨S100000x2, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_call0_cst : Ref sig .tc := ⟨.hbm, 83, rfl⟩
abbrev main_call0_v0 : Ref sig .tc := ⟨.hbm, 84, rfl⟩
abbrev main_call0_v1 : Ref sig .tc := ⟨.hbm, 85, rfl⟩
abbrev main_call0_cst_0 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_cst_1 : Ref sig .tc := ⟨.hbm, 93, rfl⟩
abbrev main_call0_v8 : Ref sig .tc := ⟨.hbm, 94, rfl⟩
abbrev main_call0_cst_2 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_cst_3 : Ref sig .tc := ⟨.hbm, 99, rfl⟩
abbrev main_call0_v12 : Ref sig .tc := ⟨.hbm, 100, rfl⟩
abbrev main_call0_cst_4 : Ref sig .tc := ⟨.hbm, 101, rfl⟩
abbrev main_call0_call0_v0 : Ref sig .tc := ⟨.hbm, 102, rfl⟩
abbrev main_call0_call0_v1 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_14 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_call1_cst : Ref sig .tc := ⟨.hbm, 121, rfl⟩
abbrev main_call1_v0 : Ref sig .tc := ⟨.hbm, 122, rfl⟩
abbrev main_v73 : Ref sig .tc := ⟨.hbm, 123, rfl⟩
abbrev main_v74 : Ref sig .tc := ⟨.hbm, 124, rfl⟩
abbrev main_c_15 : Ref sig .tc := ⟨.hbm, 125, rfl⟩
abbrev main_v75 : Ref sig .tc := ⟨.hbm, 126, rfl⟩
abbrev main_v76 : Ref sig .tc := ⟨.hbm, 127, rfl⟩
abbrev main_c_16 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_17 : Ref sig .tc := ⟨.hbm, 137, rfl⟩
abbrev main_v85 : Ref sig .tc := ⟨.hbm, 138, rfl⟩
abbrev main_c_18 : Ref sig .tc := ⟨.hbm, 139, rfl⟩
abbrev main_v86 : Ref sig .tc := ⟨.hbm, 140, rfl⟩
abbrev main_v87 : Ref sig .tc := ⟨.hbm, 141, rfl⟩
abbrev main_c_19 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_20 : Ref sig .tc := ⟨.hbm, 151, rfl⟩
abbrev main_v96 : Ref sig .tc := ⟨.hbm, 152, rfl⟩
abbrev main_cst_21 : Ref sig .tc := ⟨.hbm, 153, rfl⟩
abbrev main_v97 : Ref sig .tc := ⟨.hbm, 154, rfl⟩
abbrev main_v98 : Ref sig .tc := ⟨.hbm, 155, rfl⟩
abbrev main_c_22 : Ref sig .tc := ⟨.hbm, 156, rfl⟩
abbrev main_call2_cst : Ref sig .tc := ⟨.hbm, 157, rfl⟩
abbrev main_call2_v0 : Ref sig .tc := ⟨.hbm, 158, rfl⟩
abbrev main_call2_v1 : Ref sig .tc := ⟨.hbm, 159, rfl⟩
abbrev main_call2_cst_0 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_call2_v5 : Ref sig .tc := ⟨.hbm, 164, rfl⟩
abbrev main_call2_v6 : Ref sig .tc := ⟨.hbm, 165, rfl⟩
abbrev main_call2_v7 : Ref sig .tc := ⟨.hbm, 166, rfl⟩
abbrev main_call2_cst_1 : Ref sig .tc := ⟨.hbm, 167, rfl⟩
abbrev main_call2_v8 : Ref sig .tc := ⟨.hbm, 168, rfl⟩
abbrev main_call2_cst_2 : Ref sig .tc := ⟨.hbm, 169, rfl⟩
abbrev main_call2_v9 : Ref sig .tc := ⟨.hbm, 170, rfl⟩
abbrev main_call2_v10 : Ref sig .tc := ⟨.hbm, 171, rfl⟩
abbrev main_call2_v11 : Ref sig .tc := ⟨.hbm, 172, rfl⟩
abbrev main_call2_cst_3 : Ref sig .tc := ⟨.hbm, 173, rfl⟩
abbrev main_call2_v12 : Ref sig .tc := ⟨.hbm, 174, rfl⟩
abbrev main_call2_cst_4 : Ref sig .tc := ⟨.hbm, 175, rfl⟩
abbrev main_call2_call0_v0 : Ref sig .tc := ⟨.hbm, 176, rfl⟩
abbrev main_call2_call0_v1 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_cst_23 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_cst_24 : Ref sig .tc := ⟨.hbm, 197, rfl⟩
abbrev main_v117 : Ref sig .tc := ⟨.hbm, 198, rfl⟩
abbrev main_v118 : Ref sig .tc := ⟨.hbm, 199, rfl⟩
abbrev main_cst_25 : Ref sig .tc := ⟨.hbm, 200, rfl⟩
abbrev main_v119 : Ref sig .tc := ⟨.hbm, 201, rfl⟩
abbrev main_v120 : Ref sig .tc := ⟨.hbm, 202, rfl⟩
abbrev main_cst_26 : Ref sig .tc := ⟨.hbm, 203, rfl⟩
abbrev main_v121 : Ref sig .tc := ⟨.hbm, 204, rfl⟩
abbrev main_cst_27 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_28 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S2_d0 : S100000x2.ReducesTo [0] S2
  bcast_S_S2 : S_.BroadcastsInDim S2 (![] : Fin 0 → Fin S2.rank)
  bcast_S_S1x2 : S_.BroadcastsInDim S1x2 (![] : Fin 0 → Fin S1x2.rank)
  reducesTo_S100000x2_S100000_d1 : S100000x2.ReducesTo [1] S100000
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KR0.lean ====
/- Region 0 of the program, class A: a row tile of the product of a [100000,64] matrix with a [64,64] weight matrix, 50 tiles of 2000 rows. -/
import proofs.«122563_j12137577578919_1_alg».proof.Proof.Gen.Kernel.Launch
import proofs.«122563_j12137577578919_1_alg».proof.Proof.Gen.Kernel.Skeleton
import proofs.«122563_j12137577578919_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it: for window 0 the `t`-th tile of
    2000 rows of the left factor, for window 1 the whole weight matrix, for window 2 the `t`-th tile of the result. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the left factor holds its row tile at every point, for any proof data whose array is the
    entry contents and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of the weight matrix holds the whole matrix at every point, although it is fetched at the
    first point only: its block index never moves, so what was fetched there is still the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [2000,64] tile. -/
abbrev r0_0 : Rect S2000x64 := Rect.unit (s := S2000x64) ![0, 0] S2000x64.size inb_S2000x64_S2000x64_0_0
/-- The whole [64,64] weight matrix. -/
abbrev r0_1 : Rect S64x64 := Rect.unit (s := S64x64) ![0, 0] S64x64.size inb_S64x64_S64x64_0_0

/-! ## What the body leaves in the output window's buffer -/

/-- The result tile after the body: the product of the left factor's tile `x0` with the weight matrix `x1`, stored
    over the whole tile in one piece. -/
def out0_2 (x0 : Vec F S2000x64 .f32) (x1 : Vec F S64x64 .f32) : Vec F S2000x64 .f32 :=
  View.canon [⟨r0_0, k0_pay1 (View.ld x0 r0_0) (View.ld x1 r0_1)⟩]

/-- The one store is of the whole tile, so it covers it. -/
theorem cover0_2 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y

/-! ## The body's triple -/

set_option maxHeartbeats 1000000 in
/-- The kernel body on whole staging buffers, the inputs' reading `x0` and `x1` and the output's anything, runs to
    the continuation holding the inputs' as they were and the output's at the product tile `out0_2 x0 x1`. -/
theorem sound_kernel0 (c : Dev nD) (E : Set ℕ) (i : grid0.Coords)
    (arg1 : Memref sig .tc .vmem S2000x64 .f32) (harg1 : arg1.IsWhole) (arg2 : Memref sig .tc .vmem S64x64 .f32) (harg2 : arg2.IsWhole)
    (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t` the
    left factor's buffer at its row tile, the weight matrix's at the matrix, the result's at the product of the two;
    the invariant the class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in the left factor's buffer: its row tile. -/
theorem after0_0 (c : Dev nD) (t : Fin cfg0.N) : (dat0 V c).after 0 t = iblk0 V c 0 t := by dsimp only [dat0]
/-- What the body leaves in the weight matrix's buffer: the matrix. -/
theorem after0_1 (c : Dev nD) (t : Fin cfg0.N) : (dat0 V c).after 1 t = iblk0 V c 1 t := by dsimp only [dat0]
/-- What the body leaves in the result's buffer: the product of the row tile with the weight matrix. -/
theorem after0_2 (c : Dev nD) (t : Fin cfg0.N) : (dat0 V c).after 2 t = out0_2 (iblk0 V c 0 t) (iblk0 V c 1 t) := by dsimp only [dat0]

/-- The left factor's staging buffer holds its row tile at every point. -/
theorem before0_0 (c : Dev nD) (t : Fin cfg0.N) (d) : (dat0 V c).before 0 t d = iblk0 V c 0 t :=
  before0_0_of V (dat0 V c) (A_eq0 V c 0) (after0_0 V c) t d
/-- The weight matrix's staging buffer holds the matrix at every point, fetched there or not. -/
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what it holds then. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR2.lean ====
/- Region 2 of the program, class A: a row tile of the column-wise normalisation of a [100000,64] matrix followed by the positive part, 50 tiles of 2000 rows. -/
import proofs.«122563_j12137577578919_1_alg».proof.Proof.Gen.Kernel.Launch
import proofs.«122563_j12137577578919_1_alg».proof.Proof.Gen.Kernel.Skeleton
import proofs.«122563_j12137577578919_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it: for window 0 the `t`-th tile of
    2000 rows of the matrix, for windows 1 to 4 the [1,64] rows of column means, variances, scales and shifts, for
    window 5 the `t`-th tile of the result. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the matrix holds its row tile at every point, for any proof data whose array is the entry
    contents and whose body leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the per-column mean holds the whole [1,64] row at every point, although it is fetched at
    the first point only: its block index never moves, so what was fetched there is still the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the per-column variance holds the whole [1,64] row at every point, fetched at the first
    point only: the block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the per-column scale holds the whole [1,64] row at every point, fetched at the first
    point only: the block index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the per-column shift holds the whole [1,64] row at every point, fetched at the first
    point only: the block index never moves. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole [2000,64] tile. -/
abbrev r2_0 : Rect S2000x64 := Rect.unit (s := S2000x64) ![0, 0] S2000x64.size inb_S2000x64_S2000x64_0_0
/-- The whole [1,64] row. -/
abbrev r2_1 : Rect S1x64 := Rect.unit (s := S1x64) ![0, 0] S1x64.size inb_S1x64_S1x64_0_0

/-! ## What the body leaves in each output window's buffer -/

/-- The result tile after the body: with tile `x0`, means `x1`, variances `x2`, scales `x3`, shifts `x4`, the positive
    part of `x3 · ((x0 − x1) · (x2 + ε)^(−1/2)) + x4`, the rows broadcast down the tile, stored over the whole tile in
    one piece. -/
def out2_5 (x0 : Vec F S2000x64 .f32) (x1 : Vec F S1x64 .f32) (x2 : Vec F S1x64 .f32) (x3 : Vec F S1x64 .f32) (x4 : Vec F S1x64 .f32) : Vec F S2000x64 .f32 :=
  View.canon [⟨r2_0, k2_pay1 (View.ld x0 r2_0) (View.ld x1 r2_1) (View.ld x2 r2_1) (View.ld x3 r2_1) (View.ld x4 r2_1)⟩]

/-- The one store into it is of the whole tile, so it covers it. -/
theorem cover2_5 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The kernel body on whole staging buffers, the inputs' reading `x0` to `x4` and the output's anything, runs to the
    continuation holding the inputs' as they were and the output's at the normalised, scaled, shifted tile cut at zero
    from below, `out2_5 x0 x1 x2 x3 x4`. -/
theorem sound_kernel2 (c : Dev nD) (E : Set ℕ) (i : grid2.Coords)
    (arg1 : Memref sig .tc .vmem S2000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region on core `c`: the arrays as the region finds them; after the body at point `t` each
    input's buffer at its block (the row tile; the rows of means, variances, scales, shifts) and the result's at the
    positive part of scale · ((tile − mean) · (variance + ε)^(−1/2)) + shift; the invariant the class's (the scoped rest
    and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves in the matrix's buffer: its row tile. -/
theorem after2_0 (c : Dev nD) (t : Fin cfg2.N) : (dat2 V c).after 0 t = iblk2 V c 0 t := by dsimp only [dat2]
/-- What the body leaves in the mean's buffer: the row of means. -/
theorem after2_1 (c : Dev nD) (t : Fin cfg2.N) : (dat2 V c).after 1 t = iblk2 V c 1 t := by dsimp only [dat2]
/-- What the body leaves in the variance's buffer: the row of variances. -/
theorem after2_2 (c : Dev nD) (t : Fin cfg2.N) : (dat2 V c).after 2 t = iblk2 V c 2 t := by dsimp only [dat2]
/-- What the body leaves in the scale's buffer: the row of scales. -/
theorem after2_3 (c : Dev nD) (t : Fin cfg2.N) : (dat2 V c).after 3 t = iblk2 V c 3 t := by dsimp only [dat2]
/-- What the body leaves in the shift's buffer: the row of shifts. -/
theorem after2_4 (c : Dev nD) (t : Fin cfg2.N) : (dat2 V c).after 4 t = iblk2 V c 4 t := by dsimp only [dat2]
/-- What the body leaves in the result's buffer: the normalised, scaled and shifted tile, cut at zero from below. -/
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- The matrix's staging buffer holds its row tile at every point. -/
theorem before2_0 (c : Dev nD) (t : Fin cfg2.N) (d) : (dat2 V c).before 0 t d = iblk2 V c 0 t :=
  before2_0_of V (dat2 V c) (A_eq2 V c 0) (after2_0 V c) t d
/-- The mean's staging buffer holds the row of means at every point, fetched there or not. -/
theorem before2_1 (c : Dev nD) (t : Fin cfg2.N) (d) : (dat2 V c).before 1 t d = iblk2 V c 1 t :=
  before2_1_of V (dat2 V c) (A_eq2 V c 1) (after2_1 V c) t d
/-- The variance's staging buffer holds the row of variances at every point, fetched there or not. -/
theorem before2_2 (c : Dev nD) (t : Fin cfg2.N) (d) : (dat2 V c).before 2 t d = iblk2 V c 2 t :=
  before2_2_of V (dat2 V c) (A_eq2 V c 2) (after2_2 V c) t d
/-- The scale's staging buffer holds the row of scales at every point, fetched there or not. -/
theorem before2_3 (c : Dev nD) (t : Fin cfg2.N) (d) : (dat2 V c).before 3 t d = iblk2 V c 3 t :=
  before2_3_of V (dat2 V c) (A_eq2 V c 3) (after2_3 V c) t d
/-- The shift's staging buffer holds the row of shifts at every point, fetched there or not. -/
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging
    buffer at what it holds then. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KR3.lean ====
/- Region 3 of the program, class A: a row tile of the product of a [100000,64] matrix with a [64,2] weight matrix, 50 tiles of 2000 rows. -/
import proofs.«122563_j12137577578919_1_alg».proof.Proof.Gen.Kernel.Launch
import proofs.«122563_j12137577578919_1_alg».proof.Proof.Gen.Kernel.Skeleton
import proofs.«122563_j12137577578919_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it: for window 0 the `t`-th tile of
    2000 rows of the left factor, for window 1 the whole weight matrix, for window 2 the `t`-th tile of the result. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of the left factor holds its row tile at every point, for any proof data whose array is the
    entry contents and whose body leaves the tile in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of the weight matrix holds the whole matrix at every point, although it is fetched at the
    first point only: its block index never moves, so what was fetched there is still the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole [2000,64] tile. -/
abbrev r3_0 : Rect S2000x64 := Rect.unit (s := S2000x64) ![0, 0] S2000x64.size inb_S2000x64_S2000x64_0_0
/-- The whole [64,2] weight matrix. -/
abbrev r3_1 : Rect S64x2 := Rect.unit (s := S64x2) ![0, 0] S64x2.size inb_S64x2_S64x2_0_0
/-- The whole [2000,2] tile. -/
abbrev r3_2 : Rect S2000x2 := Rect.unit (s := S2000x2) ![0, 0] S2000x2.size inb_S2000x2_S2000x2_0_0

/-! ## What the body leaves in each output window's buffer -/

/-- The result tile after the body: the product of the left factor's tile `x0` with the weight matrix `x1`, stored
    over the whole tile in one piece. -/
def out3_2 (x0 : Vec F S2000x64 .f32) (x1 : Vec F S64x2 .f32) : Vec F S2000x2 .f32 :=
  View.canon [⟨r3_2, k3_pay1 (View.ld x0 r3_0) (View.ld x1 r3_1)⟩]

/-- The one store into it is of the whole tile, so it covers it. -/
theorem cover3_2 (p0 : Vec F S2000x2 .f32) (y : S2000x2.Idx) :
    ∃ pc ∈ ([⟨r3_2, p0⟩] : List (View.Piece (Elt F) S2000x2 .f32)), y ∈ pc.1.set :=
  View.cover_of_tiled [⟨r3_2, p0⟩] S2000x2.size (by rfl) y

/-! ## The body's triple -/

set_option maxHeartbeats 1000000 in
/-- The kernel body on whole staging buffers, the inputs' reading `x0` and `x1` and the output's anything, runs to
    the continuation holding the inputs' as they were and the output's at the product tile `out3_2 x0 x1`. -/
theorem sound_kernel3 (c : Dev nD) (E : Set ℕ) (i : grid3.Coords)
    (arg1 : Memref sig .tc .vmem S2000x64 .f32) (harg1 : arg1.IsWhole)
    (arg2 : Memref sig .tc .vmem S64x2 .f32) (harg2 : arg2.IsWhole)
    (arg3 : Memref sig .tc .vmem S2000x2 .f32) (harg3 : arg3.IsWhole)
    (x0 : Vec F S2000x64 .f32) (x1 : Vec F S64x2 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core `c`: the arrays as the region finds them; after the body at point `t` the
    left factor's buffer at its row tile, the weight matrix's at the matrix, the result's at the product of the two;
    the invariant the class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves in the left factor's buffer: its row tile. -/
theorem after3_0 (c : Dev nD) (t : Fin cfg3.N) : (dat3 V c).after 0 t = iblk3 V c 0 t := by dsimp only [dat3]
/-- What the body leaves in the weight matrix's buffer: the matrix. -/
theorem after3_1 (c : Dev nD) (t : Fin cfg3.N) : (dat3 V c).after 1 t = iblk3 V c 1 t := by dsimp only [dat3]
/-- What the body leaves in the result's buffer: the product of the row tile with the weight matrix. -/
theorem after3_2 (c : Dev nD) (t : Fin cfg3.N) : (dat3 V c).after 2 t = out3_2 (iblk3 V c 0 t) (iblk3 V c 1 t) := by dsimp only [dat3]

/-- The left factor's staging buffer holds its row tile at every point. -/
theorem before3_0 (c : Dev nD) (t : Fin cfg3.N) (d) : (dat3 V c).before 0 t d = iblk3 V c 0 t :=
  before3_0_of V (dat3 V c) (A_eq3 V c 0) (after3_0 V c) t d
/-- The weight matrix's staging buffer holds the matrix at every point, fetched there or not. -/
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, the core's debts, and each window's current staging
    buffer at what it holds then. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it returns: the same, each buffer at what the body leaves in it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KR5.lean ====
/- Region 5 of the program, class A: a row tile of the column-wise normalisation of a [100000,2] matrix, passed through the logistic function (first result) and through the row-wise softmax (second result), 50 tiles of 2000 rows. -/
import proofs.«122563_j12137577578919_1_alg».proof.Proof.Gen.Kernel.Launch
import proofs.«122563_j12137577578919_1_alg».proof.Proof.Gen.Kernel.Skeleton
import proofs.«122563_j12137577578919_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it: for window 0 the `t`-th tile of
    2000 rows of the matrix, for windows 1 to 4 the [1,2] rows of column means, variances, scales and shifts, for
    windows 5 and 6 the `t`-th tiles of the two results. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The staging buffer of the matrix holds its row tile at every point, for any proof data whose array is the entry
    contents and whose body leaves the tile in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the per-column mean holds the whole [1,2] row at every point, although it is fetched at
    the first point only: its block index never moves, so what was fetched there is still the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the per-column variance holds the whole [1,2] row at every point, fetched at the first
    point only: the block index never moves. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the per-column scale holds the whole [1,2] row at every point, fetched at the first
    point only: the block index never moves. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the per-column shift holds the whole [1,2] row at every point, fetched at the first
    point only: the block index never moves. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [2000,2] tile. -/
abbrev r5_0 : Rect S2000x2 := Rect.unit (s := S2000x2) ![0, 0] S2000x2.size inb_S2000x2_S2000x2_0_0
/-- The whole [1,2] row. -/
abbrev r5_1 : Rect S1x2 := Rect.unit (s := S1x2) ![0, 0] S1x2.size inb_S1x2_S1x2_0_0

/-! ## What the body leaves in each output window's buffer -/

/-- The first result tile after the body: with tile `x0`, means `x1`, variances `x2`, scales `x3`, shifts `x4` and
    z = `x3 · ((x0 − x1) · (x2 + ε)^(−1/2)) + x4`, the logistic function of z entry by entry, stored over the whole
    tile in one piece. -/
def out5_5 (x0 : Vec F S2000x2 .f32) (x1 : Vec F S1x2 .f32) (x2 : Vec F S1x2 .f32) (x3 : Vec F S1x2 .f32) (x4 : Vec F S1x2 .f32) : Vec F S2000x2 .f32 :=
  View.canon [⟨r5_0, k5_pay2 (View.ld x0 r5_0) (View.ld x1 r5_1) (View.ld x2 r5_1) (View.ld x3 r5_1) (View.ld x4 r5_1)⟩]

/-- The one store into it is of the whole tile, so it covers it. -/
theorem cover5_5 (p0 : Vec F S2000x2 .f32) (y : S2000x2.Idx) :
    ∃ pc ∈ ([⟨r5_0, p0⟩] : List (View.Piece (Elt F) S2000x2 .f32)), y ∈ pc.1.set :=
  View.cover_of_tiled [⟨r5_0, p0⟩] S2000x2.size (by rfl) y

/-- The second result tile after the body: with the same z, in each row exp(z − row maximum) divided by its sum
    over the row (the row-wise softmax), stored over the whole tile in one piece. -/
def out5_6 (x0 : Vec F S2000x2 .f32) (x1 : Vec F S1x2 .f32) (x2 : Vec F S1x2 .f32) (x3 : Vec F S1x2 .f32) (x4 : Vec F S1x2 .f32) : Vec F S2000x2 .f32 :=
  View.canon [⟨r5_0, k5_pay3 (View.ld x0 r5_0) (View.ld x1 r5_1) (View.ld x2 r5_1) (View.ld x3 r5_1) (View.ld x4 r5_1)⟩]

/-- The one store into it is of the whole tile, so it covers it. -/
theorem cover5_6 (p0 : Vec F S2000x2 .f32) (y : S2000x2.Idx) :
    ∃ pc ∈ ([⟨r5_0, p0⟩] : List (View.Piece (Elt F) S2000x2 .f32)), y ∈ pc.1.set :=
  View.cover_of_tiled [⟨r5_0, p0⟩] S2000x2.size (by rfl) y

/-! ## The body's triple -/

set_option maxHeartbeats 1000000 in
/-- The kernel body on whole staging buffers, the inputs' reading `x0` to `x4` and the two outputs' anything, runs to
    the continuation holding the inputs' as they were, the first output's at the logistic of the normalised tile
    `out5_5 x0 x1 x2 x3 x4` and the second's at its row-wise softmax `out5_6 x0 x1 x2 x3 x4`. -/
theorem sound_kernel5 (c : Dev nD) (E : Set ℕ) (i : grid5.Coords)
    (arg1 : Memref sig .tc .vmem S2000x2 .f32) (harg1 : arg1.IsWhole)
    (arg2 : Memref sig .tc .vmem S1x2 .f32) (harg2 : arg2.IsWhole)
    (arg3 : Memref sig .tc .vmem S1x2 .f32) (harg3 : arg3.IsWhole)
    (arg4 : Memref sig .tc .vmem S1x2 .f32) (harg4 : arg4.IsWhole)
    (arg5 : Memref sig .tc .vmem S1x2 .f32) (harg5 : arg5.IsWhole)
    (arg6 : Memref sig .tc .vmem S2000x2 .f32) (harg6 : arg6.IsWhole)
    (arg7 : Memref sig .tc .vmem S2000x2 .f32) (harg7 : arg7.IsWhole)
    (x0 : Vec F S2000x2 .f32) (x1 : Vec F S1x2 .f32) (x2 : Vec F S1x2 .f32) (x3 : Vec F S1x2 .f32) (x4 : Vec F S1x2 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out5_5 x0 x1 x2 x3 x4)
            ∗ owns (c : Thread nD τ) arg7 fullShare (out5_6 x0 x1 x2 x3 x4)) -∗ K ⟨⟩))
      ⊢ wp frame (wpE (defs₀ (F := F)) Variants.none c none) E (cc5__bn_heads_kernel i arg1 harg1 arg2 harg2 arg3 harg3 arg4 harg4 arg5 harg5 arg6 harg6 arg7 harg7) K := by
  simp only [cc5__bn_heads_kernel_eq_skeleton]; unfold cc5__bn_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5_5 _)
  iexists _; isplitr
  swap; · iexact H6
  ipureintro
  exact View.read_writes_eq_canon _ _ _ (cover5_6 _)

/-! ## The pipeline's proof data -/

/-- The proof data of the region on core `c`: the arrays as the region finds them; after the body at point `t` each
    input's buffer at its block (the row tile; the rows of means, variances, scales, shifts), the first result's at the
    logistic of z = scale · ((tile − mean) · (variance + ε)^(−1/2)) + shift and the second's at the row-wise softmax of
    z; the invariant the class's (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
    | ⟨6, _⟩ => out5_6 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves in the matrix's buffer: its row tile. -/
theorem after5_0 (c : Dev nD) (t : Fin cfg5.N) : (dat5 V c).after 0 t = iblk5 V c 0 t := by dsimp only [dat5]
/-- What the body leaves in the mean's buffer: the row of means. -/
theorem after5_1 (c : Dev nD) (t : Fin cfg5.N) : (dat5 V c).after 1 t = iblk5 V c 1 t := by dsimp only [dat5]
/-- What the body leaves in the variance's buffer: the row of variances. -/
theorem after5_2 (c : Dev nD) (t : Fin cfg5.N) : (dat5 V c).after 2 t = iblk5 V c 2 t := by dsimp only [dat5]
/-- What the body leaves in the scale's buffer: the row of scales. -/
theorem after5_3 (c : Dev nD) (t : Fin cfg5.N) : (dat5 V c).after 3 t = iblk5 V c 3 t := by dsimp only [dat5]
/-- What the body leaves in the shift's buffer: the row of shifts. -/
theorem after5_4 (c : Dev nD) (t : Fin cfg5.N) : (dat5 V c).after 4 t = iblk5 V c 4 t := by dsimp only [dat5]
/-- What the body leaves in the first result's buffer: the logistic of the normalised, scaled and shifted tile. -/
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]
/-- What the body leaves in the second result's buffer: the row-wise softmax of the normalised, scaled and shifted tile. -/
theorem after5_6 (c : Dev nD) (t : Fin cfg5.N) : (dat5 V c).after 6 t = out5_6 (iblk5 V c 0 t) (iblk5 V c 1 t) (iblk5 V c 2 t) (iblk5 V c 3 t) (iblk5 V c 4 t) := by dsimp only [dat5]

/-- The matrix's staging buffer holds its row tile at every point. -/
theorem before5_0 (c : Dev nD) (t : Fin cfg5.N) (d) : (dat5 V c).before 0 t d = iblk5 V c 0 t :=
  before5_0_of V (dat5 V c) (A_eq5 V c 0) (after5_0 V c) t d
/-- The mean's staging buffer holds the row of means at every point, fetched there or not. -/
theorem before5_1 (c : Dev nD) (t : Fin cfg5.N) (d) : (dat5 V c).before 1 t d = iblk5 V c 1 t :=
  before5_1_of V (dat5 V c) (A_eq5 V c 1) (after5_1 V c) t d
/-- The variance's staging buffer holds the row of variances at every point, fetched there or not. -/
theorem before5_2 (c : Dev nD) (t : Fin cfg5.N) (d) : (dat5 V c).before 2 t d = iblk5 V c 2 t :=
  before5_2_of V (dat5 V c) (A_eq5 V c 2) (after5_2 V c) t d
/-- The scale's staging buffer holds the row of scales at every point, fetched there or not. -/
theorem before5_3 (c : Dev nD) (t : Fin cfg5.N) (d) : (dat5 V c).before 3 t d = iblk5 V c 3 t :=
  before5_3_of V (dat5 V c) (A_eq5 V c 3) (after5_3 V c) t d
/-- The shift's staging buffer holds the row of shifts at every point, fetched there or not. -/
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debts, and each window's current staging
    buffer at what it holds then. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- What it returns: the same, each buffer at what the body leaves in it. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KInv.lean ====
import proofs.«122563_j12137577578919_1_alg».proof.Proof.Gen.Kernel.Launch
import proofs.«122563_j12137577578919_1_alg».proof.Proof.Gen.Kernel.Skeleton
import proofs.«122563_j12137577578919_1_alg».proof.Proof.Gen.Kernel.Points
import proofs.«122563_j12137577578919_1_alg».proof.Proof.KR0
import proofs.«122563_j12137577578919_1_alg».proof.Proof.KR2
import proofs.«122563_j12137577578919_1_alg».proof.Proof.KR3
import proofs.«122563_j12137577578919_1_alg».proof.Proof.KR5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! For the four regions whose kernels touch nothing but their windows' staging buffers, the invariant between grid points
is the plain one: the scoped buffers no window stages and the generator register, both untouched. It is made from those
two on entry and gives them back on exit. -/
section
variable (V : (c : Dev nD) → (b : Ref sig .tc) → Buf (Elt F) ((c : Thread nD τ).loc b))

/-- Region 0's invariant at the first point is made from the generator register and the scoped buffers, -/
theorem hin0 (c : Dev nD) : iprop((∃ r, prngReg c r) ∗ Pipeline.scopedRest (Ix := Unit) (Name := ℕ) (U := UR sig nD τ) (Lvl := ℕ) (Val := Elt F) spec0 c) ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp
/-- and at the last point gives them back. -/
theorem hout0 (c : Dev nD) : ((dat0 V c).Φ (Fin.last cfg0.N) : sProp 𝕄) ⊢ iprop((∃ r, prngReg c r) ∗ Pipeline.scopedRest (Ix := Unit) (Name := ℕ) (U := UR sig nD τ) (Lvl := ℕ) (Val := Elt F) spec0 c) := by
  rw [show (dat0 V c).Φ (Fin.last _) = Pipeline.ΦA spec0 c from rfl]; unfold Pipeline.ΦA
  iintro ⟨Hr, Hp⟩
  isplitl [Hp]; · iexact Hp
  iexact Hr

/-- Region 2's invariant at the first point is made from the generator register and the scoped buffers, -/
theorem hin2 (c : Dev nD) : iprop((∃ r, prngReg c r) ∗ Pipeline.scopedRest (Ix := Unit) (Name := ℕ) (U := UR sig nD τ) (Lvl := ℕ) (Val := Elt F) spec2 c) ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp
/-- and at the last point gives them back. -/
theorem hout2 (c : Dev nD) : ((dat2 V c).Φ (Fin.last cfg2.N) : sProp 𝕄) ⊢ iprop((∃ r, prngReg c r) ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

/-- Region 3's invariant at the first point is made from the generator register and the scoped buffers, -/
theorem hin3 (c : Dev nD) : iprop((∃ r, prngReg c r) ∗ Pipeline.scopedRest (Ix := Unit) (Name := ℕ) (U := UR sig nD τ) (Lvl := ℕ) (Val := Elt F) spec3 c) ⊢ ((dat3 V c).Φ 0 : sProp 𝕄) := by
  rw [show (dat3 V c).Φ 0 = Pipeline.ΦA spec3 c from rfl]; unfold Pipeline.ΦA
  iintro ⟨Hp, Hr⟩
  isplitl [Hr]; · iexact Hr
  iexact Hp
/-- and at the last point gives them back. -/
theorem hout3 (c : Dev nD) : ((dat3 V c).Φ (Fin.last cfg3.N) : sProp 𝕄) ⊢ iprop((∃ r, prngReg c r) ∗ Pipeline.scopedRest (Ix := Unit) (Name := ℕ) (U := UR sig nD τ) (Lvl := ℕ) (Val := Elt F) spec3 c) := by
  rw [show (dat3 V c).Φ (Fin.last _) = Pipeline.ΦA spec3 c from rfl]; unfold Pipeline.ΦA
  iintro ⟨Hr, Hp⟩
  isplitl [Hp]; · iexact Hp
  iexact Hr

/-- Region 5's invariant at the first point is made from the generator register and the scoped buffers, -/
theorem hin5 (c : Dev nD) : iprop((∃ r, prngReg c r) ∗ Pipeline.scopedRest (Ix := Unit) (Name := ℕ) (U := UR sig nD τ) (Lvl := ℕ) (Val := Elt F) spec5 c) ⊢ ((dat5 V c).Φ 0 : sProp 𝕄) := by
  rw [show (dat5 V c).Φ 0 = Pipeline.ΦA spec5 c from rfl]; unfold Pipeline.ΦA
  iintro ⟨Hp, Hr⟩
  isplitl [Hr]; · iexact Hr
  iexact Hp
/-- and at the last point gives them back. -/
theorem hout5 (c : Dev nD) : ((dat5 V c).Φ (Fin.last cfg5.N) : sProp 𝕄) ⊢ iprop((∃ r, prngReg c r) ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end

end Cert.Kernel.Hand

end
-- ==== Proof.KR1.lean ====
/-
  Region 1 of the idealized program: the batch statistics of a [100000, 64] array, computed tile by tile.

  The grid has 50 points; point t sees rows 2000·t … 2000·t + 1999 of the array (one [2000, 64] tile). Two [1, 64]
  accumulators live beside the pipeline's windows and are carried from point to point: after k tiles the first holds,
  per column, the sum of the first k tiles' column sums, and the second the sum of the first k tiles' column sums of
  squares — each built as ((0 + s₀) + s₁) + … in tile order. At the last point the mean block is the first
  accumulator divided by 100000 and the variance block is the second accumulator divided by 100000 less the square of
  the mean. The two output windows are written at that last point only and are idle before it.

  Stated here, generic in the float instance: the accumulators after k tiles (acc1_0, acc1_1), the two result blocks
  (fin1_1, fin1_2), the body's triple in each of its three control cases, the pipeline's proof data (dat1), its body
  obligation, and the two entailments between the invariant and what the region is entered and left with.
-/
import proofs.«122563_j12137577578919_1_alg».proof.Proof.Gen.Kernel.Launch
import proofs.«122563_j12137577578919_1_alg».proof.Proof.Gen.Kernel.Skeleton
import proofs.«122563_j12137577578919_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the column sums and column sums of squares of a [100000, 64] array, accumulated over its 50 row
tiles of 2000 rows, and from them the columns' mean and variance -/

/-- The first conditional of the body holds at the first grid point only. -/
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- The second conditional of the body holds at the last grid point only. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-- The zero offsets of a rank-2 rectangle, as a constant function. -/
theorem hz1 : (![0, 0] : Fin 2 → Nat) = fun _ => 0 := funext fun a => by fin_cases a <;> rfl

/-- A buffer whose last store went through its whole rectangle reads that store's payload, whatever it held and
    whatever was stored before. -/
theorem read_writes_unit1 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-! ## The body's triple, one per control case -/

set_option maxHeartbeats 1000000 in
/-- FIRST POINT. The two accumulators, holding anything, are zeroed; then the tile's column sums are added to the
    first and the column sums of its squares to the second. The tile is left as it was; the output windows are not
    touched. -/
theorem sound_kernel1_Z (c : Dev nD) (E : Set ℕ) (i : grid1.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : cond1_0 i) (hc1 : ¬cond1_1 i)
    (x0 : Vec F S2000x64 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k1_pay4 x0 (k1_pay1 (F := F)))
            ∗ owns (c : Thread nD τ) arg5 fullShare (k1_pay5 x0 (k1_pay2 (F := F)))) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d4, %f4, -, H4⟩, ⟨%d5, %f5, -, H5⟩, Hk⟩
  subst hf0
  sl_exec (disch := first | exact hc0 | exact hc1)
  sl_step
  iapply Hk
  isplitl [H0]
  · iexists f0; isplitr; · ipureintro; rfl
    iexact H0
  isplitl [H4]
  · iexists _; isplitr
    swap; · iexact H4
    ipureintro
    rw [read_writes_unit1 _ _ hz1]
    sl_unfold_words
    rw [View.readCov_unit_zero (S := S1x64) _ hz1]
    simp only [View.readAt_eq_ld, View.ld_unit_zero (S := S2000x64) hz1]
  · iexists _; isplitr
    swap; · iexact H5
    ipureintro
    rw [read_writes_unit1 _ _ hz1]
    sl_unfold_words
    rw [View.readCov_unit_zero (S := S1x64) _ hz1]
    simp only [View.readAt_eq_ld, View.ld_unit_zero (S := S2000x64) hz1]

set_option maxHeartbeats 1000000 in
/-- A MIDDLE POINT. The tile's column sums are added to the first accumulator and the column sums of its squares to
    the second. The tile is left as it was; the output windows are not touched. -/
theorem sound_kernel1_M (c : Dev nD) (E : Set ℕ) (i : grid1.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : ¬cond1_1 i)
    (x0 : Vec F S2000x64 .f32) (xs0 xs1 : Vec F S1x64 .f32) (K : PUnit → sProp 𝕄) :
    iprop(owns (c : Thread nD τ) arg1 fullShare x0 ∗ owns (c : Thread nD τ) arg4 fullShare xs0 ∗ owns (c : Thread nD τ) arg5 fullShare xs1
        ∗ (iprop(owns (c : Thread nD τ) arg1 fullShare x0 ∗ owns (c : Thread nD τ) arg4 fullShare (k1_pay4 x0 xs0)
            ∗ owns (c : Thread nD τ) arg5 fullShare (k1_pay5 x0 xs1)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H4]
  · iexists _; isplitr
    swap; · iexact H4
    ipureintro
    rw [read_writes_unit1 _ _ hz1]
    simp only [View.readAt_eq_ld, View.ld_unit_zero (S := S2000x64) hz1, View.ld_unit_zero (S := S1x64) hz1]
  · iexists _; isplitr
    swap; · iexact H5
    ipureintro
    rw [read_writes_unit1 _ _ hz1]
    simp only [View.readAt_eq_ld, View.ld_unit_zero (S := S2000x64) hz1, View.ld_unit_zero (S := S1x64) hz1]

set_option maxHeartbeats 1000000 in
/-- LAST POINT. The accumulators are advanced as at a middle point; then the mean window receives the first
    accumulator divided by the row count, and the variance window the second accumulator divided by the row count less
    the square of that mean. The output windows may hold anything before. -/
theorem sound_kernel1_L (c : Dev nD) (E : Set ℕ) (i : grid1.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : cond1_1 i)
    (x0 : Vec F S2000x64 .f32) (xs0 xs1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0
            ∗ owns (c : Thread nD τ) arg2 fullShare (k1_pay6 (k1_pay4 x0 xs0))
            ∗ owns (c : Thread nD τ) arg3 fullShare (k1_pay7 (k1_pay4 x0 xs0) (k1_pay5 x0 xs1))
            ∗ owns (c : Thread nD τ) arg4 fullShare (k1_pay4 x0 xs0)
            ∗ owns (c : Thread nD τ) arg5 fullShare (k1_pay5 x0 xs1)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H2]
  · iexists _; isplitr
    swap; · iexact H2
    ipureintro
    rw [read_writes_unit1 _ _ hz1]
    sl_unfold_words
    simp only [View.readCov_unit_zero (S := S1x64) _ hz1, View.readAt_eq_ld, View.ld_unit_zero (S := S2000x64) hz1, View.ld_unit_zero (S := S1x64) hz1]
  isplitl [H3]
  · iexists _; isplitr
    swap; · iexact H3
    ipureintro
    rw [read_writes_unit1 _ _ hz1]
    sl_unfold_words
    simp only [View.readCov_unit_zero (S := S1x64) _ hz1, View.readAt_eq_ld, View.ld_unit_zero (S := S2000x64) hz1, View.ld_unit_zero (S := S1x64) hz1]
  isplitl [H4]
  · iexists _; isplitr
    swap; · iexact H4
    ipureintro
    sl_unfold_words
    rw [read_writes_unit1 _ _ hz1]
    simp only [View.readAt_eq_ld, View.ld_unit_zero (S := S2000x64) hz1, View.ld_unit_zero (S := S1x64) hz1]
  · iexists _; isplitr
    swap; · iexact H5
    ipureintro
    sl_unfold_words
    rw [read_writes_unit1 _ _ hz1]
    simp only [View.readAt_eq_ld, View.ld_unit_zero (S := S2000x64) hz1, View.ld_unit_zero (S := S1x64) hz1]

/-! ## The tiles, the accumulators and the results -/

section Region
-- the buffer contents of the core when the region is entered
variable (V : (c : Dev nD) → (b : Ref sig .tc) → Buf (Elt F) ((c : Thread nD τ).loc b))

/-- Window `w`'s block at point `t`, read off its array as the region finds it: for window 0, rows
    2000·t … 2000·t + 1999 of the input array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its tile at every point, for any proof data whose array is the
    region-entry contents and whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first accumulator after `k` tiles: the zero row, then for each of the first `k` tiles in order its column sums
    added on (the accumulator is the left operand of each addition). After all 50 tiles: the column sums of the array,
    in this order of addition. -/
def acc1_0 (c : Dev nD) : ℕ → Vec F S1x64 .f32
  | 0 => k1_pay1
  | k + 1 => if h : k < cfg1.N then k1_pay4 (iblk1 V c 0 ⟨k, h⟩) (acc1_0 c k) else acc1_0 c k

/-- The second accumulator after `k` tiles: the zero row, then for each of the first `k` tiles in order the column sums
    of its elementwise squares added on. After all 50 tiles: the column sums of squares of the array. -/
def acc1_1 (c : Dev nD) : ℕ → Vec F S1x64 .f32
  | 0 => k1_pay2
  | k + 1 => if h : k < cfg1.N then k1_pay5 (iblk1 V c 0 ⟨k, h⟩) (acc1_1 c k) else acc1_1 c k

theorem acc1_0_zero (c : Dev nD) : acc1_0 V c 0 = k1_pay1 := rfl
theorem acc1_1_zero (c : Dev nD) : acc1_1 V c 0 = k1_pay2 := rfl

/-- One more tile: its column sums are added to the first accumulator. -/
theorem acc1_0_succ (c : Dev nD) (k : ℕ) (h : k < cfg1.N) :
    acc1_0 V c (k + 1) = k1_pay4 (iblk1 V c 0 ⟨k, h⟩) (acc1_0 V c k) := by
  rw [acc1_0]; exact dif_pos h

/-- One more tile: the column sums of its squares are added to the second accumulator. -/
theorem acc1_1_succ (c : Dev nD) (k : ℕ) (h : k < cfg1.N) :
    acc1_1 V c (k + 1) = k1_pay5 (iblk1 V c 0 ⟨k, h⟩) (acc1_1 V c k) := by
  rw [acc1_1]; exact dif_pos h

/-- The accumulators after the body at point `t`. -/
theorem acc1_0_at (c : Dev nD) (t : Fin cfg1.N) : acc1_0 V c (t.val + 1) = k1_pay4 (iblk1 V c 0 t) (acc1_0 V c t.val) :=
  acc1_0_succ V c t.val t.isLt
theorem acc1_1_at (c : Dev nD) (t : Fin cfg1.N) : acc1_1 V c (t.val + 1) = k1_pay5 (iblk1 V c 0 t) (acc1_1 V c t.val) :=
  acc1_1_succ V c t.val t.isLt

/-- At the first point the accumulators start from the zero row. -/
theorem acc1_0_first (c : Dev nD) (t : Fin cfg1.N) (hz : t.val = 0) : acc1_0 V c (t.val + 1) = k1_pay4 (iblk1 V c 0 t) (k1_pay1 (F := F)) := by
  rw [acc1_0_at V c t]; refine congrArg _ ?_; rw [hz]; rfl
theorem acc1_1_first (c : Dev nD) (t : Fin cfg1.N) (hz : t.val = 0) : acc1_1 V c (t.val + 1) = k1_pay5 (iblk1 V c 0 t) (k1_pay2 (F := F)) := by
  rw [acc1_1_at V c t]; refine congrArg _ ?_; rw [hz]; rfl

/-- The mean block: the column sums after all 50 tiles, each divided by the row count 100000. -/
def fin1_1 (c : Dev nD) : Vec F S1x64 .f32 := k1_pay6 (acc1_0 V c 50)

/-- The variance block: the column sums of squares after all 50 tiles, each divided by the row count 100000, less the
    square of the mean. -/
def fin1_2 (c : Dev nD) : Vec F S1x64 .f32 := k1_pay7 (acc1_0 V c 50) (acc1_1 V c 50)

/-! ## The region invariant and the proof data -/

/-- The two accumulators, as whole buffers of the core. -/
abbrev sc1_0 : Memref sig .tc .vmem S1x64 .f32 := Memref.whole cc1_scratch0
abbrev sc1_1 : Memref sig .tc .vmem S1x64 .f32 := Memref.whole cc1_scratch1

/-- The invariant before the body's `n`-th run: before the first, both accumulators hold anything; afterwards the first
    holds the column sums of the first `n` tiles and the second the column sums of their squares. Beside them, untouched:
    every other scoped buffer of the core that is no staging buffer of this call, and the generator register. -/
def PhiS1 (c : Dev nD) : ℕ → sProp 𝕄
  | 0 => iprop((∃ d, owns (c : Thread nD τ) sc1_0 fullShare d) ∗ (∃ d, owns (c : Thread nD τ) sc1_1 fullShare d)
      ∗ Pipeline.scopedRestBut (Ix := Unit) (Name := ℕ) (U := UR sig nD τ) (Lvl := ℕ) (Val := Elt F) spec1 c [cc1_scratch0, cc1_scratch1]
      ∗ ∃ r, prngReg c r)
  | n + 1 => iprop(owns (c : Thread nD τ) sc1_0 fullShare (acc1_0 V c (n + 1)) ∗ owns (c : Thread nD τ) sc1_1 fullShare (acc1_1 V c (n + 1))
      ∗ Pipeline.scopedRestBut (Ix := Unit) (Name := ℕ) (U := UR sig nD τ) (Lvl := ℕ) (Val := Elt F) spec1 c [cc1_scratch0, cc1_scratch1]
      ∗ ∃ r, prngReg c r)

theorem PhiS1_zero (c : Dev nD) (n : ℕ) (hz : n = 0) :
    PhiS1 V c n = iprop((∃ d, owns (c : Thread nD τ) sc1_0 fullShare d) ∗ (∃ d, owns (c : Thread nD τ) sc1_1 fullShare d)
      ∗ Pipeline.scopedRestBut (Ix := Unit) (Name := ℕ) (U := UR sig nD τ) (Lvl := ℕ) (Val := Elt F) spec1 c [cc1_scratch0, cc1_scratch1]
      ∗ ∃ r, prngReg c r) := by
  subst hz; rfl

theorem PhiS1_pos (c : Dev nD) (n : ℕ) (hz : n ≠ 0) :
    PhiS1 V c n = iprop(owns (c : Thread nD τ) sc1_0 fullShare (acc1_0 V c n) ∗ owns (c : Thread nD τ) sc1_1 fullShare (acc1_1 V c n)
      ∗ Pipeline.scopedRestBut (Ix := Unit) (Name := ℕ) (U := UR sig nD τ) (Lvl := ℕ) (Val := Elt F) spec1 c [cc1_scratch0, cc1_scratch1]
      ∗ ∃ r, prngReg c r) := by
  cases n with
  | zero => exact absurd rfl hz
  | succ n => rfl

/-- The proof data of the pipeline on core `c`: the arrays as the region finds them; after the body at point `t` the
    input window at its tile, the mean window at the mean block and the variance window at the variance block (both
    are stored at the last point only; before it the two windows are idle and handed back as found, so what is named for
    them there is read by nothing); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => fin1_1 V c
    | ⟨2, _⟩ => fin1_2 V c
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = fin1_1 V c := by dsimp only [dat1]
theorem after1_2 (c : Dev nD) (t : Fin cfg1.N) : (dat1 V c).after 2 t = fin1_2 V c := by dsimp only [dat1]

theorem Phi1_castSucc (c : Dev nD) (t : Fin cfg1.N) : (dat1 V c).Φ t.castSucc = PhiS1 V c t.val := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d

/-! ## Where the windows are idle -/

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input window holds its tile. At the first point the accumulators are taken at anything
    and handed back holding the first tile's sums; at a later point they are taken holding the sums of the tiles before
    and handed back with this tile's added. Before the last point the two output windows are idle and pass through as
    found; at the last point they are taken at anything and handed back at the mean and the variance block. The rest
    of the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) from rfl, PhiS1_pos V c (t.val + 1) (Nat.succ_ne_zero _), Phi1_castSucc]
  have hN : t.val < 50 := lt_of_lt_of_eq t.isLt (show cfg1.N = 50 from N_1)
  rw [show (dat1 V c).leavesExact 0 t = owns (c : Thread nD τ) (st1_0 t) fullShare ((dat1 V c).after 0 t) from by
    unfold Dat.leavesExact; rw [liveAt1_0 t], after1_0]
  by_cases h1 : t.val % 50 = 49
  · -- the last point
    have h0 : ¬t.val % 50 = 0 := by omega
    have hz : t.val ≠ 0 := by omega
    have hc0 : ¬cond1_0 (grid1.coords t) := fun h => h0 ((hcond1_0 t).mp h)
    have hc1 : cond1_1 (grid1.coords t) := (hcond1_1 t).mpr h1
    rw [show (dat1 V c).leavesExact 1 t = owns (c : Thread nD τ) (st1_1 t) fullShare ((dat1 V c).after 1 t) from by
      unfold Dat.leavesExact; rw [liveAt1_1 t hc1], after1_1]
    rw [show (dat1 V c).leavesExact 2 t = owns (c : Thread nD τ) (st1_2 t) fullShare ((dat1 V c).after 2 t) from by
      unfold Dat.leavesExact; rw [liveAt1_2 t hc1], after1_2]
    have e0 : acc1_0 V c 50 = acc1_0 V c (t.val + 1) := by rw [show t.val = 49 from by omega]
    have e1 : acc1_1 V c 50 = acc1_1 V c (t.val + 1) := by rw [show t.val = 49 from by omega]
    unfold fin1_1 fin1_2
    rw [e0, e1, acc1_0_at V c t, acc1_1_at V c t, PhiS1_pos V c _ hz]
    iintro ⟨⟨HS0, HS1, HR, Hg⟩, Ho, ⟨%d0, H0⟩, ⟨%d1, H1⟩, ⟨%d2, H2⟩⟩
    iapply (sound_kernel1_L c Set.univ (grid1.coords t) _ _ _ _ _ _ _ _ _ _ hc0 hc1 (iblk1 V c 0 t) (acc1_0 V c t.val) (acc1_1 V c t.val) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 1 t (idleAt1_1 t hc1) (noFlush1_1 t hc1)]
    rw [Dat.leavesExact_idle (dat1 V c) 2 t (idleAt1_2 t hc1) (noFlush1_2 t hc1)]
    by_cases h0 : t.val % 50 = 0
    · -- the first point
      have hz : t.val = 0 := by omega
      have hc0 : cond1_0 (grid1.coords t) := (hcond1_0 t).mpr h0
      rw [acc1_0_first V c t hz, acc1_1_first V c t hz, PhiS1_zero V c _ hz]
      iintro ⟨⟨HS0, HS1, HR, Hg⟩, Ho, ⟨%d0, H0⟩, H1, H2⟩
      iapply (sound_kernel1_Z c Set.univ (grid1.coords t) _ _ _ _ _ _ _ _ _ _ hc0 hc1 (iblk1 V c 0 t) _)
      isplitl [H0]; · iexact H0
      isplitl [HS0]; · iexact HS0
      isplitl [HS1]; · iexact HS1
      iintro ⟨H0, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2
    · -- a middle point
      have hz : t.val ≠ 0 := by omega
      have hc0 : ¬cond1_0 (grid1.coords t) := fun h => h0 ((hcond1_0 t).mp h)
      rw [acc1_0_at V c t, acc1_1_at V c t, PhiS1_pos V c _ hz]
      iintro ⟨⟨HS0, HS1, HR, Hg⟩, Ho, ⟨%d0, H0⟩, H1, H2⟩
      iapply (sound_kernel1_M c Set.univ (grid1.coords t) _ _ _ _ _ _ _ _ _ _ hc0 hc1 (iblk1 V c 0 t) (acc1_0 V c t.val) (acc1_1 V c t.val) _)
      isplitl [H0]; · iexact H0
      isplitl [HS0]; · iexact HS0
      isplitl [HS1]; · iexact HS1
      iintro ⟨H0, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the region is entered with — the generator register and every scoped buffer that is no staging buffer of
    this call, each at anything — is the invariant before the first point: the two accumulators are among those
    buffers. -/
theorem hin1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = PhiS1 V c 0 from rfl, PhiS1_zero V c 0 rfl, scopedRest1_split]
  simp only [sc1_0, sc1_1, owns_whole]
  iintro ⟨Hg, ⟨⟨%f0, H0⟩, ⟨%f1, H1⟩⟩, HR⟩
  isplitl [H0]; · iexists f0; iexact H0
  isplitl [H1]; · iexists f1; iexact H1
  isplitl [HR]; · iexact HR
  iexact Hg

/-- After the last point the invariant gives the same back: what the accumulators hold is forgotten. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val from rfl,
    PhiS1_pos V c _ (by rw [Fin.val_last]; have : cfg1.N = 50 := N_1; omega), scopedRest1_split]
  simp only [sc1_0, sc1_1, owns_whole]
  iintro ⟨H0, H1, HR, Hg⟩
  isplitl [Hg]; · iexact Hg
  isplitl [H0 H1]
  · isplitl [H0]; · iexists _; iexact H0
    iexists _; iexact H1
  iexact HR

end Region

end Cert.Kernel.Hand

end
-- ==== Proof.KR4.lean ====
/-
  Region 4 of the idealized program: the batch statistics of a [100000, 2] array, computed tile by tile.

  The grid has 50 points; point t sees rows 2000·t … 2000·t + 1999 of the array (one [2000, 2] tile). Two [1, 2]
  accumulators live beside the pipeline's windows and are carried from point to point: after k tiles the first holds,
  per column, the sum of the first k tiles' column sums, and the second the sum of the first k tiles' column sums of
  squares — each built as ((0 + s₀) + s₁) + … in tile order. At the last point the mean block is the first
  accumulator divided by 100000 and the variance block is the second accumulator divided by 100000 less the square of
  the mean. The two output windows are written at that last point only and are idle before it.

  Stated here, generic in the float instance: the accumulators after k tiles (acc4_0, acc4_1), the two result blocks
  (fin4_1, fin4_2), the body's triple in each of its three control cases, the pipeline's proof data (dat4), its body
  obligation, and the two entailments between the invariant and what the region is entered and left with.
-/
import proofs.«122563_j12137577578919_1_alg».proof.Proof.Gen.Kernel.Launch
import proofs.«122563_j12137577578919_1_alg».proof.Proof.Gen.Kernel.Skeleton
import proofs.«122563_j12137577578919_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the column sums and column sums of squares of a [100000, 2] array, accumulated over its 50 row
tiles of 2000 rows, and from them the columns' mean and variance -/

/-- The first conditional of the body holds at the first grid point only. -/
abbrev cond4_0 (i : grid4.Coords) : Prop :=
  (Scalar.cmpi .ne (Scalar.extui (Scalar.cmpi .eq (BitVec.ofNat 32 (i 0).val) 0#32)) 0#32) = 1#1
theorem hcond4_0 : ∀ t : Fin cfg4.N, cond4_0 (grid4.coords t) ↔ t.val % 50 = 0 :=
  (by decide +kernel : ∀ t : Fin grid4.N, cond4_0 (grid4.coords t) ↔ t.val % 50 = 0)

/-- The second conditional of the body holds at the last grid point only. -/
abbrev cond4_1 (i : grid4.Coords) : Prop := k4_cond2 i = 1#1
theorem hcond4_1 : ∀ t : Fin cfg4.N, cond4_1 (grid4.coords t) ↔ t.val % 50 = 49 :=
  (by decide +kernel : ∀ t : Fin grid4.N, cond4_1 (grid4.coords t) ↔ t.val % 50 = 49)

/-- The zero offsets of a rank-2 rectangle, as a constant function. -/
theorem hz4 : (![0, 0] : Fin 2 → Nat) = fun _ => 0 := funext fun a => by fin_cases a <;> rfl

/-- A buffer whose last store went through its whole rectangle reads that store's payload, whatever it held and
    whatever was stored before. -/
theorem read_writes_unit4 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-! ## The body's triple, one per control case -/

set_option maxHeartbeats 1000000 in
/-- FIRST POINT. The two accumulators, holding anything, are zeroed; then the tile's column sums are added to the
    first and the column sums of its squares to the second. The tile is left as it was; the output windows are not
    touched. -/
theorem sound_kernel4_Z (c : Dev nD) (E : Set ℕ) (i : grid4.Coords)
    (arg1 : Memref sig .tc .vmem S2000x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S1x2 .f32) (harg4 : arg4.IsWhole)
    (arg5 : Memref sig .tc .vmem S1x2 .f32) (harg5 : arg5.IsWhole) (hc0 : cond4_0 i) (hc1 : ¬cond4_1 i)
    (x0 : Vec F S2000x2 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k4_pay4 x0 (k4_pay1 (F := F)))
            ∗ owns (c : Thread nD τ) arg5 fullShare (k4_pay5 x0 (k4_pay2 (F := F)))) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d4, %f4, -, H4⟩, ⟨%d5, %f5, -, H5⟩, Hk⟩
  subst hf0
  sl_exec (disch := first | exact hc0 | exact hc1)
  sl_step
  iapply Hk
  isplitl [H0]
  · iexists f0; isplitr; · ipureintro; rfl
    iexact H0
  isplitl [H4]
  · iexists _; isplitr
    swap; · iexact H4
    ipureintro
    rw [read_writes_unit4 _ _ hz4]
    sl_unfold_words
    rw [View.readCov_unit_zero (S := S1x2) _ hz4]
    simp only [View.readAt_eq_ld, View.ld_unit_zero (S := S2000x2) hz4]
  · iexists _; isplitr
    swap; · iexact H5
    ipureintro
    rw [read_writes_unit4 _ _ hz4]
    sl_unfold_words
    rw [View.readCov_unit_zero (S := S1x2) _ hz4]
    simp only [View.readAt_eq_ld, View.ld_unit_zero (S := S2000x2) hz4]

set_option maxHeartbeats 1000000 in
/-- A MIDDLE POINT. The tile's column sums are added to the first accumulator and the column sums of its squares to
    the second. The tile is left as it was; the output windows are not touched. -/
theorem sound_kernel4_M (c : Dev nD) (E : Set ℕ) (i : grid4.Coords)
    (arg1 : Memref sig .tc .vmem S2000x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S1x2 .f32) (harg4 : arg4.IsWhole)
    (arg5 : Memref sig .tc .vmem S1x2 .f32) (harg5 : arg5.IsWhole) (hc0 : ¬cond4_0 i) (hc1 : ¬cond4_1 i)
    (x0 : Vec F S2000x2 .f32) (xs0 xs1 : Vec F S1x2 .f32) (K : PUnit → sProp 𝕄) :
    iprop(owns (c : Thread nD τ) arg1 fullShare x0 ∗ owns (c : Thread nD τ) arg4 fullShare xs0 ∗ owns (c : Thread nD τ) arg5 fullShare xs1
        ∗ (iprop(owns (c : Thread nD τ) arg1 fullShare x0 ∗ owns (c : Thread nD τ) arg4 fullShare (k4_pay4 x0 xs0)
            ∗ owns (c : Thread nD τ) arg5 fullShare (k4_pay5 x0 xs1)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H4]
  · iexists _; isplitr
    swap; · iexact H4
    ipureintro
    rw [read_writes_unit4 _ _ hz4]
    simp only [View.readAt_eq_ld, View.ld_unit_zero (S := S2000x2) hz4, View.ld_unit_zero (S := S1x2) hz4]
  · iexists _; isplitr
    swap; · iexact H5
    ipureintro
    rw [read_writes_unit4 _ _ hz4]
    simp only [View.readAt_eq_ld, View.ld_unit_zero (S := S2000x2) hz4, View.ld_unit_zero (S := S1x2) hz4]

set_option maxHeartbeats 1000000 in
/-- LAST POINT. The accumulators are advanced as at a middle point; then the mean window receives the first
    accumulator divided by the row count, and the variance window the second accumulator divided by the row count less
    the square of that mean. The output windows may hold anything before. -/
theorem sound_kernel4_L (c : Dev nD) (E : Set ℕ) (i : grid4.Coords)
    (arg1 : Memref sig .tc .vmem S2000x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S1x2 .f32) (harg4 : arg4.IsWhole)
    (arg5 : Memref sig .tc .vmem S1x2 .f32) (harg5 : arg5.IsWhole) (hc0 : ¬cond4_0 i) (hc1 : cond4_1 i)
    (x0 : Vec F S2000x2 .f32) (xs0 xs1 : Vec F S1x2 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0
            ∗ owns (c : Thread nD τ) arg2 fullShare (k4_pay6 (k4_pay4 x0 xs0))
            ∗ owns (c : Thread nD τ) arg3 fullShare (k4_pay7 (k4_pay4 x0 xs0) (k4_pay5 x0 xs1))
            ∗ owns (c : Thread nD τ) arg4 fullShare (k4_pay4 x0 xs0)
            ∗ owns (c : Thread nD τ) arg5 fullShare (k4_pay5 x0 xs1)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H2]
  · iexists _; isplitr
    swap; · iexact H2
    ipureintro
    rw [read_writes_unit4 _ _ hz4]
    sl_unfold_words
    simp only [View.readCov_unit_zero (S := S1x2) _ hz4, View.readAt_eq_ld, View.ld_unit_zero (S := S2000x2) hz4, View.ld_unit_zero (S := S1x2) hz4]
  isplitl [H3]
  · iexists _; isplitr
    swap; · iexact H3
    ipureintro
    rw [read_writes_unit4 _ _ hz4]
    sl_unfold_words
    simp only [View.readCov_unit_zero (S := S1x2) _ hz4, View.readAt_eq_ld, View.ld_unit_zero (S := S2000x2) hz4, View.ld_unit_zero (S := S1x2) hz4]
  isplitl [H4]
  · iexists _; isplitr
    swap; · iexact H4
    ipureintro
    sl_unfold_words
    rw [read_writes_unit4 _ _ hz4]
    simp only [View.readAt_eq_ld, View.ld_unit_zero (S := S2000x2) hz4, View.ld_unit_zero (S := S1x2) hz4]
  · iexists _; isplitr
    swap; · iexact H5
    ipureintro
    sl_unfold_words
    rw [read_writes_unit4 _ _ hz4]
    simp only [View.readAt_eq_ld, View.ld_unit_zero (S := S2000x2) hz4, View.ld_unit_zero (S := S1x2) hz4]

/-! ## The tiles, the accumulators and the results -/

section Region
-- the buffer contents of the core when the region is entered
variable (V : (c : Dev nD) → (b : Ref sig .tc) → Buf (Elt F) ((c : Thread nD τ).loc b))

/-- Window `w`'s block at point `t`, read off its array as the region finds it: for window 0, rows
    2000·t … 2000·t + 1999 of the input array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its tile at every point, for any proof data whose array is the
    region-entry contents and whose body leaves the tile in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The first accumulator after `k` tiles: the zero row, then for each of the first `k` tiles in order its column sums
    added on (the accumulator is the left operand of each addition). After all 50 tiles: the column sums of the array,
    in this order of addition. -/
def acc4_0 (c : Dev nD) : ℕ → Vec F S1x2 .f32
  | 0 => k4_pay1
  | k + 1 => if h : k < cfg4.N then k4_pay4 (iblk4 V c 0 ⟨k, h⟩) (acc4_0 c k) else acc4_0 c k

/-- The second accumulator after `k` tiles: the zero row, then for each of the first `k` tiles in order the column sums
    of its elementwise squares added on. After all 50 tiles: the column sums of squares of the array. -/
def acc4_1 (c : Dev nD) : ℕ → Vec F S1x2 .f32
  | 0 => k4_pay2
  | k + 1 => if h : k < cfg4.N then k4_pay5 (iblk4 V c 0 ⟨k, h⟩) (acc4_1 c k) else acc4_1 c k

theorem acc4_0_zero (c : Dev nD) : acc4_0 V c 0 = k4_pay1 := rfl
theorem acc4_1_zero (c : Dev nD) : acc4_1 V c 0 = k4_pay2 := rfl

/-- One more tile: its column sums are added to the first accumulator. -/
theorem acc4_0_succ (c : Dev nD) (k : ℕ) (h : k < cfg4.N) :
    acc4_0 V c (k + 1) = k4_pay4 (iblk4 V c 0 ⟨k, h⟩) (acc4_0 V c k) := by
  rw [acc4_0]; exact dif_pos h

/-- One more tile: the column sums of its squares are added to the second accumulator. -/
theorem acc4_1_succ (c : Dev nD) (k : ℕ) (h : k < cfg4.N) :
    acc4_1 V c (k + 1) = k4_pay5 (iblk4 V c 0 ⟨k, h⟩) (acc4_1 V c k) := by
  rw [acc4_1]; exact dif_pos h

/-- The accumulators after the body at point `t`. -/
theorem acc4_0_at (c : Dev nD) (t : Fin cfg4.N) : acc4_0 V c (t.val + 1) = k4_pay4 (iblk4 V c 0 t) (acc4_0 V c t.val) :=
  acc4_0_succ V c t.val t.isLt
theorem acc4_1_at (c : Dev nD) (t : Fin cfg4.N) : acc4_1 V c (t.val + 1) = k4_pay5 (iblk4 V c 0 t) (acc4_1 V c t.val) :=
  acc4_1_succ V c t.val t.isLt

/-- At the first point the accumulators start from the zero row. -/
theorem acc4_0_first (c : Dev nD) (t : Fin cfg4.N) (hz : t.val = 0) : acc4_0 V c (t.val + 1) = k4_pay4 (iblk4 V c 0 t) (k4_pay1 (F := F)) := by
  rw [acc4_0_at V c t]; refine congrArg _ ?_; rw [hz]; rfl
theorem acc4_1_first (c : Dev nD) (t : Fin cfg4.N) (hz : t.val = 0) : acc4_1 V c (t.val + 1) = k4_pay5 (iblk4 V c 0 t) (k4_pay2 (F := F)) := by
  rw [acc4_1_at V c t]; refine congrArg _ ?_; rw [hz]; rfl

/-- The mean block: the column sums after all 50 tiles, each divided by the row count 100000. -/
def fin4_1 (c : Dev nD) : Vec F S1x2 .f32 := k4_pay6 (acc4_0 V c 50)

/-- The variance block: the column sums of squares after all 50 tiles, each divided by the row count 100000, less the
    square of the mean. -/
def fin4_2 (c : Dev nD) : Vec F S1x2 .f32 := k4_pay7 (acc4_0 V c 50) (acc4_1 V c 50)

/-! ## The region invariant and the proof data -/

/-- The two accumulators, as whole buffers of the core. -/
abbrev sc4_0 : Memref sig .tc .vmem S1x2 .f32 := Memref.whole cc4_scratch0
abbrev sc4_1 : Memref sig .tc .vmem S1x2 .f32 := Memref.whole cc4_scratch1

/-- The invariant before the body's `n`-th run: before the first, both accumulators hold anything; afterwards the first
    holds the column sums of the first `n` tiles and the second the column sums of their squares. Beside them, untouched:
    every other scoped buffer of the core that is no staging buffer of this call, and the generator register. -/
def PhiS4 (c : Dev nD) : ℕ → sProp 𝕄
  | 0 => iprop((∃ d, owns (c : Thread nD τ) sc4_0 fullShare d) ∗ (∃ d, owns (c : Thread nD τ) sc4_1 fullShare d)
      ∗ Pipeline.scopedRestBut (Ix := Unit) (Name := ℕ) (U := UR sig nD τ) (Lvl := ℕ) (Val := Elt F) spec4 c [cc4_scratch0, cc4_scratch1]
      ∗ ∃ r, prngReg c r)
  | n + 1 => iprop(owns (c : Thread nD τ) sc4_0 fullShare (acc4_0 V c (n + 1)) ∗ owns (c : Thread nD τ) sc4_1 fullShare (acc4_1 V c (n + 1))
      ∗ Pipeline.scopedRestBut (Ix := Unit) (Name := ℕ) (U := UR sig nD τ) (Lvl := ℕ) (Val := Elt F) spec4 c [cc4_scratch0, cc4_scratch1]
      ∗ ∃ r, prngReg c r)

theorem PhiS4_zero (c : Dev nD) (n : ℕ) (hz : n = 0) :
    PhiS4 V c n = iprop((∃ d, owns (c : Thread nD τ) sc4_0 fullShare d) ∗ (∃ d, owns (c : Thread nD τ) sc4_1 fullShare d)
      ∗ Pipeline.scopedRestBut (Ix := Unit) (Name := ℕ) (U := UR sig nD τ) (Lvl := ℕ) (Val := Elt F) spec4 c [cc4_scratch0, cc4_scratch1]
      ∗ ∃ r, prngReg c r) := by
  subst hz; rfl

theorem PhiS4_pos (c : Dev nD) (n : ℕ) (hz : n ≠ 0) :
    PhiS4 V c n = iprop(owns (c : Thread nD τ) sc4_0 fullShare (acc4_0 V c n) ∗ owns (c : Thread nD τ) sc4_1 fullShare (acc4_1 V c n)
      ∗ Pipeline.scopedRestBut (Ix := Unit) (Name := ℕ) (U := UR sig nD τ) (Lvl := ℕ) (Val := Elt F) spec4 c [cc4_scratch0, cc4_scratch1]
      ∗ ∃ r, prngReg c r) := by
  cases n with
  | zero => exact absurd rfl hz
  | succ n => rfl

/-- The proof data of the pipeline on core `c`: the arrays as the region finds them; after the body at point `t` the
    input window at its tile, the mean window at the mean block and the variance window at the variance block (both
    are stored at the last point only; before it the two windows are idle and handed back as found, so what is named for
    them there is read by nothing); the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => fin4_1 V c
    | ⟨2, _⟩ => fin4_2 V c
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = fin4_1 V c := by dsimp only [dat4]
theorem after4_2 (c : Dev nD) (t : Fin cfg4.N) : (dat4 V c).after 2 t = fin4_2 V c := by dsimp only [dat4]

theorem Phi4_castSucc (c : Dev nD) (t : Fin cfg4.N) : (dat4 V c).Φ t.castSucc = PhiS4 V c t.val := by
  dsimp only [dat4]; simp only [Fin.coe_castSucc]

theorem before4_0 (c : Dev nD) (t : Fin cfg4.N) (d) : (dat4 V c).before 0 t d = iblk4 V c 0 t :=
  before4_0_of V (dat4 V c) (A_eq4 V c 0) (after4_0 V c) t d

/-! ## Where the windows are idle -/

theorem liveAt4_0 : ∀ t : Fin cfg4.N, cfg4.idle 0 (grid4.coords t) = false := by decide +kernel
theorem idleAt4_1 : ∀ t : Fin cfg4.N, ¬cond4_1 (grid4.coords t) → cfg4.idle 1 (grid4.coords t) = true := by decide +kernel
theorem noFlush4_1 : ∀ t : Fin cfg4.N, ¬cond4_1 (grid4.coords t) → (cfg4.win 1).flush t = false := by decide +kernel
theorem liveAt4_1 : ∀ t : Fin cfg4.N, cond4_1 (grid4.coords t) → cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The input window holds its tile. At the first point the accumulators are taken at anything
    and handed back holding the first tile's sums; at a later point they are taken holding the sums of the tiles before
    and handed back with this tile's added. Before the last point the two output windows are idle and pass through as
    found; at the last point they are taken at anything and handed back at the mean and the variance block. The rest
    of the invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) from rfl, PhiS4_pos V c (t.val + 1) (Nat.succ_ne_zero _), Phi4_castSucc]
  have hN : t.val < 50 := lt_of_lt_of_eq t.isLt (show cfg4.N = 50 from N_4)
  rw [show (dat4 V c).leavesExact 0 t = owns (c : Thread nD τ) (st4_0 t) fullShare ((dat4 V c).after 0 t) from by
    unfold Dat.leavesExact; rw [liveAt4_0 t], after4_0]
  by_cases h1 : t.val % 50 = 49
  · -- the last point
    have h0 : ¬t.val % 50 = 0 := by omega
    have hz : t.val ≠ 0 := by omega
    have hc0 : ¬cond4_0 (grid4.coords t) := fun h => h0 ((hcond4_0 t).mp h)
    have hc1 : cond4_1 (grid4.coords t) := (hcond4_1 t).mpr h1
    rw [show (dat4 V c).leavesExact 1 t = owns (c : Thread nD τ) (st4_1 t) fullShare ((dat4 V c).after 1 t) from by
      unfold Dat.leavesExact; rw [liveAt4_1 t hc1], after4_1]
    rw [show (dat4 V c).leavesExact 2 t = owns (c : Thread nD τ) (st4_2 t) fullShare ((dat4 V c).after 2 t) from by
      unfold Dat.leavesExact; rw [liveAt4_2 t hc1], after4_2]
    have e0 : acc4_0 V c 50 = acc4_0 V c (t.val + 1) := by rw [show t.val = 49 from by omega]
    have e1 : acc4_1 V c 50 = acc4_1 V c (t.val + 1) := by rw [show t.val = 49 from by omega]
    unfold fin4_1 fin4_2
    rw [e0, e1, acc4_0_at V c t, acc4_1_at V c t, PhiS4_pos V c _ hz]
    iintro ⟨⟨HS0, HS1, HR, Hg⟩, Ho, ⟨%d0, H0⟩, ⟨%d1, H1⟩, ⟨%d2, H2⟩⟩
    iapply (sound_kernel4_L c Set.univ (grid4.coords t) _ _ _ _ _ _ _ _ _ _ hc0 hc1 (iblk4 V c 0 t) (acc4_0 V c t.val) (acc4_1 V c t.val) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    iexact H2
  · have hc1 : ¬cond4_1 (grid4.coords t) := fun h => h1 ((hcond4_1 t).mp h)
    rw [Dat.leavesExact_idle (dat4 V c) 1 t (idleAt4_1 t hc1) (noFlush4_1 t hc1)]
    rw [Dat.leavesExact_idle (dat4 V c) 2 t (idleAt4_2 t hc1) (noFlush4_2 t hc1)]
    by_cases h0 : t.val % 50 = 0
    · -- the first point
      have hz : t.val = 0 := by omega
      have hc0 : cond4_0 (grid4.coords t) := (hcond4_0 t).mpr h0
      rw [acc4_0_first V c t hz, acc4_1_first V c t hz, PhiS4_zero V c _ hz]
      iintro ⟨⟨HS0, HS1, HR, Hg⟩, Ho, ⟨%d0, H0⟩, H1, H2⟩
      iapply (sound_kernel4_Z c Set.univ (grid4.coords t) _ _ _ _ _ _ _ _ _ _ hc0 hc1 (iblk4 V c 0 t) _)
      isplitl [H0]; · iexact H0
      isplitl [HS0]; · iexact HS0
      isplitl [HS1]; · iexact HS1
      iintro ⟨H0, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2
    · -- a middle point
      have hz : t.val ≠ 0 := by omega
      have hc0 : ¬cond4_0 (grid4.coords t) := fun h => h0 ((hcond4_0 t).mp h)
      rw [acc4_0_at V c t, acc4_1_at V c t, PhiS4_pos V c _ hz]
      iintro ⟨⟨HS0, HS1, HR, Hg⟩, Ho, ⟨%d0, H0⟩, H1, H2⟩
      iapply (sound_kernel4_M c Set.univ (grid4.coords t) _ _ _ _ _ _ _ _ _ _ hc0 hc1 (iblk4 V c 0 t) (acc4_0 V c t.val) (acc4_1 V c t.val) _)
      isplitl [H0]; · iexact H0
      isplitl [HS0]; · iexact HS0
      isplitl [HS1]; · iexact HS1
      iintro ⟨H0, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the region is entered with — the generator register and every scoped buffer that is no staging buffer of
    this call, each at anything — is the invariant before the first point: the two accumulators are among those
    buffers. -/
theorem hin4 (c : Dev nD) :
    iprop((∃ r, prngReg c r) ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = PhiS4 V c 0 from rfl, PhiS4_zero V c 0 rfl, scopedRest4_split]
  simp only [sc4_0, sc4_1, owns_whole]
  iintro ⟨Hg, ⟨⟨%f0, H0⟩, ⟨%f1, H1⟩⟩, HR⟩
  isplitl [H0]; · iexists f0; iexact H0
  isplitl [H1]; · iexists f1; iexact H1
  isplitl [HR]; · iexact HR
  iexact Hg

/-- After the last point the invariant gives the same back: what the accumulators hold is forgotten. -/
theorem hout4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val from rfl,
    PhiS4_pos V c _ (by rw [Fin.val_last]; have : cfg4.N = 50 := N_4; omega), scopedRest4_split]
  simp only [sc4_0, sc4_1, owns_whole]
  iintro ⟨H0, H1, HR, Hg⟩
  isplitl [Hg]; · iexact Hg
  isplitl [H0 H1]
  · isplitl [H0]; · iexists _; iexact H0
    iexists _; iexact H1
  iexact HR

end Region

end Cert.Kernel.Hand

end
-- ==== Proof.KFrame.lean ====
import proofs.«122563_j12137577578919_1_alg».proof.Proof.Gen.Kernel.Launch
import proofs.«122563_j12137577578919_1_alg».proof.Proof.Gen.Kernel.Skeleton
import proofs.«122563_j12137577578919_1_alg».proof.Proof.Gen.Kernel.Points
import proofs.«122563_j12137577578919_1_alg».proof.Proof.Gen.Kernel.Regions
import proofs.«122563_j12137577578919_1_alg».proof.Proof.KInv
import proofs.«122563_j12137577578919_1_alg».proof.Proof.KR1
import proofs.«122563_j12137577578919_1_alg».proof.Proof.KR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the buffers' contents at every boundary between two items of the program

The program is eleven items: five stretches of host operations and six kernel regions. Between two items every
unscoped buffer of a core holds a known array: the launch contents, then each host stretch's operations applied in
order, and after a region each of its windows' arrays at what the region's write-backs leave (an input window's
array as it was found, an output window's array rebuilt from the blocks written at the grid points). -/

/-- A core's buffers at launch. -/
abbrev bd0 : Dev nD → Valuation τ sig (Elt F) := fun c b => m (c, b)
/-- After the host stretch `hostOps0`. -/
abbrev bd1 : Dev nD → Valuation τ sig (Elt F) := fun c => StableHlo.after hostOps0 (bd0 m c)
/-- The same, read at the TensorCore's references. -/
abbrev tv1 : (c : Dev nD) → (b : Ref sig .tc) → Buf (Elt F) ((c : Thread nD τ).loc b) := fun c b => bd1 m c b
theorem bd1_of (c : Dev nD) (r : Ref sig .tc) (h : r ∉ hostOps0_W) : bd1 m c r = bd0 m c r :=
  StableHlo.after_of_writes_sub hostOps0 _ hostOps0_writes h
/-- After region 0: its windows' arrays at what the region leaves, every other buffer as it was. -/
def bd2 (c : Dev nD) : Valuation τ sig (Elt F) :=
  Pipeline.withArrays spec0 c (bd1 m c) fun w => (dat0 (tv1 m) c).arrAt w cfg0.N
theorem bd2_arr (c : Dev nD) (w : Fin cfg0.W) :
    bd2 m c (Proc.devRef .tc (Pipeline.arrRef spec0 w)) = (dat0 (tv1 m) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m c (Proc.devRef .tc b) = bd1 m c (Proc.devRef .tc b) := by
  unfold bd2; exact Pipeline.withArrays_of_ne spec0 c _ _ b hb
/-- Region 0's exit contents read at the TensorCore's references. -/
abbrev xv2 : (c : Dev nD) → (b : Ref sig .tc) → Buf (Elt F) ((c : Thread nD τ).loc b) := fun c b => bd2 m c b
theorem hF0 (c : Dev nD) (w : Fin cfg0.W) : (dat0 (tv1 m) c).arrAt w cfg0.N = xv2 m c (Pipeline.arrRef spec0 w) :=
  (bd2_arr m c w).symm
theorem hrest0 (c : Dev nD) : ∀ b, b ∉ Finset.univ.image (Pipeline.arrRef spec0) → xv2 m c b = tv1 m c b :=
  fun b hb => bd2_of_ne m c b fun w e => hb (Finset.mem_image.mpr ⟨w, Finset.mem_univ _, e⟩)
/-- After the host stretch `hostOps1`. -/
abbrev bd3 : Dev nD → Valuation τ sig (Elt F) := fun c => StableHlo.after hostOps1 (bd2 m c)
/-- The same, read at the TensorCore's references. -/
abbrev tv3 : (c : Dev nD) → (b : Ref sig .tc) → Buf (Elt F) ((c : Thread nD τ).loc b) := fun c b => bd3 m c b
theorem bd3_of (c : Dev nD) (r : Ref sig .tc) (h : r ∉ hostOps1_W) : bd3 m c r = bd2 m c r :=
  StableHlo.after_of_writes_sub hostOps1 _ hostOps1_writes h
/-- After region 1: its windows' arrays at what the region leaves, every other buffer as it was. -/
def bd4 (c : Dev nD) : Valuation τ sig (Elt F) :=
  Pipeline.withArrays spec1 c (bd3 m c) fun w => (dat1 (tv3 m) c).arrAt w cfg1.N
theorem bd4_arr (c : Dev nD) (w : Fin cfg1.W) :
    bd4 m c (Proc.devRef .tc (Pipeline.arrRef spec1 w)) = (dat1 (tv3 m) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m c (Proc.devRef .tc b) = bd3 m c (Proc.devRef .tc b) := by
  unfold bd4; exact Pipeline.withArrays_of_ne spec1 c _ _ b hb
/-- Region 1's exit contents read at the TensorCore's references. -/
abbrev xv4 : (c : Dev nD) → (b : Ref sig .tc) → Buf (Elt F) ((c : Thread nD τ).loc b) := fun c b => bd4 m c b
theorem hF1 (c : Dev nD) (w : Fin cfg1.W) : (dat1 (tv3 m) c).arrAt w cfg1.N = xv4 m c (Pipeline.arrRef spec1 w) :=
  (bd4_arr m c w).symm
theorem hrest1 (c : Dev nD) : ∀ b, b ∉ Finset.univ.image (Pipeline.arrRef spec1) → xv4 m c b = tv3 m c b :=
  fun b hb => bd4_of_ne m c b fun w e => hb (Finset.mem_image.mpr ⟨w, Finset.mem_univ _, e⟩)
/-- After the host stretch `hostOps2`. -/
abbrev bd5 : Dev nD → Valuation τ sig (Elt F) := fun c => StableHlo.after hostOps2 (bd4 m c)
/-- The same, read at the TensorCore's references. -/
abbrev tv5 : (c : Dev nD) → (b : Ref sig .tc) → Buf (Elt F) ((c : Thread nD τ).loc b) := fun c b => bd5 m c b
theorem bd5_of (c : Dev nD) (r : Ref sig .tc) (h : r ∉ hostOps2_W) : bd5 m c r = bd4 m c r :=
  StableHlo.after_of_writes_sub hostOps2 _ hostOps2_writes h
/-- After region 2: its windows' arrays at what the region leaves, every other buffer as it was. -/
def bd6 (c : Dev nD) : Valuation τ sig (Elt F) :=
  Pipeline.withArrays spec2 c (bd5 m c) fun w => (dat2 (tv5 m) c).arrAt w cfg2.N
theorem bd6_arr (c : Dev nD) (w : Fin cfg2.W) :
    bd6 m c (Proc.devRef .tc (Pipeline.arrRef spec2 w)) = (dat2 (tv5 m) c).arrAt w cfg2.N := by
  unfold bd6; exact Pipeline.withArrays_arr spec2 launch2.win.arr_inj c _ _ w
theorem bd6_of_ne (c : Dev nD) (b : Ref sig .tc) (hb : ∀ w, Pipeline.arrRef spec2 w ≠ b) :
    bd6 m c (Proc.devRef .tc b) = bd5 m c (Proc.devRef .tc b) := by
  unfold bd6; exact Pipeline.withArrays_of_ne spec2 c _ _ b hb
/-- Region 2's exit contents read at the TensorCore's references. -/
abbrev xv6 : (c : Dev nD) → (b : Ref sig .tc) → Buf (Elt F) ((c : Thread nD τ).loc b) := fun c b => bd6 m c b
theorem hF2 (c : Dev nD) (w : Fin cfg2.W) : (dat2 (tv5 m) c).arrAt w cfg2.N = xv6 m c (Pipeline.arrRef spec2 w) :=
  (bd6_arr m c w).symm
theorem hrest2 (c : Dev nD) : ∀ b, b ∉ Finset.univ.image (Pipeline.arrRef spec2) → xv6 m c b = tv5 m c b :=
  fun b hb => bd6_of_ne m c b fun w e => hb (Finset.mem_image.mpr ⟨w, Finset.mem_univ _, e⟩)
/-- Region 3's entry contents read at the TensorCore's references. -/
abbrev tv6 : (c : Dev nD) → (b : Ref sig .tc) → Buf (Elt F) ((c : Thread nD τ).loc b) := fun c b => bd6 m c b
/-- After region 3: its windows' arrays at what the region leaves, every other buffer as it was. -/
def bd7 (c : Dev nD) : Valuation τ sig (Elt F) :=
  Pipeline.withArrays spec3 c (bd6 m c) fun w => (dat3 (tv6 m) c).arrAt w cfg3.N
theorem bd7_arr (c : Dev nD) (w : Fin cfg3.W) :
    bd7 m c (Proc.devRef .tc (Pipeline.arrRef spec3 w)) = (dat3 (tv6 m) c).arrAt w cfg3.N := by
  unfold bd7; exact Pipeline.withArrays_arr spec3 launch3.win.arr_inj c _ _ w
theorem bd7_of_ne (c : Dev nD) (b : Ref sig .tc) (hb : ∀ w, Pipeline.arrRef spec3 w ≠ b) :
    bd7 m c (Proc.devRef .tc b) = bd6 m c (Proc.devRef .tc b) := by
  unfold bd7; exact Pipeline.withArrays_of_ne spec3 c _ _ b hb
/-- Region 3's exit contents read at the TensorCore's references. -/
abbrev xv7 : (c : Dev nD) → (b : Ref sig .tc) → Buf (Elt F) ((c : Thread nD τ).loc b) := fun c b => bd7 m c b
theorem hF3 (c : Dev nD) (w : Fin cfg3.W) : (dat3 (tv6 m) c).arrAt w cfg3.N = xv7 m c (Pipeline.arrRef spec3 w) :=
  (bd7_arr m c w).symm
theorem hrest3 (c : Dev nD) : ∀ b, b ∉ Finset.univ.image (Pipeline.arrRef spec3) → xv7 m c b = tv6 m c b :=
  fun b hb => bd7_of_ne m c b fun w e => hb (Finset.mem_image.mpr ⟨w, Finset.mem_univ _, e⟩)
/-- After the host stretch `hostOps4`. -/
abbrev bd8 : Dev nD → Valuation τ sig (Elt F) := fun c => StableHlo.after hostOps4 (bd7 m c)
/-- The same, read at the TensorCore's references. -/
abbrev tv8 : (c : Dev nD) → (b : Ref sig .tc) → Buf (Elt F) ((c : Thread nD τ).loc b) := fun c b => bd8 m c b
theorem bd8_of (c : Dev nD) (r : Ref sig .tc) (h : r ∉ hostOps4_W) : bd8 m c r = bd7 m c r :=
  StableHlo.after_of_writes_sub hostOps4 _ hostOps4_writes h
/-- After region 4: its windows' arrays at what the region leaves, every other buffer as it was. -/
def bd9 (c : Dev nD) : Valuation τ sig (Elt F) :=
  Pipeline.withArrays spec4 c (bd8 m c) fun w => (dat4 (tv8 m) c).arrAt w cfg4.N
theorem bd9_arr (c : Dev nD) (w : Fin cfg4.W) :
    bd9 m c (Proc.devRef .tc (Pipeline.arrRef spec4 w)) = (dat4 (tv8 m) c).arrAt w cfg4.N := by
  unfold bd9; exact Pipeline.withArrays_arr spec4 launch4.win.arr_inj c _ _ w
theorem bd9_of_ne (c : Dev nD) (b : Ref sig .tc) (hb : ∀ w, Pipeline.arrRef spec4 w ≠ b) :
    bd9 m c (Proc.devRef .tc b) = bd8 m c (Proc.devRef .tc b) := by
  unfold bd9; exact Pipeline.withArrays_of_ne spec4 c _ _ b hb
/-- Region 4's exit contents read at the TensorCore's references. -/
abbrev xv9 : (c : Dev nD) → (b : Ref sig .tc) → Buf (Elt F) ((c : Thread nD τ).loc b) := fun c b => bd9 m c b
theorem hF4 (c : Dev nD) (w : Fin cfg4.W) : (dat4 (tv8 m) c).arrAt w cfg4.N = xv9 m c (Pipeline.arrRef spec4 w) :=
  (bd9_arr m c w).symm
theorem hrest4 (c : Dev nD) : ∀ b, b ∉ Finset.univ.image (Pipeline.arrRef spec4) → xv9 m c b = tv8 m c b :=
  fun b hb => bd9_of_ne m c b fun w e => hb (Finset.mem_image.mpr ⟨w, Finset.mem_univ _, e⟩)
/-- After the host stretch `hostOps5`. -/
abbrev bd10 : Dev nD → Valuation τ sig (Elt F) := fun c => StableHlo.after hostOps5 (bd9 m c)
/-- The same, read at the TensorCore's references. -/
abbrev tv10 : (c : Dev nD) → (b : Ref sig .tc) → Buf (Elt F) ((c : Thread nD τ).loc b) := fun c b => bd10 m c b
theorem bd10_of (c : Dev nD) (r : Ref sig .tc) (h : r ∉ hostOps5_W) : bd10 m c r = bd9 m c r :=
  StableHlo.after_of_writes_sub hostOps5 _ hostOps5_writes h
/-- After region 5: its windows' arrays at what the region leaves, every other buffer as it was. -/
def bd11 (c : Dev nD) : Valuation τ sig (Elt F) :=
  Pipeline.withArrays spec5 c (bd10 m c) fun w => (dat5 (tv10 m) c).arrAt w cfg5.N
theorem bd11_arr (c : Dev nD) (w : Fin cfg5.W) :
    bd11 m c (Proc.devRef .tc (Pipeline.arrRef spec5 w)) = (dat5 (tv10 m) c).arrAt w cfg5.N := by
  unfold bd11; exact Pipeline.withArrays_arr spec5 launch5.win.arr_inj c _ _ w
theorem bd11_of_ne (c : Dev nD) (b : Ref sig .tc) (hb : ∀ w, Pipeline.arrRef spec5 w ≠ b) :
    bd11 m c (Proc.devRef .tc b) = bd10 m c (Proc.devRef .tc b) := by
  unfold bd11; exact Pipeline.withArrays_of_ne spec5 c _ _ b hb
/-- Region 5's exit contents read at the TensorCore's references. -/
abbrev xv11 : (c : Dev nD) → (b : Ref sig .tc) → Buf (Elt F) ((c : Thread nD τ).loc b) := fun c b => bd11 m c b
theorem hF5 (c : Dev nD) (w : Fin cfg5.W) : (dat5 (tv10 m) c).arrAt w cfg5.N = xv11 m c (Pipeline.arrRef spec5 w) :=
  (bd11_arr m c w).symm
theorem hrest5 (c : Dev nD) : ∀ b, b ∉ Finset.univ.image (Pipeline.arrRef spec5) → xv11 m c b = tv10 m c b :=
  fun b hb => bd11_of_ne m c b fun w e => hb (Finset.mem_image.mpr ⟨w, Finset.mem_univ _, e⟩)

/-! ## The arguments end as launched: no host operation writes one, and a region either does not touch it or reads
it through an input window, whose array it leaves as found. -/
theorem bd11_main_arg0 (c : Dev nD) : bd11 m c (Proc.devRef .tc main_arg0) = m ((c : Thread nD τ).loc main_arg0) :=
  calc bd11 m c (Proc.devRef .tc main_arg0)
    _ = bd10 m c (Proc.devRef .tc main_arg0) := bd11_of_ne m c main_arg0 (by decide)
    _ = bd9 m c (Proc.devRef .tc main_arg0) := bd10_of m c main_arg0 (by decide)
    _ = bd8 m c (Proc.devRef .tc main_arg0) := bd9_of_ne m c main_arg0 (by decide)
    _ = bd7 m c (Proc.devRef .tc main_arg0) := bd8_of m c main_arg0 (by decide)
    _ = bd6 m c (Proc.devRef .tc main_arg0) := bd7_of_ne m c main_arg0 (by decide)
    _ = bd5 m c (Proc.devRef .tc main_arg0) := bd6_of_ne m c main_arg0 (by decide)
    _ = bd4 m c (Proc.devRef .tc main_arg0) := bd5_of m c main_arg0 (by decide)
    _ = bd3 m c (Proc.devRef .tc main_arg0) := bd4_of_ne m c main_arg0 (by decide)
    _ = bd2 m c (Proc.devRef .tc main_arg0) := bd3_of m c main_arg0 (by decide)
    _ = bd1 m c (Proc.devRef .tc main_arg0) := bd2_of_ne m c main_arg0 (by decide)
    _ = bd0 m c (Proc.devRef .tc main_arg0) := bd1_of m c main_arg0 (by decide)
    _ = m ((c : Thread nD τ).loc main_arg0) := rfl
theorem bd11_main_arg1 (c : Dev nD) : bd11 m c (Proc.devRef .tc main_arg1) = m ((c : Thread nD τ).loc main_arg1) :=
  calc bd11 m c (Proc.devRef .tc main_arg1)
    _ = bd10 m c (Proc.devRef .tc main_arg1) := bd11_of_ne m c main_arg1 (by decide)
    _ = bd9 m c (Proc.devRef .tc main_arg1) := bd10_of m c main_arg1 (by decide)
    _ = bd8 m c (Proc.devRef .tc main_arg1) := bd9_of_ne m c main_arg1 (by decide)
    _ = bd7 m c (Proc.devRef .tc main_arg1) := bd8_of m c main_arg1 (by decide)
    _ = bd6 m c (Proc.devRef .tc main_arg1) := bd7_of_ne m c main_arg1 (by decide)
    _ = bd5 m c (Proc.devRef .tc main_arg1) := bd6_of_ne m c main_arg1 (by decide)
    _ = bd4 m c (Proc.devRef .tc main_arg1) := bd5_of m c main_arg1 (by decide)
    _ = bd3 m c (Proc.devRef .tc main_arg1) := bd4_of_ne m c main_arg1 (by decide)
    _ = bd2 m c (Proc.devRef .tc main_arg1) := bd3_of m c main_arg1 (by decide)
    _ = bd1 m c (Proc.devRef .tc main_arg1) := (bd2_arr m c 0).trans (((dat0 (tv1 m) c).arrAt_in 0 rfl _).trans (A_eq0 (tv1 m) c 0))
    _ = bd0 m c (Proc.devRef .tc main_arg1) := bd1_of m c main_arg1 (by decide)
    _ = m ((c : Thread nD τ).loc main_arg1) := rfl
theorem bd11_main_arg2 (c : Dev nD) : bd11 m c (Proc.devRef .tc main_arg2) = m ((c : Thread nD τ).loc main_arg2) :=
  calc bd11 m c (Proc.devRef .tc main_arg2)
    _ = bd10 m c (Proc.devRef .tc main_arg2) := bd11_of_ne m c main_arg2 (by decide)
    _ = bd9 m c (Proc.devRef .tc main_arg2) := bd10_of m c main_arg2 (by decide)
    _ = bd8 m c (Proc.devRef .tc main_arg2) := bd9_of_ne m c main_arg2 (by decide)
    _ = bd7 m c (Proc.devRef .tc main_arg2) := bd8_of m c main_arg2 (by decide)
    _ = bd6 m c (Proc.devRef .tc main_arg2) := bd7_of_ne m c main_arg2 (by decide)
    _ = bd5 m c (Proc.devRef .tc main_arg2) := bd6_of_ne m c main_arg2 (by decide)
    _ = bd4 m c (Proc.devRef .tc main_arg2) := bd5_of m c main_arg2 (by decide)
    _ = bd3 m c (Proc.devRef .tc main_arg2) := bd4_of_ne m c main_arg2 (by decide)
    _ = bd2 m c (Proc.devRef .tc main_arg2) := bd3_of m c main_arg2 (by decide)
    _ = bd1 m c (Proc.devRef .tc main_arg2) := (bd2_arr m c 1).trans (((dat0 (tv1 m) c).arrAt_in 1 rfl _).trans (A_eq0 (tv1 m) c 1))
    _ = bd0 m c (Proc.devRef .tc main_arg2) := bd1_of m c main_arg2 (by decide)
    _ = m ((c : Thread nD τ).loc main_arg2) := rfl
theorem bd11_main_arg3 (c : Dev nD) : bd11 m c (Proc.devRef .tc main_arg3) = m ((c : Thread nD τ).loc main_arg3) :=
  calc bd11 m c (Proc.devRef .tc main_arg3)
    _ = bd10 m c (Proc.devRef .tc main_arg3) := bd11_of_ne m c main_arg3 (by decide)
    _ = bd9 m c (Proc.devRef .tc main_arg3) := bd10_of m c main_arg3 (by decide)
    _ = bd8 m c (Proc.devRef .tc main_arg3) := bd9_of_ne m c main_arg3 (by decide)
    _ = bd7 m c (Proc.devRef .tc main_arg3) := bd8_of m c main_arg3 (by decide)
    _ = bd6 m c (Proc.devRef .tc main_arg3) := bd7_of_ne m c main_arg3 (by decide)
    _ = bd5 m c (Proc.devRef .tc main_arg3) := bd6_of_ne m c main_arg3 (by decide)
    _ = bd4 m c (Proc.devRef .tc main_arg3) := bd5_of m c main_arg3 (by decide)
    _ = bd3 m c (Proc.devRef .tc main_arg3) := bd4_of_ne m c main_arg3 (by decide)
    _ = bd2 m c (Proc.devRef .tc main_arg3) := bd3_of m c main_arg3 (by decide)
    _ = bd1 m c (Proc.devRef .tc main_arg3) := bd2_of_ne m c main_arg3 (by decide)
    _ = bd0 m c (Proc.devRef .tc main_arg3) := bd1_of m c main_arg3 (by decide)
    _ = m ((c : Thread nD τ).loc main_arg3) := rfl
theorem bd11_main_arg4 (c : Dev nD) : bd11 m c (Proc.devRef .tc main_arg4) = m ((c : Thread nD τ).loc main_arg4) :=
  calc bd11 m c (Proc.devRef .tc main_arg4)
    _ = bd10 m c (Proc.devRef .tc main_arg4) := bd11_of_ne m c main_arg4 (by decide)
    _ = bd9 m c (Proc.devRef .tc main_arg4) := bd10_of m c main_arg4 (by decide)
    _ = bd8 m c (Proc.devRef .tc main_arg4) := bd9_of_ne m c main_arg4 (by decide)
    _ = bd7 m c (Proc.devRef .tc main_arg4) := bd8_of m c main_arg4 (by decide)
    _ = bd6 m c (Proc.devRef .tc main_arg4) := bd7_of_ne m c main_arg4 (by decide)
    _ = bd5 m c (Proc.devRef .tc main_arg4) := bd6_of_ne m c main_arg4 (by decide)
    _ = bd4 m c (Proc.devRef .tc main_arg4) := bd5_of m c main_arg4 (by decide)
    _ = bd3 m c (Proc.devRef .tc main_arg4) := bd4_of_ne m c main_arg4 (by decide)
    _ = bd2 m c (Proc.devRef .tc main_arg4) := bd3_of m c main_arg4 (by decide)
    _ = bd1 m c (Proc.devRef .tc main_arg4) := bd2_of_ne m c main_arg4 (by decide)
    _ = bd0 m c (Proc.devRef .tc main_arg4) := bd1_of m c main_arg4 (by decide)
    _ = m ((c : Thread nD τ).loc main_arg4) := rfl
theorem bd11_main_arg5 (c : Dev nD) : bd11 m c (Proc.devRef .tc main_arg5) = m ((c : Thread nD τ).loc main_arg5) :=
  calc bd11 m c (Proc.devRef .tc main_arg5)
    _ = bd10 m c (Proc.devRef .tc main_arg5) := bd11_of_ne m c main_arg5 (by decide)
    _ = bd9 m c (Proc.devRef .tc main_arg5) := bd10_of m c main_arg5 (by decide)
    _ = bd8 m c (Proc.devRef .tc main_arg5) := bd9_of_ne m c main_arg5 (by decide)
    _ = bd7 m c (Proc.devRef .tc main_arg5) := bd8_of m c main_arg5 (by decide)
    _ = bd6 m c (Proc.devRef .tc main_arg5) := bd7_of_ne m c main_arg5 (by decide)
    _ = bd5 m c (Proc.devRef .tc main_arg5) := bd6_of_ne m c main_arg5 (by decide)
    _ = bd4 m c (Proc.devRef .tc main_arg5) := bd5_of m c main_arg5 (by decide)
    _ = bd3 m c (Proc.devRef .tc main_arg5) := bd4_of_ne m c main_arg5 (by decide)
    _ = bd2 m c (Proc.devRef .tc main_arg5) := bd3_of m c main_arg5 (by decide)
    _ = bd1 m c (Proc.devRef .tc main_arg5) := bd2_of_ne m c main_arg5 (by decide)
    _ = bd0 m c (Proc.devRef .tc main_arg5) := bd1_of m c main_arg5 (by decide)
    _ = m ((c : Thread nD τ).loc main_arg5) := rfl
theorem bd11_main_arg6 (c : Dev nD) : bd11 m c (Proc.devRef .tc main_arg6) = m ((c : Thread nD τ).loc main_arg6) :=
  calc bd11 m c (Proc.devRef .tc main_arg6)
    _ = bd10 m c (Proc.devRef .tc main_arg6) := bd11_of_ne m c main_arg6 (by decide)
    _ = bd9 m c (Proc.devRef .tc main_arg6) := bd10_of m c main_arg6 (by decide)
    _ = bd8 m c (Proc.devRef .tc main_arg6) := bd9_of_ne m c main_arg6 (by decide)
    _ = bd7 m c (Proc.devRef .tc main_arg6) := bd8_of m c main_arg6 (by decide)
    _ = bd6 m c (Proc.devRef .tc main_arg6) := (bd7_arr m c 1).trans (((dat3 (tv6 m) c).arrAt_in 1 rfl _).trans (A_eq3 (tv6 m) c 1))
    _ = bd5 m c (Proc.devRef .tc main_arg6) := bd6_of_ne m c main_arg6 (by decide)
    _ = bd4 m c (Proc.devRef .tc main_arg6) := bd5_of m c main_arg6 (by decide)
    _ = bd3 m c (Proc.devRef .tc main_arg6) := bd4_of_ne m c main_arg6 (by decide)
    _ = bd2 m c (Proc.devRef .tc main_arg6) := bd3_of m c main_arg6 (by decide)
    _ = bd1 m c (Proc.devRef .tc main_arg6) := bd2_of_ne m c main_arg6 (by decide)
    _ = bd0 m c (Proc.devRef .tc main_arg6) := bd1_of m c main_arg6 (by decide)
    _ = m ((c : Thread nD τ).loc main_arg6) := rfl
theorem bd11_main_arg7 (c : Dev nD) : bd11 m c (Proc.devRef .tc main_arg7) = m ((c : Thread nD τ).loc main_arg7) :=
  calc bd11 m c (Proc.devRef .tc main_arg7)
    _ = bd10 m c (Proc.devRef .tc main_arg7) := bd11_of_ne m c main_arg7 (by decide)
    _ = bd9 m c (Proc.devRef .tc main_arg7) := bd10_of m c main_arg7 (by decide)
    _ = bd8 m c (Proc.devRef .tc main_arg7) := bd9_of_ne m c main_arg7 (by decide)
    _ = bd7 m c (Proc.devRef .tc main_arg7) := bd8_of m c main_arg7 (by decide)
    _ = bd6 m c (Proc.devRef .tc main_arg7) := bd7_of_ne m c main_arg7 (by decide)
    _ = bd5 m c (Proc.devRef .tc main_arg7) := bd6_of_ne m c main_arg7 (by decide)
    _ = bd4 m c (Proc.devRef .tc main_arg7) := bd5_of m c main_arg7 (by decide)
    _ = bd3 m c (Proc.devRef .tc main_arg7) := bd4_of_ne m c main_arg7 (by decide)
    _ = bd2 m c (Proc.devRef .tc main_arg7) := bd3_of m c main_arg7 (by decide)
    _ = bd1 m c (Proc.devRef .tc main_arg7) := bd2_of_ne m c main_arg7 (by decide)
    _ = bd0 m c (Proc.devRef .tc main_arg7) := bd1_of m c main_arg7 (by decide)
    _ = m ((c : Thread nD τ).loc main_arg7) := rfl
theorem bd11_main_arg8 (c : Dev nD) : bd11 m c (Proc.devRef .tc main_arg8) = m ((c : Thread nD τ).loc main_arg8) :=
  calc bd11 m c (Proc.devRef .tc main_arg8)
    _ = bd10 m c (Proc.devRef .tc main_arg8) := bd11_of_ne m c main_arg8 (by decide)
    _ = bd9 m c (Proc.devRef .tc main_arg8) := bd10_of m c main_arg8 (by decide)
    _ = bd8 m c (Proc.devRef .tc main_arg8) := bd9_of_ne m c main_arg8 (by decide)
    _ = bd7 m c (Proc.devRef .tc main_arg8) := bd8_of m c main_arg8 (by decide)
    _ = bd6 m c (Proc.devRef .tc main_arg8) := bd7_of_ne m c main_arg8 (by decide)
    _ = bd5 m c (Proc.devRef .tc main_arg8) := bd6_of_ne m c main_arg8 (by decide)
    _ = bd4 m c (Proc.devRef .tc main_arg8) := bd5_of m c main_arg8 (by decide)
    _ = bd3 m c (Proc.devRef .tc main_arg8) := bd4_of_ne m c main_arg8 (by decide)
    _ = bd2 m c (Proc.devRef .tc main_arg8) := bd3_of m c main_arg8 (by decide)
    _ = bd1 m c (Proc.devRef .tc main_arg8) := bd2_of_ne m c main_arg8 (by decide)
    _ = bd0 m c (Proc.devRef .tc main_arg8) := bd1_of m c main_arg8 (by decide)
    _ = m ((c : Thread nD τ).loc main_arg8) := rfl
theorem bd11_main_arg9 (c : Dev nD) : bd11 m c (Proc.devRef .tc main_arg9) = m ((c : Thread nD τ).loc main_arg9) :=
  calc bd11 m c (Proc.devRef .tc main_arg9)
    _ = bd10 m c (Proc.devRef .tc main_arg9) := bd11_of_ne m c main_arg9 (by decide)
    _ = bd9 m c (Proc.devRef .tc main_arg9) := bd10_of m c main_arg9 (by decide)
    _ = bd8 m c (Proc.devRef .tc main_arg9) := bd9_of_ne m c main_arg9 (by decide)
    _ = bd7 m c (Proc.devRef .tc main_arg9) := bd8_of m c main_arg9 (by decide)
    _ = bd6 m c (Proc.devRef .tc main_arg9) := bd7_of_ne m c main_arg9 (by decide)
    _ = bd5 m c (Proc.devRef .tc main_arg9) := bd6_of_ne m c main_arg9 (by decide)
    _ = bd4 m c (Proc.devRef .tc main_arg9) := bd5_of m c main_arg9 (by decide)
    _ = bd3 m c (Proc.devRef .tc main_arg9) := bd4_of_ne m c main_arg9 (by decide)
    _ = bd2 m c (Proc.devRef .tc main_arg9) := bd3_of m c main_arg9 (by decide)
    _ = bd1 m c (Proc.devRef .tc main_arg9) := bd2_of_ne m c main_arg9 (by decide)
    _ = bd0 m c (Proc.devRef .tc main_arg9) := bd1_of m c main_arg9 (by decide)
    _ = m ((c : Thread nD τ).loc main_arg9) := rfl

/-! ## The proof data family and the thread state -/

/-- No pipeline has a prefetched table. -/
abbrev hadm : (p : Fin 6) → (pcfgs (F := F) p).Adm := fun p => (cfgs p).toPCfg_adm
/-- Every pipeline's proof data, each at its region's entry contents. -/
def hdats : (p : Fin 6) → (c : Dev nD) → Dat τ (Elt F) Unit ℕ (UR sig nD τ) ℕ (Pipeline.pin (pcfgs (F := F)) hadm p) c
  | ⟨0, _⟩ => fun c => dat0 (tv1 m) c
  | ⟨1, _⟩ => fun c => dat1 (tv3 m) c
  | ⟨2, _⟩ => fun c => dat2 (tv5 m) c
  | ⟨3, _⟩ => fun c => dat3 (tv6 m) c
  | ⟨4, _⟩ => fun c => dat4 (tv8 m) c
  | ⟨5, _⟩ => fun c => dat5 (tv10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev rest (c : Dev nD) : sProp 𝕄 := iprop((∃ r, prngReg c r) ∗ ∃ W, owes (c : Thread nD τ) (0 : CellTallies nD τ sig Unit) W)
/-- A host stretch as a segment of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tn (c : Dev nD) : sProp 𝕄 := iprop(StableHlo.held (c : Thread nD τ) (Pipeline.ucRefs τ sig) (bd11 m c) ∗ ∃ r, prngReg c r)

/-! ## The regions as segments -/

set_option backward.isDefEq.respectTransparency.types false in
/-- Region 0 over the thread state: entered from every unscoped buffer at boundary 1's contents, left at boundary 2's.
    Its windows' arrays are split out of the unscoped buffers and put back at the exit contents; the generator register
    and the scoped buffers enter the region's invariant and come back; nothing is owed; the kernel has no semaphore of its own. -/
def rseg0 : Pipeline.RegionSeg (pcfgs (F := F)) hadm (hdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tv1 m) c).loose
  hwaits := Pipeline.hwaits_of_owed_zero _ _ _ _ L lv 0 fun _ _ => rfl
  pre c := iprop(StableHlo.held (c : Thread nD τ) (Pipeline.ucRefs τ sig) (bd1 m c) ∗ rest c)
  post c := iprop(StableHlo.held (c : Thread nD τ) (Pipeline.ucRefs τ sig) (bd2 m c) ∗ rest c)
  X c := iprop(∃ r, prngReg c r)
  Y c := iprop(∃ r, prngReg c r)
  Z c := Pipeline.unscopedRest (Ix := Unit) (Name := ℕ) (U := UR sig nD τ) (Lvl := ℕ) spec0 c (tv1 m c)
  hentry c := by
    rw [Pipeline.ownSems0_none]
    have hsplit := Pipeline.arrays_of_unscopedBufs (p := 0) (pcfgs (F := F)) hadm (hdats m) launch0.win launch0.arr_whole c
      ((hdats m 0 c).share_full fun _ => rfl) (tv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 0 c).Φ 0 = (dat0 (tv1 m) c).Φ 0 from rfl]
    iintro ⟨Hp, -, Hr⟩
    iapply (hin0 (tv1 m) c)
    isplitl [Hp]; · iexact Hp
    iexact Hr
  hout c := by
    rw [Pipeline.ownSems0_none, show (hdats m 0 c).Φ (Fin.last _) = (dat0 (tv1 m) c).Φ (Fin.last cfg0.N) from rfl]
    iintro HΦ
    ihave H := (hout0 (tv1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hdats m) ((hdats m 0 c).share_full fun _ => rfl)
      (tv1 m c) (xv2 m c) ((hdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary 4's.
    Its windows' arrays are split out of the unscoped buffers and put back at the exit contents; the generator register
    and the scoped buffers enter the region's invariant and come back; nothing is owed; the kernel has no semaphore of its own. -/
def rseg1 : Pipeline.RegionSeg (pcfgs (F := F)) hadm (hdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tv3 m) c).loose
  hwaits := Pipeline.hwaits_of_owed_zero _ _ _ _ L lv 1 fun _ _ => rfl
  pre c := iprop(StableHlo.held (c : Thread nD τ) (Pipeline.ucRefs τ sig) (bd3 m c) ∗ rest c)
  post c := iprop(StableHlo.held (c : Thread nD τ) (Pipeline.ucRefs τ sig) (bd4 m c) ∗ rest c)
  X c := iprop(∃ r, prngReg c r)
  Y c := iprop(∃ r, prngReg c r)
  Z c := Pipeline.unscopedRest (Ix := Unit) (Name := ℕ) (U := UR sig nD τ) (Lvl := ℕ) spec1 c (tv3 m c)
  hentry c := by
    rw [Pipeline.ownSems0_none]
    have hsplit := Pipeline.arrays_of_unscopedBufs (p := 1) (pcfgs (F := F)) hadm (hdats m) launch1.win launch1.arr_whole c
      ((hdats m 1 c).share_full fun _ => rfl) (tv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 1 c).Φ 0 = (dat1 (tv3 m) c).Φ 0 from rfl]
    iintro ⟨Hp, -, Hr⟩
    iapply (hin1 (tv3 m) c)
    isplitl [Hp]; · iexact Hp
    iexact Hr
  hout c := by
    rw [Pipeline.ownSems0_none, show (hdats m 1 c).Φ (Fin.last _) = (dat1 (tv3 m) c).Φ (Fin.last cfg1.N) from rfl]
    iintro HΦ
    ihave H := (hout1 (tv3 m) c) $$ HΦ
    icases H with ⟨Hp, Hr⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hdats m) ((hdats m 1 c).share_full fun _ => rfl)
      (tv3 m c) (xv4 m c) ((hdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary 6's.
    Its windows' arrays are split out of the unscoped buffers and put back at the exit contents; the generator register
    and the scoped buffers enter the region's invariant and come back; nothing is owed; the kernel has no semaphore of its own. -/
def rseg2 : Pipeline.RegionSeg (pcfgs (F := F)) hadm (hdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tv5 m) c).loose
  hwaits := Pipeline.hwaits_of_owed_zero _ _ _ _ L lv 2 fun _ _ => rfl
  pre c := iprop(StableHlo.held (c : Thread nD τ) (Pipeline.ucRefs τ sig) (bd5 m c) ∗ rest c)
  post c := iprop(StableHlo.held (c : Thread nD τ) (Pipeline.ucRefs τ sig) (bd6 m c) ∗ rest c)
  X c := iprop(∃ r, prngReg c r)
  Y c := iprop(∃ r, prngReg c r)
  Z c := Pipeline.unscopedRest (Ix := Unit) (Name := ℕ) (U := UR sig nD τ) (Lvl := ℕ) spec2 c (tv5 m c)
  hentry c := by
    rw [Pipeline.ownSems0_none]
    have hsplit := Pipeline.arrays_of_unscopedBufs (p := 2) (pcfgs (F := F)) hadm (hdats m) launch2.win launch2.arr_whole c
      ((hdats m 2 c).share_full fun _ => rfl) (tv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 2 c).Φ 0 = (dat2 (tv5 m) c).Φ 0 from rfl]
    iintro ⟨Hp, -, Hr⟩
    iapply (hin2 (tv5 m) c)
    isplitl [Hp]; · iexact Hp
    iexact Hr
  hout c := by
    rw [Pipeline.ownSems0_none, show (hdats m 2 c).Φ (Fin.last _) = (dat2 (tv5 m) c).Φ (Fin.last cfg2.N) from rfl]
    iintro HΦ
    ihave H := (hout2 (tv5 m) c) $$ HΦ
    icases H with ⟨Hp, Hr⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hdats m) ((hdats m 2 c).share_full fun _ => rfl)
      (tv5 m c) (xv6 m c) ((hdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 6's contents, left at boundary 7's.
    Its windows' arrays are split out of the unscoped buffers and put back at the exit contents; the generator register
    and the scoped buffers enter the region's invariant and come back; nothing is owed; the kernel has no semaphore of its own. -/
def rseg3 : Pipeline.RegionSeg (pcfgs (F := F)) hadm (hdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tv6 m) c).loose
  hwaits := Pipeline.hwaits_of_owed_zero _ _ _ _ L lv 3 fun _ _ => rfl
  pre c := iprop(StableHlo.held (c : Thread nD τ) (Pipeline.ucRefs τ sig) (bd6 m c) ∗ rest c)
  post c := iprop(StableHlo.held (c : Thread nD τ) (Pipeline.ucRefs τ sig) (bd7 m c) ∗ rest c)
  X c := iprop(∃ r, prngReg c r)
  Y c := iprop(∃ r, prngReg c r)
  Z c := Pipeline.unscopedRest (Ix := Unit) (Name := ℕ) (U := UR sig nD τ) (Lvl := ℕ) spec3 c (tv6 m c)
  hentry c := by
    rw [Pipeline.ownSems0_none]
    have hsplit := Pipeline.arrays_of_unscopedBufs (p := 3) (pcfgs (F := F)) hadm (hdats m) launch3.win launch3.arr_whole c
      ((hdats m 3 c).share_full fun _ => rfl) (tv6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 3 c).Φ 0 = (dat3 (tv6 m) c).Φ 0 from rfl]
    iintro ⟨Hp, -, Hr⟩
    iapply (hin3 (tv6 m) c)
    isplitl [Hp]; · iexact Hp
    iexact Hr
  hout c := by
    rw [Pipeline.ownSems0_none, show (hdats m 3 c).Φ (Fin.last _) = (dat3 (tv6 m) c).Φ (Fin.last cfg3.N) from rfl]
    iintro HΦ
    ihave H := (hout3 (tv6 m) c) $$ HΦ
    icases H with ⟨Hp, Hr⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hdats m) ((hdats m 3 c).share_full fun _ => rfl)
      (tv6 m c) (xv7 m c) ((hdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 8's contents, left at boundary 9's.
    Its windows' arrays are split out of the unscoped buffers and put back at the exit contents; the generator register
    and the scoped buffers enter the region's invariant and come back; nothing is owed; the kernel has no semaphore of its own. -/
def rseg4 : Pipeline.RegionSeg (pcfgs (F := F)) hadm (hdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tv8 m) c).loose
  hwaits := Pipeline.hwaits_of_owed_zero _ _ _ _ L lv 4 fun _ _ => rfl
  pre c := iprop(StableHlo.held (c : Thread nD τ) (Pipeline.ucRefs τ sig) (bd8 m c) ∗ rest c)
  post c := iprop(StableHlo.held (c : Thread nD τ) (Pipeline.ucRefs τ sig) (bd9 m c) ∗ rest c)
  X c := iprop(∃ r, prngReg c r)
  Y c := iprop(∃ r, prngReg c r)
  Z c := Pipeline.unscopedRest (Ix := Unit) (Name := ℕ) (U := UR sig nD τ) (Lvl := ℕ) spec4 c (tv8 m c)
  hentry c := by
    rw [Pipeline.ownSems0_none]
    have hsplit := Pipeline.arrays_of_unscopedBufs (p := 4) (pcfgs (F := F)) hadm (hdats m) launch4.win launch4.arr_whole c
      ((hdats m 4 c).share_full fun _ => rfl) (tv8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 4 c).Φ 0 = (dat4 (tv8 m) c).Φ 0 from rfl]
    iintro ⟨Hp, -, Hr⟩
    iapply (hin4 (tv8 m) c)
    isplitl [Hp]; · iexact Hp
    iexact Hr
  hout c := by
    rw [Pipeline.ownSems0_none, show (hdats m 4 c).Φ (Fin.last _) = (dat4 (tv8 m) c).Φ (Fin.last cfg4.N) from rfl]
    iintro HΦ
    ihave H := (hout4 (tv8 m) c) $$ HΦ
    icases H with ⟨Hp, Hr⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (hdats m) ((hdats m 4 c).share_full fun _ => rfl)
      (tv8 m c) (xv9 m c) ((hdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 10's contents, left at boundary 11's.
    Its windows' arrays are split out of the unscoped buffers and put back at the exit contents; the generator register
    and the scoped buffers enter the region's invariant and come back; nothing is owed; the kernel has no semaphore of its own. -/
def rseg5 : Pipeline.RegionSeg (pcfgs (F := F)) hadm (hdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tv10 m) c).loose
  hwaits := Pipeline.hwaits_of_owed_zero _ _ _ _ L lv 5 fun _ _ => rfl
  pre c := iprop(StableHlo.held (c : Thread nD τ) (Pipeline.ucRefs τ sig) (bd10 m c) ∗ rest c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (tv10 m c)
  hentry c := by
    rw [Pipeline.ownSems0_none]
    have hsplit := Pipeline.arrays_of_unscopedBufs (p := 5) (pcfgs (F := F)) hadm (hdats m) launch5.win launch5.arr_whole c
      ((hdats m 5 c).share_full fun _ => rfl) (tv10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 5 c).Φ 0 = (dat5 (tv10 m) c).Φ 0 from rfl]
    iintro ⟨Hp, -, Hr⟩
    iapply (hin5 (tv10 m) c)
    isplitl [Hp]; · iexact Hp
    iexact Hr
  hout c := by
    rw [Pipeline.ownSems0_none, show (hdats m 5 c).Φ (Fin.last _) = (dat5 (tv10 m) c).Φ (Fin.last cfg5.N) from rfl]
    iintro HΦ
    ihave H := (hout5 (tv10 m) c) $$ HΦ
    icases H with ⟨Hp, Hr⟩
    isplitl [Hp]; · iexact Hp
    isplitr; · iempintro
    iexact Hr
  hexit c := by
    have hjoin := Pipeline.unscopedBufs_of_arrays (p := 5) (pcfgs (F := F)) hadm (Ix := Unit) (Name := ℕ) (U := UR sig nD τ) (Lvl := ℕ)
      launch5.win launch5.arr_whole c (hdats m) ((hdats m 5 c).share_full fun _ => rfl)
      (tv10 m c) (xv11 m c) ((hdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eleven items in order. -/
abbrev hsegs : List (Pipeline.Seg (pcfgs (F := F)) hadm (hdats m) () defs₀ 𝒱₀ L lv) :=
  [ .host (hseg hostOps0 hostOps0_sub hostOps0_fresh (bd0 m)),
    .region (rseg0 m),
    .host (hseg hostOps1 hostOps1_sub hostOps1_fresh (bd2 m)),
    .region (rseg1 m),
    .host (hseg hostOps2 hostOps2_sub hostOps2_fresh (bd4 m)),
    .region (rseg2 m),
    .region (rseg3 m),
    .host (hseg hostOps4 hostOps4_sub hostOps4_fresh (bd7 m)),
    .region (rseg4 m),
    .host (hseg hostOps5 hostOps5_sub hostOps5_fresh (bd9 m)),
    .region (rseg5 m) ]
/-- The program is the run of its items. -/
theorem main_run (c : Dev nD) : main (F := F) c = Pipeline.Seg.run (hsegs m) := (main_chain c).trans (by chain_rfl)

set_option backward.isDefEq.respectTransparency.types false in
/-- THE RUN. From any memory with zero counters every weakly fair execution of the program on the TensorCores
    terminates, nothing faulting, and in every final state each unscoped buffer of each core holds the last boundary's
    contents: the arguments as launched, the two results at what region 5 leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bd11 m c b) :=
  Pipeline.θ_run_regions_kit (pcfgs (F := F)) hadm (hdats m) () cellOf_inj emb₁ defs₀ 𝒱₀ L lv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m c) ∗ rest c)) (Tₙ := Tn m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bd0 m c)
        from Pipeline.unscopedBufs_held c (bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd11 m c b)
    (hfin := fun c s' => by
      iintro ⟨⟨Hh, -⟩, HSI⟩
      unfold StableHlo.held
      imodintro
      iapply (pointsTo_read_all (Pipeline.ucRefs τ sig) (fun b => (((c : Thread nD τ)).1, b)) (bd11 m c) s')
      isplitl [Hh] <;> iassumption)
    (hQ := fun s h c => h c)

/-- THE FRAME: the run, with every argument array read back to its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (bd11_main_arg0 m c),
     (h c _ (mem_uc main_arg1 (by decide))).trans (bd11_main_arg1 m c),
     (h c _ (mem_uc main_arg2 (by decide))).trans (bd11_main_arg2 m c),
     (h c _ (mem_uc main_arg3 (by decide))).trans (bd11_main_arg3 m c),
     (h c _ (mem_uc main_arg4 (by decide))).trans (bd11_main_arg4 m c),
     (h c _ (mem_uc main_arg5 (by decide))).trans (bd11_main_arg5 m c),
     (h c _ (mem_uc main_arg6 (by decide))).trans (bd11_main_arg6 m c),
     (h c _ (mem_uc main_arg7 (by decide))).trans (bd11_main_arg7 m c),
     (h c _ (mem_uc main_arg8 (by decide))).trans (bd11_main_arg8 m c),
     (h c _ (mem_uc main_arg9 (by decide))).trans (bd11_main_arg9 m c)⟩) (run_all m ρ)

end Cert.Kernel.Hand

end
-- ==== Proof.KIR0.lean ====
/- Region 0 of the program, class A: a row tile of the product of a [100000,64] matrix with a [64,64] weight matrix, 50 tiles of 2000 rows. -/
import proofs.«122563_j12137577578919_1_alg».proof.Proof.Gen.KernelIdeal.Launch
import proofs.«122563_j12137577578919_1_alg».proof.Proof.Gen.KernelIdeal.Skeleton
import proofs.«122563_j12137577578919_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it: for window 0 the `t`-th tile of
    2000 rows of the left factor, for window 1 the whole weight matrix, for window 2 the `t`-th tile of the result. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the left factor holds its row tile at every point, for any proof data whose array is the
    entry contents and whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of the weight matrix holds the whole matrix at every point, although it is fetched at the
    first point only: its block index never moves, so what was fetched there is still the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [2000,64] tile. -/
abbrev r0_0 : Rect S2000x64 := Rect.unit (s := S2000x64) ![0, 0] S2000x64.size inb_S2000x64_S2000x64_0_0
/-- The whole [64,64] weight matrix. -/
abbrev r0_1 : Rect S64x64 := Rect.unit (s := S64x64) ![0, 0] S64x64.size inb_S64x64_S64x64_0_0

/-! ## What the body leaves in the output window's buffer -/

/-- The result tile after the body: the product of the left factor's tile `x0` with the weight matrix `x1`, stored
    over the whole tile in one piece. -/
def out0_2 (x0 : Vec F S2000x64 .f32) (x1 : Vec F S64x64 .f32) : Vec F S2000x64 .f32 :=
  View.canon [⟨r0_0, k0_pay1 (View.ld x0 r0_0) (View.ld x1 r0_1)⟩]

/-- The one store is of the whole tile, so it covers it. -/
theorem cover0_2 (p0 : Vec F S2000x64 .f32) (y : S2000x64.Idx) :
    ∃ pc ∈ ([⟨r0_0, p0⟩] : List (View.Piece (Elt F) S2000x64 .f32)), y ∈ pc.1.set :=
  View.cover_of_tiled [⟨r0_0, p0⟩] S2000x64.size (by rfl) y

/-! ## The body's triple -/

set_option maxHeartbeats 1000000 in
/-- The kernel body on whole staging buffers, the inputs' reading `x0` and `x1` and the output's anything, runs to
    the continuation holding the inputs' as they were and the output's at the product tile `out0_2 x0 x1`. -/
theorem sound_kernel0 (c : Dev nD) (E : Set ℕ) (i : grid0.Coords)
    (arg1 : Memref sig .tc .vmem S2000x64 .f32) (harg1 : arg1.IsWhole) (arg2 : Memref sig .tc .vmem S64x64 .f32) (harg2 : arg2.IsWhole)
    (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t` the
    left factor's buffer at its row tile, the weight matrix's at the matrix, the result's at the product of the two;
    the invariant the class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves in the left factor's buffer: its row tile. -/
theorem after0_0 (c : Dev nD) (t : Fin cfg0.N) : (dat0 V c).after 0 t = iblk0 V c 0 t := by dsimp only [dat0]
/-- What the body leaves in the weight matrix's buffer: the matrix. -/
theorem after0_1 (c : Dev nD) (t : Fin cfg0.N) : (dat0 V c).after 1 t = iblk0 V c 1 t := by dsimp only [dat0]
/-- What the body leaves in the result's buffer: the product of the row tile with the weight matrix. -/
theorem after0_2 (c : Dev nD) (t : Fin cfg0.N) : (dat0 V c).after 2 t = out0_2 (iblk0 V c 0 t) (iblk0 V c 1 t) := by dsimp only [dat0]

/-- The left factor's staging buffer holds its row tile at every point. -/
theorem before0_0 (c : Dev nD) (t : Fin cfg0.N) (d) : (dat0 V c).before 0 t d = iblk0 V c 0 t :=
  before0_0_of V (dat0 V c) (A_eq0 V c 0) (after0_0 V c) t d
/-- The weight matrix's staging buffer holds the matrix at every point, fetched there or not. -/
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`: the invariant, the core's debts, and each window's current staging
    buffer at what it holds then. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIR2.lean ====
/- Region 2 of the program, class A: a row tile of the column-wise normalisation of a [100000,64] matrix followed by the positive part, 50 tiles of 2000 rows. -/
import proofs.«122563_j12137577578919_1_alg».proof.Proof.Gen.KernelIdeal.Launch
import proofs.«122563_j12137577578919_1_alg».proof.Proof.Gen.KernelIdeal.Skeleton
import proofs.«122563_j12137577578919_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it: for window 0 the `t`-th tile of
    2000 rows of the matrix, for windows 1 to 4 the [1,64] rows of column means, variances, scales and shifts, for
    window 5 the `t`-th tile of the result. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffer of the matrix holds its row tile at every point, for any proof data whose array is the entry
    contents and whose body leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the per-column mean holds the whole [1,64] row at every point, although it is fetched at
    the first point only: its block index never moves, so what was fetched there is still the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the per-column variance holds the whole [1,64] row at every point, fetched at the first
    point only: the block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the per-column scale holds the whole [1,64] row at every point, fetched at the first
    point only: the block index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The staging buffer of the per-column shift holds the whole [1,64] row at every point, fetched at the first
    point only: the block index never moves. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole [2000,64] tile. -/
abbrev r2_0 : Rect S2000x64 := Rect.unit (s := S2000x64) ![0, 0] S2000x64.size inb_S2000x64_S2000x64_0_0
/-- The whole [1,64] row. -/
abbrev r2_1 : Rect S1x64 := Rect.unit (s := S1x64) ![0, 0] S1x64.size inb_S1x64_S1x64_0_0

/-! ## What the body leaves in each output window's buffer -/

/-- The result tile after the body: with tile `x0`, means `x1`, variances `x2`, scales `x3`, shifts `x4`, the positive
    part of `x3 · ((x0 − x1) · (x2 + ε)^(−1/2)) + x4`, the rows broadcast down the tile, stored over the whole tile in
    one piece. -/
def out2_5 (x0 : Vec F S2000x64 .f32) (x1 : Vec F S1x64 .f32) (x2 : Vec F S1x64 .f32) (x3 : Vec F S1x64 .f32) (x4 : Vec F S1x64 .f32) : Vec F S2000x64 .f32 :=
  View.canon [⟨r2_0, k2_pay1 (View.ld x0 r2_0) (View.ld x1 r2_1) (View.ld x2 r2_1) (View.ld x3 r2_1) (View.ld x4 r2_1)⟩]

/-- The one store into it is of the whole tile, so it covers it. -/
theorem cover2_5 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-! ## The body's triple -/

set_option maxHeartbeats 1000000 in
/-- The kernel body on whole staging buffers, the inputs' reading `x0` to `x4` and the output's anything, runs to the
    continuation holding the inputs' as they were and the output's at the normalised, scaled, shifted tile cut at zero
    from below, `out2_5 x0 x1 x2 x3 x4`. -/
theorem sound_kernel2 (c : Dev nD) (E : Set ℕ) (i : grid2.Coords)
    (arg1 : Memref sig .tc .vmem S2000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region on core `c`: the arrays as the region finds them; after the body at point `t` each
    input's buffer at its block (the row tile; the rows of means, variances, scales, shifts) and the result's at the
    positive part of scale · ((tile − mean) · (variance + ε)^(−1/2)) + shift; the invariant the class's (the scoped rest
    and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves in the matrix's buffer: its row tile. -/
theorem after2_0 (c : Dev nD) (t : Fin cfg2.N) : (dat2 V c).after 0 t = iblk2 V c 0 t := by dsimp only [dat2]
/-- What the body leaves in the mean's buffer: the row of means. -/
theorem after2_1 (c : Dev nD) (t : Fin cfg2.N) : (dat2 V c).after 1 t = iblk2 V c 1 t := by dsimp only [dat2]
/-- What the body leaves in the variance's buffer: the row of variances. -/
theorem after2_2 (c : Dev nD) (t : Fin cfg2.N) : (dat2 V c).after 2 t = iblk2 V c 2 t := by dsimp only [dat2]
/-- What the body leaves in the scale's buffer: the row of scales. -/
theorem after2_3 (c : Dev nD) (t : Fin cfg2.N) : (dat2 V c).after 3 t = iblk2 V c 3 t := by dsimp only [dat2]
/-- What the body leaves in the shift's buffer: the row of shifts. -/
theorem after2_4 (c : Dev nD) (t : Fin cfg2.N) : (dat2 V c).after 4 t = iblk2 V c 4 t := by dsimp only [dat2]
/-- What the body leaves in the result's buffer: the normalised, scaled and shifted tile, cut at zero from below. -/
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- The matrix's staging buffer holds its row tile at every point. -/
theorem before2_0 (c : Dev nD) (t : Fin cfg2.N) (d) : (dat2 V c).before 0 t d = iblk2 V c 0 t :=
  before2_0_of V (dat2 V c) (A_eq2 V c 0) (after2_0 V c) t d
/-- The mean's staging buffer holds the row of means at every point, fetched there or not. -/
theorem before2_1 (c : Dev nD) (t : Fin cfg2.N) (d) : (dat2 V c).before 1 t d = iblk2 V c 1 t :=
  before2_1_of V (dat2 V c) (A_eq2 V c 1) (after2_1 V c) t d
/-- The variance's staging buffer holds the row of variances at every point, fetched there or not. -/
theorem before2_2 (c : Dev nD) (t : Fin cfg2.N) (d) : (dat2 V c).before 2 t d = iblk2 V c 2 t :=
  before2_2_of V (dat2 V c) (A_eq2 V c 2) (after2_2 V c) t d
/-- The scale's staging buffer holds the row of scales at every point, fetched there or not. -/
theorem before2_3 (c : Dev nD) (t : Fin cfg2.N) (d) : (dat2 V c).before 3 t d = iblk2 V c 3 t :=
  before2_3_of V (dat2 V c) (A_eq2 V c 3) (after2_3 V c) t d
/-- The shift's staging buffer holds the row of shifts at every point, fetched there or not. -/
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging
    buffer at what it holds then. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns: the same, each buffer at what the body leaves in it. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIR3.lean ====
/- Region 3 of the program, class A: a row tile of the product of a [100000,64] matrix with a [64,2] weight matrix, 50 tiles of 2000 rows. -/
import proofs.«122563_j12137577578919_1_alg».proof.Proof.Gen.KernelIdeal.Launch
import proofs.«122563_j12137577578919_1_alg».proof.Proof.Gen.KernelIdeal.Skeleton
import proofs.«122563_j12137577578919_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it: for window 0 the `t`-th tile of
    2000 rows of the left factor, for window 1 the whole weight matrix, for window 2 the `t`-th tile of the result. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of the left factor holds its row tile at every point, for any proof data whose array is the
    entry contents and whose body leaves the tile in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of the weight matrix holds the whole matrix at every point, although it is fetched at the
    first point only: its block index never moves, so what was fetched there is still the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole [2000,64] tile. -/
abbrev r3_0 : Rect S2000x64 := Rect.unit (s := S2000x64) ![0, 0] S2000x64.size inb_S2000x64_S2000x64_0_0
/-- The whole [64,2] weight matrix. -/
abbrev r3_1 : Rect S64x2 := Rect.unit (s := S64x2) ![0, 0] S64x2.size inb_S64x2_S64x2_0_0
/-- The whole [2000,2] tile. -/
abbrev r3_2 : Rect S2000x2 := Rect.unit (s := S2000x2) ![0, 0] S2000x2.size inb_S2000x2_S2000x2_0_0

/-! ## What the body leaves in each output window's buffer -/

/-- The result tile after the body: the product of the left factor's tile `x0` with the weight matrix `x1`, stored
    over the whole tile in one piece. -/
def out3_2 (x0 : Vec F S2000x64 .f32) (x1 : Vec F S64x2 .f32) : Vec F S2000x2 .f32 :=
  View.canon [⟨r3_2, k3_pay1 (View.ld x0 r3_0) (View.ld x1 r3_1)⟩]

/-- The one store into it is of the whole tile, so it covers it. -/
theorem cover3_2 (p0 : Vec F S2000x2 .f32) (y : S2000x2.Idx) :
    ∃ pc ∈ ([⟨r3_2, p0⟩] : List (View.Piece (Elt F) S2000x2 .f32)), y ∈ pc.1.set :=
  View.cover_of_tiled [⟨r3_2, p0⟩] S2000x2.size (by rfl) y

/-! ## The body's triple -/

set_option maxHeartbeats 1000000 in
/-- The kernel body on whole staging buffers, the inputs' reading `x0` and `x1` and the output's anything, runs to
    the continuation holding the inputs' as they were and the output's at the product tile `out3_2 x0 x1`. -/
theorem sound_kernel3 (c : Dev nD) (E : Set ℕ) (i : grid3.Coords)
    (arg1 : Memref sig .tc .vmem S2000x64 .f32) (harg1 : arg1.IsWhole)
    (arg2 : Memref sig .tc .vmem S64x2 .f32) (harg2 : arg2.IsWhole)
    (arg3 : Memref sig .tc .vmem S2000x2 .f32) (harg3 : arg3.IsWhole)
    (x0 : Vec F S2000x64 .f32) (x1 : Vec F S64x2 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region on core `c`: the arrays as the region finds them; after the body at point `t` the
    left factor's buffer at its row tile, the weight matrix's at the matrix, the result's at the product of the two;
    the invariant the class's (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves in the left factor's buffer: its row tile. -/
theorem after3_0 (c : Dev nD) (t : Fin cfg3.N) : (dat3 V c).after 0 t = iblk3 V c 0 t := by dsimp only [dat3]
/-- What the body leaves in the weight matrix's buffer: the matrix. -/
theorem after3_1 (c : Dev nD) (t : Fin cfg3.N) : (dat3 V c).after 1 t = iblk3 V c 1 t := by dsimp only [dat3]
/-- What the body leaves in the result's buffer: the product of the row tile with the weight matrix. -/
theorem after3_2 (c : Dev nD) (t : Fin cfg3.N) : (dat3 V c).after 2 t = out3_2 (iblk3 V c 0 t) (iblk3 V c 1 t) := by dsimp only [dat3]

/-- The left factor's staging buffer holds its row tile at every point. -/
theorem before3_0 (c : Dev nD) (t : Fin cfg3.N) (d) : (dat3 V c).before 0 t d = iblk3 V c 0 t :=
  before3_0_of V (dat3 V c) (A_eq3 V c 0) (after3_0 V c) t d
/-- The weight matrix's staging buffer holds the matrix at every point, fetched there or not. -/
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, the core's debts, and each window's current staging
    buffer at what it holds then. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it returns: the same, each buffer at what the body leaves in it. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIR5.lean ====
/- Region 5 of the program, class A: a row tile of the column-wise normalisation of a [100000,2] matrix, passed through the logistic function (first result) and through the row-wise softmax (second result), 50 tiles of 2000 rows. -/
import proofs.«122563_j12137577578919_1_alg».proof.Proof.Gen.KernelIdeal.Launch
import proofs.«122563_j12137577578919_1_alg».proof.Proof.Gen.KernelIdeal.Skeleton
import proofs.«122563_j12137577578919_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's half is stated at
variable (V : (c : Dev nD) → (b : Ref sig .tc) → Buf (Elt F) ((c : Thread nD τ).loc b))

/-! ## The windows' blocks -/

/-- Window `w`'s block at point `t`, read off its array as the region finds it: for window 0 the `t`-th tile of
    2000 rows of the matrix, for windows 1 to 4 the [1,2] rows of column means, variances, scales and shifts, for
    windows 5 and 6 the `t`-th tiles of the two results. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The staging buffer of the matrix holds its row tile at every point, for any proof data whose array is the entry
    contents and whose body leaves the tile in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the per-column mean holds the whole [1,2] row at every point, although it is fetched at
    the first point only: its block index never moves, so what was fetched there is still the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the per-column variance holds the whole [1,2] row at every point, fetched at the first
    point only: the block index never moves. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the per-column scale holds the whole [1,2] row at every point, fetched at the first
    point only: the block index never moves. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The staging buffer of the per-column shift holds the whole [1,2] row at every point, fetched at the first
    point only: the block index never moves. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole [2000,2] tile. -/
abbrev r5_0 : Rect S2000x2 := Rect.unit (s := S2000x2) ![0, 0] S2000x2.size inb_S2000x2_S2000x2_0_0
/-- The whole [1,2] row. -/
abbrev r5_1 : Rect S1x2 := Rect.unit (s := S1x2) ![0, 0] S1x2.size inb_S1x2_S1x2_0_0

/-! ## What the body leaves in each output window's buffer -/

/-- The first result tile after the body: with tile `x0`, means `x1`, variances `x2`, scales `x3`, shifts `x4` and
    z = `x3 · ((x0 − x1) · (x2 + ε)^(−1/2)) + x4`, the logistic function of z entry by entry, stored over the whole
    tile in one piece. -/
def out5_5 (x0 : Vec F S2000x2 .f32) (x1 : Vec F S1x2 .f32) (x2 : Vec F S1x2 .f32) (x3 : Vec F S1x2 .f32) (x4 : Vec F S1x2 .f32) : Vec F S2000x2 .f32 :=
  View.canon [⟨r5_0, k5_pay2 (View.ld x0 r5_0) (View.ld x1 r5_1) (View.ld x2 r5_1) (View.ld x3 r5_1) (View.ld x4 r5_1)⟩]

/-- The one store into it is of the whole tile, so it covers it. -/
theorem cover5_5 (p0 : Vec F S2000x2 .f32) (y : S2000x2.Idx) :
    ∃ pc ∈ ([⟨r5_0, p0⟩] : List (View.Piece (Elt F) S2000x2 .f32)), y ∈ pc.1.set :=
  View.cover_of_tiled [⟨r5_0, p0⟩] S2000x2.size (by rfl) y

/-- The second result tile after the body: with the same z, in each row exp(z − row maximum) divided by its sum
    over the row (the row-wise softmax), stored over the whole tile in one piece. -/
def out5_6 (x0 : Vec F S2000x2 .f32) (x1 : Vec F S1x2 .f32) (x2 : Vec F S1x2 .f32) (x3 : Vec F S1x2 .f32) (x4 : Vec F S1x2 .f32) : Vec F S2000x2 .f32 :=
  View.canon [⟨r5_0, k5_pay3 (View.ld x0 r5_0) (View.ld x1 r5_1) (View.ld x2 r5_1) (View.ld x3 r5_1) (View.ld x4 r5_1)⟩]

/-- The one store into it is of the whole tile, so it covers it. -/
theorem cover5_6 (p0 : Vec F S2000x2 .f32) (y : S2000x2.Idx) :
    ∃ pc ∈ ([⟨r5_0, p0⟩] : List (View.Piece (Elt F) S2000x2 .f32)), y ∈ pc.1.set :=
  View.cover_of_tiled [⟨r5_0, p0⟩] S2000x2.size (by rfl) y

/-! ## The body's triple -/

set_option maxHeartbeats 1000000 in
/-- The kernel body on whole staging buffers, the inputs' reading `x0` to `x4` and the two outputs' anything, runs to
    the continuation holding the inputs' as they were, the first output's at the logistic of the normalised tile
    `out5_5 x0 x1 x2 x3 x4` and the second's at its row-wise softmax `out5_6 x0 x1 x2 x3 x4`. -/
theorem sound_kernel5 (c : Dev nD) (E : Set ℕ) (i : grid5.Coords)
    (arg1 : Memref sig .tc .vmem S2000x2 .f32) (harg1 : arg1.IsWhole)
    (arg2 : Memref sig .tc .vmem S1x2 .f32) (harg2 : arg2.IsWhole)
    (arg3 : Memref sig .tc .vmem S1x2 .f32) (harg3 : arg3.IsWhole)
    (arg4 : Memref sig .tc .vmem S1x2 .f32) (harg4 : arg4.IsWhole)
    (arg5 : Memref sig .tc .vmem S1x2 .f32) (harg5 : arg5.IsWhole)
    (arg6 : Memref sig .tc .vmem S2000x2 .f32) (harg6 : arg6.IsWhole)
    (arg7 : Memref sig .tc .vmem S2000x2 .f32) (harg7 : arg7.IsWhole)
    (x0 : Vec F S2000x2 .f32) (x1 : Vec F S1x2 .f32) (x2 : Vec F S1x2 .f32) (x3 : Vec F S1x2 .f32) (x4 : Vec F S1x2 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out5_5 x0 x1 x2 x3 x4)
            ∗ owns (c : Thread nD τ) arg7 fullShare (out5_6 x0 x1 x2 x3 x4)) -∗ K ⟨⟩))
      ⊢ wp frame (wpE (defs₀ (F := F)) Variants.none c none) E (cc5__bn_heads_kernel i arg1 harg1 arg2 harg2 arg3 harg3 arg4 harg4 arg5 harg5 arg6 harg6 arg7 harg7) K := by
  simp only [cc5__bn_heads_kernel_eq_skeleton]; unfold cc5__bn_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover5_5 _)
  iexists _; isplitr
  swap; · iexact H6
  ipureintro
  exact View.read_writes_eq_canon _ _ _ (cover5_6 _)

/-! ## The pipeline's proof data -/

/-- The proof data of the region on core `c`: the arrays as the region finds them; after the body at point `t` each
    input's buffer at its block (the row tile; the rows of means, variances, scales, shifts), the first result's at the
    logistic of z = scale · ((tile − mean) · (variance + ε)^(−1/2)) + shift and the second's at the row-wise softmax of
    z; the invariant the class's (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
    | ⟨6, _⟩ => out5_6 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves in the matrix's buffer: its row tile. -/
theorem after5_0 (c : Dev nD) (t : Fin cfg5.N) : (dat5 V c).after 0 t = iblk5 V c 0 t := by dsimp only [dat5]
/-- What the body leaves in the mean's buffer: the row of means. -/
theorem after5_1 (c : Dev nD) (t : Fin cfg5.N) : (dat5 V c).after 1 t = iblk5 V c 1 t := by dsimp only [dat5]
/-- What the body leaves in the variance's buffer: the row of variances. -/
theorem after5_2 (c : Dev nD) (t : Fin cfg5.N) : (dat5 V c).after 2 t = iblk5 V c 2 t := by dsimp only [dat5]
/-- What the body leaves in the scale's buffer: the row of scales. -/
theorem after5_3 (c : Dev nD) (t : Fin cfg5.N) : (dat5 V c).after 3 t = iblk5 V c 3 t := by dsimp only [dat5]
/-- What the body leaves in the shift's buffer: the row of shifts. -/
theorem after5_4 (c : Dev nD) (t : Fin cfg5.N) : (dat5 V c).after 4 t = iblk5 V c 4 t := by dsimp only [dat5]
/-- What the body leaves in the first result's buffer: the logistic of the normalised, scaled and shifted tile. -/
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]
/-- What the body leaves in the second result's buffer: the row-wise softmax of the normalised, scaled and shifted tile. -/
theorem after5_6 (c : Dev nD) (t : Fin cfg5.N) : (dat5 V c).after 6 t = out5_6 (iblk5 V c 0 t) (iblk5 V c 1 t) (iblk5 V c 2 t) (iblk5 V c 3 t) (iblk5 V c 4 t) := by dsimp only [dat5]

/-- The matrix's staging buffer holds its row tile at every point. -/
theorem before5_0 (c : Dev nD) (t : Fin cfg5.N) (d) : (dat5 V c).before 0 t d = iblk5 V c 0 t :=
  before5_0_of V (dat5 V c) (A_eq5 V c 0) (after5_0 V c) t d
/-- The mean's staging buffer holds the row of means at every point, fetched there or not. -/
theorem before5_1 (c : Dev nD) (t : Fin cfg5.N) (d) : (dat5 V c).before 1 t d = iblk5 V c 1 t :=
  before5_1_of V (dat5 V c) (A_eq5 V c 1) (after5_1 V c) t d
/-- The variance's staging buffer holds the row of variances at every point, fetched there or not. -/
theorem before5_2 (c : Dev nD) (t : Fin cfg5.N) (d) : (dat5 V c).before 2 t d = iblk5 V c 2 t :=
  before5_2_of V (dat5 V c) (A_eq5 V c 2) (after5_2 V c) t d
/-- The scale's staging buffer holds the row of scales at every point, fetched there or not. -/
theorem before5_3 (c : Dev nD) (t : Fin cfg5.N) (d) : (dat5 V c).before 3 t d = iblk5 V c 3 t :=
  before5_3_of V (dat5 V c) (A_eq5 V c 3) (after5_3 V c) t d
/-- The shift's staging buffer holds the row of shifts at every point, fetched there or not. -/
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debts, and each window's current staging
    buffer at what it holds then. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- What it returns: the same, each buffer at what the body leaves in it. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KIInv.lean ====
import proofs.«122563_j12137577578919_1_alg».proof.Proof.Gen.KernelIdeal.Launch
import proofs.«122563_j12137577578919_1_alg».proof.Proof.Gen.KernelIdeal.Skeleton
import proofs.«122563_j12137577578919_1_alg».proof.Proof.Gen.KernelIdeal.Points
import proofs.«122563_j12137577578919_1_alg».proof.Proof.KIR0
import proofs.«122563_j12137577578919_1_alg».proof.Proof.KIR2
import proofs.«122563_j12137577578919_1_alg».proof.Proof.KIR3
import proofs.«122563_j12137577578919_1_alg».proof.Proof.KIR5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! For the four regions whose kernels touch nothing but their windows' staging buffers, the invariant between grid points
is the plain one: the scoped buffers no window stages and the generator register, both untouched. It is made from those
two on entry and gives them back on exit. -/
section
variable (V : (c : Dev nD) → (b : Ref sig .tc) → Buf (Elt F) ((c : Thread nD τ).loc b))

/-- Region 0's invariant at the first point is made from the generator register and the scoped buffers, -/
theorem hin0 (c : Dev nD) : iprop((∃ r, prngReg c r) ∗ Pipeline.scopedRest (Ix := Unit) (Name := ℕ) (U := UR sig nD τ) (Lvl := ℕ) (Val := Elt F) spec0 c) ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp
/-- and at the last point gives them back. -/
theorem hout0 (c : Dev nD) : ((dat0 V c).Φ (Fin.last cfg0.N) : sProp 𝕄) ⊢ iprop((∃ r, prngReg c r) ∗ Pipeline.scopedRest (Ix := Unit) (Name := ℕ) (U := UR sig nD τ) (Lvl := ℕ) (Val := Elt F) spec0 c) := by
  rw [show (dat0 V c).Φ (Fin.last _) = Pipeline.ΦA spec0 c from rfl]; unfold Pipeline.ΦA
  iintro ⟨Hr, Hp⟩
  isplitl [Hp]; · iexact Hp
  iexact Hr

/-- Region 2's invariant at the first point is made from the generator register and the scoped buffers, -/
theorem hin2 (c : Dev nD) : iprop((∃ r, prngReg c r) ∗ Pipeline.scopedRest (Ix := Unit) (Name := ℕ) (U := UR sig nD τ) (Lvl := ℕ) (Val := Elt F) spec2 c) ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp
/-- and at the last point gives them back. -/
theorem hout2 (c : Dev nD) : ((dat2 V c).Φ (Fin.last cfg2.N) : sProp 𝕄) ⊢ iprop((∃ r, prngReg c r) ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

/-- Region 3's invariant at the first point is made from the generator register and the scoped buffers, -/
theorem hin3 (c : Dev nD) : iprop((∃ r, prngReg c r) ∗ Pipeline.scopedRest (Ix := Unit) (Name := ℕ) (U := UR sig nD τ) (Lvl := ℕ) (Val := Elt F) spec3 c) ⊢ ((dat3 V c).Φ 0 : sProp 𝕄) := by
  rw [show (dat3 V c).Φ 0 = Pipeline.ΦA spec3 c from rfl]; unfold Pipeline.ΦA
  iintro ⟨Hp, Hr⟩
  isplitl [Hr]; · iexact Hr
  iexact Hp
/-- and at the last point gives them back. -/
theorem hout3 (c : Dev nD) : ((dat3 V c).Φ (Fin.last cfg3.N) : sProp 𝕄) ⊢ iprop((∃ r, prngReg c r) ∗ Pipeline.scopedRest (Ix := Unit) (Name := ℕ) (U := UR sig nD τ) (Lvl := ℕ) (Val := Elt F) spec3 c) := by
  rw [show (dat3 V c).Φ (Fin.last _) = Pipeline.ΦA spec3 c from rfl]; unfold Pipeline.ΦA
  iintro ⟨Hr, Hp⟩
  isplitl [Hp]; · iexact Hp
  iexact Hr

/-- Region 5's invariant at the first point is made from the generator register and the scoped buffers, -/
theorem hin5 (c : Dev nD) : iprop((∃ r, prngReg c r) ∗ Pipeline.scopedRest (Ix := Unit) (Name := ℕ) (U := UR sig nD τ) (Lvl := ℕ) (Val := Elt F) spec5 c) ⊢ ((dat5 V c).Φ 0 : sProp 𝕄) := by
  rw [show (dat5 V c).Φ 0 = Pipeline.ΦA spec5 c from rfl]; unfold Pipeline.ΦA
  iintro ⟨Hp, Hr⟩
  isplitl [Hr]; · iexact Hr
  iexact Hp
/-- and at the last point gives them back. -/
theorem hout5 (c : Dev nD) : ((dat5 V c).Φ (Fin.last cfg5.N) : sProp 𝕄) ⊢ iprop((∃ r, prngReg c r) ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end

end Cert.KernelIdeal.Hand

end
-- ==== Proof.KIR1.lean ====
/-
  Region 1 of the idealized program: the batch statistics of a [100000, 64] array, computed tile by tile.

  The grid has 50 points; point t sees rows 2000·t … 2000·t + 1999 of the array (one [2000, 64] tile). Two [1, 64]
  accumulators live beside the pipeline's windows and are carried from point to point: after k tiles the first holds,
  per column, the sum of the first k tiles' column sums, and the second the sum of the first k tiles' column sums of
  squares — each built as ((0 + s₀) + s₁) + … in tile order. At the last point the mean block is the first
  accumulator divided by 100000 and the variance block is the second accumulator divided by 100000 less the square of
  the mean. The two output windows are written at that last point only and are idle before it.

  Stated here, generic in the float instance: the accumulators after k tiles (acc1_0, acc1_1), the two result blocks
  (fin1_1, fin1_2), the body's triple in each of its three control cases, the pipeline's proof data (dat1), its body
  obligation, and the two entailments between the invariant and what the region is entered and left with.
-/
import proofs.«122563_j12137577578919_1_alg».proof.Proof.Gen.KernelIdeal.Launch
import proofs.«122563_j12137577578919_1_alg».proof.Proof.Gen.KernelIdeal.Skeleton
import proofs.«122563_j12137577578919_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the column sums and column sums of squares of a [100000, 64] array, accumulated over its 50 row
tiles of 2000 rows, and from them the columns' mean and variance -/

/-- The first conditional of the body holds at the first grid point only. -/
abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

/-- The second conditional of the body holds at the last grid point only. -/
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

/-- The zero offsets of a rank-2 rectangle, as a constant function. -/
theorem hz1 : (![0, 0] : Fin 2 → Nat) = fun _ => 0 := funext fun a => by fin_cases a <;> rfl

/-- A buffer whose last store went through its whole rectangle reads that store's payload, whatever it held and
    whatever was stored before. -/
theorem read_writes_unit1 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-! ## The body's triple, one per control case -/

set_option maxHeartbeats 1000000 in
/-- FIRST POINT. The two accumulators, holding anything, are zeroed; then the tile's column sums are added to the
    first and the column sums of its squares to the second. The tile is left as it was; the output windows are not
    touched. -/
theorem sound_kernel1_Z (c : Dev nD) (E : Set ℕ) (i : grid1.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : cond1_0 i) (hc1 : ¬cond1_1 i)
    (x0 : Vec F S2000x64 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k1_pay4 x0 (k1_pay1 (F := F)))
            ∗ owns (c : Thread nD τ) arg5 fullShare (k1_pay5 x0 (k1_pay2 (F := F)))) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d4, %f4, -, H4⟩, ⟨%d5, %f5, -, H5⟩, Hk⟩
  subst hf0
  sl_exec (disch := first | exact hc0 | exact hc1)
  sl_step
  iapply Hk
  isplitl [H0]
  · iexists f0; isplitr; · ipureintro; rfl
    iexact H0
  isplitl [H4]
  · iexists _; isplitr
    swap; · iexact H4
    ipureintro
    rw [read_writes_unit1 _ _ hz1]
    sl_unfold_words
    rw [View.readCov_unit_zero (S := S1x64) _ hz1]
    simp only [View.readAt_eq_ld, View.ld_unit_zero (S := S2000x64) hz1]
  · iexists _; isplitr
    swap; · iexact H5
    ipureintro
    rw [read_writes_unit1 _ _ hz1]
    sl_unfold_words
    rw [View.readCov_unit_zero (S := S1x64) _ hz1]
    simp only [View.readAt_eq_ld, View.ld_unit_zero (S := S2000x64) hz1]

set_option maxHeartbeats 1000000 in
/-- A MIDDLE POINT. The tile's column sums are added to the first accumulator and the column sums of its squares to
    the second. The tile is left as it was; the output windows are not touched. -/
theorem sound_kernel1_M (c : Dev nD) (E : Set ℕ) (i : grid1.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : ¬cond1_1 i)
    (x0 : Vec F S2000x64 .f32) (xs0 xs1 : Vec F S1x64 .f32) (K : PUnit → sProp 𝕄) :
    iprop(owns (c : Thread nD τ) arg1 fullShare x0 ∗ owns (c : Thread nD τ) arg4 fullShare xs0 ∗ owns (c : Thread nD τ) arg5 fullShare xs1
        ∗ (iprop(owns (c : Thread nD τ) arg1 fullShare x0 ∗ owns (c : Thread nD τ) arg4 fullShare (k1_pay4 x0 xs0)
            ∗ owns (c : Thread nD τ) arg5 fullShare (k1_pay5 x0 xs1)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H4]
  · iexists _; isplitr
    swap; · iexact H4
    ipureintro
    rw [read_writes_unit1 _ _ hz1]
    simp only [View.readAt_eq_ld, View.ld_unit_zero (S := S2000x64) hz1, View.ld_unit_zero (S := S1x64) hz1]
  · iexists _; isplitr
    swap; · iexact H5
    ipureintro
    rw [read_writes_unit1 _ _ hz1]
    simp only [View.readAt_eq_ld, View.ld_unit_zero (S := S2000x64) hz1, View.ld_unit_zero (S := S1x64) hz1]

set_option maxHeartbeats 1000000 in
/-- LAST POINT. The accumulators are advanced as at a middle point; then the mean window receives the first
    accumulator divided by the row count, and the variance window the second accumulator divided by the row count less
    the square of that mean. The output windows may hold anything before. -/
theorem sound_kernel1_L (c : Dev nD) (E : Set ℕ) (i : grid1.Coords)
    (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : cond1_1 i)
    (x0 : Vec F S2000x64 .f32) (xs0 xs1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0
            ∗ owns (c : Thread nD τ) arg2 fullShare (k1_pay6 (k1_pay4 x0 xs0))
            ∗ owns (c : Thread nD τ) arg3 fullShare (k1_pay7 (k1_pay4 x0 xs0) (k1_pay5 x0 xs1))
            ∗ owns (c : Thread nD τ) arg4 fullShare (k1_pay4 x0 xs0)
            ∗ owns (c : Thread nD τ) arg5 fullShare (k1_pay5 x0 xs1)) -∗ K ⟨⟩))
      ⊢ wp frame (wpE (defs₀ (F := F)) Variants.none c none) E (cc1__bn_stats_kernel i arg1 harg1 arg2 harg2 arg3 harg3 arg4 harg4 arg5 harg5) K := by
  simp only [cc1__bn_stats_kernel_eq_skeleton]; unfold cc1__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H2]
  · iexists _; isplitr
    swap; · iexact H2
    ipureintro
    rw [read_writes_unit1 _ _ hz1]
    sl_unfold_words
    simp only [View.readCov_unit_zero (S := S1x64) _ hz1, View.readAt_eq_ld, View.ld_unit_zero (S := S2000x64) hz1, View.ld_unit_zero (S := S1x64) hz1]
  isplitl [H3]
  · iexists _; isplitr
    swap; · iexact H3
    ipureintro
    rw [read_writes_unit1 _ _ hz1]
    sl_unfold_words
    simp only [View.readCov_unit_zero (S := S1x64) _ hz1, View.readAt_eq_ld, View.ld_unit_zero (S := S2000x64) hz1, View.ld_unit_zero (S := S1x64) hz1]
  isplitl [H4]
  · iexists _; isplitr
    swap; · iexact H4
    ipureintro
    sl_unfold_words
    rw [read_writes_unit1 _ _ hz1]
    simp only [View.readAt_eq_ld, View.ld_unit_zero (S := S2000x64) hz1, View.ld_unit_zero (S := S1x64) hz1]
  · iexists _; isplitr
    swap; · iexact H5
    ipureintro
    sl_unfold_words
    rw [read_writes_unit1 _ _ hz1]
    simp only [View.readAt_eq_ld, View.ld_unit_zero (S := S2000x64) hz1, View.ld_unit_zero (S := S1x64) hz1]

/-! ## The tiles, the accumulators and the results -/

section Region
-- the buffer contents of the core when the region is entered
variable (V : (c : Dev nD) → (b : Ref sig .tc) → Buf (Elt F) ((c : Thread nD τ).loc b))

/-- Window `w`'s block at point `t`, read off its array as the region finds it: for window 0, rows
    2000·t … 2000·t + 1999 of the input array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its tile at every point, for any proof data whose array is the
    region-entry contents and whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The first accumulator after `k` tiles: the zero row, then for each of the first `k` tiles in order its column sums
    added on (the accumulator is the left operand of each addition). After all 50 tiles: the column sums of the array,
    in this order of addition. -/
def acc1_0 (c : Dev nD) : ℕ → Vec F S1x64 .f32
  | 0 => k1_pay1
  | k + 1 => if h : k < cfg1.N then k1_pay4 (iblk1 V c 0 ⟨k, h⟩) (acc1_0 c k) else acc1_0 c k

/-- The second accumulator after `k` tiles: the zero row, then for each of the first `k` tiles in order the column sums
    of its elementwise squares added on. After all 50 tiles: the column sums of squares of the array. -/
def acc1_1 (c : Dev nD) : ℕ → Vec F S1x64 .f32
  | 0 => k1_pay2
  | k + 1 => if h : k < cfg1.N then k1_pay5 (iblk1 V c 0 ⟨k, h⟩) (acc1_1 c k) else acc1_1 c k

theorem acc1_0_zero (c : Dev nD) : acc1_0 V c 0 = k1_pay1 := rfl
theorem acc1_1_zero (c : Dev nD) : acc1_1 V c 0 = k1_pay2 := rfl

/-- One more tile: its column sums are added to the first accumulator. -/
theorem acc1_0_succ (c : Dev nD) (k : ℕ) (h : k < cfg1.N) :
    acc1_0 V c (k + 1) = k1_pay4 (iblk1 V c 0 ⟨k, h⟩) (acc1_0 V c k) := by
  rw [acc1_0]; exact dif_pos h

/-- One more tile: the column sums of its squares are added to the second accumulator. -/
theorem acc1_1_succ (c : Dev nD) (k : ℕ) (h : k < cfg1.N) :
    acc1_1 V c (k + 1) = k1_pay5 (iblk1 V c 0 ⟨k, h⟩) (acc1_1 V c k) := by
  rw [acc1_1]; exact dif_pos h

/-- The accumulators after the body at point `t`. -/
theorem acc1_0_at (c : Dev nD) (t : Fin cfg1.N) : acc1_0 V c (t.val + 1) = k1_pay4 (iblk1 V c 0 t) (acc1_0 V c t.val) :=
  acc1_0_succ V c t.val t.isLt
theorem acc1_1_at (c : Dev nD) (t : Fin cfg1.N) : acc1_1 V c (t.val + 1) = k1_pay5 (iblk1 V c 0 t) (acc1_1 V c t.val) :=
  acc1_1_succ V c t.val t.isLt

/-- At the first point the accumulators start from the zero row. -/
theorem acc1_0_first (c : Dev nD) (t : Fin cfg1.N) (hz : t.val = 0) : acc1_0 V c (t.val + 1) = k1_pay4 (iblk1 V c 0 t) (k1_pay1 (F := F)) := by
  rw [acc1_0_at V c t]; refine congrArg _ ?_; rw [hz]; rfl
theorem acc1_1_first (c : Dev nD) (t : Fin cfg1.N) (hz : t.val = 0) : acc1_1 V c (t.val + 1) = k1_pay5 (iblk1 V c 0 t) (k1_pay2 (F := F)) := by
  rw [acc1_1_at V c t]; refine congrArg _ ?_; rw [hz]; rfl

/-- The mean block: the column sums after all 50 tiles, each divided by the row count 100000. -/
def fin1_1 (c : Dev nD) : Vec F S1x64 .f32 := k1_pay6 (acc1_0 V c 50)

/-- The variance block: the column sums of squares after all 50 tiles, each divided by the row count 100000, less the
    square of the mean. -/
def fin1_2 (c : Dev nD) : Vec F S1x64 .f32 := k1_pay7 (acc1_0 V c 50) (acc1_1 V c 50)

/-! ## The region invariant and the proof data -/

/-- The two accumulators, as whole buffers of the core. -/
abbrev sc1_0 : Memref sig .tc .vmem S1x64 .f32 := Memref.whole cc1_scratch0
abbrev sc1_1 : Memref sig .tc .vmem S1x64 .f32 := Memref.whole cc1_scratch1

/-- The invariant before the body's `n`-th run: before the first, both accumulators hold anything; afterwards the first
    holds the column sums of the first `n` tiles and the second the column sums of their squares. Beside them, untouched:
    every other scoped buffer of the core that is no staging buffer of this call, and the generator register. -/
def PhiS1 (c : Dev nD) : ℕ → sProp 𝕄
  | 0 => iprop((∃ d, owns (c : Thread nD τ) sc1_0 fullShare d) ∗ (∃ d, owns (c : Thread nD τ) sc1_1 fullShare d)
      ∗ Pipeline.scopedRestBut (Ix := Unit) (Name := ℕ) (U := UR sig nD τ) (Lvl := ℕ) (Val := Elt F) spec1 c [cc1_scratch0, cc1_scratch1]
      ∗ ∃ r, prngReg c r)
  | n + 1 => iprop(owns (c : Thread nD τ) sc1_0 fullShare (acc1_0 V c (n + 1)) ∗ owns (c : Thread nD τ) sc1_1 fullShare (acc1_1 V c (n + 1))
      ∗ Pipeline.scopedRestBut (Ix := Unit) (Name := ℕ) (U := UR sig nD τ) (Lvl := ℕ) (Val := Elt F) spec1 c [cc1_scratch0, cc1_scratch1]
      ∗ ∃ r, prngReg c r)

theorem PhiS1_zero (c : Dev nD) (n : ℕ) (hz : n = 0) :
    PhiS1 V c n = iprop((∃ d, owns (c : Thread nD τ) sc1_0 fullShare d) ∗ (∃ d, owns (c : Thread nD τ) sc1_1 fullShare d)
      ∗ Pipeline.scopedRestBut (Ix := Unit) (Name := ℕ) (U := UR sig nD τ) (Lvl := ℕ) (Val := Elt F) spec1 c [cc1_scratch0, cc1_scratch1]
      ∗ ∃ r, prngReg c r) := by
  subst hz; rfl

theorem PhiS1_pos (c : Dev nD) (n : ℕ) (hz : n ≠ 0) :
    PhiS1 V c n = iprop(owns (c : Thread nD τ) sc1_0 fullShare (acc1_0 V c n) ∗ owns (c : Thread nD τ) sc1_1 fullShare (acc1_1 V c n)
      ∗ Pipeline.scopedRestBut (Ix := Unit) (Name := ℕ) (U := UR sig nD τ) (Lvl := ℕ) (Val := Elt F) spec1 c [cc1_scratch0, cc1_scratch1]
      ∗ ∃ r, prngReg c r) := by
  cases n with
  | zero => exact absurd rfl hz
  | succ n => rfl

/-- The proof data of the pipeline on core `c`: the arrays as the region finds them; after the body at point `t` the
    input window at its tile, the mean window at the mean block and the variance window at the variance block (both
    are stored at the last point only; before it the two windows are idle and handed back as found, so what is named for
    them there is read by nothing); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => fin1_1 V c
    | ⟨2, _⟩ => fin1_2 V c
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = fin1_1 V c := by dsimp only [dat1]
theorem after1_2 (c : Dev nD) (t : Fin cfg1.N) : (dat1 V c).after 2 t = fin1_2 V c := by dsimp only [dat1]

theorem Phi1_castSucc (c : Dev nD) (t : Fin cfg1.N) : (dat1 V c).Φ t.castSucc = PhiS1 V c t.val := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d

/-! ## Where the windows are idle -/

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input window holds its tile. At the first point the accumulators are taken at anything
    and handed back holding the first tile's sums; at a later point they are taken holding the sums of the tiles before
    and handed back with this tile's added. Before the last point the two output windows are idle and pass through as
    found; at the last point they are taken at anything and handed back at the mean and the variance block. The rest
    of the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) from rfl, PhiS1_pos V c (t.val + 1) (Nat.succ_ne_zero _), Phi1_castSucc]
  have hN : t.val < 50 := lt_of_lt_of_eq t.isLt (show cfg1.N = 50 from N_1)
  rw [show (dat1 V c).leavesExact 0 t = owns (c : Thread nD τ) (st1_0 t) fullShare ((dat1 V c).after 0 t) from by
    unfold Dat.leavesExact; rw [liveAt1_0 t], after1_0]
  by_cases h1 : t.val % 50 = 49
  · -- the last point
    have h0 : ¬t.val % 50 = 0 := by omega
    have hz : t.val ≠ 0 := by omega
    have hc0 : ¬cond1_0 (grid1.coords t) := fun h => h0 ((hcond1_0 t).mp h)
    have hc1 : cond1_1 (grid1.coords t) := (hcond1_1 t).mpr h1
    rw [show (dat1 V c).leavesExact 1 t = owns (c : Thread nD τ) (st1_1 t) fullShare ((dat1 V c).after 1 t) from by
      unfold Dat.leavesExact; rw [liveAt1_1 t hc1], after1_1]
    rw [show (dat1 V c).leavesExact 2 t = owns (c : Thread nD τ) (st1_2 t) fullShare ((dat1 V c).after 2 t) from by
      unfold Dat.leavesExact; rw [liveAt1_2 t hc1], after1_2]
    have e0 : acc1_0 V c 50 = acc1_0 V c (t.val + 1) := by rw [show t.val = 49 from by omega]
    have e1 : acc1_1 V c 50 = acc1_1 V c (t.val + 1) := by rw [show t.val = 49 from by omega]
    unfold fin1_1 fin1_2
    rw [e0, e1, acc1_0_at V c t, acc1_1_at V c t, PhiS1_pos V c _ hz]
    iintro ⟨⟨HS0, HS1, HR, Hg⟩, Ho, ⟨%d0, H0⟩, ⟨%d1, H1⟩, ⟨%d2, H2⟩⟩
    iapply (sound_kernel1_L c Set.univ (grid1.coords t) _ _ _ _ _ _ _ _ _ _ hc0 hc1 (iblk1 V c 0 t) (acc1_0 V c t.val) (acc1_1 V c t.val) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 1 t (idleAt1_1 t hc1) (noFlush1_1 t hc1)]
    rw [Dat.leavesExact_idle (dat1 V c) 2 t (idleAt1_2 t hc1) (noFlush1_2 t hc1)]
    by_cases h0 : t.val % 50 = 0
    · -- the first point
      have hz : t.val = 0 := by omega
      have hc0 : cond1_0 (grid1.coords t) := (hcond1_0 t).mpr h0
      rw [acc1_0_first V c t hz, acc1_1_first V c t hz, PhiS1_zero V c _ hz]
      iintro ⟨⟨HS0, HS1, HR, Hg⟩, Ho, ⟨%d0, H0⟩, H1, H2⟩
      iapply (sound_kernel1_Z c Set.univ (grid1.coords t) _ _ _ _ _ _ _ _ _ _ hc0 hc1 (iblk1 V c 0 t) _)
      isplitl [H0]; · iexact H0
      isplitl [HS0]; · iexact HS0
      isplitl [HS1]; · iexact HS1
      iintro ⟨H0, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2
    · -- a middle point
      have hz : t.val ≠ 0 := by omega
      have hc0 : ¬cond1_0 (grid1.coords t) := fun h => h0 ((hcond1_0 t).mp h)
      rw [acc1_0_at V c t, acc1_1_at V c t, PhiS1_pos V c _ hz]
      iintro ⟨⟨HS0, HS1, HR, Hg⟩, Ho, ⟨%d0, H0⟩, H1, H2⟩
      iapply (sound_kernel1_M c Set.univ (grid1.coords t) _ _ _ _ _ _ _ _ _ _ hc0 hc1 (iblk1 V c 0 t) (acc1_0 V c t.val) (acc1_1 V c t.val) _)
      isplitl [H0]; · iexact H0
      isplitl [HS0]; · iexact HS0
      isplitl [HS1]; · iexact HS1
      iintro ⟨H0, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the region is entered with — the generator register and every scoped buffer that is no staging buffer of
    this call, each at anything — is the invariant before the first point: the two accumulators are among those
    buffers. -/
theorem hin1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = PhiS1 V c 0 from rfl, PhiS1_zero V c 0 rfl, scopedRest1_split]
  simp only [sc1_0, sc1_1, owns_whole]
  iintro ⟨Hg, ⟨⟨%f0, H0⟩, ⟨%f1, H1⟩⟩, HR⟩
  isplitl [H0]; · iexists f0; iexact H0
  isplitl [H1]; · iexists f1; iexact H1
  isplitl [HR]; · iexact HR
  iexact Hg

/-- After the last point the invariant gives the same back: what the accumulators hold is forgotten. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val from rfl,
    PhiS1_pos V c _ (by rw [Fin.val_last]; have : cfg1.N = 50 := N_1; omega), scopedRest1_split]
  simp only [sc1_0, sc1_1, owns_whole]
  iintro ⟨H0, H1, HR, Hg⟩
  isplitl [Hg]; · iexact Hg
  isplitl [H0 H1]
  · isplitl [H0]; · iexists _; iexact H0
    iexists _; iexact H1
  iexact HR

end Region

end Cert.KernelIdeal.Hand

end
-- ==== Proof.KIR4.lean ====
/-
  Region 4 of the idealized program: the batch statistics of a [100000, 2] array, computed tile by tile.

  The grid has 50 points; point t sees rows 2000·t … 2000·t + 1999 of the array (one [2000, 2] tile). Two [1, 2]
  accumulators live beside the pipeline's windows and are carried from point to point: after k tiles the first holds,
  per column, the sum of the first k tiles' column sums, and the second the sum of the first k tiles' column sums of
  squares — each built as ((0 + s₀) + s₁) + … in tile order. At the last point the mean block is the first
  accumulator divided by 100000 and the variance block is the second accumulator divided by 100000 less the square of
  the mean. The two output windows are written at that last point only and are idle before it.

  Stated here, generic in the float instance: the accumulators after k tiles (acc4_0, acc4_1), the two result blocks
  (fin4_1, fin4_2), the body's triple in each of its three control cases, the pipeline's proof data (dat4), its body
  obligation, and the two entailments between the invariant and what the region is entered and left with.
-/
import proofs.«122563_j12137577578919_1_alg».proof.Proof.Gen.KernelIdeal.Launch
import proofs.«122563_j12137577578919_1_alg».proof.Proof.Gen.KernelIdeal.Skeleton
import proofs.«122563_j12137577578919_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the column sums and column sums of squares of a [100000, 2] array, accumulated over its 50 row
tiles of 2000 rows, and from them the columns' mean and variance -/

/-- The first conditional of the body holds at the first grid point only. -/
abbrev cond4_0 (i : grid4.Coords) : Prop :=
  (Scalar.cmpi .ne (Scalar.extui (Scalar.cmpi .eq (BitVec.ofNat 32 (i 0).val) 0#32)) 0#32) = 1#1
theorem hcond4_0 : ∀ t : Fin cfg4.N, cond4_0 (grid4.coords t) ↔ t.val % 50 = 0 :=
  (by decide +kernel : ∀ t : Fin grid4.N, cond4_0 (grid4.coords t) ↔ t.val % 50 = 0)

/-- The second conditional of the body holds at the last grid point only. -/
abbrev cond4_1 (i : grid4.Coords) : Prop := k4_cond2 i = 1#1
theorem hcond4_1 : ∀ t : Fin cfg4.N, cond4_1 (grid4.coords t) ↔ t.val % 50 = 49 :=
  (by decide +kernel : ∀ t : Fin grid4.N, cond4_1 (grid4.coords t) ↔ t.val % 50 = 49)

/-- The zero offsets of a rank-2 rectangle, as a constant function. -/
theorem hz4 : (![0, 0] : Fin 2 → Nat) = fun _ => 0 := funext fun a => by fin_cases a <;> rfl

/-- A buffer whose last store went through its whole rectangle reads that store's payload, whatever it held and
    whatever was stored before. -/
theorem read_writes_unit4 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

/-! ## The body's triple, one per control case -/

set_option maxHeartbeats 1000000 in
/-- FIRST POINT. The two accumulators, holding anything, are zeroed; then the tile's column sums are added to the
    first and the column sums of its squares to the second. The tile is left as it was; the output windows are not
    touched. -/
theorem sound_kernel4_Z (c : Dev nD) (E : Set ℕ) (i : grid4.Coords)
    (arg1 : Memref sig .tc .vmem S2000x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S1x2 .f32) (harg4 : arg4.IsWhole)
    (arg5 : Memref sig .tc .vmem S1x2 .f32) (harg5 : arg5.IsWhole) (hc0 : cond4_0 i) (hc1 : ¬cond4_1 i)
    (x0 : Vec F S2000x2 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ (iprop(owns (c : Thread nD τ) arg1 fullShare x0 ∗ owns (c : Thread nD τ) arg4 fullShare (k4_pay4 x0 (k4_pay1 (F := F)))
            ∗ owns (c : Thread nD τ) arg5 fullShare (k4_pay5 x0 (k4_pay2 (F := F)))) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d4, %f4, -, H4⟩, ⟨%d5, %f5, -, H5⟩, Hk⟩
  subst hf0
  sl_exec (disch := first | exact hc0 | exact hc1)
  sl_step
  iapply Hk
  isplitl [H0]
  · iexists f0; isplitr; · ipureintro; rfl
    iexact H0
  isplitl [H4]
  · iexists _; isplitr
    swap; · iexact H4
    ipureintro
    rw [read_writes_unit4 _ _ hz4]
    sl_unfold_words
    rw [View.readCov_unit_zero (S := S1x2) _ hz4]
    simp only [View.readAt_eq_ld, View.ld_unit_zero (S := S2000x2) hz4]
  · iexists _; isplitr
    swap; · iexact H5
    ipureintro
    rw [read_writes_unit4 _ _ hz4]
    sl_unfold_words
    rw [View.readCov_unit_zero (S := S1x2) _ hz4]
    simp only [View.readAt_eq_ld, View.ld_unit_zero (S := S2000x2) hz4]

set_option maxHeartbeats 1000000 in
/-- A MIDDLE POINT. The tile's column sums are added to the first accumulator and the column sums of its squares to
    the second. The tile is left as it was; the output windows are not touched. -/
theorem sound_kernel4_M (c : Dev nD) (E : Set ℕ) (i : grid4.Coords)
    (arg1 : Memref sig .tc .vmem S2000x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S1x2 .f32) (harg4 : arg4.IsWhole)
    (arg5 : Memref sig .tc .vmem S1x2 .f32) (harg5 : arg5.IsWhole) (hc0 : ¬cond4_0 i) (hc1 : ¬cond4_1 i)
    (x0 : Vec F S2000x2 .f32) (xs0 xs1 : Vec F S1x2 .f32) (K : PUnit → sProp 𝕄) :
    iprop(owns (c : Thread nD τ) arg1 fullShare x0 ∗ owns (c : Thread nD τ) arg4 fullShare xs0 ∗ owns (c : Thread nD τ) arg5 fullShare xs1
        ∗ (iprop(owns (c : Thread nD τ) arg1 fullShare x0 ∗ owns (c : Thread nD τ) arg4 fullShare (k4_pay4 x0 xs0)
            ∗ owns (c : Thread nD τ) arg5 fullShare (k4_pay5 x0 xs1)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H4]
  · iexists _; isplitr
    swap; · iexact H4
    ipureintro
    rw [read_writes_unit4 _ _ hz4]
    simp only [View.readAt_eq_ld, View.ld_unit_zero (S := S2000x2) hz4, View.ld_unit_zero (S := S1x2) hz4]
  · iexists _; isplitr
    swap; · iexact H5
    ipureintro
    rw [read_writes_unit4 _ _ hz4]
    simp only [View.readAt_eq_ld, View.ld_unit_zero (S := S2000x2) hz4, View.ld_unit_zero (S := S1x2) hz4]

set_option maxHeartbeats 1000000 in
/-- LAST POINT. The accumulators are advanced as at a middle point; then the mean window receives the first
    accumulator divided by the row count, and the variance window the second accumulator divided by the row count less
    the square of that mean. The output windows may hold anything before. -/
theorem sound_kernel4_L (c : Dev nD) (E : Set ℕ) (i : grid4.Coords)
    (arg1 : Memref sig .tc .vmem S2000x2 .f32) (harg1 : arg1.IsWhole) (arg2 : Memref sig .tc .vmem S1x2 .f32) (harg2 : arg2.IsWhole)
    (arg3 : Memref sig .tc .vmem S1x2 .f32) (harg3 : arg3.IsWhole) (arg4 : Memref sig .tc .vmem S1x2 .f32) (harg4 : arg4.IsWhole)
    (arg5 : Memref sig .tc .vmem S1x2 .f32) (harg5 : arg5.IsWhole) (hc0 : ¬cond4_0 i) (hc1 : cond4_1 i)
    (x0 : Vec F S2000x2 .f32) (xs0 xs1 : Vec F S1x2 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0
            ∗ owns (c : Thread nD τ) arg2 fullShare (k4_pay6 (k4_pay4 x0 xs0))
            ∗ owns (c : Thread nD τ) arg3 fullShare (k4_pay7 (k4_pay4 x0 xs0) (k4_pay5 x0 xs1))
            ∗ owns (c : Thread nD τ) arg4 fullShare (k4_pay4 x0 xs0)
            ∗ owns (c : Thread nD τ) arg5 fullShare (k4_pay5 x0 xs1)) -∗ K ⟨⟩))
      ⊢ wp frame (wpE (defs₀ (F := F)) Variants.none c none) E (cc4__bn_stats_kernel i arg1 harg1 arg2 harg2 arg3 harg3 arg4 harg4 arg5 harg5) K := by
  simp only [cc4__bn_stats_kernel_eq_skeleton]; unfold cc4__bn_stats_kernel_skel
  unfold owns
  iintro ⟨⟨%f0, %hf0, H0⟩, ⟨%d2, %f2, -, H2⟩, ⟨%d3, %f3, -, H3⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H2]
  · iexists _; isplitr
    swap; · iexact H2
    ipureintro
    rw [read_writes_unit4 _ _ hz4]
    sl_unfold_words
    simp only [View.readCov_unit_zero (S := S1x2) _ hz4, View.readAt_eq_ld, View.ld_unit_zero (S := S2000x2) hz4, View.ld_unit_zero (S := S1x2) hz4]
  isplitl [H3]
  · iexists _; isplitr
    swap; · iexact H3
    ipureintro
    rw [read_writes_unit4 _ _ hz4]
    sl_unfold_words
    simp only [View.readCov_unit_zero (S := S1x2) _ hz4, View.readAt_eq_ld, View.ld_unit_zero (S := S2000x2) hz4, View.ld_unit_zero (S := S1x2) hz4]
  isplitl [H4]
  · iexists _; isplitr
    swap; · iexact H4
    ipureintro
    sl_unfold_words
    rw [read_writes_unit4 _ _ hz4]
    simp only [View.readAt_eq_ld, View.ld_unit_zero (S := S2000x2) hz4, View.ld_unit_zero (S := S1x2) hz4]
  · iexists _; isplitr
    swap; · iexact H5
    ipureintro
    sl_unfold_words
    rw [read_writes_unit4 _ _ hz4]
    simp only [View.readAt_eq_ld, View.ld_unit_zero (S := S2000x2) hz4, View.ld_unit_zero (S := S1x2) hz4]

/-! ## The tiles, the accumulators and the results -/

section Region
-- the buffer contents of the core when the region is entered
variable (V : (c : Dev nD) → (b : Ref sig .tc) → Buf (Elt F) ((c : Thread nD τ).loc b))

/-- Window `w`'s block at point `t`, read off its array as the region finds it: for window 0, rows
    2000·t … 2000·t + 1999 of the input array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its tile at every point, for any proof data whose array is the
    region-entry contents and whose body leaves the tile in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The first accumulator after `k` tiles: the zero row, then for each of the first `k` tiles in order its column sums
    added on (the accumulator is the left operand of each addition). After all 50 tiles: the column sums of the array,
    in this order of addition. -/
def acc4_0 (c : Dev nD) : ℕ → Vec F S1x2 .f32
  | 0 => k4_pay1
  | k + 1 => if h : k < cfg4.N then k4_pay4 (iblk4 V c 0 ⟨k, h⟩) (acc4_0 c k) else acc4_0 c k

/-- The second accumulator after `k` tiles: the zero row, then for each of the first `k` tiles in order the column sums
    of its elementwise squares added on. After all 50 tiles: the column sums of squares of the array. -/
def acc4_1 (c : Dev nD) : ℕ → Vec F S1x2 .f32
  | 0 => k4_pay2
  | k + 1 => if h : k < cfg4.N then k4_pay5 (iblk4 V c 0 ⟨k, h⟩) (acc4_1 c k) else acc4_1 c k

theorem acc4_0_zero (c : Dev nD) : acc4_0 V c 0 = k4_pay1 := rfl
theorem acc4_1_zero (c : Dev nD) : acc4_1 V c 0 = k4_pay2 := rfl

/-- One more tile: its column sums are added to the first accumulator. -/
theorem acc4_0_succ (c : Dev nD) (k : ℕ) (h : k < cfg4.N) :
    acc4_0 V c (k + 1) = k4_pay4 (iblk4 V c 0 ⟨k, h⟩) (acc4_0 V c k) := by
  rw [acc4_0]; exact dif_pos h

/-- One more tile: the column sums of its squares are added to the second accumulator. -/
theorem acc4_1_succ (c : Dev nD) (k : ℕ) (h : k < cfg4.N) :
    acc4_1 V c (k + 1) = k4_pay5 (iblk4 V c 0 ⟨k, h⟩) (acc4_1 V c k) := by
  rw [acc4_1]; exact dif_pos h

/-- The accumulators after the body at point `t`. -/
theorem acc4_0_at (c : Dev nD) (t : Fin cfg4.N) : acc4_0 V c (t.val + 1) = k4_pay4 (iblk4 V c 0 t) (acc4_0 V c t.val) :=
  acc4_0_succ V c t.val t.isLt
theorem acc4_1_at (c : Dev nD) (t : Fin cfg4.N) : acc4_1 V c (t.val + 1) = k4_pay5 (iblk4 V c 0 t) (acc4_1 V c t.val) :=
  acc4_1_succ V c t.val t.isLt

/-- At the first point the accumulators start from the zero row. -/
theorem acc4_0_first (c : Dev nD) (t : Fin cfg4.N) (hz : t.val = 0) : acc4_0 V c (t.val + 1) = k4_pay4 (iblk4 V c 0 t) (k4_pay1 (F := F)) := by
  rw [acc4_0_at V c t]; refine congrArg _ ?_; rw [hz]; rfl
theorem acc4_1_first (c : Dev nD) (t : Fin cfg4.N) (hz : t.val = 0) : acc4_1 V c (t.val + 1) = k4_pay5 (iblk4 V c 0 t) (k4_pay2 (F := F)) := by
  rw [acc4_1_at V c t]; refine congrArg _ ?_; rw [hz]; rfl

/-- The mean block: the column sums after all 50 tiles, each divided by the row count 100000. -/
def fin4_1 (c : Dev nD) : Vec F S1x2 .f32 := k4_pay6 (acc4_0 V c 50)

/-- The variance block: the column sums of squares after all 50 tiles, each divided by the row count 100000, less the
    square of the mean. -/
def fin4_2 (c : Dev nD) : Vec F S1x2 .f32 := k4_pay7 (acc4_0 V c 50) (acc4_1 V c 50)

/-! ## The region invariant and the proof data -/

/-- The two accumulators, as whole buffers of the core. -/
abbrev sc4_0 : Memref sig .tc .vmem S1x2 .f32 := Memref.whole cc4_scratch0
abbrev sc4_1 : Memref sig .tc .vmem S1x2 .f32 := Memref.whole cc4_scratch1

/-- The invariant before the body's `n`-th run: before the first, both accumulators hold anything; afterwards the first
    holds the column sums of the first `n` tiles and the second the column sums of their squares. Beside them, untouched:
    every other scoped buffer of the core that is no staging buffer of this call, and the generator register. -/
def PhiS4 (c : Dev nD) : ℕ → sProp 𝕄
  | 0 => iprop((∃ d, owns (c : Thread nD τ) sc4_0 fullShare d) ∗ (∃ d, owns (c : Thread nD τ) sc4_1 fullShare d)
      ∗ Pipeline.scopedRestBut (Ix := Unit) (Name := ℕ) (U := UR sig nD τ) (Lvl := ℕ) (Val := Elt F) spec4 c [cc4_scratch0, cc4_scratch1]
      ∗ ∃ r, prngReg c r)
  | n + 1 => iprop(owns (c : Thread nD τ) sc4_0 fullShare (acc4_0 V c (n + 1)) ∗ owns (c : Thread nD τ) sc4_1 fullShare (acc4_1 V c (n + 1))
      ∗ Pipeline.scopedRestBut (Ix := Unit) (Name := ℕ) (U := UR sig nD τ) (Lvl := ℕ) (Val := Elt F) spec4 c [cc4_scratch0, cc4_scratch1]
      ∗ ∃ r, prngReg c r)

theorem PhiS4_zero (c : Dev nD) (n : ℕ) (hz : n = 0) :
    PhiS4 V c n = iprop((∃ d, owns (c : Thread nD τ) sc4_0 fullShare d) ∗ (∃ d, owns (c : Thread nD τ) sc4_1 fullShare d)
      ∗ Pipeline.scopedRestBut (Ix := Unit) (Name := ℕ) (U := UR sig nD τ) (Lvl := ℕ) (Val := Elt F) spec4 c [cc4_scratch0, cc4_scratch1]
      ∗ ∃ r, prngReg c r) := by
  subst hz; rfl

theorem PhiS4_pos (c : Dev nD) (n : ℕ) (hz : n ≠ 0) :
    PhiS4 V c n = iprop(owns (c : Thread nD τ) sc4_0 fullShare (acc4_0 V c n) ∗ owns (c : Thread nD τ) sc4_1 fullShare (acc4_1 V c n)
      ∗ Pipeline.scopedRestBut (Ix := Unit) (Name := ℕ) (U := UR sig nD τ) (Lvl := ℕ) (Val := Elt F) spec4 c [cc4_scratch0, cc4_scratch1]
      ∗ ∃ r, prngReg c r) := by
  cases n with
  | zero => exact absurd rfl hz
  | succ n => rfl

/-- The proof data of the pipeline on core `c`: the arrays as the region finds them; after the body at point `t` the
    input window at its tile, the mean window at the mean block and the variance window at the variance block (both
    are stored at the last point only; before it the two windows are idle and handed back as found, so what is named for
    them there is read by nothing); the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => fin4_1 V c
    | ⟨2, _⟩ => fin4_2 V c
  Φ t := PhiS4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = fin4_1 V c := by dsimp only [dat4]
theorem after4_2 (c : Dev nD) (t : Fin cfg4.N) : (dat4 V c).after 2 t = fin4_2 V c := by dsimp only [dat4]

theorem Phi4_castSucc (c : Dev nD) (t : Fin cfg4.N) : (dat4 V c).Φ t.castSucc = PhiS4 V c t.val := by
  dsimp only [dat4]; simp only [Fin.coe_castSucc]

theorem before4_0 (c : Dev nD) (t : Fin cfg4.N) (d) : (dat4 V c).before 0 t d = iblk4 V c 0 t :=
  before4_0_of V (dat4 V c) (A_eq4 V c 0) (after4_0 V c) t d

/-! ## Where the windows are idle -/

theorem liveAt4_0 : ∀ t : Fin cfg4.N, cfg4.idle 0 (grid4.coords t) = false := by decide +kernel
theorem idleAt4_1 : ∀ t : Fin cfg4.N, ¬cond4_1 (grid4.coords t) → cfg4.idle 1 (grid4.coords t) = true := by decide +kernel
theorem noFlush4_1 : ∀ t : Fin cfg4.N, ¬cond4_1 (grid4.coords t) → (cfg4.win 1).flush t = false := by decide +kernel
theorem liveAt4_1 : ∀ t : Fin cfg4.N, cond4_1 (grid4.coords t) → cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The input window holds its tile. At the first point the accumulators are taken at anything
    and handed back holding the first tile's sums; at a later point they are taken holding the sums of the tiles before
    and handed back with this tile's added. Before the last point the two output windows are idle and pass through as
    found; at the last point they are taken at anything and handed back at the mean and the variance block. The rest
    of the invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) from rfl, PhiS4_pos V c (t.val + 1) (Nat.succ_ne_zero _), Phi4_castSucc]
  have hN : t.val < 50 := lt_of_lt_of_eq t.isLt (show cfg4.N = 50 from N_4)
  rw [show (dat4 V c).leavesExact 0 t = owns (c : Thread nD τ) (st4_0 t) fullShare ((dat4 V c).after 0 t) from by
    unfold Dat.leavesExact; rw [liveAt4_0 t], after4_0]
  by_cases h1 : t.val % 50 = 49
  · -- the last point
    have h0 : ¬t.val % 50 = 0 := by omega
    have hz : t.val ≠ 0 := by omega
    have hc0 : ¬cond4_0 (grid4.coords t) := fun h => h0 ((hcond4_0 t).mp h)
    have hc1 : cond4_1 (grid4.coords t) := (hcond4_1 t).mpr h1
    rw [show (dat4 V c).leavesExact 1 t = owns (c : Thread nD τ) (st4_1 t) fullShare ((dat4 V c).after 1 t) from by
      unfold Dat.leavesExact; rw [liveAt4_1 t hc1], after4_1]
    rw [show (dat4 V c).leavesExact 2 t = owns (c : Thread nD τ) (st4_2 t) fullShare ((dat4 V c).after 2 t) from by
      unfold Dat.leavesExact; rw [liveAt4_2 t hc1], after4_2]
    have e0 : acc4_0 V c 50 = acc4_0 V c (t.val + 1) := by rw [show t.val = 49 from by omega]
    have e1 : acc4_1 V c 50 = acc4_1 V c (t.val + 1) := by rw [show t.val = 49 from by omega]
    unfold fin4_1 fin4_2
    rw [e0, e1, acc4_0_at V c t, acc4_1_at V c t, PhiS4_pos V c _ hz]
    iintro ⟨⟨HS0, HS1, HR, Hg⟩, Ho, ⟨%d0, H0⟩, ⟨%d1, H1⟩, ⟨%d2, H2⟩⟩
    iapply (sound_kernel4_L c Set.univ (grid4.coords t) _ _ _ _ _ _ _ _ _ _ hc0 hc1 (iblk4 V c 0 t) (acc4_0 V c t.val) (acc4_1 V c t.val) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    iexact H2
  · have hc1 : ¬cond4_1 (grid4.coords t) := fun h => h1 ((hcond4_1 t).mp h)
    rw [Dat.leavesExact_idle (dat4 V c) 1 t (idleAt4_1 t hc1) (noFlush4_1 t hc1)]
    rw [Dat.leavesExact_idle (dat4 V c) 2 t (idleAt4_2 t hc1) (noFlush4_2 t hc1)]
    by_cases h0 : t.val % 50 = 0
    · -- the first point
      have hz : t.val = 0 := by omega
      have hc0 : cond4_0 (grid4.coords t) := (hcond4_0 t).mpr h0
      rw [acc4_0_first V c t hz, acc4_1_first V c t hz, PhiS4_zero V c _ hz]
      iintro ⟨⟨HS0, HS1, HR, Hg⟩, Ho, ⟨%d0, H0⟩, H1, H2⟩
      iapply (sound_kernel4_Z c Set.univ (grid4.coords t) _ _ _ _ _ _ _ _ _ _ hc0 hc1 (iblk4 V c 0 t) _)
      isplitl [H0]; · iexact H0
      isplitl [HS0]; · iexact HS0
      isplitl [HS1]; · iexact HS1
      iintro ⟨H0, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2
    · -- a middle point
      have hz : t.val ≠ 0 := by omega
      have hc0 : ¬cond4_0 (grid4.coords t) := fun h => h0 ((hcond4_0 t).mp h)
      rw [acc4_0_at V c t, acc4_1_at V c t, PhiS4_pos V c _ hz]
      iintro ⟨⟨HS0, HS1, HR, Hg⟩, Ho, ⟨%d0, H0⟩, H1, H2⟩
      iapply (sound_kernel4_M c Set.univ (grid4.coords t) _ _ _ _ _ _ _ _ _ _ hc0 hc1 (iblk4 V c 0 t) (acc4_0 V c t.val) (acc4_1 V c t.val) _)
      isplitl [H0]; · iexact H0
      isplitl [HS0]; · iexact HS0
      isplitl [HS1]; · iexact HS1
      iintro ⟨H0, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the region is entered with — the generator register and every scoped buffer that is no staging buffer of
    this call, each at anything — is the invariant before the first point: the two accumulators are among those
    buffers. -/
theorem hin4 (c : Dev nD) :
    iprop((∃ r, prngReg c r) ∗ Pipeline.scopedRest (Ix := Unit) (Name := ℕ) (U := UR sig nD τ) (Lvl := ℕ) (Val := Elt F) spec4 c)
      ⊢ ((dat4 V c).Φ 0 : sProp 𝕄) := by
  rw [show (dat4 V c).Φ 0 = PhiS4 V c 0 from rfl, PhiS4_zero V c 0 rfl, scopedRest4_split]
  simp only [sc4_0, sc4_1, owns_whole]
  iintro ⟨Hg, ⟨⟨%f0, H0⟩, ⟨%f1, H1⟩⟩, HR⟩
  isplitl [H0]; · iexists f0; iexact H0
  isplitl [H1]; · iexists f1; iexact H1
  isplitl [HR]; · iexact HR
  iexact Hg

/-- After the last point the invariant gives the same back: what the accumulators hold is forgotten. -/
theorem hout4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val from rfl,
    PhiS4_pos V c _ (by rw [Fin.val_last]; have : cfg4.N = 50 := N_4; omega), scopedRest4_split]
  simp only [sc4_0, sc4_1, owns_whole]
  iintro ⟨H0, H1, HR, Hg⟩
  isplitl [Hg]; · iexact Hg
  isplitl [H0 H1]
  · isplitl [H0]; · iexists _; iexact H0
    iexists _; iexact H1
  iexact HR

end Region

end Cert.KernelIdeal.Hand

end
-- ==== Proof.KIFrame.lean ====
import proofs.«122563_j12137577578919_1_alg».proof.Proof.Gen.KernelIdeal.Launch
import proofs.«122563_j12137577578919_1_alg».proof.Proof.Gen.KernelIdeal.Skeleton
import proofs.«122563_j12137577578919_1_alg».proof.Proof.Gen.KernelIdeal.Points
import proofs.«122563_j12137577578919_1_alg».proof.Proof.Gen.KernelIdeal.Regions
import proofs.«122563_j12137577578919_1_alg».proof.Proof.KIInv
import proofs.«122563_j12137577578919_1_alg».proof.Proof.KIR1
import proofs.«122563_j12137577578919_1_alg».proof.Proof.KIR4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: the buffers' contents at every boundary between two items of the program

The program is eleven items: five stretches of host operations and six kernel regions. Between two items every
unscoped buffer of a core holds a known array: the launch contents, then each host stretch's operations applied in
order, and after a region each of its windows' arrays at what the region's write-backs leave (an input window's
array as it was found, an output window's array rebuilt from the blocks written at the grid points). -/

/-- A core's buffers at launch. -/
abbrev bd0 : Dev nD → Valuation τ sig (Elt F) := fun c b => m (c, b)
/-- After the host stretch `hostOps0`. -/
abbrev bd1 : Dev nD → Valuation τ sig (Elt F) := fun c => StableHlo.after hostOps0 (bd0 m c)
/-- The same, read at the TensorCore's references. -/
abbrev tv1 : (c : Dev nD) → (b : Ref sig .tc) → Buf (Elt F) ((c : Thread nD τ).loc b) := fun c b => bd1 m c b
theorem bd1_of (c : Dev nD) (r : Ref sig .tc) (h : r ∉ hostOps0_W) : bd1 m c r = bd0 m c r :=
  StableHlo.after_of_writes_sub hostOps0 _ hostOps0_writes h
/-- After region 0: its windows' arrays at what the region leaves, every other buffer as it was. -/
def bd2 (c : Dev nD) : Valuation τ sig (Elt F) :=
  Pipeline.withArrays spec0 c (bd1 m c) fun w => (dat0 (tv1 m) c).arrAt w cfg0.N
theorem bd2_arr (c : Dev nD) (w : Fin cfg0.W) :
    bd2 m c (Proc.devRef .tc (Pipeline.arrRef spec0 w)) = (dat0 (tv1 m) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m c (Proc.devRef .tc b) = bd1 m c (Proc.devRef .tc b) := by
  unfold bd2; exact Pipeline.withArrays_of_ne spec0 c _ _ b hb
/-- Region 0's exit contents read at the TensorCore's references. -/
abbrev xv2 : (c : Dev nD) → (b : Ref sig .tc) → Buf (Elt F) ((c : Thread nD τ).loc b) := fun c b => bd2 m c b
theorem hF0 (c : Dev nD) (w : Fin cfg0.W) : (dat0 (tv1 m) c).arrAt w cfg0.N = xv2 m c (Pipeline.arrRef spec0 w) :=
  (bd2_arr m c w).symm
theorem hrest0 (c : Dev nD) : ∀ b, b ∉ Finset.univ.image (Pipeline.arrRef spec0) → xv2 m c b = tv1 m c b :=
  fun b hb => bd2_of_ne m c b fun w e => hb (Finset.mem_image.mpr ⟨w, Finset.mem_univ _, e⟩)
/-- After the host stretch `hostOps1`. -/
abbrev bd3 : Dev nD → Valuation τ sig (Elt F) := fun c => StableHlo.after hostOps1 (bd2 m c)
/-- The same, read at the TensorCore's references. -/
abbrev tv3 : (c : Dev nD) → (b : Ref sig .tc) → Buf (Elt F) ((c : Thread nD τ).loc b) := fun c b => bd3 m c b
theorem bd3_of (c : Dev nD) (r : Ref sig .tc) (h : r ∉ hostOps1_W) : bd3 m c r = bd2 m c r :=
  StableHlo.after_of_writes_sub hostOps1 _ hostOps1_writes h
/-- After region 1: its windows' arrays at what the region leaves, every other buffer as it was. -/
def bd4 (c : Dev nD) : Valuation τ sig (Elt F) :=
  Pipeline.withArrays spec1 c (bd3 m c) fun w => (dat1 (tv3 m) c).arrAt w cfg1.N
theorem bd4_arr (c : Dev nD) (w : Fin cfg1.W) :
    bd4 m c (Proc.devRef .tc (Pipeline.arrRef spec1 w)) = (dat1 (tv3 m) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m c (Proc.devRef .tc b) = bd3 m c (Proc.devRef .tc b) := by
  unfold bd4; exact Pipeline.withArrays_of_ne spec1 c _ _ b hb
/-- Region 1's exit contents read at the TensorCore's references. -/
abbrev xv4 : (c : Dev nD) → (b : Ref sig .tc) → Buf (Elt F) ((c : Thread nD τ).loc b) := fun c b => bd4 m c b
theorem hF1 (c : Dev nD) (w : Fin cfg1.W) : (dat1 (tv3 m) c).arrAt w cfg1.N = xv4 m c (Pipeline.arrRef spec1 w) :=
  (bd4_arr m c w).symm
theorem hrest1 (c : Dev nD) : ∀ b, b ∉ Finset.univ.image (Pipeline.arrRef spec1) → xv4 m c b = tv3 m c b :=
  fun b hb => bd4_of_ne m c b fun w e => hb (Finset.mem_image.mpr ⟨w, Finset.mem_univ _, e⟩)
/-- After the host stretch `hostOps2`. -/
abbrev bd5 : Dev nD → Valuation τ sig (Elt F) := fun c => StableHlo.after hostOps2 (bd4 m c)
/-- The same, read at the TensorCore's references. -/
abbrev tv5 : (c : Dev nD) → (b : Ref sig .tc) → Buf (Elt F) ((c : Thread nD τ).loc b) := fun c b => bd5 m c b
theorem bd5_of (c : Dev nD) (r : Ref sig .tc) (h : r ∉ hostOps2_W) : bd5 m c r = bd4 m c r :=
  StableHlo.after_of_writes_sub hostOps2 _ hostOps2_writes h
/-- After region 2: its windows' arrays at what the region leaves, every other buffer as it was. -/
def bd6 (c : Dev nD) : Valuation τ sig (Elt F) :=
  Pipeline.withArrays spec2 c (bd5 m c) fun w => (dat2 (tv5 m) c).arrAt w cfg2.N
theorem bd6_arr (c : Dev nD) (w : Fin cfg2.W) :
    bd6 m c (Proc.devRef .tc (Pipeline.arrRef spec2 w)) = (dat2 (tv5 m) c).arrAt w cfg2.N := by
  unfold bd6; exact Pipeline.withArrays_arr spec2 launch2.win.arr_inj c _ _ w
theorem bd6_of_ne (c : Dev nD) (b : Ref sig .tc) (hb : ∀ w, Pipeline.arrRef spec2 w ≠ b) :
    bd6 m c (Proc.devRef .tc b) = bd5 m c (Proc.devRef .tc b) := by
  unfold bd6; exact Pipeline.withArrays_of_ne spec2 c _ _ b hb
/-- Region 2's exit contents read at the TensorCore's references. -/
abbrev xv6 : (c : Dev nD) → (b : Ref sig .tc) → Buf (Elt F) ((c : Thread nD τ).loc b) := fun c b => bd6 m c b
theorem hF2 (c : Dev nD) (w : Fin cfg2.W) : (dat2 (tv5 m) c).arrAt w cfg2.N = xv6 m c (Pipeline.arrRef spec2 w) :=
  (bd6_arr m c w).symm
theorem hrest2 (c : Dev nD) : ∀ b, b ∉ Finset.univ.image (Pipeline.arrRef spec2) → xv6 m c b = tv5 m c b :=
  fun b hb => bd6_of_ne m c b fun w e => hb (Finset.mem_image.mpr ⟨w, Finset.mem_univ _, e⟩)
/-- Region 3's entry contents read at the TensorCore's references. -/
abbrev tv6 : (c : Dev nD) → (b : Ref sig .tc) → Buf (Elt F) ((c : Thread nD τ).loc b) := fun c b => bd6 m c b
/-- After region 3: its windows' arrays at what the region leaves, every other buffer as it was. -/
def bd7 (c : Dev nD) : Valuation τ sig (Elt F) :=
  Pipeline.withArrays spec3 c (bd6 m c) fun w => (dat3 (tv6 m) c).arrAt w cfg3.N
theorem bd7_arr (c : Dev nD) (w : Fin cfg3.W) :
    bd7 m c (Proc.devRef .tc (Pipeline.arrRef spec3 w)) = (dat3 (tv6 m) c).arrAt w cfg3.N := by
  unfold bd7; exact Pipeline.withArrays_arr spec3 launch3.win.arr_inj c _ _ w
theorem bd7_of_ne (c : Dev nD) (b : Ref sig .tc) (hb : ∀ w, Pipeline.arrRef spec3 w ≠ b) :
    bd7 m c (Proc.devRef .tc b) = bd6 m c (Proc.devRef .tc b) := by
  unfold bd7; exact Pipeline.withArrays_of_ne spec3 c _ _ b hb
/-- Region 3's exit contents read at the TensorCore's references. -/
abbrev xv7 : (c : Dev nD) → (b : Ref sig .tc) → Buf (Elt F) ((c : Thread nD τ).loc b) := fun c b => bd7 m c b
theorem hF3 (c : Dev nD) (w : Fin cfg3.W) : (dat3 (tv6 m) c).arrAt w cfg3.N = xv7 m c (Pipeline.arrRef spec3 w) :=
  (bd7_arr m c w).symm
theorem hrest3 (c : Dev nD) : ∀ b, b ∉ Finset.univ.image (Pipeline.arrRef spec3) → xv7 m c b = tv6 m c b :=
  fun b hb => bd7_of_ne m c b fun w e => hb (Finset.mem_image.mpr ⟨w, Finset.mem_univ _, e⟩)
/-- After the host stretch `hostOps4`. -/
abbrev bd8 : Dev nD → Valuation τ sig (Elt F) := fun c => StableHlo.after hostOps4 (bd7 m c)
/-- The same, read at the TensorCore's references. -/
abbrev tv8 : (c : Dev nD) → (b : Ref sig .tc) → Buf (Elt F) ((c : Thread nD τ).loc b) := fun c b => bd8 m c b
theorem bd8_of (c : Dev nD) (r : Ref sig .tc) (h : r ∉ hostOps4_W) : bd8 m c r = bd7 m c r :=
  StableHlo.after_of_writes_sub hostOps4 _ hostOps4_writes h
/-- After region 4: its windows' arrays at what the region leaves, every other buffer as it was. -/
def bd9 (c : Dev nD) : Valuation τ sig (Elt F) :=
  Pipeline.withArrays spec4 c (bd8 m c) fun w => (dat4 (tv8 m) c).arrAt w cfg4.N
theorem bd9_arr (c : Dev nD) (w : Fin cfg4.W) :
    bd9 m c (Proc.devRef .tc (Pipeline.arrRef spec4 w)) = (dat4 (tv8 m) c).arrAt w cfg4.N := by
  unfold bd9; exact Pipeline.withArrays_arr spec4 launch4.win.arr_inj c _ _ w
theorem bd9_of_ne (c : Dev nD) (b : Ref sig .tc) (hb : ∀ w, Pipeline.arrRef spec4 w ≠ b) :
    bd9 m c (Proc.devRef .tc b) = bd8 m c (Proc.devRef .tc b) := by
  unfold bd9; exact Pipeline.withArrays_of_ne spec4 c _ _ b hb
/-- Region 4's exit contents read at the TensorCore's references. -/
abbrev xv9 : (c : Dev nD) → (b : Ref sig .tc) → Buf (Elt F) ((c : Thread nD τ).loc b) := fun c b => bd9 m c b
theorem hF4 (c : Dev nD) (w : Fin cfg4.W) : (dat4 (tv8 m) c).arrAt w cfg4.N = xv9 m c (Pipeline.arrRef spec4 w) :=
  (bd9_arr m c w).symm
theorem hrest4 (c : Dev nD) : ∀ b, b ∉ Finset.univ.image (Pipeline.arrRef spec4) → xv9 m c b = tv8 m c b :=
  fun b hb => bd9_of_ne m c b fun w e => hb (Finset.mem_image.mpr ⟨w, Finset.mem_univ _, e⟩)
/-- After the host stretch `hostOps5`. -/
abbrev bd10 : Dev nD → Valuation τ sig (Elt F) := fun c => StableHlo.after hostOps5 (bd9 m c)
/-- The same, read at the TensorCore's references. -/
abbrev tv10 : (c : Dev nD) → (b : Ref sig .tc) → Buf (Elt F) ((c : Thread nD τ).loc b) := fun c b => bd10 m c b
theorem bd10_of (c : Dev nD) (r : Ref sig .tc) (h : r ∉ hostOps5_W) : bd10 m c r = bd9 m c r :=
  StableHlo.after_of_writes_sub hostOps5 _ hostOps5_writes h
/-- After region 5: its windows' arrays at what the region leaves, every other buffer as it was. -/
def bd11 (c : Dev nD) : Valuation τ sig (Elt F) :=
  Pipeline.withArrays spec5 c (bd10 m c) fun w => (dat5 (tv10 m) c).arrAt w cfg5.N
theorem bd11_arr (c : Dev nD) (w : Fin cfg5.W) :
    bd11 m c (Proc.devRef .tc (Pipeline.arrRef spec5 w)) = (dat5 (tv10 m) c).arrAt w cfg5.N := by
  unfold bd11; exact Pipeline.withArrays_arr spec5 launch5.win.arr_inj c _ _ w
theorem bd11_of_ne (c : Dev nD) (b : Ref sig .tc) (hb : ∀ w, Pipeline.arrRef spec5 w ≠ b) :
    bd11 m c (Proc.devRef .tc b) = bd10 m c (Proc.devRef .tc b) := by
  unfold bd11; exact Pipeline.withArrays_of_ne spec5 c _ _ b hb
/-- Region 5's exit contents read at the TensorCore's references. -/
abbrev xv11 : (c : Dev nD) → (b : Ref sig .tc) → Buf (Elt F) ((c : Thread nD τ).loc b) := fun c b => bd11 m c b
theorem hF5 (c : Dev nD) (w : Fin cfg5.W) : (dat5 (tv10 m) c).arrAt w cfg5.N = xv11 m c (Pipeline.arrRef spec5 w) :=
  (bd11_arr m c w).symm
theorem hrest5 (c : Dev nD) : ∀ b, b ∉ Finset.univ.image (Pipeline.arrRef spec5) → xv11 m c b = tv10 m c b :=
  fun b hb => bd11_of_ne m c b fun w e => hb (Finset.mem_image.mpr ⟨w, Finset.mem_univ _, e⟩)

/-! ## The arguments end as launched: no host operation writes one, and a region either does not touch it or reads
it through an input window, whose array it leaves as found. -/
theorem bd11_main_arg0 (c : Dev nD) : bd11 m c (Proc.devRef .tc main_arg0) = m ((c : Thread nD τ).loc main_arg0) :=
  calc bd11 m c (Proc.devRef .tc main_arg0)
    _ = bd10 m c (Proc.devRef .tc main_arg0) := bd11_of_ne m c main_arg0 (by decide)
    _ = bd9 m c (Proc.devRef .tc main_arg0) := bd10_of m c main_arg0 (by decide)
    _ = bd8 m c (Proc.devRef .tc main_arg0) := bd9_of_ne m c main_arg0 (by decide)
    _ = bd7 m c (Proc.devRef .tc main_arg0) := bd8_of m c main_arg0 (by decide)
    _ = bd6 m c (Proc.devRef .tc main_arg0) := bd7_of_ne m c main_arg0 (by decide)
    _ = bd5 m c (Proc.devRef .tc main_arg0) := bd6_of_ne m c main_arg0 (by decide)
    _ = bd4 m c (Proc.devRef .tc main_arg0) := bd5_of m c main_arg0 (by decide)
    _ = bd3 m c (Proc.devRef .tc main_arg0) := bd4_of_ne m c main_arg0 (by decide)
    _ = bd2 m c (Proc.devRef .tc main_arg0) := bd3_of m c main_arg0 (by decide)
    _ = bd1 m c (Proc.devRef .tc main_arg0) := bd2_of_ne m c main_arg0 (by decide)
    _ = bd0 m c (Proc.devRef .tc main_arg0) := bd1_of m c main_arg0 (by decide)
    _ = m ((c : Thread nD τ).loc main_arg0) := rfl
theorem bd11_main_arg1 (c : Dev nD) : bd11 m c (Proc.devRef .tc main_arg1) = m ((c : Thread nD τ).loc main_arg1) :=
  calc bd11 m c (Proc.devRef .tc main_arg1)
    _ = bd10 m c (Proc.devRef .tc main_arg1) := bd11_of_ne m c main_arg1 (by decide)
    _ = bd9 m c (Proc.devRef .tc main_arg1) := bd10_of m c main_arg1 (by decide)
    _ = bd8 m c (Proc.devRef .tc main_arg1) := bd9_of_ne m c main_arg1 (by decide)
    _ = bd7 m c (Proc.devRef .tc main_arg1) := bd8_of m c main_arg1 (by decide)
    _ = bd6 m c (Proc.devRef .tc main_arg1) := bd7_of_ne m c main_arg1 (by decide)
    _ = bd5 m c (Proc.devRef .tc main_arg1) := bd6_of_ne m c main_arg1 (by decide)
    _ = bd4 m c (Proc.devRef .tc main_arg1) := bd5_of m c main_arg1 (by decide)
    _ = bd3 m c (Proc.devRef .tc main_arg1) := bd4_of_ne m c main_arg1 (by decide)
    _ = bd2 m c (Proc.devRef .tc main_arg1) := bd3_of m c main_arg1 (by decide)
    _ = bd1 m c (Proc.devRef .tc main_arg1) := (bd2_arr m c 0).trans (((dat0 (tv1 m) c).arrAt_in 0 rfl _).trans (A_eq0 (tv1 m) c 0))
    _ = bd0 m c (Proc.devRef .tc main_arg1) := bd1_of m c main_arg1 (by decide)
    _ = m ((c : Thread nD τ).loc main_arg1) := rfl
theorem bd11_main_arg2 (c : Dev nD) : bd11 m c (Proc.devRef .tc main_arg2) = m ((c : Thread nD τ).loc main_arg2) :=
  calc bd11 m c (Proc.devRef .tc main_arg2)
    _ = bd10 m c (Proc.devRef .tc main_arg2) := bd11_of_ne m c main_arg2 (by decide)
    _ = bd9 m c (Proc.devRef .tc main_arg2) := bd10_of m c main_arg2 (by decide)
    _ = bd8 m c (Proc.devRef .tc main_arg2) := bd9_of_ne m c main_arg2 (by decide)
    _ = bd7 m c (Proc.devRef .tc main_arg2) := bd8_of m c main_arg2 (by decide)
    _ = bd6 m c (Proc.devRef .tc main_arg2) := bd7_of_ne m c main_arg2 (by decide)
    _ = bd5 m c (Proc.devRef .tc main_arg2) := bd6_of_ne m c main_arg2 (by decide)
    _ = bd4 m c (Proc.devRef .tc main_arg2) := bd5_of m c main_arg2 (by decide)
    _ = bd3 m c (Proc.devRef .tc main_arg2) := bd4_of_ne m c main_arg2 (by decide)
    _ = bd2 m c (Proc.devRef .tc main_arg2) := bd3_of m c main_arg2 (by decide)
    _ = bd1 m c (Proc.devRef .tc main_arg2) := (bd2_arr m c 1).trans (((dat0 (tv1 m) c).arrAt_in 1 rfl _).trans (A_eq0 (tv1 m) c 1))
    _ = bd0 m c (Proc.devRef .tc main_arg2) := bd1_of m c main_arg2 (by decide)
    _ = m ((c : Thread nD τ).loc main_arg2) := rfl
theorem bd11_main_arg3 (c : Dev nD) : bd11 m c (Proc.devRef .tc main_arg3) = m ((c : Thread nD τ).loc main_arg3) :=
  calc bd11 m c (Proc.devRef .tc main_arg3)
    _ = bd10 m c (Proc.devRef .tc main_arg3) := bd11_of_ne m c main_arg3 (by decide)
    _ = bd9 m c (Proc.devRef .tc main_arg3) := bd10_of m c main_arg3 (by decide)
    _ = bd8 m c (Proc.devRef .tc main_arg3) := bd9_of_ne m c main_arg3 (by decide)
    _ = bd7 m c (Proc.devRef .tc main_arg3) := bd8_of m c main_arg3 (by decide)
    _ = bd6 m c (Proc.devRef .tc main_arg3) := bd7_of_ne m c main_arg3 (by decide)
    _ = bd5 m c (Proc.devRef .tc main_arg3) := bd6_of_ne m c main_arg3 (by decide)
    _ = bd4 m c (Proc.devRef .tc main_arg3) := bd5_of m c main_arg3 (by decide)
    _ = bd3 m c (Proc.devRef .tc main_arg3) := bd4_of_ne m c main_arg3 (by decide)
    _ = bd2 m c (Proc.devRef .tc main_arg3) := bd3_of m c main_arg3 (by decide)
    _ = bd1 m c (Proc.devRef .tc main_arg3) := bd2_of_ne m c main_arg3 (by decide)
    _ = bd0 m c (Proc.devRef .tc main_arg3) := bd1_of m c main_arg3 (by decide)
    _ = m ((c : Thread nD τ).loc main_arg3) := rfl
theorem bd11_main_arg4 (c : Dev nD) : bd11 m c (Proc.devRef .tc main_arg4) = m ((c : Thread nD τ).loc main_arg4) :=
  calc bd11 m c (Proc.devRef .tc main_arg4)
    _ = bd10 m c (Proc.devRef .tc main_arg4) := bd11_of_ne m c main_arg4 (by decide)
    _ = bd9 m c (Proc.devRef .tc main_arg4) := bd10_of m c main_arg4 (by decide)
    _ = bd8 m c (Proc.devRef .tc main_arg4) := bd9_of_ne m c main_arg4 (by decide)
    _ = bd7 m c (Proc.devRef .tc main_arg4) := bd8_of m c main_arg4 (by decide)
    _ = bd6 m c (Proc.devRef .tc main_arg4) := bd7_of_ne m c main_arg4 (by decide)
    _ = bd5 m c (Proc.devRef .tc main_arg4) := bd6_of_ne m c main_arg4 (by decide)
    _ = bd4 m c (Proc.devRef .tc main_arg4) := bd5_of m c main_arg4 (by decide)
    _ = bd3 m c (Proc.devRef .tc main_arg4) := bd4_of_ne m c main_arg4 (by decide)
    _ = bd2 m c (Proc.devRef .tc main_arg4) := bd3_of m c main_arg4 (by decide)
    _ = bd1 m c (Proc.devRef .tc main_arg4) := bd2_of_ne m c main_arg4 (by decide)
    _ = bd0 m c (Proc.devRef .tc main_arg4) := bd1_of m c main_arg4 (by decide)
    _ = m ((c : Thread nD τ).loc main_arg4) := rfl
theorem bd11_main_arg5 (c : Dev nD) : bd11 m c (Proc.devRef .tc main_arg5) = m ((c : Thread nD τ).loc main_arg5) :=
  calc bd11 m c (Proc.devRef .tc main_arg5)
    _ = bd10 m c (Proc.devRef .tc main_arg5) := bd11_of_ne m c main_arg5 (by decide)
    _ = bd9 m c (Proc.devRef .tc main_arg5) := bd10_of m c main_arg5 (by decide)
    _ = bd8 m c (Proc.devRef .tc main_arg5) := bd9_of_ne m c main_arg5 (by decide)
    _ = bd7 m c (Proc.devRef .tc main_arg5) := bd8_of m c main_arg5 (by decide)
    _ = bd6 m c (Proc.devRef .tc main_arg5) := bd7_of_ne m c main_arg5 (by decide)
    _ = bd5 m c (Proc.devRef .tc main_arg5) := bd6_of_ne m c main_arg5 (by decide)
    _ = bd4 m c (Proc.devRef .tc main_arg5) := bd5_of m c main_arg5 (by decide)
    _ = bd3 m c (Proc.devRef .tc main_arg5) := bd4_of_ne m c main_arg5 (by decide)
    _ = bd2 m c (Proc.devRef .tc main_arg5) := bd3_of m c main_arg5 (by decide)
    _ = bd1 m c (Proc.devRef .tc main_arg5) := bd2_of_ne m c main_arg5 (by decide)
    _ = bd0 m c (Proc.devRef .tc main_arg5) := bd1_of m c main_arg5 (by decide)
    _ = m ((c : Thread nD τ).loc main_arg5) := rfl
theorem bd11_main_arg6 (c : Dev nD) : bd11 m c (Proc.devRef .tc main_arg6) = m ((c : Thread nD τ).loc main_arg6) :=
  calc bd11 m c (Proc.devRef .tc main_arg6)
    _ = bd10 m c (Proc.devRef .tc main_arg6) := bd11_of_ne m c main_arg6 (by decide)
    _ = bd9 m c (Proc.devRef .tc main_arg6) := bd10_of m c main_arg6 (by decide)
    _ = bd8 m c (Proc.devRef .tc main_arg6) := bd9_of_ne m c main_arg6 (by decide)
    _ = bd7 m c (Proc.devRef .tc main_arg6) := bd8_of m c main_arg6 (by decide)
    _ = bd6 m c (Proc.devRef .tc main_arg6) := (bd7_arr m c 1).trans (((dat3 (tv6 m) c).arrAt_in 1 rfl _).trans (A_eq3 (tv6 m) c 1))
    _ = bd5 m c (Proc.devRef .tc main_arg6) := bd6_of_ne m c main_arg6 (by decide)
    _ = bd4 m c (Proc.devRef .tc main_arg6) := bd5_of m c main_arg6 (by decide)
    _ = bd3 m c (Proc.devRef .tc main_arg6) := bd4_of_ne m c main_arg6 (by decide)
    _ = bd2 m c (Proc.devRef .tc main_arg6) := bd3_of m c main_arg6 (by decide)
    _ = bd1 m c (Proc.devRef .tc main_arg6) := bd2_of_ne m c main_arg6 (by decide)
    _ = bd0 m c (Proc.devRef .tc main_arg6) := bd1_of m c main_arg6 (by decide)
    _ = m ((c : Thread nD τ).loc main_arg6) := rfl
theorem bd11_main_arg7 (c : Dev nD) : bd11 m c (Proc.devRef .tc main_arg7) = m ((c : Thread nD τ).loc main_arg7) :=
  calc bd11 m c (Proc.devRef .tc main_arg7)
    _ = bd10 m c (Proc.devRef .tc main_arg7) := bd11_of_ne m c main_arg7 (by decide)
    _ = bd9 m c (Proc.devRef .tc main_arg7) := bd10_of m c main_arg7 (by decide)
    _ = bd8 m c (Proc.devRef .tc main_arg7) := bd9_of_ne m c main_arg7 (by decide)
    _ = bd7 m c (Proc.devRef .tc main_arg7) := bd8_of m c main_arg7 (by decide)
    _ = bd6 m c (Proc.devRef .tc main_arg7) := bd7_of_ne m c main_arg7 (by decide)
    _ = bd5 m c (Proc.devRef .tc main_arg7) := bd6_of_ne m c main_arg7 (by decide)
    _ = bd4 m c (Proc.devRef .tc main_arg7) := bd5_of m c main_arg7 (by decide)
    _ = bd3 m c (Proc.devRef .tc main_arg7) := bd4_of_ne m c main_arg7 (by decide)
    _ = bd2 m c (Proc.devRef .tc main_arg7) := bd3_of m c main_arg7 (by decide)
    _ = bd1 m c (Proc.devRef .tc main_arg7) := bd2_of_ne m c main_arg7 (by decide)
    _ = bd0 m c (Proc.devRef .tc main_arg7) := bd1_of m c main_arg7 (by decide)
    _ = m ((c : Thread nD τ).loc main_arg7) := rfl
theorem bd11_main_arg8 (c : Dev nD) : bd11 m c (Proc.devRef .tc main_arg8) = m ((c : Thread nD τ).loc main_arg8) :=
  calc bd11 m c (Proc.devRef .tc main_arg8)
    _ = bd10 m c (Proc.devRef .tc main_arg8) := bd11_of_ne m c main_arg8 (by decide)
    _ = bd9 m c (Proc.devRef .tc main_arg8) := bd10_of m c main_arg8 (by decide)
    _ = bd8 m c (Proc.devRef .tc main_arg8) := bd9_of_ne m c main_arg8 (by decide)
    _ = bd7 m c (Proc.devRef .tc main_arg8) := bd8_of m c main_arg8 (by decide)
    _ = bd6 m c (Proc.devRef .tc main_arg8) := bd7_of_ne m c main_arg8 (by decide)
    _ = bd5 m c (Proc.devRef .tc main_arg8) := bd6_of_ne m c main_arg8 (by decide)
    _ = bd4 m c (Proc.devRef .tc main_arg8) := bd5_of m c main_arg8 (by decide)
    _ = bd3 m c (Proc.devRef .tc main_arg8) := bd4_of_ne m c main_arg8 (by decide)
    _ = bd2 m c (Proc.devRef .tc main_arg8) := bd3_of m c main_arg8 (by decide)
    _ = bd1 m c (Proc.devRef .tc main_arg8) := bd2_of_ne m c main_arg8 (by decide)
    _ = bd0 m c (Proc.devRef .tc main_arg8) := bd1_of m c main_arg8 (by decide)
    _ = m ((c : Thread nD τ).loc main_arg8) := rfl
theorem bd11_main_arg9 (c : Dev nD) : bd11 m c (Proc.devRef .tc main_arg9) = m ((c : Thread nD τ).loc main_arg9) :=
  calc bd11 m c (Proc.devRef .tc main_arg9)
    _ = bd10 m c (Proc.devRef .tc main_arg9) := bd11_of_ne m c main_arg9 (by decide)
    _ = bd9 m c (Proc.devRef .tc main_arg9) := bd10_of m c main_arg9 (by decide)
    _ = bd8 m c (Proc.devRef .tc main_arg9) := bd9_of_ne m c main_arg9 (by decide)
    _ = bd7 m c (Proc.devRef .tc main_arg9) := bd8_of m c main_arg9 (by decide)
    _ = bd6 m c (Proc.devRef .tc main_arg9) := bd7_of_ne m c main_arg9 (by decide)
    _ = bd5 m c (Proc.devRef .tc main_arg9) := bd6_of_ne m c main_arg9 (by decide)
    _ = bd4 m c (Proc.devRef .tc main_arg9) := bd5_of m c main_arg9 (by decide)
    _ = bd3 m c (Proc.devRef .tc main_arg9) := bd4_of_ne m c main_arg9 (by decide)
    _ = bd2 m c (Proc.devRef .tc main_arg9) := bd3_of m c main_arg9 (by decide)
    _ = bd1 m c (Proc.devRef .tc main_arg9) := bd2_of_ne m c main_arg9 (by decide)
    _ = bd0 m c (Proc.devRef .tc main_arg9) := bd1_of m c main_arg9 (by decide)
    _ = m ((c : Thread nD τ).loc main_arg9) := rfl

/-! ## The proof data family and the thread state -/

/-- No pipeline has a prefetched table. -/
abbrev hadm : (p : Fin 6) → (pcfgs (F := F) p).Adm := fun p => (cfgs p).toPCfg_adm
/-- Every pipeline's proof data, each at its region's entry contents. -/
def hdats : (p : Fin 6) → (c : Dev nD) → Dat τ (Elt F) Unit ℕ (UR sig nD τ) ℕ (Pipeline.pin (pcfgs (F := F)) hadm p) c
  | ⟨0, _⟩ => fun c => dat0 (tv1 m) c
  | ⟨1, _⟩ => fun c => dat1 (tv3 m) c
  | ⟨2, _⟩ => fun c => dat2 (tv5 m) c
  | ⟨3, _⟩ => fun c => dat3 (tv6 m) c
  | ⟨4, _⟩ => fun c => dat4 (tv8 m) c
  | ⟨5, _⟩ => fun c => dat5 (tv10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev rest (c : Dev nD) : sProp 𝕄 := iprop((∃ r, prngReg c r) ∗ ∃ W, owes (c : Thread nD τ) (0 : CellTallies nD τ sig Unit) W)
/-- A host stretch as a segment of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tn (c : Dev nD) : sProp 𝕄 := iprop(StableHlo.held (c : Thread nD τ) (Pipeline.ucRefs τ sig) (bd11 m c) ∗ ∃ r, prngReg c r)

/-! ## The regions as segments -/

set_option backward.isDefEq.respectTransparency.types false in
/-- Region 0 over the thread state: entered from every unscoped buffer at boundary 1's contents, left at boundary 2's.
    Its windows' arrays are split out of the unscoped buffers and put back at the exit contents; the generator register
    and the scoped buffers enter the region's invariant and come back; nothing is owed; the kernel has no semaphore of its own. -/
def rseg0 : Pipeline.RegionSeg (pcfgs (F := F)) hadm (hdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tv1 m) c).loose
  hwaits := Pipeline.hwaits_of_owed_zero _ _ _ _ L lv 0 fun _ _ => rfl
  pre c := iprop(StableHlo.held (c : Thread nD τ) (Pipeline.ucRefs τ sig) (bd1 m c) ∗ rest c)
  post c := iprop(StableHlo.held (c : Thread nD τ) (Pipeline.ucRefs τ sig) (bd2 m c) ∗ rest c)
  X c := iprop(∃ r, prngReg c r)
  Y c := iprop(∃ r, prngReg c r)
  Z c := Pipeline.unscopedRest (Ix := Unit) (Name := ℕ) (U := UR sig nD τ) (Lvl := ℕ) spec0 c (tv1 m c)
  hentry c := by
    rw [Pipeline.ownSems0_none]
    have hsplit := Pipeline.arrays_of_unscopedBufs (p := 0) (pcfgs (F := F)) hadm (hdats m) launch0.win launch0.arr_whole c
      ((hdats m 0 c).share_full fun _ => rfl) (tv1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 0 c).Φ 0 = (dat0 (tv1 m) c).Φ 0 from rfl]
    iintro ⟨Hp, -, Hr⟩
    iapply (hin0 (tv1 m) c)
    isplitl [Hp]; · iexact Hp
    iexact Hr
  hout c := by
    rw [Pipeline.ownSems0_none, show (hdats m 0 c).Φ (Fin.last _) = (dat0 (tv1 m) c).Φ (Fin.last cfg0.N) from rfl]
    iintro HΦ
    ihave H := (hout0 (tv1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hdats m) ((hdats m 0 c).share_full fun _ => rfl)
      (tv1 m c) (xv2 m c) ((hdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary 4's.
    Its windows' arrays are split out of the unscoped buffers and put back at the exit contents; the generator register
    and the scoped buffers enter the region's invariant and come back; nothing is owed; the kernel has no semaphore of its own. -/
def rseg1 : Pipeline.RegionSeg (pcfgs (F := F)) hadm (hdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tv3 m) c).loose
  hwaits := Pipeline.hwaits_of_owed_zero _ _ _ _ L lv 1 fun _ _ => rfl
  pre c := iprop(StableHlo.held (c : Thread nD τ) (Pipeline.ucRefs τ sig) (bd3 m c) ∗ rest c)
  post c := iprop(StableHlo.held (c : Thread nD τ) (Pipeline.ucRefs τ sig) (bd4 m c) ∗ rest c)
  X c := iprop(∃ r, prngReg c r)
  Y c := iprop(∃ r, prngReg c r)
  Z c := Pipeline.unscopedRest (Ix := Unit) (Name := ℕ) (U := UR sig nD τ) (Lvl := ℕ) spec1 c (tv3 m c)
  hentry c := by
    rw [Pipeline.ownSems0_none]
    have hsplit := Pipeline.arrays_of_unscopedBufs (p := 1) (pcfgs (F := F)) hadm (hdats m) launch1.win launch1.arr_whole c
      ((hdats m 1 c).share_full fun _ => rfl) (tv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 1 c).Φ 0 = (dat1 (tv3 m) c).Φ 0 from rfl]
    iintro ⟨Hp, -, Hr⟩
    iapply (hin1 (tv3 m) c)
    isplitl [Hp]; · iexact Hp
    iexact Hr
  hout c := by
    rw [Pipeline.ownSems0_none, show (hdats m 1 c).Φ (Fin.last _) = (dat1 (tv3 m) c).Φ (Fin.last cfg1.N) from rfl]
    iintro HΦ
    ihave H := (hout1 (tv3 m) c) $$ HΦ
    icases H with ⟨Hp, Hr⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hdats m) ((hdats m 1 c).share_full fun _ => rfl)
      (tv3 m c) (xv4 m c) ((hdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary 6's.
    Its windows' arrays are split out of the unscoped buffers and put back at the exit contents; the generator register
    and the scoped buffers enter the region's invariant and come back; nothing is owed; the kernel has no semaphore of its own. -/
def rseg2 : Pipeline.RegionSeg (pcfgs (F := F)) hadm (hdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tv5 m) c).loose
  hwaits := Pipeline.hwaits_of_owed_zero _ _ _ _ L lv 2 fun _ _ => rfl
  pre c := iprop(StableHlo.held (c : Thread nD τ) (Pipeline.ucRefs τ sig) (bd5 m c) ∗ rest c)
  post c := iprop(StableHlo.held (c : Thread nD τ) (Pipeline.ucRefs τ sig) (bd6 m c) ∗ rest c)
  X c := iprop(∃ r, prngReg c r)
  Y c := iprop(∃ r, prngReg c r)
  Z c := Pipeline.unscopedRest (Ix := Unit) (Name := ℕ) (U := UR sig nD τ) (Lvl := ℕ) spec2 c (tv5 m c)
  hentry c := by
    rw [Pipeline.ownSems0_none]
    have hsplit := Pipeline.arrays_of_unscopedBufs (p := 2) (pcfgs (F := F)) hadm (hdats m) launch2.win launch2.arr_whole c
      ((hdats m 2 c).share_full fun _ => rfl) (tv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 2 c).Φ 0 = (dat2 (tv5 m) c).Φ 0 from rfl]
    iintro ⟨Hp, -, Hr⟩
    iapply (hin2 (tv5 m) c)
    isplitl [Hp]; · iexact Hp
    iexact Hr
  hout c := by
    rw [Pipeline.ownSems0_none, show (hdats m 2 c).Φ (Fin.last _) = (dat2 (tv5 m) c).Φ (Fin.last cfg2.N) from rfl]
    iintro HΦ
    ihave H := (hout2 (tv5 m) c) $$ HΦ
    icases H with ⟨Hp, Hr⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hdats m) ((hdats m 2 c).share_full fun _ => rfl)
      (tv5 m c) (xv6 m c) ((hdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 6's contents, left at boundary 7's.
    Its windows' arrays are split out of the unscoped buffers and put back at the exit contents; the generator register
    and the scoped buffers enter the region's invariant and come back; nothing is owed; the kernel has no semaphore of its own. -/
def rseg3 : Pipeline.RegionSeg (pcfgs (F := F)) hadm (hdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tv6 m) c).loose
  hwaits := Pipeline.hwaits_of_owed_zero _ _ _ _ L lv 3 fun _ _ => rfl
  pre c := iprop(StableHlo.held (c : Thread nD τ) (Pipeline.ucRefs τ sig) (bd6 m c) ∗ rest c)
  post c := iprop(StableHlo.held (c : Thread nD τ) (Pipeline.ucRefs τ sig) (bd7 m c) ∗ rest c)
  X c := iprop(∃ r, prngReg c r)
  Y c := iprop(∃ r, prngReg c r)
  Z c := Pipeline.unscopedRest (Ix := Unit) (Name := ℕ) (U := UR sig nD τ) (Lvl := ℕ) spec3 c (tv6 m c)
  hentry c := by
    rw [Pipeline.ownSems0_none]
    have hsplit := Pipeline.arrays_of_unscopedBufs (p := 3) (pcfgs (F := F)) hadm (hdats m) launch3.win launch3.arr_whole c
      ((hdats m 3 c).share_full fun _ => rfl) (tv6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 3 c).Φ 0 = (dat3 (tv6 m) c).Φ 0 from rfl]
    iintro ⟨Hp, -, Hr⟩
    iapply (hin3 (tv6 m) c)
    isplitl [Hp]; · iexact Hp
    iexact Hr
  hout c := by
    rw [Pipeline.ownSems0_none, show (hdats m 3 c).Φ (Fin.last _) = (dat3 (tv6 m) c).Φ (Fin.last cfg3.N) from rfl]
    iintro HΦ
    ihave H := (hout3 (tv6 m) c) $$ HΦ
    icases H with ⟨Hp, Hr⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hdats m) ((hdats m 3 c).share_full fun _ => rfl)
      (tv6 m c) (xv7 m c) ((hdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 8's contents, left at boundary 9's.
    Its windows' arrays are split out of the unscoped buffers and put back at the exit contents; the generator register
    and the scoped buffers enter the region's invariant and come back; nothing is owed; the kernel has no semaphore of its own. -/
def rseg4 : Pipeline.RegionSeg (pcfgs (F := F)) hadm (hdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tv8 m) c).loose
  hwaits := Pipeline.hwaits_of_owed_zero _ _ _ _ L lv 4 fun _ _ => rfl
  pre c := iprop(StableHlo.held (c : Thread nD τ) (Pipeline.ucRefs τ sig) (bd8 m c) ∗ rest c)
  post c := iprop(StableHlo.held (c : Thread nD τ) (Pipeline.ucRefs τ sig) (bd9 m c) ∗ rest c)
  X c := iprop(∃ r, prngReg c r)
  Y c := iprop(∃ r, prngReg c r)
  Z c := Pipeline.unscopedRest (Ix := Unit) (Name := ℕ) (U := UR sig nD τ) (Lvl := ℕ) spec4 c (tv8 m c)
  hentry c := by
    rw [Pipeline.ownSems0_none]
    have hsplit := Pipeline.arrays_of_unscopedBufs (p := 4) (pcfgs (F := F)) hadm (hdats m) launch4.win launch4.arr_whole c
      ((hdats m 4 c).share_full fun _ => rfl) (tv8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 4 c).Φ 0 = (dat4 (tv8 m) c).Φ 0 from rfl]
    iintro ⟨Hp, -, Hr⟩
    iapply (hin4 (tv8 m) c)
    isplitl [Hp]; · iexact Hp
    iexact Hr
  hout c := by
    rw [Pipeline.ownSems0_none, show (hdats m 4 c).Φ (Fin.last _) = (dat4 (tv8 m) c).Φ (Fin.last cfg4.N) from rfl]
    iintro HΦ
    ihave H := (hout4 (tv8 m) c) $$ HΦ
    icases H with ⟨Hp, Hr⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (hdats m) ((hdats m 4 c).share_full fun _ => rfl)
      (tv8 m c) (xv9 m c) ((hdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 10's contents, left at boundary 11's.
    Its windows' arrays are split out of the unscoped buffers and put back at the exit contents; the generator register
    and the scoped buffers enter the region's invariant and come back; nothing is owed; the kernel has no semaphore of its own. -/
def rseg5 : Pipeline.RegionSeg (pcfgs (F := F)) hadm (hdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tv10 m) c).loose
  hwaits := Pipeline.hwaits_of_owed_zero _ _ _ _ L lv 5 fun _ _ => rfl
  pre c := iprop(StableHlo.held (c : Thread nD τ) (Pipeline.ucRefs τ sig) (bd10 m c) ∗ rest c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (tv10 m c)
  hentry c := by
    rw [Pipeline.ownSems0_none]
    have hsplit := Pipeline.arrays_of_unscopedBufs (p := 5) (pcfgs (F := F)) hadm (hdats m) launch5.win launch5.arr_whole c
      ((hdats m 5 c).share_full fun _ => rfl) (tv10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 5 c).Φ 0 = (dat5 (tv10 m) c).Φ 0 from rfl]
    iintro ⟨Hp, -, Hr⟩
    iapply (hin5 (tv10 m) c)
    isplitl [Hp]; · iexact Hp
    iexact Hr
  hout c := by
    rw [Pipeline.ownSems0_none, show (hdats m 5 c).Φ (Fin.last _) = (dat5 (tv10 m) c).Φ (Fin.last cfg5.N) from rfl]
    iintro HΦ
    ihave H := (hout5 (tv10 m) c) $$ HΦ
    icases H with ⟨Hp, Hr⟩
    isplitl [Hp]; · iexact Hp
    isplitr; · iempintro
    iexact Hr
  hexit c := by
    have hjoin := Pipeline.unscopedBufs_of_arrays (p := 5) (pcfgs (F := F)) hadm (Ix := Unit) (Name := ℕ) (U := UR sig nD τ) (Lvl := ℕ)
      launch5.win launch5.arr_whole c (hdats m) ((hdats m 5 c).share_full fun _ => rfl)
      (tv10 m c) (xv11 m c) ((hdats m 5 c).arrAt · cfg5.N) (hF5 m c) (hrest5 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eleven items in order. -/
abbrev hsegs : List (Pipeline.Seg (pcfgs (F := F)) hadm (hdats m) () defs₀ 𝒱₀ L lv) :=
  [ .host (hseg hostOps0 hostOps0_sub hostOps0_fresh (bd0 m)),
    .region (rseg0 m),
    .host (hseg hostOps1 hostOps1_sub hostOps1_fresh (bd2 m)),
    .region (rseg1 m),
    .host (hseg hostOps2 hostOps2_sub hostOps2_fresh (bd4 m)),
    .region (rseg2 m),
    .region (rseg3 m),
    .host (hseg hostOps4 hostOps4_sub hostOps4_fresh (bd7 m)),
    .region (rseg4 m),
    .host (hseg hostOps5 hostOps5_sub hostOps5_fresh (bd9 m)),
    .region (rseg5 m) ]
/-- The program is the run of its items. -/
theorem main_run (c : Dev nD) : main (F := F) c = Pipeline.Seg.run (hsegs m) := (main_chain c).trans (by chain_rfl)

set_option backward.isDefEq.respectTransparency.types false in
/-- THE RUN. From any memory with zero counters every weakly fair execution of the program on the TensorCores
    terminates, nothing faulting, and in every final state each unscoped buffer of each core holds the last boundary's
    contents: the arguments as launched, the two results at what region 5 leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bd11 m c b) :=
  Pipeline.θ_run_regions_kit (pcfgs (F := F)) hadm (hdats m) () cellOf_inj emb₁ defs₀ 𝒱₀ L lv m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m c) ∗ rest c)) (Tₙ := Tn m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (bd0 m c)
        from Pipeline.unscopedBufs_held c (bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd11 m c b)
    (hfin := fun c s' => by
      iintro ⟨⟨Hh, -⟩, HSI⟩
      unfold StableHlo.held
      imodintro
      iapply (pointsTo_read_all (Pipeline.ucRefs τ sig) (fun b => (((c : Thread nD τ)).1, b)) (bd11 m c) s')
      isplitl [Hh] <;> iassumption)
    (hQ := fun s h c => h c)

/-- THE FRAME: the run, with every argument array read back to its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (bd11_main_arg0 m c),
     (h c _ (mem_uc main_arg1 (by decide))).trans (bd11_main_arg1 m c),
     (h c _ (mem_uc main_arg2 (by decide))).trans (bd11_main_arg2 m c),
     (h c _ (mem_uc main_arg3 (by decide))).trans (bd11_main_arg3 m c),
     (h c _ (mem_uc main_arg4 (by decide))).trans (bd11_main_arg4 m c),
     (h c _ (mem_uc main_arg5 (by decide))).trans (bd11_main_arg5 m c),
     (h c _ (mem_uc main_arg6 (by decide))).trans (bd11_main_arg6 m c),
     (h c _ (mem_uc main_arg7 (by decide))).trans (bd11_main_arg7 m c),
     (h c _ (mem_uc main_arg8 (by decide))).trans (bd11_main_arg8 m c),
     (h c _ (mem_uc main_arg9 (by decide))).trans (bd11_main_arg9 m c)⟩) (run_all m ρ)

end Cert.KernelIdeal.Hand

end
-- ==== Proof.RefRun.lean ====
/- The reference program's run, read as one straight line of host operations.

   `ops` lists @main's operations in order; an outlined function's operations stand at its call site, over
   the buffers that call names. `main_eq`: @main is `seq ops`. `run`: from any memory with zero counters every
   weakly fair execution terminates, each returned buffer holds the fold `after ops` of the launch contents at
   that buffer, and no operation writes an argument buffer, so the arguments end as they began. `frame_ri` is
   the frame claim read off `run`. -/
import proofs.«122563_j12137577578919_1_alg».proof.Defs
import proofs.«122563_j12137577578919_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The operations -/

/-- Operations 1 … 60 of 207: the edge lists with the self loops appended, the degree count and its inverse square root, the edge weights, the first dense product, its rows gathered and weighted. -/
abbrev ops0 : List (HloOp τ sig (Elt F)) :=
  [ StableHlo.nullary main_v0 (iotaInDim S100000 32 0),
    StableHlo.unary main_arg0 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg0 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x00000000#32),
    StableHlo.unary main_cst main_v7 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v8 (broadcastInDim S1700000 ![] bcast_S_S1700000 : (⟨S_, .i32⟩ : BufTy).Contents (Elt F) → (⟨S1700000, .i32⟩ : BufTy).Contents (Elt F)),
    StableHlo.binary main_v6 main_v8 main_v9 (cmpi .slt : (⟨S1700000, .i32⟩ : BufTy).Contents (Elt F) → (⟨S1700000, .i32⟩ : BufTy).Contents (Elt F) → (⟨S1700000, .i1⟩ : BufTy).Contents (Elt F)),
    StableHlo.nullary main_c_0 (constantI S_ 32 100000#32),
    StableHlo.unary main_c_0 main_v10 (broadcastInDim S1700000 ![] bcast_S_S1700000 : (⟨S_, .i32⟩ : BufTy).Contents (Elt F) → (⟨S1700000, .i32⟩ : BufTy).Contents (Elt F)),
    StableHlo.binary main_v6 main_v10 main_v11 (addi : (⟨S1700000, .i32⟩ : BufTy).Contents (Elt F) → (⟨S1700000, .i32⟩ : BufTy).Contents (Elt F) → (⟨S1700000, .i32⟩ : BufTy).Contents (Elt F)),
    StableHlo.ternary main_v9 main_v11 main_v6 main_v12 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v12 main_v13 (broadcastInDim S1700000x1 ![0] bcast_S1700000_S1700000x1_0 : (⟨S1700000, .i32⟩ : BufTy).Contents (Elt F) → (⟨S1700000x1, .i32⟩ : BufTy).Contents (Elt F)),
    StableHlo.nullary main_cst_1 (constant S_ .f32 0x3F800000#32),
    StableHlo.unary main_cst_1 main_v14 (broadcastInDim S1700000 ![] bcast_S_S1700000 : (⟨S_, .f32⟩ : BufTy).Contents (Elt F) → (⟨S1700000, .f32⟩ : BufTy).Contents (Elt F)),
    StableHlo.ternary main_v7 main_v13 main_v14 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_c_2 (constantI S_ 32 0#32),
    StableHlo.unary main_c_2 main_v17 (broadcastInDim S1700000 ![] bcast_S_S1700000 : (⟨S_, .i32⟩ : BufTy).Contents (Elt F) → (⟨S1700000, .i32⟩ : BufTy).Contents (Elt F)),
    StableHlo.binary main_v3 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v19 (broadcastInDim S1700000 ![] bcast_S_S1700000 : (⟨S_, .i32⟩ : BufTy).Contents (Elt F) → (⟨S1700000, .i32⟩ : BufTy).Contents (Elt F)),
    StableHlo.binary main_v3 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v23 main_v30 main_v31 (mulf : (⟨S1700000, .f32⟩ : BufTy).Contents (Elt F) → (⟨S1700000, .f32⟩ : BufTy).Contents (Elt F) → (⟨S1700000, .f32⟩ : BufTy).Contents (Elt F)),
    StableHlo.binary main_arg1 main_arg2 main_v32 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_6 (constantI S_ 32 0#32),
    StableHlo.unary main_c_6 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v31 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v43 (broadcastInDim S100000x64 ![] bcast_S_S100000x64 : (⟨S_, .f32⟩ : BufTy).Contents (Elt F) → (⟨S100000x64, .f32⟩ : BufTy).Contents (Elt F)),
    StableHlo.nullary main_c_9 (constantI S_ 32 0#32),
    StableHlo.unary main_c_9 main_v44 (broadcastInDim S1700000 ![] bcast_S_S1700000 : (⟨S_, .i32⟩ : BufTy).Contents (Elt F) → (⟨S1700000, .i32⟩ : BufTy).Contents (Elt F)),
    StableHlo.binary main_v6 main_v44 main_v45 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v46 (broadcastInDim S1700000 ![] bcast_S_S1700000 : (⟨S_, .i32⟩ : BufTy).Contents (Elt F) → (⟨S1700000, .i32⟩ : BufTy).Contents (Elt F)) ]

/-- Operations 61 … 143 of 207: the first scatter-sum with its bias, the column mean, the column variance (the outlined variance and its inner select, over their own buffers), the normalisation, the rectifier (outlined, over its own buffers), the second dense product, its rows gathered, weighted and scatter-summed with its bias, the column sums. -/
abbrev ops1 : List (HloOp τ sig (Elt F)) :=
  [ StableHlo.binary main_v6 main_v46 main_v47 (addi : (⟨S1700000, .i32⟩ : BufTy).Contents (Elt F) → (⟨S1700000, .i32⟩ : BufTy).Contents (Elt F) → (⟨S1700000, .i32⟩ : BufTy).Contents (Elt F)),
    StableHlo.ternary main_v45 main_v47 main_v6 main_v48 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v48 main_v49 (broadcastInDim S1700000x1 ![0] bcast_S1700000_S1700000x1_0 : (⟨S1700000, .i32⟩ : BufTy).Contents (Elt F) → (⟨S1700000x1, .i32⟩ : BufTy).Contents (Elt F)),
    StableHlo.ternary main_v43 main_v49 main_v42 main_v50 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v52 main_v53 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x00000000#32),
    StableHlo.binary main_v53 main_cst_11 main_v54 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_12 (constant S_ .f32 0x47C35000#32),
    StableHlo.unary main_cst_12 main_v55 (broadcastInDim S64 ![] bcast_S_S64 : (⟨S_, .f32⟩ : BufTy).Contents (Elt F) → (⟨S64, .f32⟩ : BufTy).Contents (Elt F)),
    StableHlo.binary main_v54 main_v55 main_v56 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32),
    StableHlo.TRef.nullary main_call0.cst (constant S_ .f32 0x00000000#32),
    StableHlo.TRef.binary (.of main_v53 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v53 : StableHlo.TRef sig ⟨S100000x64, .f32⟩) main_call0.v4 main_call0.v5 subf,
    StableHlo.TRef.binary main_call0.v5 main_call0.v5 main_call0.v6 mulf,
    StableHlo.TRef.unary (.of main_c_13 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v56 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v59 main_v60 (subf : (⟨S100000x64, .f32⟩ : BufTy).Contents (Elt F) → (⟨S100000x64, .f32⟩ : BufTy).Contents (Elt F) → (⟨S100000x64, .f32⟩ : BufTy).Contents (Elt F)),
    StableHlo.unary main_arg4 main_v61 (broadcastInDim S1x64 ![1] bcast_S64_S1x64_1 : (⟨S64, .f32⟩ : BufTy).Contents (Elt F) → (⟨S1x64, .f32⟩ : BufTy).Contents (Elt F)),
    StableHlo.unary main_v61 main_v62 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v60 main_v63 (mulf : (⟨S100000x64, .f32⟩ : BufTy).Contents (Elt F) → (⟨S100000x64, .f32⟩ : BufTy).Contents (Elt F) → (⟨S100000x64, .f32⟩ : BufTy).Contents (Elt F)),
    StableHlo.nullary main_cst_14 (constant S_ .f32 0x3727C5AC#32),
    StableHlo.unary main_cst_14 main_v64 (broadcastInDim S64 ![] bcast_S_S64 : (⟨S_, .f32⟩ : BufTy).Contents (Elt F) → (⟨S64, .f32⟩ : BufTy).Contents (Elt F)),
    StableHlo.binary main_v57 main_v64 main_v65 (addf : (⟨S64, .f32⟩ : BufTy).Contents (Elt F) → (⟨S64, .f32⟩ : BufTy).Contents (Elt F) → (⟨S64, .f32⟩ : BufTy).Contents (Elt F)),
    StableHlo.unary main_v65 main_v66 (Host.rsqrt : (⟨S64, .f32⟩ : BufTy).Contents (Elt F) → (⟨S64, .f32⟩ : BufTy).Contents (Elt F)),
    StableHlo.unary main_v66 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v68 main_v69 (mulf : (⟨S100000x64, .f32⟩ : BufTy).Contents (Elt F) → (⟨S100000x64, .f32⟩ : BufTy).Contents (Elt F) → (⟨S100000x64, .f32⟩ : BufTy).Contents (Elt F)),
    StableHlo.unary main_arg5 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S100000x64 ![0, 1] bcast_S1x64_S100000x64_0_1 : (⟨S1x64, .f32⟩ : BufTy).Contents (Elt F) → (⟨S100000x64, .f32⟩ : BufTy).Contents (Elt F)),
    StableHlo.binary main_v69 main_v71 main_v72 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v72 : StableHlo.TRef sig ⟨S100000x64, .f32⟩) main_call1.v0 main_call1.v1 maximumf,
    StableHlo.binary main_v73 main_arg6 main_v74 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    StableHlo.nullary main_c_15 (constantI S_ 32 0#32),
    StableHlo.unary main_c_15 main_v75 (broadcastInDim S1700000 ![] bcast_S_S1700000 : (⟨S_, .i32⟩ : BufTy).Contents (Elt F) → (⟨S1700000, .i32⟩ : BufTy).Contents (Elt F)),
    StableHlo.binary main_v3 main_v75 main_v76 (cmpi .slt : (⟨S1700000, .i32⟩ : BufTy).Contents (Elt F) → (⟨S1700000, .i32⟩ : BufTy).Contents (Elt F) → (⟨S1700000, .i1⟩ : BufTy).Contents (Elt F)),
    StableHlo.nullary main_c_16 (constantI S_ 32 100000#32),
    StableHlo.unary main_c_16 main_v77 (broadcastInDim S1700000 ![] bcast_S_S1700000 : (⟨S_, .i32⟩ : BufTy).Contents (Elt F) → (⟨S1700000, .i32⟩ : BufTy).Contents (Elt F)),
    StableHlo.binary main_v3 main_v77 main_v78 (addi : (⟨S1700000, .i32⟩ : BufTy).Contents (Elt F) → (⟨S1700000, .i32⟩ : BufTy).Contents (Elt F) → (⟨S1700000, .i32⟩ : BufTy).Contents (Elt F)),
    StableHlo.ternary main_v76 main_v78 main_v3 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v79 main_v80 (broadcastInDim S1700000x1 ![0] bcast_S1700000_S1700000x1_0 : (⟨S1700000, .i32⟩ : BufTy).Contents (Elt F) → (⟨S1700000x1, .i32⟩ : BufTy).Contents (Elt F)),
    StableHlo.binary main_v74 main_v80 main_v81 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)),
    StableHlo.unary main_v31 main_v82 (broadcastInDim S1700000x1 ![0] bcast_S1700000_S1700000x1_0 : (⟨S1700000, .f32⟩ : BufTy).Contents (Elt F) → (⟨S1700000x1, .f32⟩ : BufTy).Contents (Elt F)),
    StableHlo.unary main_v82 main_v83 (broadcastInDim S1700000x2 ![0, 1] bcast_S1700000x1_S1700000x2_0_1 : (⟨S1700000x1, .f32⟩ : BufTy).Contents (Elt F) → (⟨S1700000x2, .f32⟩ : BufTy).Contents (Elt F)),
    StableHlo.binary main_v81 main_v83 main_v84 (mulf : (⟨S1700000x2, .f32⟩ : BufTy).Contents (Elt F) → (⟨S1700000x2, .f32⟩ : BufTy).Contents (Elt F) → (⟨S1700000x2, .f32⟩ : BufTy).Contents (Elt F)),
    StableHlo.nullary main_cst_17 (constant S_ .f32 0x00000000#32),
    StableHlo.unary main_cst_17 main_v85 (broadcastInDim S100000x2 ![] bcast_S_S100000x2 : (⟨S_, .f32⟩ : BufTy).Contents (Elt F) → (⟨S100000x2, .f32⟩ : BufTy).Contents (Elt F)),
    StableHlo.nullary main_c_18 (constantI S_ 32 0#32),
    StableHlo.unary main_c_18 main_v86 (broadcastInDim S1700000 ![] bcast_S_S1700000 : (⟨S_, .i32⟩ : BufTy).Contents (Elt F) → (⟨S1700000, .i32⟩ : BufTy).Contents (Elt F)),
    StableHlo.binary main_v6 main_v86 main_v87 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v88 (broadcastInDim S1700000 ![] bcast_S_S1700000 : (⟨S_, .i32⟩ : BufTy).Contents (Elt F) → (⟨S1700000, .i32⟩ : BufTy).Contents (Elt F)),
    StableHlo.binary main_v6 main_v88 main_v89 (addi : (⟨S1700000, .i32⟩ : BufTy).Contents (Elt F) → (⟨S1700000, .i32⟩ : BufTy).Contents (Elt F) → (⟨S1700000, .i32⟩ : BufTy).Contents (Elt F)),
    StableHlo.ternary main_v87 main_v89 main_v6 main_v90 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v90 main_v91 (broadcastInDim S1700000x1 ![0] bcast_S1700000_S1700000x1_0 : (⟨S1700000, .i32⟩ : BufTy).Contents (Elt F) → (⟨S1700000x1, .i32⟩ : BufTy).Contents (Elt F)),
    StableHlo.ternary main_v85 main_v91 main_v84 main_v92 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)),
    StableHlo.unary main_arg7 main_v93 (broadcastInDim S1x2 ![1] bcast_S2_S1x2_1 : (⟨S2, .f32⟩ : BufTy).Contents (Elt F) → (⟨S1x2, .f32⟩ : BufTy).Contents (Elt F)),
    StableHlo.unary main_v93 main_v94 (broadcastInDim S100000x2 ![0, 1] bcast_S1x2_S100000x2_0_1 : (⟨S1x2, .f32⟩ : BufTy).Contents (Elt F) → (⟨S100000x2, .f32⟩ : BufTy).Contents (Elt F)),
    StableHlo.binary main_v92 main_v94 main_v95 (addf : (⟨S100000x2, .f32⟩ : BufTy).Contents (Elt F) → (⟨S100000x2, .f32⟩ : BufTy).Contents (Elt F) → (⟨S100000x2, .f32⟩ : BufTy).Contents (Elt F)),
    StableHlo.nullary main_cst_20 (constant S_ .f32 0x00000000#32),
    StableHlo.binary main_v95 main_cst_20 main_v96 ((fun x v => Host.reduceAdd x v reducesTo_S100000x2_S2_d0 h_S_) : (⟨S100000x2, .f32⟩ : BufTy).Contents (Elt F) → (⟨S_, .f32⟩ : BufTy).Contents (Elt F) → (⟨S2, .f32⟩ : BufTy).Contents (Elt F)) ]

/-- Operations 144 … 207 of 207: the column mean, the column variance (outlined as before), the normalisation, the logistic function of the result (first value returned), and the softmax of it along the last axis (second value returned). -/
abbrev ops2 : List (HloOp τ sig (Elt F)) :=
  [ StableHlo.nullary main_cst_21 (constant S_ .f32 0x47C35000#32),
    StableHlo.unary main_cst_21 main_v97 (broadcastInDim S2 ![] bcast_S_S2 : (⟨S_, .f32⟩ : BufTy).Contents (Elt F) → (⟨S2, .f32⟩ : BufTy).Contents (Elt F)),
    StableHlo.binary main_v96 main_v97 main_v98 (Host.divf : (⟨S2, .f32⟩ : BufTy).Contents (Elt F) → (⟨S2, .f32⟩ : BufTy).Contents (Elt F) → (⟨S2, .f32⟩ : BufTy).Contents (Elt F)),
    StableHlo.nullary main_c_22 (constantI S_ 32 0#32),
    StableHlo.TRef.nullary main_call2.cst (constant S_ .f32 0x00000000#32),
    StableHlo.TRef.binary (.of main_v95 : StableHlo.TRef sig ⟨S100000x2, .f32⟩) main_call2.cst main_call2.v0 (fun x v => Host.reduceAdd x v reducesTo_S100000x2_S2_d0 h_S_),
    StableHlo.TRef.unary main_call2.v0 main_call2.v1 (broadcastInDim S1x2 ![1] bcast_S2_S1x2_1),
    StableHlo.TRef.nullary main_call2.cst_0 (constant S_ .f32 0x47C35000#32),
    StableHlo.TRef.unary main_call2.cst_0 main_call2.v2 (broadcastInDim S1x2 ![] bcast_S_S1x2),
    StableHlo.TRef.binary main_call2.v1 main_call2.v2 main_call2.v3 Host.divf,
    StableHlo.TRef.unary main_call2.v3 main_call2.v4 (broadcastInDim S100000x2 ![0, 1] bcast_S1x2_S100000x2_0_1),
    StableHlo.TRef.binary (.of main_v95 : StableHlo.TRef sig ⟨S100000x2, .f32⟩) main_call2.v4 main_call2.v5 subf,
    StableHlo.TRef.binary main_call2.v5 main_call2.v5 main_call2.v6 mulf,
    StableHlo.TRef.unary (.of main_c_22 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x2_S2_d0 h_S_),
    StableHlo.TRef.unary main_call2.v8 main_call2.v10 (broadcastInDim S2 ![] bcast_S_S2),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S2 ![] bcast_S_S2),
    StableHlo.TRef.ternary main_call2.v12 main_call2.v11 main_call2.call0.v1 main_call2.call0.v2 (fun p a b => select (broadcastInDim S2 ![] bcast_S_S2 p) a b),
    StableHlo.unary main_v98 main_v100 (broadcastInDim S1x2 ![1] bcast_S2_S1x2_1 : (⟨S2, .f32⟩ : BufTy).Contents (Elt F) → (⟨S1x2, .f32⟩ : BufTy).Contents (Elt F)),
    StableHlo.unary main_v100 main_v101 (broadcastInDim S100000x2 ![0, 1] bcast_S1x2_S100000x2_0_1 : (⟨S1x2, .f32⟩ : BufTy).Contents (Elt F) → (⟨S100000x2, .f32⟩ : BufTy).Contents (Elt F)),
    StableHlo.binary main_v95 main_v101 main_v102 (subf : (⟨S100000x2, .f32⟩ : BufTy).Contents (Elt F) → (⟨S100000x2, .f32⟩ : BufTy).Contents (Elt F) → (⟨S100000x2, .f32⟩ : BufTy).Contents (Elt F)),
    StableHlo.unary main_arg8 main_v103 (broadcastInDim S1x2 ![1] bcast_S2_S1x2_1 : (⟨S2, .f32⟩ : BufTy).Contents (Elt F) → (⟨S1x2, .f32⟩ : BufTy).Contents (Elt F)),
    StableHlo.unary main_v103 main_v104 (broadcastInDim S100000x2 ![0, 1] bcast_S1x2_S100000x2_0_1 : (⟨S1x2, .f32⟩ : BufTy).Contents (Elt F) → (⟨S100000x2, .f32⟩ : BufTy).Contents (Elt F)),
    StableHlo.binary main_v104 main_v102 main_v105 (mulf : (⟨S100000x2, .f32⟩ : BufTy).Contents (Elt F) → (⟨S100000x2, .f32⟩ : BufTy).Contents (Elt F) → (⟨S100000x2, .f32⟩ : BufTy).Contents (Elt F)),
    StableHlo.nullary main_cst_23 (constant S_ .f32 0x3727C5AC#32),
    StableHlo.unary main_cst_23 main_v106 (broadcastInDim S2 ![] bcast_S_S2 : (⟨S_, .f32⟩ : BufTy).Contents (Elt F) → (⟨S2, .f32⟩ : BufTy).Contents (Elt F)),
    StableHlo.binary main_v99 main_v106 main_v107 (addf : (⟨S2, .f32⟩ : BufTy).Contents (Elt F) → (⟨S2, .f32⟩ : BufTy).Contents (Elt F) → (⟨S2, .f32⟩ : BufTy).Contents (Elt F)),
    StableHlo.unary main_v107 main_v108 (Host.rsqrt : (⟨S2, .f32⟩ : BufTy).Contents (Elt F) → (⟨S2, .f32⟩ : BufTy).Contents (Elt F)),
    StableHlo.unary main_v108 main_v109 (broadcastInDim S1x2 ![1] bcast_S2_S1x2_1 : (⟨S2, .f32⟩ : BufTy).Contents (Elt F) → (⟨S1x2, .f32⟩ : BufTy).Contents (Elt F)),
    StableHlo.unary main_v109 main_v110 (broadcastInDim S100000x2 ![0, 1] bcast_S1x2_S100000x2_0_1 : (⟨S1x2, .f32⟩ : BufTy).Contents (Elt F) → (⟨S100000x2, .f32⟩ : BufTy).Contents (Elt F)),
    StableHlo.binary main_v105 main_v110 main_v111 (mulf : (⟨S100000x2, .f32⟩ : BufTy).Contents (Elt F) → (⟨S100000x2, .f32⟩ : BufTy).Contents (Elt F) → (⟨S100000x2, .f32⟩ : BufTy).Contents (Elt F)),
    StableHlo.unary main_arg9 main_v112 (broadcastInDim S1x2 ![1] bcast_S2_S1x2_1 : (⟨S2, .f32⟩ : BufTy).Contents (Elt F) → (⟨S1x2, .f32⟩ : BufTy).Contents (Elt F)),
    StableHlo.unary main_v112 main_v113 (broadcastInDim S100000x2 ![0, 1] bcast_S1x2_S100000x2_0_1 : (⟨S1x2, .f32⟩ : BufTy).Contents (Elt F) → (⟨S100000x2, .f32⟩ : BufTy).Contents (Elt F)),
    StableHlo.binary main_v111 main_v113 main_v114 (addf : (⟨S100000x2, .f32⟩ : BufTy).Contents (Elt F) → (⟨S100000x2, .f32⟩ : BufTy).Contents (Elt F) → (⟨S100000x2, .f32⟩ : BufTy).Contents (Elt F)),
    StableHlo.unary main_v114 main_v115 (Host.negf : (⟨S100000x2, .f32⟩ : BufTy).Contents (Elt F) → (⟨S100000x2, .f32⟩ : BufTy).Contents (Elt F)),
    StableHlo.unary main_v115 main_v116 (Host.exp : (⟨S100000x2, .f32⟩ : BufTy).Contents (Elt F) → (⟨S100000x2, .f32⟩ : BufTy).Contents (Elt F)),
    StableHlo.nullary main_cst_24 (constant S_ .f32 0x3F800000#32),
    StableHlo.unary main_cst_24 main_v117 (broadcastInDim S100000x2 ![] bcast_S_S100000x2 : (⟨S_, .f32⟩ : BufTy).Contents (Elt F) → (⟨S100000x2, .f32⟩ : BufTy).Contents (Elt F)),
    StableHlo.binary main_v117 main_v116 main_v118 (addf : (⟨S100000x2, .f32⟩ : BufTy).Contents (Elt F) → (⟨S100000x2, .f32⟩ : BufTy).Contents (Elt F) → (⟨S100000x2, .f32⟩ : BufTy).Contents (Elt F)),
    StableHlo.nullary main_cst_25 (constant S_ .f32 0x3F800000#32),
    StableHlo.unary main_cst_25 main_v119 (broadcastInDim S100000x2 ![] bcast_S_S100000x2 : (⟨S_, .f32⟩ : BufTy).Contents (Elt F) → (⟨S100000x2, .f32⟩ : BufTy).Contents (Elt F)),
    StableHlo.binary main_v119 main_v118 main_v120 (Host.divf : (⟨S100000x2, .f32⟩ : BufTy).Contents (Elt F) → (⟨S100000x2, .f32⟩ : BufTy).Contents (Elt F) → (⟨S100000x2, .f32⟩ : BufTy).Contents (Elt F)),
    StableHlo.nullary main_cst_26 (constant S_ .f32 0xFF800000#32),
    StableHlo.binary main_v114 main_cst_26 main_v121 ((fun x v => Host.reduce FloatOps.maximumf x v reducesTo_S100000x2_S100000_d1 h_S_) : (⟨S100000x2, .f32⟩ : BufTy).Contents (Elt F) → (⟨S_, .f32⟩ : BufTy).Contents (Elt F) → (⟨S100000, .f32⟩ : BufTy).Contents (Elt F)),
    StableHlo.nullary main_cst_27 (constant S_ .f32 0xFF800000#32),
    StableHlo.unary main_cst_27 main_v122 (broadcastInDim S100000 ![] bcast_S_S100000 : (⟨S_, .f32⟩ : BufTy).Contents (Elt F) → (⟨S100000, .f32⟩ : BufTy).Contents (Elt F)),
    StableHlo.binary main_v122 main_v121 main_v123 (maximumf : (⟨S100000, .f32⟩ : BufTy).Contents (Elt F) → (⟨S100000, .f32⟩ : BufTy).Contents (Elt F) → (⟨S100000, .f32⟩ : BufTy).Contents (Elt F)),
    StableHlo.unary main_v123 main_v124 (broadcastInDim S100000x1 ![0] bcast_S100000_S100000x1_0 : (⟨S100000, .f32⟩ : BufTy).Contents (Elt F) → (⟨S100000x1, .f32⟩ : BufTy).Contents (Elt F)),
    StableHlo.unary main_v124 main_v125 (broadcastInDim S100000x2 ![0, 1] bcast_S100000x1_S100000x2_0_1 : (⟨S100000x1, .f32⟩ : BufTy).Contents (Elt F) → (⟨S100000x2, .f32⟩ : BufTy).Contents (Elt F)),
    StableHlo.binary main_v114 main_v125 main_v126 (subf : (⟨S100000x2, .f32⟩ : BufTy).Contents (Elt F) → (⟨S100000x2, .f32⟩ : BufTy).Contents (Elt F) → (⟨S100000x2, .f32⟩ : BufTy).Contents (Elt F)),
    StableHlo.unary main_v126 main_v127 (Host.exp : (⟨S100000x2, .f32⟩ : BufTy).Contents (Elt F) → (⟨S100000x2, .f32⟩ : BufTy).Contents (Elt F)),
    StableHlo.nullary main_cst_28 (constant S_ .f32 0x00000000#32),
    StableHlo.binary main_v127 main_cst_28 main_v128 ((fun x v => Host.reduceAdd x v reducesTo_S100000x2_S100000_d1 h_S_) : (⟨S100000x2, .f32⟩ : BufTy).Contents (Elt F) → (⟨S_, .f32⟩ : BufTy).Contents (Elt F) → (⟨S100000, .f32⟩ : BufTy).Contents (Elt F)),
    StableHlo.unary main_v128 main_v129 (broadcastInDim S100000x1 ![0] bcast_S100000_S100000x1_0 : (⟨S100000, .f32⟩ : BufTy).Contents (Elt F) → (⟨S100000x1, .f32⟩ : BufTy).Contents (Elt F)),
    StableHlo.unary main_v129 main_v130 (broadcastInDim S100000x2 ![0, 1] bcast_S100000x1_S100000x2_0_1 : (⟨S100000x1, .f32⟩ : BufTy).Contents (Elt F) → (⟨S100000x2, .f32⟩ : BufTy).Contents (Elt F)),
    StableHlo.binary main_v127 main_v130 main_v131 (Host.divf : (⟨S100000x2, .f32⟩ : BufTy).Contents (Elt F) → (⟨S100000x2, .f32⟩ : BufTy).Contents (Elt F) → (⟨S100000x2, .f32⟩ : BufTy).Contents (Elt F)) ]

/-- @main's 207 operations, in order. -/
abbrev ops : List (HloOp τ sig (Elt F)) := ops0 ++ (ops1 ++ ops2)

/-- The fold over the whole line is the three folds in turn. -/
theorem after_ops (V : Valuation τ sig (Elt F)) : after ops V = after ops2 (after ops1 (after ops0 V)) := by
  simp only [ops, StableHlo.after_append]

/-! ## @main is that line -/

set_option maxRecDepth 8192 in
set_option maxHeartbeats 4000000 in
theorem main_part0_eq (c : Dev nD) : main_part0 (F := F) c = seq ops0 := rfl

set_option maxRecDepth 8192 in
set_option maxHeartbeats 4000000 in
/-- The calls unfolded at their records, both sides are one chain of steps once sequencing is reassociated. -/
theorem main_part1_eq (c : Dev nD) : main_part1 (F := F) c = seq ops1 := by
  simp only [main_part1, fn_var.body, fn_where.body, fn_relu.body, seq, bind_assoc, pure_bind]
  rfl

set_option maxRecDepth 8192 in
set_option maxHeartbeats 4000000 in
/-- The calls unfolded at their records, both sides are one chain of steps once sequencing is reassociated. -/
theorem main_part2_eq (c : Dev nD) : main_part2 (F := F) c = seq ops2 := by
  simp only [main_part2, fn_var_0.body, fn_where_1.body, seq, bind_assoc, pure_bind]

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its results -/

set_option maxRecDepth 8192 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., nullary_bufs_sub .., unary_bufs_sub .., binary_bufs_sub .., nullary_bufs_sub .., unary_bufs_sub ..⟩
set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨binary_bufs_sub .., ternary_bufs_sub .., unary_bufs_sub .., ternary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    unary_bufs_sub .., unary_bufs_sub .., binary_bufs_sub .., nullary_bufs_sub .., binary_bufs_sub ..⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub ..⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

/-! ## What the line writes

Each operation writes one buffer; `opsK_W` lists them. A buffer outside the three lists keeps its contents. -/

/-- A buffer of the list, as a one-element set, lies in the list's set of device buffers. -/
theorem sub_W {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers operations 1 … 60 write, in order. -/
abbrev ops0_W : List (Ref sig .tc) :=
  [main_v0, main_v1, main_v2, main_v3, main_v4, main_v5, main_v6, main_cst,
   main_v7, main_c, main_v8, main_v9, main_c_0, main_v10, main_v11, main_v12,
   main_v13, main_cst_1, main_v14, main_v15, main_v16, main_c_2, main_v17, main_v18,
   main_c_3, main_v19, main_v20, main_v21, main_v22, main_v23, main_c_4, main_v24,
   main_v25, main_c_5, main_v26, main_v27, main_v28, main_v29, main_v30, main_v31,
   main_v32, main_c_6, main_v33, main_v34, main_c_7, main_v35, main_v36, main_v37,
   main_v38, main_v39, main_v40, main_v41, main_v42, main_cst_8, main_v43, main_c_9,
   main_v44, main_v45, main_c_10, main_v46]
set_option maxRecDepth 8192 in
theorem ops0_writes : (ops0 : List (HloOp τ sig (Elt F))).Forall fun op =>
    op.writes ⊆ (ops0_W.map (Proc.devRef (τ := τ) .tc)).toFinset :=
  ⟨sub_W (y := main_v0) (by decide), sub_W (y := main_v1) (by decide), sub_W (y := main_v2) (by decide),
    sub_W (y := main_v3) (by decide), sub_W (y := main_v4) (by decide), sub_W (y := main_v5) (by decide),
    sub_W (y := main_v6) (by decide), sub_W (y := main_cst) (by decide), sub_W (y := main_v7) (by decide),
    sub_W (y := main_c) (by decide), sub_W (y := main_v8) (by decide), sub_W (y := main_v9) (by decide),
    sub_W (y := main_c_0) (by decide), sub_W (y := main_v10) (by decide), sub_W (y := main_v11) (by decide),
    sub_W (y := main_v12) (by decide), sub_W (y := main_v13) (by decide), sub_W (y := main_cst_1) (by decide),
    sub_W (y := main_v14) (by decide), sub_W (y := main_v15) (by decide), sub_W (y := main_v16) (by decide),
    sub_W (y := main_c_2) (by decide), sub_W (y := main_v17) (by decide), sub_W (y := main_v18) (by decide),
    sub_W (y := main_c_3) (by decide), sub_W (y := main_v19) (by decide), sub_W (y := main_v20) (by decide),
    sub_W (y := main_v21) (by decide), sub_W (y := main_v22) (by decide), sub_W (y := main_v23) (by decide),
    sub_W (y := main_c_4) (by decide), sub_W (y := main_v24) (by decide), sub_W (y := main_v25) (by decide),
    sub_W (y := main_c_5) (by decide), sub_W (y := main_v26) (by decide), sub_W (y := main_v27) (by decide),
    sub_W (y := main_v28) (by decide), sub_W (y := main_v29) (by decide), sub_W (y := main_v30) (by decide),
    sub_W (y := main_v31) (by decide), sub_W (y := main_v32) (by decide), sub_W (y := main_c_6) (by decide),
    sub_W (y := main_v33) (by decide), sub_W (y := main_v34) (by decide), sub_W (y := main_c_7) (by decide),
    sub_W (y := main_v35) (by decide), sub_W (y := main_v36) (by decide), sub_W (y := main_v37) (by decide),
    sub_W (y := main_v38) (by decide), sub_W (y := main_v39) (by decide), sub_W (y := main_v40) (by decide),
    sub_W (y := main_v41) (by decide), sub_W (y := main_v42) (by decide), sub_W (y := main_cst_8) (by decide),
    sub_W (y := main_v43) (by decide), sub_W (y := main_c_9) (by decide), sub_W (y := main_v44) (by decide),
    sub_W (y := main_v45) (by decide), sub_W (y := main_c_10) (by decide), sub_W (y := main_v46) (by decide)⟩
theorem keep0 (V : Valuation τ sig (Elt F)) (r : Ref sig .tc) (h : r ∉ ops0_W) :
    after ops0 V (Proc.devRef .tc r) = V (Proc.devRef .tc r) :=
  after_of_writes_sub ops0 V ops0_writes h

/-- The buffers operations 61 … 143 write, in order. -/
abbrev ops1_W : List (Ref sig .tc) :=
  [main_v47, main_v48, main_v49, main_v50, main_v51, main_v52, main_v53, main_cst_11,
   main_v54, main_cst_12, main_v55, main_v56, main_c_13, main_call0.cst.ref, main_call0.v0.ref, main_call0.v1.ref,
   main_call0.cst_0.ref, main_call0.v2.ref, main_call0.v3.ref, main_call0.v4.ref, main_call0.v5.ref, main_call0.v6.ref, main_call0.v7.ref, main_call0.cst_1.ref,
   main_call0.v8.ref, main_call0.cst_2.ref, main_call0.v9.ref, main_call0.v10.ref, main_call0.v11.ref, main_call0.cst_3.ref, main_call0.v12.ref, main_call0.cst_4.ref,
   main_call0.call0.v0.ref, main_call0.call0.v1.ref, main_call0.call0.v2.ref, main_v58, main_v59, main_v60, main_v61, main_v62,
   main_v63, main_cst_14, main_v64, main_v65, main_v66, main_v67, main_v68, main_v69,
   main_v70, main_v71, main_v72, main_call1.cst.ref, main_call1.v0.ref, main_call1.v1.ref, main_v74, main_c_15,
   main_v75, main_v76, main_c_16, main_v77, main_v78, main_v79, main_v80, main_v81,
   main_v82, main_v83, main_v84, main_cst_17, main_v85, main_c_18, main_v86, main_v87,
   main_c_19, main_v88, main_v89, main_v90, main_v91, main_v92, main_v93, main_v94,
   main_v95, main_cst_20, main_v96]
set_option maxRecDepth 8192 in
theorem ops1_writes : (ops1 : List (HloOp τ sig (Elt F))).Forall fun op =>
    op.writes ⊆ (ops1_W.map (Proc.devRef (τ := τ) .tc)).toFinset :=
  ⟨sub_W (y := main_v47) (by decide), sub_W (y := main_v48) (by decide), sub_W (y := main_v49) (by decide),
    sub_W (y := main_v50) (by decide), sub_W (y := main_v51) (by decide), sub_W (y := main_v52) (by decide),
    sub_W (y := main_v53) (by decide), sub_W (y := main_cst_11) (by decide), sub_W (y := main_v54) (by decide),
    sub_W (y := main_cst_12) (by decide), sub_W (y := main_v55) (by decide), sub_W (y := main_v56) (by decide),
    sub_W (y := main_c_13) (by decide), sub_W (y := main_call0.cst.ref) (by decide), sub_W (y := main_call0.v0.ref) (by decide),
    sub_W (y := main_call0.v1.ref) (by decide), sub_W (y := main_call0.cst_0.ref) (by decide), sub_W (y := main_call0.v2.ref) (by decide),
    sub_W (y := main_call0.v3.ref) (by decide), sub_W (y := main_call0.v4.ref) (by decide), sub_W (y := main_call0.v5.ref) (by decide),
    sub_W (y := main_call0.v6.ref) (by decide), sub_W (y := main_call0.v7.ref) (by decide), sub_W (y := main_call0.cst_1.ref) (by decide),
    sub_W (y := main_call0.v8.ref) (by decide), sub_W (y := main_call0.cst_2.ref) (by decide), sub_W (y := main_call0.v9.ref) (by decide),
    sub_W (y := main_call0.v10.ref) (by decide), sub_W (y := main_call0.v11.ref) (by decide), sub_W (y := main_call0.cst_3.ref) (by decide),
    sub_W (y := main_call0.v12.ref) (by decide), sub_W (y := main_call0.cst_4.ref) (by decide), sub_W (y := main_call0.call0.v0.ref) (by decide),
    sub_W (y := main_call0.call0.v1.ref) (by decide), sub_W (y := main_call0.call0.v2.ref) (by decide), sub_W (y := main_v58) (by decide),
    sub_W (y := main_v59) (by decide), sub_W (y := main_v60) (by decide), sub_W (y := main_v61) (by decide),
    sub_W (y := main_v62) (by decide), sub_W (y := main_v63) (by decide), sub_W (y := main_cst_14) (by decide),
    sub_W (y := main_v64) (by decide), sub_W (y := main_v65) (by decide), sub_W (y := main_v66) (by decide),
    sub_W (y := main_v67) (by decide), sub_W (y := main_v68) (by decide), sub_W (y := main_v69) (by decide),
    sub_W (y := main_v70) (by decide), sub_W (y := main_v71) (by decide), sub_W (y := main_v72) (by decide),
    sub_W (y := main_call1.cst.ref) (by decide), sub_W (y := main_call1.v0.ref) (by decide), sub_W (y := main_call1.v1.ref) (by decide),
    sub_W (y := main_v74) (by decide), sub_W (y := main_c_15) (by decide), sub_W (y := main_v75) (by decide),
    sub_W (y := main_v76) (by decide), sub_W (y := main_c_16) (by decide), sub_W (y := main_v77) (by decide),
    sub_W (y := main_v78) (by decide), sub_W (y := main_v79) (by decide), sub_W (y := main_v80) (by decide),
    sub_W (y := main_v81) (by decide), sub_W (y := main_v82) (by decide), sub_W (y := main_v83) (by decide),
    sub_W (y := main_v84) (by decide), sub_W (y := main_cst_17) (by decide), sub_W (y := main_v85) (by decide),
    sub_W (y := main_c_18) (by decide), sub_W (y := main_v86) (by decide), sub_W (y := main_v87) (by decide),
    sub_W (y := main_c_19) (by decide), sub_W (y := main_v88) (by decide), sub_W (y := main_v89) (by decide),
    sub_W (y := main_v90) (by decide), sub_W (y := main_v91) (by decide), sub_W (y := main_v92) (by decide),
    sub_W (y := main_v93) (by decide), sub_W (y := main_v94) (by decide), sub_W (y := main_v95) (by decide),
    sub_W (y := main_cst_20) (by decide), sub_W (y := main_v96) (by decide)⟩
theorem keep1 (V : Valuation τ sig (Elt F)) (r : Ref sig .tc) (h : r ∉ ops1_W) :
    after ops1 V (Proc.devRef .tc r) = V (Proc.devRef .tc r) :=
  after_of_writes_sub ops1 V ops1_writes h

/-- The buffers operations 144 … 207 write, in order. -/
abbrev ops2_W : List (Ref sig .tc) :=
  [main_cst_21, main_v97, main_v98, main_c_22, main_call2.cst.ref, main_call2.v0.ref, main_call2.v1.ref, main_call2.cst_0.ref,
   main_call2.v2.ref, main_call2.v3.ref, main_call2.v4.ref, main_call2.v5.ref, main_call2.v6.ref, main_call2.v7.ref, main_call2.cst_1.ref, main_call2.v8.ref,
   main_call2.cst_2.ref, main_call2.v9.ref, main_call2.v10.ref, main_call2.v11.ref, main_call2.cst_3.ref, main_call2.v12.ref, main_call2.cst_4.ref, main_call2.call0.v0.ref,
   main_call2.call0.v1.ref, main_call2.call0.v2.ref, main_v100, main_v101, main_v102, main_v103, main_v104, main_v105,
   main_cst_23, main_v106, main_v107, main_v108, main_v109, main_v110, main_v111, main_v112,
   main_v113, main_v114, main_v115, main_v116, main_cst_24, main_v117, main_v118, main_cst_25,
   main_v119, main_v120, main_cst_26, main_v121, main_cst_27, main_v122, main_v123, main_v124,
   main_v125, main_v126, main_v127, main_cst_28, main_v128, main_v129, main_v130, main_v131]
set_option maxRecDepth 8192 in
theorem ops2_writes : (ops2 : List (HloOp τ sig (Elt F))).Forall fun op =>
    op.writes ⊆ (ops2_W.map (Proc.devRef (τ := τ) .tc)).toFinset :=
  ⟨sub_W (y := main_cst_21) (by decide), sub_W (y := main_v97) (by decide), sub_W (y := main_v98) (by decide),
    sub_W (y := main_c_22) (by decide), sub_W (y := main_call2.cst.ref) (by decide), sub_W (y := main_call2.v0.ref) (by decide),
    sub_W (y := main_call2.v1.ref) (by decide), sub_W (y := main_call2.cst_0.ref) (by decide), sub_W (y := main_call2.v2.ref) (by decide),
    sub_W (y := main_call2.v3.ref) (by decide), sub_W (y := main_call2.v4.ref) (by decide), sub_W (y := main_call2.v5.ref) (by decide),
    sub_W (y := main_call2.v6.ref) (by decide), sub_W (y := main_call2.v7.ref) (by decide), sub_W (y := main_call2.cst_1.ref) (by decide),
    sub_W (y := main_call2.v8.ref) (by decide), sub_W (y := main_call2.cst_2.ref) (by decide), sub_W (y := main_call2.v9.ref) (by decide),
    sub_W (y := main_call2.v10.ref) (by decide), sub_W (y := main_call2.v11.ref) (by decide), sub_W (y := main_call2.cst_3.ref) (by decide),
    sub_W (y := main_call2.v12.ref) (by decide), sub_W (y := main_call2.cst_4.ref) (by decide), sub_W (y := main_call2.call0.v0.ref) (by decide),
    sub_W (y := main_call2.call0.v1.ref) (by decide), sub_W (y := main_call2.call0.v2.ref) (by decide), sub_W (y := main_v100) (by decide),
    sub_W (y := main_v101) (by decide), sub_W (y := main_v102) (by decide), sub_W (y := main_v103) (by decide),
    sub_W (y := main_v104) (by decide), sub_W (y := main_v105) (by decide), sub_W (y := main_cst_23) (by decide),
    sub_W (y := main_v106) (by decide), sub_W (y := main_v107) (by decide), sub_W (y := main_v108) (by decide),
    sub_W (y := main_v109) (by decide), sub_W (y := main_v110) (by decide), sub_W (y := main_v111) (by decide),
    sub_W (y := main_v112) (by decide), sub_W (y := main_v113) (by decide), sub_W (y := main_v114) (by decide),
    sub_W (y := main_v115) (by decide), sub_W (y := main_v116) (by decide), sub_W (y := main_cst_24) (by decide),
    sub_W (y := main_v117) (by decide), sub_W (y := main_v118) (by decide), sub_W (y := main_cst_25) (by decide),
    sub_W (y := main_v119) (by decide), sub_W (y := main_v120) (by decide), sub_W (y := main_cst_26) (by decide),
    sub_W (y := main_v121) (by decide), sub_W (y := main_cst_27) (by decide), sub_W (y := main_v122) (by decide),
    sub_W (y := main_v123) (by decide), sub_W (y := main_v124) (by decide), sub_W (y := main_v125) (by decide),
    sub_W (y := main_v126) (by decide), sub_W (y := main_v127) (by decide), sub_W (y := main_cst_28) (by decide),
    sub_W (y := main_v128) (by decide), sub_W (y := main_v129) (by decide), sub_W (y := main_v130) (by decide),
    sub_W (y := main_v131) (by decide)⟩
theorem keep2 (V : Valuation τ sig (Elt F)) (r : Ref sig .tc) (h : r ∉ ops2_W) :
    after ops2 V (Proc.devRef .tc r) = V (Proc.devRef .tc r) :=
  after_of_writes_sub ops2 V ops2_writes h

/-- A buffer no operation writes holds after the line what it held before. -/
theorem keep (V : Valuation τ sig (Elt F)) (r : Ref sig .tc) (h0 : r ∉ ops0_W) (h1 : r ∉ ops1_W) (h2 : r ∉ ops2_W) :
    after ops V (Proc.devRef .tc r) = V (Proc.devRef .tc r) := by
  rw [after_ops, keep2 _ r h2, keep1 _ r h1, keep0 _ r h0]

/-! ## The run -/

/-- On every device, for any float values, from any memory with zero counters: every weakly fair execution of
    @main terminates; each of the two returned buffers holds the fold of the operations over the launch contents,
    read at that buffer; the ten argument buffers hold what they held at launch. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v120) = after ops (launchContents m c) (Proc.devRef .tc main_v120)
      ∧ r.2.mem ((c.tc : Thread nD τ).loc main_v131) = after ops (launchContents m c) (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v120, h c main_v131,
      (h c main_arg0).trans (keep _ main_arg0 (by decide) (by decide) (by decide)),
      (h c main_arg1).trans (keep _ main_arg1 (by decide) (by decide) (by decide)),
      (h c main_arg2).trans (keep _ main_arg2 (by decide) (by decide) (by decide)),
      (h c main_arg3).trans (keep _ main_arg3 (by decide) (by decide) (by decide)),
      (h c main_arg4).trans (keep _ main_arg4 (by decide) (by decide) (by decide)),
      (h c main_arg5).trans (keep _ main_arg5 (by decide) (by decide) (by decide)),
      (h c main_arg6).trans (keep _ main_arg6 (by decide) (by decide) (by decide)),
      (h c main_arg7).trans (keep _ main_arg7 (by decide) (by decide) (by decide)),
      (h c main_arg8).trans (keep _ main_arg8 (by decide) (by decide) (by decide)),
      (h c main_arg9).trans (keep _ main_arg9 (by decide) (by decide) (by decide))⟩)
    (run_seq scopedRefs_eq scopedSems_eq defs main (fun _ => ops) main_eq (fun _ => ops_sub) m ρ (fun _ => ops_fresh))

/-! ## The frame -/

/-- The reference runs and its argument arrays end unchanged: the argument conjuncts of `run` at the ideal floats. -/
theorem frame_ri [Cert.Pre_finite_inputs.Facts] : Cert.frame_ReferenceIdeal := fun m ρ _ =>
  (θ_run (defs (F := Ideal)) _ _).mono (fun _ h c => (h c).2.2) (run (F := Ideal) m ρ)

end Cert.ReferenceIdeal.Hand

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«122563_j12137577578919_1_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand.
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.KIV0.lean ====
/- The value of region 0's output array after the region, over the extended reals: the product of the [100000,64] left factor with the [64,64] weight matrix, row by row. -/
import proofs.«122563_j12137577578919_1_alg».proof.Proof.KIR0
import proofs.«122563_j12137577578919_1_alg».proof.Proof.LibMatmulRows
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when the region is entered, over the extended reals
variable (V : (c : Dev nD) → (b : Ref sig .tc) → Buf (Elt Ideal) ((c : Thread nD τ).loc b))

open Cert.LibMatmulRows

/-- The offset of a whole-shape rectangle is zero on both axes. -/
theorem hz0 : (![0, 0] : Fin 2 → Nat) = fun _ => 0 := funext fun a => by fin_cases a <;> rfl

/-- Two functions of a two-axis index agree when they agree at every pair of coordinates. -/
theorem funext_ix2_0 {n0 n1 : Nat} {α : Type} (f g : (⟨2, ![n0, n1]⟩ : Shape).Idx → α)
    (h : ∀ (p : Fin n0) (q : Fin n1), f (ix2 p q) = g (ix2 p q)) : f = g :=
  funext fun i => by rw [eq_ix2 i]; exact h _ _

/-- The body's stored value is the product of the row tile with the weight matrix. -/
theorem pay0_eq (x0 : Vec Ideal S2000x64 .f32) (x1 : Vec Ideal S64x64 .f32) : k0_pay1 x0 x1 = mmRows x0 x1 :=
  matmulRows_eq (N := 2000) (K := 64) (M := 64) dot_S2000x64_S64x64_S2000x64_1_0_0_1_n_n_wf none x0 x1

/-- ROWS OF A PRODUCT: entry `(p, q)` of the product of a block `a` with `b` is entry `i` of the product of `A` with `B`
    when row `p` of `a` is row `i 0` of `A` and column `q` of `b` is column `i 1` of `B`. -/
theorem mmRows_at {N K M n : Nat} (A : (⟨2, ![N, K]⟩ : Shape).Idx → EReal) (B : (⟨2, ![K, M]⟩ : Shape).Idx → EReal)
    (a : (⟨2, ![n, K]⟩ : Shape).Idx → EReal) (b : (⟨2, ![K, M]⟩ : Shape).Idx → EReal) (p : Fin n) (q : Fin M)
    (i : (⟨2, ![N, M]⟩ : Shape).Idx) (ha : ∀ k : Fin K, a (ix2 p k) = A (ix2 (i 0) k)) (hb : ∀ k : Fin K, b (ix2 k q) = B (ix2 k (i 1))) :
    mmRows a b (ix2 p q) = mmRows A B i := by
  show ∑ k : Fin K, a (ix2 p k) * b (ix2 k q) = ∑ k : Fin K, A (ix2 (i 0) k) * B (ix2 k (i 1))
  exact Finset.sum_congr rfl fun k _ => by rw [ha k, hb k]

/-- The printed index maps over the 50 grid points: the left factor's and the result's tiles are tile `t` along the rows
    and the only tile along the columns; the weight matrix's block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is tile `t` of the product of the two arrays as the region finds them. -/
theorem flushed0_2_eq (c : Dev nD) (t : Fin cfg0.N) :
    (dat0 V c).flushed 2 t = ((cfg0.win 2).blk t).view.read (Elt Ideal) (mmRows (V c main_arg1) (V c main_arg2)) := by
  show (cfg0.win 2).cut (grid0.coords t) ((dat0 V c).after 2 t) = _
  rw [after0_2]
  unfold out0_2
  rw [View.canon_unit_zero hz0]
  simp only [View.ld_unit_zero (S := S2000x64) hz0, View.ld_unit_zero (S := S64x64) hz0]
  rw [pay0_eq]
  obtain ⟨e0, e1, e2, e3, e4, e5⟩ := idx_facts0 t
  refine funext_ix2_0 (n0 := 2000) (n1 := 64) _ _ fun p q => ?_
  refine mmRows_at (V c main_arg1) (V c main_arg2) (iblk0 V c 0 t) (iblk0 V c 1 t) p q
    (((cfg0.win 2).blk t).view.emb (ix2 p q)) (fun k => ?_) (fun k => ?_)
  · show V c main_arg1 (((cfg0.win 0).blk t).view.emb (ix2 p k)) = V c main_arg1 _
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 64 + 1 * k.val = k.val; omega
  · show V c main_arg2 (((cfg0.win 1).blk t).view.emb (ix2 k q)) = V c main_arg2 _
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega

/-- An index of the result array is in point `t`'s tile iff each coordinate is in the tile's range on its axis. -/
theorem mem_blk0_2 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- Every index of the result array is in some point's tile: row `r` is in tile `r / 2000`. -/
theorem cover0_2_arr (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 2000, by show (i 0).val / 2000 < 50; omega⟩
  obtain ⟨e0, e1, e2, e3, e4, e5⟩ := idx_facts0 t
  have e4' : win0_2.index t (0 : Fin 2) = (i 0).val / 2000 := e4
  refine ⟨t, flush0_2 t, ?_⟩
  rw [mem_blk0_2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- THE RESULT ARRAY after the region is the product of the left factor with the weight matrix, as the region finds them. -/
theorem final0 (c : Dev nD) : (dat0 V c).arrAt 2 cfg0.N = mmRows (V c main_arg1) (V c main_arg2) :=
  (dat0 V c).arrAt_eq_of_cover 2 (mmRows (V c main_arg1) (V c main_arg2)) (fun t _ => flushed0_2_eq V c t) (cover0_2_arr)

end Cert.KernelIdeal.Hand

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.LibVariance.lean ====
import Idealize.ShloMosaic.PureOps.Ideal
import Mathlib.Tactic.FieldSimp
import Mathlib.Tactic.Ring

/-!
# The mean of squared deviations is the mean of squares minus the squared mean

For real numbers `x 0, …, x (n-1)` with mean `μ = (∑ x) / n`, the biased variance `(∑ (x i - μ)²) / n` equals
`(∑ (x i)²) / n - μ²`. The identity is one of real arithmetic: it needs every entry finite (with an infinite entry
both sides are differences of infinities). It is stated first over the reals and then on the extended reals for
entries that are real, with the division by `n` written as the product with the real `1 / n`, the form in which a
quotient by a nonzero real constant reads there.
-/

open scoped BigOperators

namespace Cert.LibVariance

/-- Over the reals: the mean of the squared deviations from the mean is the mean of the squares minus the square of the
    mean; each division by `n` is written as the product with `1 / n`. -/
theorem var_real (n : ℕ) (hn : (n : ℝ) ≠ 0) (x : Fin n → ℝ) :
    (∑ i, (x i - (∑ j, x j) * (1 / (n : ℝ))) * (x i - (∑ j, x j) * (1 / (n : ℝ)))) * (1 / (n : ℝ))
      = (∑ i, x i * x i) * (1 / (n : ℝ)) - ((∑ j, x j) * (1 / (n : ℝ))) * ((∑ j, x j) * (1 / (n : ℝ))) := by
  set S := ∑ j, x j with hS
  set μ := S * (1 / (n : ℝ)) with hμ
  have h : ∀ i, (x i - μ) * (x i - μ) = x i * x i - 2 * μ * x i + μ * μ := fun i => by ring
  simp_rw [h, Finset.sum_add_distrib, Finset.sum_sub_distrib, ← Finset.mul_sum, Finset.sum_const, Finset.card_univ,
    Fintype.card_fin, nsmul_eq_mul, ← hS]
  rw [hμ]
  field_simp
  ring

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the extended reals, for real entries: the same identity. -/
theorem var_ereal (n : ℕ) (hn : (n : ℝ) ≠ 0) (x : Fin n → ℝ) :
    (∑ i, ((x i : EReal) - (∑ j, (x j : EReal)) * ((1 / (n : ℝ) : ℝ) : EReal))
          * ((x i : EReal) - (∑ j, (x j : EReal)) * ((1 / (n : ℝ) : ℝ) : EReal))) * ((1 / (n : ℝ) : ℝ) : EReal)
      = (∑ i, (x i : EReal) * (x i : EReal)) * ((1 / (n : ℝ) : ℝ) : EReal)
        - ((∑ j, (x j : EReal)) * ((1 / (n : ℝ) : ℝ) : EReal)) * ((∑ j, (x j : EReal)) * ((1 / (n : ℝ) : ℝ) : EReal)) := by
  simp only [← coe_sum, ← EReal.coe_mul, ← EReal.coe_sub]
  exact congrArg (fun r : ℝ => (r : EReal)) (var_real n hn x)

end Cert.LibVariance
-- ==== Proof.LibColStats.lean ====
/-
  Column statistics of a table of extended reals.

  For a table `x` with `N` rows and `C` columns and a divisor `d`: the column means `(∑ₙ x n j) / d`; the column
  variances in two forms — the mean of the squares less the squared mean, and the mean of the squared deviations
  from the mean. When every entry is a real number and the divisor is the row count `N ≠ 0` the two forms agree
  (an identity of real arithmetic; with an infinite entry both sides are differences of infinities). Also: the
  single-precision pattern `0x47C35000` denotes the real `100000`.
-/
import Idealize.ShloMosaic.PureOps.Ideal
import Idealize.ShloMosaic.Lib.ValueIdx
import proofs.«122563_j12137577578919_1_alg».proof.Proof.LibTileSum
import proofs.«122563_j12137577578919_1_alg».proof.Proof.LibVariance

noncomputable section

open scoped BigOperators

namespace Cert.LibColStats

open Idealize.ShloMosaic Idealize.ShloMosaic.ValueIdx

variable {N C : ℕ}

/-- The column means: per column, the sum of its `N` entries divided by `d`. -/
def colMean (x : (⟨2, ![N, C]⟩ : Shape).Idx → EReal) (d : EReal) : (⟨2, ![1, C]⟩ : Shape).Idx → EReal :=
  fun i => Ideal.div (∑ n : Fin N, x (ix2 n (i 1))) d

/-- The column variances as the mean of the squares less the squared mean. -/
def colVarK (x : (⟨2, ![N, C]⟩ : Shape).Idx → EReal) (d : EReal) : (⟨2, ![1, C]⟩ : Shape).Idx → EReal :=
  fun i => Ideal.div (∑ n : Fin N, x (ix2 n (i 1)) * x (ix2 n (i 1))) d - colMean x d i * colMean x d i

/-- The column variances as the mean of the squared deviations from the column mean. -/
def colVarR (x : (⟨2, ![N, C]⟩ : Shape).Idx → EReal) (d : EReal) : (⟨2, ![1, C]⟩ : Shape).Idx → EReal :=
  fun i => Ideal.div (∑ n : Fin N, (x (ix2 n (i 1)) - colMean x d i) * (x (ix2 n (i 1)) - colMean x d i)) d

/-- For real entries and the row count as divisor, the two forms of the variance agree. -/
theorem colVar_eq (hN : (N : ℝ) ≠ 0) (x : (⟨2, ![N, C]⟩ : Shape).Idx → EReal) (hx : ∀ i, ∃ r : ℝ, x i = (r : EReal)) :
    colVarK x ((N : ℝ) : EReal) = colVarR x ((N : ℝ) : EReal) := by
  choose r hr using hx
  funext i
  unfold colVarK colVarR colMean
  simp only [Ideal.div_coe hN, hr]
  exact (Cert.LibVariance.var_ereal N hN (fun n => r (ix2 n (i 1)))).symm

/-- The single-precision pattern of `1.0e5` denotes the real `100000`. -/
theorem ofBits_1e5 : Ideal.ofBits .f32 0x47C35000#32 = ((100000 : ℝ) : EReal) := by
  simp [Ideal.ofBits, Ideal.ieee, -EReal.coe_mul]; norm_num

end Cert.LibColStats

end
-- ==== Proof.KIV1.lean ====
/-
  The values of region 1 at the exact (extended) reals.

  The region reads a table of 100000 rows and 64 columns in 50 tiles of 2000 rows. Entry (p, j) of tile t is entry
  (2000·t + p, j) of the table. One step of the first accumulator adds to entry j the sum of column j of the tile; one
  step of the second adds the sum of the squares. So after k tiles the accumulators hold, column by column, the sums
  (of the entries, of their squares) over the first 2000·k rows, and after all 50 tiles over all 100000 rows: adding
  tile by tile is adding row by row, by associativity alone. The mean array ends holding the column sums divided by
  the constant 1.0e5 and the variance array the column sums of squares divided by it less the squared mean.
-/
import proofs.«122563_j12137577578919_1_alg».proof.Proof.KIR1
import proofs.«122563_j12137577578919_1_alg».proof.Proof.LibColStats
import proofs.«122563_j12137577578919_1_alg».proof.Proof.LibTileSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The body's arithmetic at the exact reals, one entry at a time -/

/-- The zero row: every entry is `0`. -/
theorem pay1_apply1 (i : S1x64.Idx) : k1_pay1 (F := Ideal) i = 0 := by
  unfold k1_pay1
  simp only [shapeCast_self]
  exact Ideal.ofBits_zero_f32

theorem pay2_apply1 (i : S1x64.Idx) : k1_pay2 (F := Ideal) i = 0 := by
  unfold k1_pay2
  simp only [shapeCast_self]
  exact Ideal.ofBits_zero_f32

/-- One accumulation step of the sums: entry `j` of the new row is the old entry plus the sum of column `j` of the
    tile. -/
theorem pay4_apply1 (x0 : Vec Ideal S2000x64 .f32) (a : Vec Ideal S1x64 .f32) (j : Fin 64) :
    k1_pay4 (F := Ideal) x0 a (ix2 0 j) = a (ix2 0 j) + ∑ p : Fin 2000, x0 (ix2 p j) := by
  unfold k1_pay4 k1_pay3
  simp only [shapeCast_self]
  refine congrArg (fun z => a (ix2 0 j) + z) ?_
  refine (shapeCast_addUnit_apply ![64] _ shapeCasts_S64_S1x64 (ix2 0 j)).trans ?_
  refine (Ideal.multiReduction_add_single (φ := .f32) x0 0x00000000#32 reduces_S2000x64_S64 _ _ _).trans ?_
  exact Finset.sum_congr rfl fun p _ => congrArg x0 (funext fun b => by
    match b with
    | ⟨0, _⟩ => rfl
    | ⟨1, _⟩ => rfl)

/-- One accumulation step of the sums of squares. -/
theorem pay5_apply1 (x0 : Vec Ideal S2000x64 .f32) (a : Vec Ideal S1x64 .f32) (j : Fin 64) :
    k1_pay5 (F := Ideal) x0 a (ix2 0 j) = a (ix2 0 j) + ∑ p : Fin 2000, x0 (ix2 p j) * x0 (ix2 p j) := by
  unfold k1_pay5 k1_pay3
  simp only [shapeCast_self]
  refine congrArg (fun z => a (ix2 0 j) + z) ?_
  refine (shapeCast_addUnit_apply ![64] _ shapeCasts_S64_S1x64 (ix2 0 j)).trans ?_
  refine (Ideal.multiReduction_add_single (φ := .f32) (mulf x0 x0) 0x00000000#32 reduces_S2000x64_S64 _ _ _).trans ?_
  exact Finset.sum_congr rfl fun p _ => congrArg (fun q => x0 q * x0 q) (funext fun b => by
    match b with
    | ⟨0, _⟩ => rfl
    | ⟨1, _⟩ => rfl)

/-- The mean row: each accumulated sum divided by the constant `1.0e5`. -/
theorem pay6_apply1 (a : Vec Ideal S1x64 .f32) (i : S1x64.Idx) :
    k1_pay6 (F := Ideal) a i = Ideal.div (a i) (Ideal.ofBits .f32 0x47C35000#32) := rfl

/-- The variance row: each accumulated sum of squares divided by `1.0e5`, less the square of the mean. -/
theorem pay7_apply1 (a b : Vec Ideal S1x64 .f32) (i : S1x64.Idx) :
    k1_pay7 (F := Ideal) a b i = Ideal.div (b i) (Ideal.ofBits .f32 0x47C35000#32)
      - Ideal.div (a i) (Ideal.ofBits .f32 0x47C35000#32) * Ideal.div (a i) (Ideal.ofBits .f32 0x47C35000#32) := rfl

/-! ## The tiles as rows of the input table -/

section Values
-- the buffer contents of the core when the region is entered, at the exact reals
variable (V : (c : Dev nD) → (b : Ref sig .tc) → Buf (Elt Ideal) ((c : Thread nD τ).loc b))

/-- The table the region reads: 100000 rows, 64 columns. -/
abbrev x1 (c : Dev nD) : S100000x64.Idx → EReal := V c main_v53

/-- Entry `(n, j)` of the table, for any natural `n` (zero past the last row: only rows below 100000 are ever read). -/
def row1 (c : Dev nD) (n : ℕ) (j : Fin 64) : EReal := if h : n < 100000 then x1 V c (ix2 ⟨n, h⟩ j) else 0

/-- The input window's block index at point `t` is `(t, 0)`; each output window's is `(0, 0)`. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)

/-- Entry `(p, j)` of the tile at point `t` is entry `(2000·t + p, j)` of the table. -/
theorem iblk1_apply (c : Dev nD) (t : Fin cfg1.N) (p : Fin 2000) (j : Fin 64) :
    iblk1 V c 0 t (ix2 p j) = row1 V c (2000 * t.val + p.val) j := by
  have hN : t.val < 50 := lt_of_lt_of_eq t.isLt (show cfg1.N = 50 from N_1)
  have hb : 2000 * t.val + p.val < 100000 := by have := p.isLt; omega
  unfold row1; rw [dif_pos hb]
  show V c main_v53 (((cfg1.win 0).blk t).view.emb (ix2 p j)) = V c main_v53 (ix2 ⟨2000 * t.val + p.val, hb⟩ j)
  refine congrArg (V c main_v53) ?_
  obtain ⟨e0, e1⟩ := idx1_0 t
  funext a; apply Fin.ext
  match a with
  | ⟨0, _⟩ => show win1_0.index t (0 : Fin 2) * 2000 + 1 * p.val = 2000 * t.val + p.val; omega
  | ⟨1, _⟩ => show win1_0.index t (1 : Fin 2) * 64 + 1 * j.val = j.val; omega

/-! ## The accumulators in closed form -/

/-- After `k` tiles, entry `j` of the first accumulator is the sum, tile by tile, of the first `2000·k` entries of
    column `j`. -/
theorem acc1_0_closed (c : Dev nD) : ∀ (k : ℕ), k ≤ 50 → ∀ (j : Fin 64),
    acc1_0 V c k (ix2 0 j) = ∑ s ∈ Finset.range k, ∑ p : Fin 2000, row1 V c (2000 * s + p.val) j
  | 0, _, j => by rw [Finset.sum_range_zero]; exact pay1_apply1 (ix2 0 j)
  | k + 1, hk, j => by
    have h : k < cfg1.N := lt_of_lt_of_eq (by omega : k < 50) (show (50 : ℕ) = cfg1.N from N_1.symm)
    have ih := acc1_0_closed c k (by omega) j
    rw [acc1_0_succ V c k h, Finset.sum_range_succ]
    refine (pay4_apply1 (iblk1 V c 0 ⟨k, h⟩) (acc1_0 V c k) j).trans ?_
    exact congrArg₂ (fun u v : EReal => u + v) ih (Finset.sum_congr rfl fun p _ => iblk1_apply V c ⟨k, h⟩ p j)

/-- After `k` tiles, entry `j` of the second accumulator is the sum, tile by tile, of the squares of the first
    `2000·k` entries of column `j`. -/
theorem acc1_1_closed (c : Dev nD) : ∀ (k : ℕ), k ≤ 50 → ∀ (j : Fin 64),
    acc1_1 V c k (ix2 0 j)
      = ∑ s ∈ Finset.range k, ∑ p : Fin 2000, row1 V c (2000 * s + p.val) j * row1 V c (2000 * s + p.val) j
  | 0, _, j => by rw [Finset.sum_range_zero]; exact pay2_apply1 (ix2 0 j)
  | k + 1, hk, j => by
    have h : k < cfg1.N := lt_of_lt_of_eq (by omega : k < 50) (show (50 : ℕ) = cfg1.N from N_1.symm)
    have ih := acc1_1_closed c k (by omega) j
    rw [acc1_1_succ V c k h, Finset.sum_range_succ]
    refine (pay5_apply1 (iblk1 V c 0 ⟨k, h⟩) (acc1_1 V c k) j).trans ?_
    exact congrArg₂ (fun u v : EReal => u + v) ih (Finset.sum_congr rfl fun p _ => by
      rw [iblk1_apply V c ⟨k, h⟩ p j])

/-- Fifty tiles of 2000 rows are the 100000 rows: the tile-by-tile sum of a column is the sum over its rows, -/
theorem sum_rows1 (c : Dev nD) (j : Fin 64) :
    ∑ s ∈ Finset.range 50, ∑ p : Fin 2000, row1 V c (2000 * s + p.val) j = ∑ n : Fin 100000, x1 V c (ix2 n j) := by
  rw [Cert.TileSum.sum_tiles 2000 (fun n => row1 V c n j) 50]
  exact Finset.sum_congr rfl fun n _ => by unfold row1; rw [dif_pos n.isLt]

/-- and likewise for the squares. -/
theorem sum_sq_rows1 (c : Dev nD) (j : Fin 64) :
    ∑ s ∈ Finset.range 50, ∑ p : Fin 2000, row1 V c (2000 * s + p.val) j * row1 V c (2000 * s + p.val) j
      = ∑ n : Fin 100000, x1 V c (ix2 n j) * x1 V c (ix2 n j) := by
  rw [Cert.TileSum.sum_tiles 2000 (fun n => row1 V c n j * row1 V c n j) 50]
  exact Finset.sum_congr rfl fun n _ => by unfold row1; rw [dif_pos n.isLt]

/-! ## The two result blocks -/

/-- The mean block is the table's column means, the divisor the constant `1.0e5`. -/
theorem fin1_1_eq (c : Dev nD) :
    fin1_1 V c = Cert.LibColStats.colMean (x1 V c) (Ideal.ofBits .f32 0x47C35000#32) := by
  funext i
  obtain ⟨a, j, rfl⟩ : ∃ (a : Fin 1) (j : Fin 64), i = ix2 a j := ⟨i 0, i 1, eq_ix2 i⟩
  obtain rfl : a = 0 := Subsingleton.elim _ _
  unfold fin1_1 Cert.LibColStats.colMean
  refine (pay6_apply1 (acc1_0 V c 50) (ix2 0 j)).trans ?_
  refine congrArg (fun z => Ideal.div z (Ideal.ofBits .f32 0x47C35000#32)) ?_
  exact (acc1_0_closed V c 50 (le_refl _) j).trans (sum_rows1 V c j)

/-- The variance block is the table's column variances in the form "mean of the squares less the squared mean". -/
theorem fin1_2_eq (c : Dev nD) :
    fin1_2 V c = Cert.LibColStats.colVarK (x1 V c) (Ideal.ofBits .f32 0x47C35000#32) := by
  funext i
  obtain ⟨a, j, rfl⟩ : ∃ (a : Fin 1) (j : Fin 64), i = ix2 a j := ⟨i 0, i 1, eq_ix2 i⟩
  obtain rfl : a = 0 := Subsingleton.elim _ _
  have e0 := (acc1_0_closed V c 50 (le_refl _) j).trans (sum_rows1 V c j)
  have e1 := (acc1_1_closed V c 50 (le_refl _) j).trans (sum_sq_rows1 V c j)
  unfold fin1_2 Cert.LibColStats.colVarK Cert.LibColStats.colMean
  refine (pay7_apply1 (acc1_0 V c 50) (acc1_1 V c 50) (ix2 0 j)).trans ?_
  rw [e0, e1]

/-! ## The output arrays after the run -/

/-- An index of a [1, 64] array lies in an output window's block at point `t` iff each coordinate is in the block's range. -/
theorem mem_blk1_1 (t : Fin cfg1.N) (i : S1x64.Idx) :
    i ∈ ((cfg1.win 1).blk t).view.set ↔ ∀ a : Fin 2, win1_1.index t a * S1x64.size a ≤ (i a).val ∧ (i a).val < win1_1.index t a * S1x64.size a + S1x64.size a := by
  show i ∈ ((View.whole main_v54_0).slice (win1_1.rect t)).set ↔ _
  rw [View.set_slice_whole, Rect.mem_set_unit]
  exact Iff.rfl
theorem mem_blk1_2 (t : Fin cfg1.N) (i : S1x64.Idx) :
    i ∈ ((cfg1.win 2).blk t).view.set ↔ ∀ a : Fin 2, win1_2.index t a * S1x64.size a ≤ (i a).val ∧ (i a).val < win1_2.index t a * S1x64.size a + S1x64.size a := by
  show i ∈ ((View.whole main_v54_1).slice (win1_2.rect t)).set ↔ _
  rw [View.set_slice_whole, Rect.mem_set_unit]
  exact Iff.rfl

/-- What a point writes back of the mean window is the mean block: the window's one block is the whole array. -/
theorem flushed1_1_eq (c : Dev nD) (t : Fin cfg1.N) :
    (dat1 V c).flushed 1 t = ((cfg1.win 1).blk t).view.read (Elt Ideal) (fin1_1 V c) := by
  show (cfg1.win 1).cut (grid1.coords t) ((dat1 V c).after 1 t) = _
  rw [after1_1]
  obtain ⟨e0, e1⟩ := idx1_1 t
  funext y
  show fin1_1 V c y = fin1_1 V c (((cfg1.win 1).blk t).view.emb y)
  refine congrArg (fin1_1 V c) ?_
  funext a; apply Fin.ext
  match a with
  | ⟨0, _⟩ => show (y 0).val = win1_1.index t (0 : Fin 2) * 1 + 1 * (y 0).val; omega
  | ⟨1, _⟩ => show (y 1).val = win1_1.index t (1 : Fin 2) * 64 + 1 * (y 1).val; omega

theorem flushed1_2_eq (c : Dev nD) (t : Fin cfg1.N) :
    (dat1 V c).flushed 2 t = ((cfg1.win 2).blk t).view.read (Elt Ideal) (fin1_2 V c) := by
  show (cfg1.win 2).cut (grid1.coords t) ((dat1 V c).after 2 t) = _
  rw [after1_2]
  obtain ⟨e0, e1⟩ := idx1_2 t
  funext y
  show fin1_2 V c y = fin1_2 V c (((cfg1.win 2).blk t).view.emb y)
  refine congrArg (fin1_2 V c) ?_
  funext a; apply Fin.ext
  match a with
  | ⟨0, _⟩ => show (y 0).val = win1_2.index t (0 : Fin 2) * 1 + 1 * (y 0).val; omega
  | ⟨1, _⟩ => show (y 1).val = win1_2.index t (1 : Fin 2) * 64 + 1 * (y 1).val; omega

/-- Every index of the mean array is in the block the last point writes back. -/
theorem cover1_1 (i : S1x64.Idx) : ∃ t : Fin cfg1.N, (cfg1.win 1).flush t = true ∧ i ∈ ((cfg1.win 1).blk t).view.set := by
  have h49 : 49 < cfg1.N := lt_of_lt_of_eq (by omega : 49 < 50) (show (50 : ℕ) = cfg1.N from N_1.symm)
  refine ⟨⟨49, h49⟩, (flush1_1 _).mpr rfl, ?_⟩
  rw [mem_blk1_1]
  obtain ⟨e0, e1⟩ := idx1_1 ⟨49, h49⟩
  have hi0 : (i 0).val < 1 := (i 0).isLt
  have hi1 : (i 1).val < 64 := (i 1).isLt
  intro a
  match a with
  | ⟨0, _⟩ => show win1_1.index ⟨49, h49⟩ (0 : Fin 2) * 1 ≤ (i 0).val ∧ (i 0).val < win1_1.index ⟨49, h49⟩ (0 : Fin 2) * 1 + 1; omega
  | ⟨1, _⟩ => show win1_1.index ⟨49, h49⟩ (1 : Fin 2) * 64 ≤ (i 1).val ∧ (i 1).val < win1_1.index ⟨49, h49⟩ (1 : Fin 2) * 64 + 64; omega

theorem cover1_2 (i : S1x64.Idx) : ∃ t : Fin cfg1.N, (cfg1.win 2).flush t = true ∧ i ∈ ((cfg1.win 2).blk t).view.set := by
  have h49 : 49 < cfg1.N := lt_of_lt_of_eq (by omega : 49 < 50) (show (50 : ℕ) = cfg1.N from N_1.symm)
  refine ⟨⟨49, h49⟩, (flush1_2 _).mpr rfl, ?_⟩
  rw [mem_blk1_2]
  obtain ⟨e0, e1⟩ := idx1_2 ⟨49, h49⟩
  have hi0 : (i 0).val < 1 := (i 0).isLt
  have hi1 : (i 1).val < 64 := (i 1).isLt
  intro a
  match a with
  | ⟨0, _⟩ => show win1_2.index ⟨49, h49⟩ (0 : Fin 2) * 1 ≤ (i 0).val ∧ (i 0).val < win1_2.index ⟨49, h49⟩ (0 : Fin 2) * 1 + 1; omega
  | ⟨1, _⟩ => show win1_2.index ⟨49, h49⟩ (1 : Fin 2) * 64 ≤ (i 1).val ∧ (i 1).val < win1_2.index ⟨49, h49⟩ (1 : Fin 2) * 64 + 64; omega

/-- THE MEAN ARRAY after the run: the column means of the table the region read, the divisor the constant `1.0e5`. -/
theorem final1_1 (c : Dev nD) :
    (dat1 V c).arrAt 1 cfg1.N = Cert.LibColStats.colMean (x1 V c) (Ideal.ofBits .f32 0x47C35000#32) :=
  ((dat1 V c).arrAt_eq_of_cover 1 (fin1_1 V c) (fun t _ => flushed1_1_eq V c t) (cover1_1)).trans (fin1_1_eq V c)

/-- THE VARIANCE ARRAY after the run: the column variances of the table, as the mean of the squares less the squared
    mean, the divisor the constant `1.0e5`. -/
theorem final1_2 (c : Dev nD) :
    (dat1 V c).arrAt 2 cfg1.N = Cert.LibColStats.colVarK (x1 V c) (Ideal.ofBits .f32 0x47C35000#32) :=
  ((dat1 V c).arrAt_eq_of_cover 2 (fin1_2 V c) (fun t _ => flushed1_2_eq V c t) (cover1_2)).trans (fin1_2_eq V c)

end Values

end Cert.KernelIdeal.Hand

end
-- ==== Proof.KIV2.lean ====
/- The value of region 2's output array after the region, over the extended reals: the [100000,64] matrix normalised column by column, scaled, shifted, and cut at zero from below. -/
import proofs.«122563_j12137577578919_1_alg».proof.Proof.KIR2
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when the region is entered, over the extended reals
variable (V : (c : Dev nD) → (b : Ref sig .tc) → Buf (Elt Ideal) ((c : Thread nD τ).loc b))

/-- The offset of a whole-shape rectangle is zero on both axes. -/
theorem hz2 : (![0, 0] : Fin 2 → Nat) = fun _ => 0 := funext fun a => by fin_cases a <;> rfl

/-- Two functions of a two-axis index agree when they agree at every pair of coordinates. -/
theorem funext_ix2_2 {n0 n1 : Nat} {α : Type} (f g : (⟨2, ![n0, n1]⟩ : Shape).Idx → α)
    (h : ∀ (p : Fin n0) (q : Fin n1), f (ix2 p q) = g (ix2 p q)) : f = g :=
  funext fun i => by rw [eq_ix2 i]; exact h _ _

/-- The normalised, scaled, shifted matrix cut at zero from below: at `(r, q)`, with column `q`'s mean, variance, scale
    and shift, the larger of `scale · ((x − mean) · (variance + ε)^(−1/2)) + shift` and zero, every operand in the order
    the body combines them. -/
def bnRelu (x : S100000x64.Idx → EReal) (mean var g beta : S1x64.Idx → EReal) : S100000x64.Idx → EReal :=
  fun i => max (g (ix2 (n0 := 1) (n1 := 64) 0 (i 1)) * ((x i - mean (ix2 (n0 := 1) (n1 := 64) 0 (i 1)))
      * Ideal.rsqrt (var (ix2 (n0 := 1) (n1 := 64) 0 (i 1)) + Ideal.ofBits .f32 0x3727C5AC#32)) + beta (ix2 (n0 := 1) (n1 := 64) 0 (i 1)))
    (Ideal.ofBits .f32 0x00000000#32)

/-- The body's stored value at entry `(p, q)` of the tile: the same formula of the tile's entry and of column `q`'s
    mean, variance, scale and shift. -/
theorem pay2_at (x0 : Vec Ideal S2000x64 .f32) (x1 x2 x3 x4 : Vec Ideal S1x64 .f32) (p : Fin 2000) (q : Fin 64) :
    k2_pay1 x0 x1 x2 x3 x4 (ix2 p q)
      = max (x3 (ix2 0 q) * ((x0 (ix2 p q) - x1 (ix2 0 q)) * Ideal.rsqrt (x2 (ix2 0 q) + Ideal.ofBits .f32 0x3727C5AC#32)) + x4 (ix2 0 q))
          (Ideal.ofBits .f32 0x00000000#32) := by
  unfold k2_pay1
  simp only [shapeCast_self]
  have hb (v : Vec Ideal S1x64 .f32) : broadcastTo S2000x64 v broadcasts_S1x64_S2000x64 (ix2 p q) = v (ix2 0 q) :=
    broadcastTo_1b_ab_apply (a := 2000) (b := 64) v broadcasts_S1x64_S2000x64 p q
  show max (broadcastTo S2000x64 x3 broadcasts_S1x64_S2000x64 (ix2 p q)
        * ((x0 (ix2 p q) - broadcastTo S2000x64 x1 broadcasts_S1x64_S2000x64 (ix2 p q))
          * broadcastTo S2000x64 (rsqrt (addf x2 (broadcast S1x64 (Scalar.ofBits .f32 0x3727C5AC#32))) : FVec Ideal S1x64 .f32) broadcasts_S1x64_S2000x64 (ix2 p q))
        + broadcastTo S2000x64 x4 broadcasts_S1x64_S2000x64 (ix2 p q)) (Ideal.ofBits .f32 0x00000000#32) = _
  rw [hb x3, hb x1, hb x4, hb]
  rfl

/-- The formula at an array index, from its five operands: what joins a tile's entry to the whole array's. -/
theorem bnRelu_at (x : S100000x64.Idx → EReal) (mean var g beta : S1x64.Idx → EReal) (i : S100000x64.Idx)
    (v0 v1 v2 v3 v4 : EReal) (h0 : v0 = x i) (h1 : v1 = mean (ix2 (n0 := 1) (n1 := 64) 0 (i 1)))
    (h2 : v2 = var (ix2 (n0 := 1) (n1 := 64) 0 (i 1))) (h3 : v3 = g (ix2 (n0 := 1) (n1 := 64) 0 (i 1)))
    (h4 : v4 = beta (ix2 (n0 := 1) (n1 := 64) 0 (i 1))) :
    max (v3 * ((v0 - v1) * Ideal.rsqrt (v2 + Ideal.ofBits .f32 0x3727C5AC#32)) + v4) (Ideal.ofBits .f32 0x00000000#32)
      = bnRelu x mean var g beta i := by
  subst h0 h1 h2 h3 h4; rfl

/-- The printed index maps over the 50 grid points: the matrix's and the result's tiles are tile `t` along the rows and
    the only tile along the columns; each of the four rows is its array's only block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is tile `t` of the formula of the five arrays as the region finds them. -/
theorem flushed2_5_eq (c : Dev nD) (t : Fin cfg2.N) :
    (dat2 V c).flushed 5 t = ((cfg2.win 5).blk t).view.read (Elt Ideal)
      (bnRelu (V c main_v53) (V c main_v54_0) (V c main_v54_1) (V c main_v55) (V c main_v56)) := by
  show (cfg2.win 5).cut (grid2.coords t) ((dat2 V c).after 5 t) = _
  rw [after2_5]
  unfold out2_5
  rw [View.canon_unit_zero hz2]
  simp only [View.ld_unit_zero (S := S2000x64) hz2, View.ld_unit_zero (S := S1x64) hz2]
  obtain ⟨e00, e01, e10, e11, e20, e21, e30, e31, e40, e41, e50, e51⟩ := idx_facts2 t
  refine funext_ix2_2 (n0 := 2000) (n1 := 64) _ _ fun p q => ?_
  refine (pay2_at (iblk2 V c 0 t) (iblk2 V c 1 t) (iblk2 V c 2 t) (iblk2 V c 3 t) (iblk2 V c 4 t) p q).trans ?_
  refine bnRelu_at (V c main_v53) (V c main_v54_0) (V c main_v54_1) (V c main_v55) (V c main_v56)
    (((cfg2.win 5).blk t).view.emb (ix2 p q)) _ _ _ _ _ ?_ ?_ ?_ ?_ ?_
  · show V c main_v53 (((cfg2.win 0).blk t).view.emb (ix2 p q)) = V c main_v53 _
    refine congrArg _ (funext fun a => Fin.ext ?_)
    match a with
    | ⟨0, _⟩ => show win2_0.index t (0 : Fin 2) * 2000 + 1 * p.val = win2_5.index t (0 : Fin 2) * 2000 + 1 * p.val; omega
    | ⟨1, _⟩ => show win2_0.index t (1 : Fin 2) * 64 + 1 * q.val = win2_5.index t (1 : Fin 2) * 64 + 1 * q.val; omega
  · show V c main_v54_0 (((cfg2.win 1).blk t).view.emb (ix2 0 q)) = V c main_v54_0 _
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = win2_5.index t (1 : Fin 2) * 64 + 1 * q.val; omega
  · show V c main_v54_1 (((cfg2.win 2).blk t).view.emb (ix2 0 q)) = V c main_v54_1 _
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = win2_5.index t (1 : Fin 2) * 64 + 1 * q.val; omega
  · show V c main_v55 (((cfg2.win 3).blk t).view.emb (ix2 0 q)) = V c main_v55 _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  · show V c main_v56 (((cfg2.win 4).blk t).view.emb (ix2 0 q)) = V c main_v56 _
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega

/-- An index of the result array is in point `t`'s tile iff each coordinate is in the tile's range on its axis. -/
theorem mem_blk2_5 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v57).slice (win2_5.rect t)).set ↔ _
  rw [View.set_slice_whole, Rect.mem_set_unit]
  exact Iff.rfl

/-- Every index of the result array is in some point's tile: row `r` is in tile `r / 2000`. -/
theorem cover2_5_arr (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 2000, by show (i 0).val / 2000 < 50; omega⟩
  obtain ⟨e00, e01, e10, e11, e20, e21, e30, e31, e40, e41, e50, e51⟩ := idx_facts2 t
  have e50' : win2_5.index t (0 : Fin 2) = (i 0).val / 2000 := e50
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- THE RESULT ARRAY after the region is the formula of the matrix and the four rows, as the region finds them. -/
theorem final2 (c : Dev nD) : (dat2 V c).arrAt 5 cfg2.N
    = bnRelu (V c main_v53) (V c main_v54_0) (V c main_v54_1) (V c main_v55) (V c main_v56) :=
  (dat2 V c).arrAt_eq_of_cover 5 (bnRelu (V c main_v53) (V c main_v54_0) (V c main_v54_1) (V c main_v55) (V c main_v56))
    (fun t _ => flushed2_5_eq V c t) (cover2_5_arr)

end Cert.KernelIdeal.Hand

end
-- ==== Proof.KIV3.lean ====
/- The value of region 3's output array after the region, over the extended reals: the product of the [100000,64] left factor with the [64,2] weight matrix, row by row. -/
import proofs.«122563_j12137577578919_1_alg».proof.Proof.KIR3
import proofs.«122563_j12137577578919_1_alg».proof.Proof.LibMatmulRows
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when the region is entered, over the extended reals
variable (V : (c : Dev nD) → (b : Ref sig .tc) → Buf (Elt Ideal) ((c : Thread nD τ).loc b))

open Cert.LibMatmulRows

/-- The offset of a whole-shape rectangle is zero on both axes. -/
theorem hz3 : (![0, 0] : Fin 2 → Nat) = fun _ => 0 := funext fun a => by fin_cases a <;> rfl

/-- Two functions of a two-axis index agree when they agree at every pair of coordinates. -/
theorem funext_ix2_3 {n0 n1 : Nat} {α : Type} (f g : (⟨2, ![n0, n1]⟩ : Shape).Idx → α)
    (h : ∀ (p : Fin n0) (q : Fin n1), f (ix2 p q) = g (ix2 p q)) : f = g :=
  funext fun i => by rw [eq_ix2 i]; exact h _ _

/-- The body's stored value is the product of the row tile with the weight matrix: the reshape of the tile to its own
    shape changes nothing. -/
theorem pay3_eq (x0 : Vec Ideal S2000x64 .f32) (x1 : Vec Ideal S64x2 .f32) : k3_pay1 x0 x1 = mmRows x0 x1 := by
  unfold k3_pay1
  dsimp only
  rw [shapeCast_self]
  exact matmulRows_eq (N := 2000) (K := 64) (M := 2) dot_S2000x64_S64x2_S2000x2_1_0_0_1_n_n_wf none x0 x1

/-- ROWS OF A PRODUCT: entry `(p, q)` of the product of a block `a` with `b` is entry `i` of the product of `A` with `B`
    when row `p` of `a` is row `i 0` of `A` and column `q` of `b` is column `i 1` of `B`. -/
theorem mmRows_at3 {N K M n : Nat} (A : (⟨2, ![N, K]⟩ : Shape).Idx → EReal) (B : (⟨2, ![K, M]⟩ : Shape).Idx → EReal)
    (a : (⟨2, ![n, K]⟩ : Shape).Idx → EReal) (b : (⟨2, ![K, M]⟩ : Shape).Idx → EReal) (p : Fin n) (q : Fin M)
    (i : (⟨2, ![N, M]⟩ : Shape).Idx) (ha : ∀ k : Fin K, a (ix2 p k) = A (ix2 (i 0) k)) (hb : ∀ k : Fin K, b (ix2 k q) = B (ix2 k (i 1))) :
    mmRows a b (ix2 p q) = mmRows A B i := by
  show ∑ k : Fin K, a (ix2 p k) * b (ix2 k q) = ∑ k : Fin K, A (ix2 (i 0) k) * B (ix2 k (i 1))
  exact Finset.sum_congr rfl fun k _ => by rw [ha k, hb k]

/-- The printed index maps over the 50 grid points: the left factor's and the result's tiles are tile `t` along the rows
    and the only tile along the columns; the weight matrix's block is the whole matrix. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is tile `t` of the product of the two arrays as the region finds them. -/
theorem flushed3_2_eq (c : Dev nD) (t : Fin cfg3.N) :
    (dat3 V c).flushed 2 t = ((cfg3.win 2).blk t).view.read (Elt Ideal) (mmRows (V c main_v57) (V c main_arg6)) := by
  show (cfg3.win 2).cut (grid3.coords t) ((dat3 V c).after 2 t) = _
  rw [after3_2]
  unfold out3_2
  rw [View.canon_unit_zero hz3]
  simp only [View.ld_unit_zero (S := S2000x64) hz3, View.ld_unit_zero (S := S64x2) hz3]
  rw [pay3_eq]
  obtain ⟨e0, e1, e2, e3, e4, e5⟩ := idx_facts3 t
  refine funext_ix2_3 (n0 := 2000) (n1 := 2) _ _ fun p q => ?_
  refine mmRows_at3 (V c main_v57) (V c main_arg6) (iblk3 V c 0 t) (iblk3 V c 1 t) p q
    (((cfg3.win 2).blk t).view.emb (ix2 p q)) (fun k => ?_) (fun k => ?_)
  · show V c main_v57 (((cfg3.win 0).blk t).view.emb (ix2 p k)) = V c main_v57 _
    refine congrArg _ (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 64 + 1 * k.val = k.val; omega
  · show V c main_arg6 (((cfg3.win 1).blk t).view.emb (ix2 k q)) = V c main_arg6 _
    refine congrArg _ (funext fun a => Fin.ext ?_)
    match a with
    | ⟨0, _⟩ => show win3_1.index t (0 : Fin 2) * 64 + 1 * k.val = k.val; omega
    | ⟨1, _⟩ => show win3_1.index t (1 : Fin 2) * 2 + 1 * q.val = win3_2.index t (1 : Fin 2) * 2 + 1 * q.val; omega

/-- An index of the result array is in point `t`'s tile iff each coordinate is in the tile's range on its axis. -/
theorem mem_blk3_2 (t : Fin cfg3.N) (i : S100000x2.Idx) :
    i ∈ ((cfg3.win 2).blk t).view.set ↔ ∀ a : Fin 2, win3_2.index t a * S2000x2.size a ≤ (i a).val ∧ (i a).val < win3_2.index t a * S2000x2.size a + S2000x2.size a := by
  show i ∈ ((View.whole main_v58).slice (win3_2.rect t)).set ↔ _
  rw [View.set_slice_whole, Rect.mem_set_unit]
  exact Iff.rfl

/-- Every index of the result array is in some point's tile: row `r` is in tile `r / 2000`. -/
theorem cover3_2_arr (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  let t : Fin cfg3.N := ⟨(i 0).val / 2000, by show (i 0).val / 2000 < 50; omega⟩
  obtain ⟨e0, e1, e2, e3, e4, e5⟩ := idx_facts3 t
  have e4' : win3_2.index t (0 : Fin 2) = (i 0).val / 2000 := e4
  refine ⟨t, flush3_2 t, ?_⟩
  rw [mem_blk3_2]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 2 ≤ (i 1).val ∧ (i 1).val < win3_2.index t (1 : Fin 2) * 2 + 2; omega

/-- THE RESULT ARRAY after the region is the product of the left factor with the weight matrix, as the region finds them. -/
theorem final3 (c : Dev nD) : (dat3 V c).arrAt 2 cfg3.N = mmRows (V c main_v57) (V c main_arg6) :=
  (dat3 V c).arrAt_eq_of_cover 2 (mmRows (V c main_v57) (V c main_arg6)) (fun t _ => flushed3_2_eq V c t) (cover3_2_arr)

end Cert.KernelIdeal.Hand

end
-- ==== Proof.KIV4.lean ====
/-
  The values of region 4 at the exact (extended) reals.

  The region reads a table of 100000 rows and 2 columns in 50 tiles of 2000 rows. Entry (p, j) of tile t is entry
  (2000·t + p, j) of the table. One step of the first accumulator adds to entry j the sum of column j of the tile; one
  step of the second adds the sum of the squares. So after k tiles the accumulators hold, column by column, the sums
  (of the entries, of their squares) over the first 2000·k rows, and after all 50 tiles over all 100000 rows: adding
  tile by tile is adding row by row, by associativity alone. The mean array ends holding the column sums divided by
  the constant 1.0e5 and the variance array the column sums of squares divided by it less the squared mean.
-/
import proofs.«122563_j12137577578919_1_alg».proof.Proof.KIR4
import proofs.«122563_j12137577578919_1_alg».proof.Proof.LibColStats
import proofs.«122563_j12137577578919_1_alg».proof.Proof.LibTileSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The body's arithmetic at the exact reals, one entry at a time -/

/-- The zero row: every entry is `0`. -/
theorem pay1_apply4 (i : S1x2.Idx) : k4_pay1 (F := Ideal) i = 0 := by
  unfold k4_pay1
  simp only [shapeCast_self]
  exact Ideal.ofBits_zero_f32

theorem pay2_apply4 (i : S1x2.Idx) : k4_pay2 (F := Ideal) i = 0 := by
  unfold k4_pay2
  simp only [shapeCast_self]
  exact Ideal.ofBits_zero_f32

/-- One accumulation step of the sums: entry `j` of the new row is the old entry plus the sum of column `j` of the
    tile. -/
theorem pay4_apply4 (x0 : Vec Ideal S2000x2 .f32) (a : Vec Ideal S1x2 .f32) (j : Fin 2) :
    k4_pay4 (F := Ideal) x0 a (ix2 0 j) = a (ix2 0 j) + ∑ p : Fin 2000, x0 (ix2 p j) := by
  unfold k4_pay4 k4_pay3
  simp only [shapeCast_self]
  refine congrArg (fun z => a (ix2 0 j) + z) ?_
  refine (shapeCast_addUnit_apply ![2] _ shapeCasts_S2_S1x2 (ix2 0 j)).trans ?_
  refine (Ideal.multiReduction_add_single (φ := .f32) x0 0x00000000#32 reduces_S2000x2_S2 _ _ _).trans ?_
  exact Finset.sum_congr rfl fun p _ => congrArg x0 (funext fun b => by
    match b with
    | ⟨0, _⟩ => rfl
    | ⟨1, _⟩ => rfl)

/-- One accumulation step of the sums of squares. -/
theorem pay5_apply4 (x0 : Vec Ideal S2000x2 .f32) (a : Vec Ideal S1x2 .f32) (j : Fin 2) :
    k4_pay5 (F := Ideal) x0 a (ix2 0 j) = a (ix2 0 j) + ∑ p : Fin 2000, x0 (ix2 p j) * x0 (ix2 p j) := by
  unfold k4_pay5 k4_pay3
  simp only [shapeCast_self]
  refine congrArg (fun z => a (ix2 0 j) + z) ?_
  refine (shapeCast_addUnit_apply ![2] _ shapeCasts_S2_S1x2 (ix2 0 j)).trans ?_
  refine (Ideal.multiReduction_add_single (φ := .f32) (mulf x0 x0) 0x00000000#32 reduces_S2000x2_S2 _ _ _).trans ?_
  exact Finset.sum_congr rfl fun p _ => congrArg (fun q => x0 q * x0 q) (funext fun b => by
    match b with
    | ⟨0, _⟩ => rfl
    | ⟨1, _⟩ => rfl)

/-- The mean row: each accumulated sum divided by the constant `1.0e5`. -/
theorem pay6_apply4 (a : Vec Ideal S1x2 .f32) (i : S1x2.Idx) :
    k4_pay6 (F := Ideal) a i = Ideal.div (a i) (Ideal.ofBits .f32 0x47C35000#32) := rfl

/-- The variance row: each accumulated sum of squares divided by `1.0e5`, less the square of the mean. -/
theorem pay7_apply4 (a b : Vec Ideal S1x2 .f32) (i : S1x2.Idx) :
    k4_pay7 (F := Ideal) a b i = Ideal.div (b i) (Ideal.ofBits .f32 0x47C35000#32)
      - Ideal.div (a i) (Ideal.ofBits .f32 0x47C35000#32) * Ideal.div (a i) (Ideal.ofBits .f32 0x47C35000#32) := rfl

/-! ## The tiles as rows of the input table -/

section Values
-- the buffer contents of the core when the region is entered, at the exact reals
variable (V : (c : Dev nD) → (b : Ref sig .tc) → Buf (Elt Ideal) ((c : Thread nD τ).loc b))

/-- The table the region reads: 100000 rows, 2 columns. -/
abbrev x4 (c : Dev nD) : S100000x2.Idx → EReal := V c main_v79

/-- Entry `(n, j)` of the table, for any natural `n` (zero past the last row: only rows below 100000 are ever read). -/
def row4 (c : Dev nD) (n : ℕ) (j : Fin 2) : EReal := if h : n < 100000 then x4 V c (ix2 ⟨n, h⟩ j) else 0

/-- The input window's block index at point `t` is `(t, 0)`; each output window's is `(0, 0)`. -/
theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)

/-- Entry `(p, j)` of the tile at point `t` is entry `(2000·t + p, j)` of the table. -/
theorem iblk4_apply (c : Dev nD) (t : Fin cfg4.N) (p : Fin 2000) (j : Fin 2) :
    iblk4 V c 0 t (ix2 p j) = row4 V c (2000 * t.val + p.val) j := by
  have hN : t.val < 50 := lt_of_lt_of_eq t.isLt (show cfg4.N = 50 from N_4)
  have hb : 2000 * t.val + p.val < 100000 := by have := p.isLt; omega
  unfold row4; rw [dif_pos hb]
  show V c main_v79 (((cfg4.win 0).blk t).view.emb (ix2 p j)) = V c main_v79 (ix2 ⟨2000 * t.val + p.val, hb⟩ j)
  refine congrArg (V c main_v79) ?_
  obtain ⟨e0, e1⟩ := idx4_0 t
  funext a; apply Fin.ext
  match a with
  | ⟨0, _⟩ => show win4_0.index t (0 : Fin 2) * 2000 + 1 * p.val = 2000 * t.val + p.val; omega
  | ⟨1, _⟩ => show win4_0.index t (1 : Fin 2) * 2 + 1 * j.val = j.val; omega

/-! ## The accumulators in closed form -/

/-- After `k` tiles, entry `j` of the first accumulator is the sum, tile by tile, of the first `2000·k` entries of
    column `j`. -/
theorem acc4_0_closed (c : Dev nD) : ∀ (k : ℕ), k ≤ 50 → ∀ (j : Fin 2),
    acc4_0 V c k (ix2 0 j) = ∑ s ∈ Finset.range k, ∑ p : Fin 2000, row4 V c (2000 * s + p.val) j
  | 0, _, j => by rw [Finset.sum_range_zero]; exact pay1_apply4 (ix2 0 j)
  | k + 1, hk, j => by
    have h : k < cfg4.N := lt_of_lt_of_eq (by omega : k < 50) (show (50 : ℕ) = cfg4.N from N_4.symm)
    have ih := acc4_0_closed c k (by omega) j
    rw [acc4_0_succ V c k h, Finset.sum_range_succ]
    refine (pay4_apply4 (iblk4 V c 0 ⟨k, h⟩) (acc4_0 V c k) j).trans ?_
    exact congrArg₂ (fun u v : EReal => u + v) ih (Finset.sum_congr rfl fun p _ => iblk4_apply V c ⟨k, h⟩ p j)

/-- After `k` tiles, entry `j` of the second accumulator is the sum, tile by tile, of the squares of the first
    `2000·k` entries of column `j`. -/
theorem acc4_1_closed (c : Dev nD) : ∀ (k : ℕ), k ≤ 50 → ∀ (j : Fin 2),
    acc4_1 V c k (ix2 0 j)
      = ∑ s ∈ Finset.range k, ∑ p : Fin 2000, row4 V c (2000 * s + p.val) j * row4 V c (2000 * s + p.val) j
  | 0, _, j => by rw [Finset.sum_range_zero]; exact pay2_apply4 (ix2 0 j)
  | k + 1, hk, j => by
    have h : k < cfg4.N := lt_of_lt_of_eq (by omega : k < 50) (show (50 : ℕ) = cfg4.N from N_4.symm)
    have ih := acc4_1_closed c k (by omega) j
    rw [acc4_1_succ V c k h, Finset.sum_range_succ]
    refine (pay5_apply4 (iblk4 V c 0 ⟨k, h⟩) (acc4_1 V c k) j).trans ?_
    exact congrArg₂ (fun u v : EReal => u + v) ih (Finset.sum_congr rfl fun p _ => by
      rw [iblk4_apply V c ⟨k, h⟩ p j])

/-- Fifty tiles of 2000 rows are the 100000 rows: the tile-by-tile sum of a column is the sum over its rows, -/
theorem sum_rows4 (c : Dev nD) (j : Fin 2) :
    ∑ s ∈ Finset.range 50, ∑ p : Fin 2000, row4 V c (2000 * s + p.val) j = ∑ n : Fin 100000, x4 V c (ix2 n j) := by
  rw [Cert.TileSum.sum_tiles 2000 (fun n => row4 V c n j) 50]
  exact Finset.sum_congr rfl fun n _ => by unfold row4; rw [dif_pos n.isLt]

/-- and likewise for the squares. -/
theorem sum_sq_rows4 (c : Dev nD) (j : Fin 2) :
    ∑ s ∈ Finset.range 50, ∑ p : Fin 2000, row4 V c (2000 * s + p.val) j * row4 V c (2000 * s + p.val) j
      = ∑ n : Fin 100000, x4 V c (ix2 n j) * x4 V c (ix2 n j) := by
  rw [Cert.TileSum.sum_tiles 2000 (fun n => row4 V c n j * row4 V c n j) 50]
  exact Finset.sum_congr rfl fun n _ => by unfold row4; rw [dif_pos n.isLt]

/-! ## The two result blocks -/

/-- The mean block is the table's column means, the divisor the constant `1.0e5`. -/
theorem fin4_1_eq (c : Dev nD) :
    fin4_1 V c = Cert.LibColStats.colMean (x4 V c) (Ideal.ofBits .f32 0x47C35000#32) := by
  funext i
  obtain ⟨a, j, rfl⟩ : ∃ (a : Fin 1) (j : Fin 2), i = ix2 a j := ⟨i 0, i 1, eq_ix2 i⟩
  obtain rfl : a = 0 := Subsingleton.elim _ _
  unfold fin4_1 Cert.LibColStats.colMean
  refine (pay6_apply4 (acc4_0 V c 50) (ix2 0 j)).trans ?_
  refine congrArg (fun z => Ideal.div z (Ideal.ofBits .f32 0x47C35000#32)) ?_
  exact (acc4_0_closed V c 50 (le_refl _) j).trans (sum_rows4 V c j)

/-- The variance block is the table's column variances in the form "mean of the squares less the squared mean". -/
theorem fin4_2_eq (c : Dev nD) :
    fin4_2 V c = Cert.LibColStats.colVarK (x4 V c) (Ideal.ofBits .f32 0x47C35000#32) := by
  funext i
  obtain ⟨a, j, rfl⟩ : ∃ (a : Fin 1) (j : Fin 2), i = ix2 a j := ⟨i 0, i 1, eq_ix2 i⟩
  obtain rfl : a = 0 := Subsingleton.elim _ _
  have e0 := (acc4_0_closed V c 50 (le_refl _) j).trans (sum_rows4 V c j)
  have e1 := (acc4_1_closed V c 50 (le_refl _) j).trans (sum_sq_rows4 V c j)
  unfold fin4_2 Cert.LibColStats.colVarK Cert.LibColStats.colMean
  refine (pay7_apply4 (acc4_0 V c 50) (acc4_1 V c 50) (ix2 0 j)).trans ?_
  rw [e0, e1]

/-! ## The output arrays after the run -/

/-- An index of a [1, 2] array lies in an output window's block at point `t` iff each coordinate is in the block's range. -/
theorem mem_blk4_1 (t : Fin cfg4.N) (i : S1x2.Idx) :
    i ∈ ((cfg4.win 1).blk t).view.set ↔ ∀ a : Fin 2, win4_1.index t a * S1x2.size a ≤ (i a).val ∧ (i a).val < win4_1.index t a * S1x2.size a + S1x2.size a := by
  show i ∈ ((View.whole main_v80_0).slice (win4_1.rect t)).set ↔ _
  rw [View.set_slice_whole, Rect.mem_set_unit]
  exact Iff.rfl
theorem mem_blk4_2 (t : Fin cfg4.N) (i : S1x2.Idx) :
    i ∈ ((cfg4.win 2).blk t).view.set ↔ ∀ a : Fin 2, win4_2.index t a * S1x2.size a ≤ (i a).val ∧ (i a).val < win4_2.index t a * S1x2.size a + S1x2.size a := by
  show i ∈ ((View.whole main_v80_1).slice (win4_2.rect t)).set ↔ _
  rw [View.set_slice_whole, Rect.mem_set_unit]
  exact Iff.rfl

/-- What a point writes back of the mean window is the mean block: the window's one block is the whole array. -/
theorem flushed4_1_eq (c : Dev nD) (t : Fin cfg4.N) :
    (dat4 V c).flushed 1 t = ((cfg4.win 1).blk t).view.read (Elt Ideal) (fin4_1 V c) := by
  show (cfg4.win 1).cut (grid4.coords t) ((dat4 V c).after 1 t) = _
  rw [after4_1]
  obtain ⟨e0, e1⟩ := idx4_1 t
  funext y
  show fin4_1 V c y = fin4_1 V c (((cfg4.win 1).blk t).view.emb y)
  refine congrArg (fin4_1 V c) ?_
  funext a; apply Fin.ext
  match a with
  | ⟨0, _⟩ => show (y 0).val = win4_1.index t (0 : Fin 2) * 1 + 1 * (y 0).val; omega
  | ⟨1, _⟩ => show (y 1).val = win4_1.index t (1 : Fin 2) * 2 + 1 * (y 1).val; omega

theorem flushed4_2_eq (c : Dev nD) (t : Fin cfg4.N) :
    (dat4 V c).flushed 2 t = ((cfg4.win 2).blk t).view.read (Elt Ideal) (fin4_2 V c) := by
  show (cfg4.win 2).cut (grid4.coords t) ((dat4 V c).after 2 t) = _
  rw [after4_2]
  obtain ⟨e0, e1⟩ := idx4_2 t
  funext y
  show fin4_2 V c y = fin4_2 V c (((cfg4.win 2).blk t).view.emb y)
  refine congrArg (fin4_2 V c) ?_
  funext a; apply Fin.ext
  match a with
  | ⟨0, _⟩ => show (y 0).val = win4_2.index t (0 : Fin 2) * 1 + 1 * (y 0).val; omega
  | ⟨1, _⟩ => show (y 1).val = win4_2.index t (1 : Fin 2) * 2 + 1 * (y 1).val; omega

/-- Every index of the mean array is in the block the last point writes back. -/
theorem cover4_1 (i : S1x2.Idx) : ∃ t : Fin cfg4.N, (cfg4.win 1).flush t = true ∧ i ∈ ((cfg4.win 1).blk t).view.set := by
  have h49 : 49 < cfg4.N := lt_of_lt_of_eq (by omega : 49 < 50) (show (50 : ℕ) = cfg4.N from N_4.symm)
  refine ⟨⟨49, h49⟩, (flush4_1 _).mpr rfl, ?_⟩
  rw [mem_blk4_1]
  obtain ⟨e0, e1⟩ := idx4_1 ⟨49, h49⟩
  have hi0 : (i 0).val < 1 := (i 0).isLt
  have hi1 : (i 1).val < 2 := (i 1).isLt
  intro a
  match a with
  | ⟨0, _⟩ => show win4_1.index ⟨49, h49⟩ (0 : Fin 2) * 1 ≤ (i 0).val ∧ (i 0).val < win4_1.index ⟨49, h49⟩ (0 : Fin 2) * 1 + 1; omega
  | ⟨1, _⟩ => show win4_1.index ⟨49, h49⟩ (1 : Fin 2) * 2 ≤ (i 1).val ∧ (i 1).val < win4_1.index ⟨49, h49⟩ (1 : Fin 2) * 2 + 2; omega

theorem cover4_2 (i : S1x2.Idx) : ∃ t : Fin cfg4.N, (cfg4.win 2).flush t = true ∧ i ∈ ((cfg4.win 2).blk t).view.set := by
  have h49 : 49 < cfg4.N := lt_of_lt_of_eq (by omega : 49 < 50) (show (50 : ℕ) = cfg4.N from N_4.symm)
  refine ⟨⟨49, h49⟩, (flush4_2 _).mpr rfl, ?_⟩
  rw [mem_blk4_2]
  obtain ⟨e0, e1⟩ := idx4_2 ⟨49, h49⟩
  have hi0 : (i 0).val < 1 := (i 0).isLt
  have hi1 : (i 1).val < 2 := (i 1).isLt
  intro a
  match a with
  | ⟨0, _⟩ => show win4_2.index ⟨49, h49⟩ (0 : Fin 2) * 1 ≤ (i 0).val ∧ (i 0).val < win4_2.index ⟨49, h49⟩ (0 : Fin 2) * 1 + 1; omega
  | ⟨1, _⟩ => show win4_2.index ⟨49, h49⟩ (1 : Fin 2) * 2 ≤ (i 1).val ∧ (i 1).val < win4_2.index ⟨49, h49⟩ (1 : Fin 2) * 2 + 2; omega

/-- THE MEAN ARRAY after the run: the column means of the table the region read, the divisor the constant `1.0e5`. -/
theorem final4_1 (c : Dev nD) :
    (dat4 V c).arrAt 1 cfg4.N = Cert.LibColStats.colMean (x4 V c) (Ideal.ofBits .f32 0x47C35000#32) :=
  ((dat4 V c).arrAt_eq_of_cover 1 (fin4_1 V c) (fun t _ => flushed4_1_eq V c t) (cover4_1)).trans (fin4_1_eq V c)

/-- THE VARIANCE ARRAY after the run: the column variances of the table, as the mean of the squares less the squared
    mean, the divisor the constant `1.0e5`. -/
theorem final4_2 (c : Dev nD) :
    (dat4 V c).arrAt 2 cfg4.N = Cert.LibColStats.colVarK (x4 V c) (Ideal.ofBits .f32 0x47C35000#32) :=
  ((dat4 V c).arrAt_eq_of_cover 2 (fin4_2 V c) (fun t _ => flushed4_2_eq V c t) (cover4_2)).trans (fin4_2_eq V c)

end Values

end Cert.KernelIdeal.Hand

end
-- ==== Proof.RefStages.lean ====
/- The reference program's stages at the ideal floats: each a plain definition whose body is the literal
   composition of the printed operations between two named values, over explicit array arguments. The two
   returned values are `Ssig` and `Ssoft` of `Sout` of the ten argument arrays. -/
import proofs.«122563_j12137577578919_1_alg».proof.Proof.Gen.ReferenceIdeal
import Idealize.ShloMosaic.PureOps.Ideal

noncomputable section

namespace Cert.ReferenceIdeal.Hand

open Cert.ReferenceIdeal Idealize.ShloMosaic
open Cert.ReferenceIdeal.Facts₀ Cert.ReferenceIdeal.Facts

/-- Edge sources: row 0 of the edge table, then the node numbers 0 … 99999 (one self loop per node). -/
def Ssrc (a0 : IVec S2x1600000 32) : IVec S1700000 32 :=
  concatenate S1700000 0 [⟨S1600000, (shapeCast S1600000 (extractStridedSlice S1x1600000 ![0, 0] a0 slices_S2x1600000_S1x1600000_0_0) shapeCasts_S1x1600000_S1600000)⟩, ⟨S100000, (iotaInDim S100000 32 0)⟩] concatenates_S1600000_S100000_S1700000_d0

/-- Edge targets: row 1 of the edge table, then the node numbers 0 … 99999. -/
def Sdst (a0 : IVec S2x1600000 32) : IVec S1700000 32 :=
  concatenate S1700000 0 [⟨S1600000, (shapeCast S1600000 (extractStridedSlice S1x1600000 ![1, 0] a0 slices_S2x1600000_S1x1600000_1_0) shapeCasts_S1x1600000_S1600000)⟩, ⟨S100000, (iotaInDim S100000 32 0)⟩] concatenates_S1600000_S100000_S1700000_d0

/-- An index vector as a one-column index table, a negative entry first raised by the node count 100000. -/
def Sidx (x : IVec S1700000 32) : IVec S1700000x1 32 :=
  broadcastInDim S1700000x1 ![0] bcast_S1700000_S1700000x1_0 (select (cmpi .slt x (broadcastInDim S1700000 ![] bcast_S_S1700000 (constantI S_ 32 0#32))) (addi x (broadcastInDim S1700000 ![] bcast_S_S1700000 (constantI S_ 32 100000#32))) x)

/-- Per node, the inverse square root of its in-degree: ones summed at the targets, then rsqrt. -/
def Sdinv (dst : IVec S1700000 32) : FVec Ideal S100000 .f32 :=
  Host.rsqrt (F := Ideal) (Host.scatterAdd (F := Ideal) scatter_S100000_S1700000x1_S1700000_n_0_0_1 (broadcastInDim S100000 ![] bcast_S_S100000 (constant (F := Ideal) S_ .f32 0x00000000#32)) (Sidx dst) (broadcastInDim S1700000 ![] bcast_S_S1700000 (constant (F := Ideal) S_ .f32 0x3F800000#32)))

/-- Per edge, the symmetric normalisation: dinv at its source times dinv at its target. -/
def Snrm2 (src : IVec S1700000 32) (dst : IVec S1700000 32) : FVec Ideal S1700000 .f32 :=
  mulf (F := Ideal) (Host.gather gather_S100000_S1700000x1_S1700000_n_0_n_n_0_1_1 (Sdinv dst) (Sidx src)) (Host.gather gather_S100000_S1700000x1_S1700000_n_0_n_n_0_1_1 (Sdinv dst) (Sidx dst))

/-- The edge weights of the edge table. -/
def Snrm (a0 : IVec S2x1600000 32) : FVec Ideal S1700000 .f32 :=
  Snrm2 (Ssrc a0) (Sdst a0)

/-- The first dense product. -/
def Sdot1 (x : FVec Ideal S100000x64 .f32) (w : FVec Ideal S64x64 .f32) : FVec Ideal S100000x64 .f32 :=
  Host.dotGeneral (F := Ideal) dot_S100000x64_S64x64_S100000x64_1_0_0_1_n_n none x w

/-- Per edge, the source node's row of h scaled by the edge weight (64 columns). -/
def Smsg64 (h : FVec Ideal S100000x64 .f32) (src : IVec S1700000 32) (nrm : FVec Ideal S1700000 .f32) : FVec Ideal S1700000x64 .f32 :=
  mulf (F := Ideal) (Host.gather gather_S100000x64_S1700000x1_S1700000x64_1_0_n_n_0_1_164 h (Sidx src)) (broadcastInDim S1700000x64 ![0, 1] bcast_S1700000x1_S1700000x64_0_1 (broadcastInDim S1700000x1 ![0] bcast_S1700000_S1700000x1_0 nrm))

/-- The per-edge rows summed at their target nodes, plus the bias row (64 columns). -/
def Sscat64 (msg : FVec Ideal S1700000x64 .f32) (dst : IVec S1700000 32) (b : FVec Ideal S64 .f32) : FVec Ideal S100000x64 .f32 :=
  addf (F := Ideal) (Host.scatterAdd (F := Ideal) scatter_S100000x64_S1700000x1_S1700000x64_1_0_0_1 (broadcastInDim S100000x64 ![] bcast_S_S100000x64 (constant (F := Ideal) S_ .f32 0x00000000#32)) (Sidx dst) msg) (broadcastInDim S100000x64 ![0, 1] bcast_S1x64_S100000x64_0_1 (broadcastInDim S1x64 ![1] bcast_S64_S1x64_1 b))

/-- One normalised aggregation over the edges, 64 columns: gather and scale, then sum at the targets and add the bias. -/
def Saggr64 (h : FVec Ideal S100000x64 .f32) (src : IVec S1700000 32) (dst : IVec S1700000 32) (nrm : FVec Ideal S1700000 .f32) (b : FVec Ideal S64 .f32) : FVec Ideal S100000x64 .f32 :=
  Sscat64 (Smsg64 h src nrm) dst b

/-- Column means over the 100000 rows. -/
def Smean64 (x : FVec Ideal S100000x64 .f32) : FVec Ideal S64 .f32 :=
  Host.divf (F := Ideal) (Host.reduceAdd (F := Ideal) x (constant (F := Ideal) S_ .f32 0x00000000#32) reducesTo_S100000x64_S64_d0 h_S_) (broadcastInDim S64 ![] bcast_S_S64 (constant (F := Ideal) S_ .f32 0x47C35000#32))

/-- Column variances over the 100000 rows (mean of squared deviations, with zero degrees of freedom removed; the guarding select included). -/
def Svar64 (x : FVec Ideal S100000x64 .f32) : FVec Ideal S64 .f32 :=
  select (broadcastInDim S64 ![] bcast_S_S64 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (subf (F := Ideal) x (broadcastInDim S100000x64 ![0, 1] bcast_S1x64_S100000x64_0_1 (Host.divf (F := Ideal) (broadcastInDim S1x64 ![1] bcast_S64_S1x64_1 (Host.reduceAdd (F := Ideal) x (constant (F := Ideal) S_ .f32 0x00000000#32) reducesTo_S100000x64_S64_d0 h_S_)) (broadcastInDim S1x64 ![] bcast_S_S1x64 (constant (F := Ideal) S_ .f32 0x47C35000#32))))) (subf (F := Ideal) x (broadcastInDim S100000x64 ![0, 1] bcast_S1x64_S100000x64_0_1 (Host.divf (F := Ideal) (broadcastInDim S1x64 ![1] bcast_S64_S1x64_1 (Host.reduceAdd (F := Ideal) x (constant (F := Ideal) S_ .f32 0x00000000#32) reducesTo_S100000x64_S64_d0 h_S_)) (broadcastInDim S1x64 ![] bcast_S_S1x64 (constant (F := Ideal) S_ .f32 0x47C35000#32)))))) (constant (F := Ideal) S_ .f32 0x00000000#32) reducesTo_S100000x64_S64_d0 h_S_) (broadcastInDim S64 ![] bcast_S_S64 (subf (F := Ideal) (constant (F := Ideal) S_ .f32 0x47C35000#32) (sitofp (F := Ideal) .f32 (constantI S_ 32 0#32))))) (broadcastInDim S64 ![] bcast_S_S64 (constant (F := Ideal) S_ .f32 0x7FC00000#32))

/-- Column-wise normalisation g * (x - mean) * rsqrt (var + eps) + beta, then the maximum with zero. -/
def Sbnrelu (x : FVec Ideal S100000x64 .f32) (mean : FVec Ideal S64 .f32) (var : FVec Ideal S64 .f32) (g : FVec Ideal S64 .f32) (beta : FVec Ideal S64 .f32) : FVec Ideal S100000x64 .f32 :=
  maximumf (F := Ideal) (addf (F := Ideal) (mulf (F := Ideal) (mulf (F := Ideal) (broadcastInDim S100000x64 ![0, 1] bcast_S1x64_S100000x64_0_1 (broadcastInDim S1x64 ![1] bcast_S64_S1x64_1 g)) (subf (F := Ideal) x (broadcastInDim S100000x64 ![0, 1] bcast_S1x64_S100000x64_0_1 (broadcastInDim S1x64 ![1] bcast_S64_S1x64_1 mean)))) (broadcastInDim S100000x64 ![0, 1] bcast_S1x64_S100000x64_0_1 (broadcastInDim S1x64 ![1] bcast_S64_S1x64_1 (Host.rsqrt (F := Ideal) (addf (F := Ideal) var (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 beta))) (broadcastInDim S100000x64 ![] bcast_S_S100000x64 (constant (F := Ideal) S_ .f32 0x00000000#32))

/-- The second dense product. -/
def Sdot2 (x : FVec Ideal S100000x64 .f32) (w : FVec Ideal S64x2 .f32) : FVec Ideal S100000x2 .f32 :=
  Host.dotGeneral (F := Ideal) dot_S100000x64_S64x2_S100000x2_1_0_0_1_n_n none x w

/-- Per edge, the source node's row of h scaled by the edge weight (2 columns). -/
def Smsg2 (h : FVec Ideal S100000x2 .f32) (src : IVec S1700000 32) (nrm : FVec Ideal S1700000 .f32) : FVec Ideal S1700000x2 .f32 :=
  mulf (F := Ideal) (Host.gather gather_S100000x2_S1700000x1_S1700000x2_1_0_n_n_0_1_12 h (Sidx src)) (broadcastInDim S1700000x2 ![0, 1] bcast_S1700000x1_S1700000x2_0_1 (broadcastInDim S1700000x1 ![0] bcast_S1700000_S1700000x1_0 nrm))

/-- The per-edge rows summed at their target nodes, plus the bias row (2 columns). -/
def Sscat2 (msg : FVec Ideal S1700000x2 .f32) (dst : IVec S1700000 32) (b : FVec Ideal S2 .f32) : FVec Ideal S100000x2 .f32 :=
  addf (F := Ideal) (Host.scatterAdd (F := Ideal) scatter_S100000x2_S1700000x1_S1700000x2_1_0_0_1 (broadcastInDim S100000x2 ![] bcast_S_S100000x2 (constant (F := Ideal) S_ .f32 0x00000000#32)) (Sidx dst) msg) (broadcastInDim S100000x2 ![0, 1] bcast_S1x2_S100000x2_0_1 (broadcastInDim S1x2 ![1] bcast_S2_S1x2_1 b))

/-- One normalised aggregation over the edges, 2 columns. -/
def Saggr2 (h : FVec Ideal S100000x2 .f32) (src : IVec S1700000 32) (dst : IVec S1700000 32) (nrm : FVec Ideal S1700000 .f32) (b : FVec Ideal S2 .f32) : FVec Ideal S100000x2 .f32 :=
  Sscat2 (Smsg2 h src nrm) dst b

/-- Column means over the 100000 rows. -/
def Smean2 (x : FVec Ideal S100000x2 .f32) : FVec Ideal S2 .f32 :=
  Host.divf (F := Ideal) (Host.reduceAdd (F := Ideal) x (constant (F := Ideal) S_ .f32 0x00000000#32) reducesTo_S100000x2_S2_d0 h_S_) (broadcastInDim S2 ![] bcast_S_S2 (constant (F := Ideal) S_ .f32 0x47C35000#32))

/-- Column variances over the 100000 rows (the guarding select included). -/
def Svar2 (x : FVec Ideal S100000x2 .f32) : FVec Ideal S2 .f32 :=
  select (broadcastInDim S2 ![] bcast_S_S2 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (subf (F := Ideal) x (broadcastInDim S100000x2 ![0, 1] bcast_S1x2_S100000x2_0_1 (Host.divf (F := Ideal) (broadcastInDim S1x2 ![1] bcast_S2_S1x2_1 (Host.reduceAdd (F := Ideal) x (constant (F := Ideal) S_ .f32 0x00000000#32) reducesTo_S100000x2_S2_d0 h_S_)) (broadcastInDim S1x2 ![] bcast_S_S1x2 (constant (F := Ideal) S_ .f32 0x47C35000#32))))) (subf (F := Ideal) x (broadcastInDim S100000x2 ![0, 1] bcast_S1x2_S100000x2_0_1 (Host.divf (F := Ideal) (broadcastInDim S1x2 ![1] bcast_S2_S1x2_1 (Host.reduceAdd (F := Ideal) x (constant (F := Ideal) S_ .f32 0x00000000#32) reducesTo_S100000x2_S2_d0 h_S_)) (broadcastInDim S1x2 ![] bcast_S_S1x2 (constant (F := Ideal) S_ .f32 0x47C35000#32)))))) (constant (F := Ideal) S_ .f32 0x00000000#32) reducesTo_S100000x2_S2_d0 h_S_) (broadcastInDim S2 ![] bcast_S_S2 (subf (F := Ideal) (constant (F := Ideal) S_ .f32 0x47C35000#32) (sitofp (F := Ideal) .f32 (constantI S_ 32 0#32))))) (broadcastInDim S2 ![] bcast_S_S2 (constant (F := Ideal) S_ .f32 0x7FC00000#32))

/-- Column-wise normalisation g * (x - mean) * rsqrt (var + eps) + beta. -/
def Sbn2 (x : FVec Ideal S100000x2 .f32) (mean : FVec Ideal S2 .f32) (var : FVec Ideal S2 .f32) (g : FVec Ideal S2 .f32) (beta : FVec Ideal S2 .f32) : FVec Ideal S100000x2 .f32 :=
  addf (F := Ideal) (mulf (F := Ideal) (mulf (F := Ideal) (broadcastInDim S100000x2 ![0, 1] bcast_S1x2_S100000x2_0_1 (broadcastInDim S1x2 ![1] bcast_S2_S1x2_1 g)) (subf (F := Ideal) x (broadcastInDim S100000x2 ![0, 1] bcast_S1x2_S100000x2_0_1 (broadcastInDim S1x2 ![1] bcast_S2_S1x2_1 mean)))) (broadcastInDim S100000x2 ![0, 1] bcast_S1x2_S100000x2_0_1 (broadcastInDim S1x2 ![1] bcast_S2_S1x2_1 (Host.rsqrt (F := Ideal) (addf (F := Ideal) var (broadcastInDim S2 ![] bcast_S_S2 (constant (F := Ideal) S_ .f32 0x3727C5AC#32))))))) (broadcastInDim S100000x2 ![0, 1] bcast_S1x2_S100000x2_0_1 (broadcastInDim S1x2 ![1] bcast_S2_S1x2_1 beta))

/-- The logistic function 1 / (1 + exp (-s)), element by element. -/
def Ssig (s : FVec Ideal S100000x2 .f32) : FVec Ideal S100000x2 .f32 :=
  Host.divf (F := Ideal) (broadcastInDim S100000x2 ![] bcast_S_S100000x2 (constant (F := Ideal) S_ .f32 0x3F800000#32)) (addf (F := Ideal) (broadcastInDim S100000x2 ![] bcast_S_S100000x2 (constant (F := Ideal) S_ .f32 0x3F800000#32)) (Host.exp (F := Ideal) (Host.negf (F := Ideal) s)))

/-- The softmax along the last axis: exp (s - rowmax) over its row sum. -/
def Ssoft (s : FVec Ideal S100000x2 .f32) : FVec Ideal S100000x2 .f32 :=
  Host.divf (F := Ideal) (Host.exp (F := Ideal) (subf (F := Ideal) s (broadcastInDim S100000x2 ![0, 1] bcast_S100000x1_S100000x2_0_1 (broadcastInDim S100000x1 ![0] bcast_S100000_S100000x1_0 (maximumf (F := Ideal) (broadcastInDim S100000 ![] bcast_S_S100000 (constant (F := Ideal) S_ .f32 0xFF800000#32)) (Host.reduce (FloatOps.maximumf (F := Ideal)) s (constant (F := Ideal) S_ .f32 0xFF800000#32) reducesTo_S100000x2_S100000_d1 h_S_)))))) (broadcastInDim S100000x2 ![0, 1] bcast_S100000x1_S100000x2_0_1 (broadcastInDim S100000x1 ![0] bcast_S100000_S100000x1_0 (Host.reduceAdd (F := Ideal) (Host.exp (F := Ideal) (subf (F := Ideal) s (broadcastInDim S100000x2 ![0, 1] bcast_S100000x1_S100000x2_0_1 (broadcastInDim S100000x1 ![0] bcast_S100000_S100000x1_0 (maximumf (F := Ideal) (broadcastInDim S100000 ![] bcast_S_S100000 (constant (F := Ideal) S_ .f32 0xFF800000#32)) (Host.reduce (FloatOps.maximumf (F := Ideal)) s (constant (F := Ideal) S_ .f32 0xFF800000#32) reducesTo_S100000x2_S100000_d1 h_S_)))))) (constant (F := Ideal) S_ .f32 0x00000000#32) reducesTo_S100000x2_S100000_d1 h_S_)))

/-- The first layer before normalisation. -/
def SX1 (a0 : IVec S2x1600000 32) (a1 : FVec Ideal S100000x64 .f32) (a2 : FVec Ideal S64x64 .f32) (a3 : FVec Ideal S64 .f32) : FVec Ideal S100000x64 .f32 :=
  Saggr64 (Sdot1 a1 a2) (Ssrc a0) (Sdst a0) (Snrm a0) a3

/-- The first layer's output. -/
def SH1 (a0 : IVec S2x1600000 32) (a1 : FVec Ideal S100000x64 .f32) (a2 : FVec Ideal S64x64 .f32) (a3 : FVec Ideal S64 .f32) (a4 : FVec Ideal S64 .f32) (a5 : FVec Ideal S64 .f32) : FVec Ideal S100000x64 .f32 :=
  Sbnrelu (SX1 a0 a1 a2 a3) (Smean64 (SX1 a0 a1 a2 a3)) (Svar64 (SX1 a0 a1 a2 a3)) a4 a5

/-- The second layer before normalisation. -/
def SX2 (a0 : IVec S2x1600000 32) (a1 : FVec Ideal S100000x64 .f32) (a2 : FVec Ideal S64x64 .f32) (a3 : FVec Ideal S64 .f32) (a4 : FVec Ideal S64 .f32) (a5 : FVec Ideal S64 .f32) (a6 : FVec Ideal S64x2 .f32) (a7 : FVec Ideal S2 .f32) : FVec Ideal S100000x2 .f32 :=
  Saggr2 (Sdot2 (SH1 a0 a1 a2 a3 a4 a5) a6) (Ssrc a0) (Sdst a0) (Snrm a0) a7

/-- The second layer's normalised output: what both returned values are functions of. -/
def Sout (a0 : IVec S2x1600000 32) (a1 : FVec Ideal S100000x64 .f32) (a2 : FVec Ideal S64x64 .f32) (a3 : FVec Ideal S64 .f32) (a4 : FVec Ideal S64 .f32) (a5 : FVec Ideal S64 .f32) (a6 : FVec Ideal S64x2 .f32) (a7 : FVec Ideal S2 .f32) (a8 : FVec Ideal S2 .f32) (a9 : FVec Ideal S2 .f32) : FVec Ideal S100000x2 .f32 :=
  Sbn2 (SX2 a0 a1 a2 a3 a4 a5 a6 a7) (Smean2 (SX2 a0 a1 a2 a3 a4 a5 a6 a7)) (Svar2 (SX2 a0 a1 a2 a3 a4 a5 a6 a7)) a8 a9

end Cert.ReferenceIdeal.Hand

end
-- ==== Proof.KIChain.lean ====
import proofs.«122563_j12137577578919_1_alg».proof.Proof.KIFrame
import proofs.«122563_j12137577578919_1_alg».proof.Proof.KIV0
import proofs.«122563_j12137577578919_1_alg».proof.Proof.KIV1
import proofs.«122563_j12137577578919_1_alg».proof.Proof.KIV2
import proofs.«122563_j12137577578919_1_alg».proof.Proof.KIV3
import proofs.«122563_j12137577578919_1_alg».proof.Proof.KIV4
import proofs.«122563_j12137577578919_1_alg».proof.Proof.RefStages
import proofs.«122563_j12137577578919_1_alg».proof.Proof.LibMatmulRows
import proofs.«122563_j12137577578919_1_alg».proof.Proof.LibColStats
import Idealize.ShloMosaic.Lib.StableHlo.Run

/-!
# The kernel program's boundaries: what the key buffers hold, stage by stage

Between two items of the program each buffer that a later item reads is one function of the buffers before it: the host
stretches by the reference's own stage functions (the two programs spell them by the same operations), the six regions
by their closed forms (two matrix products, two column statistics, two normalisations). A buffer no item in between
writes is carried along unchanged.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.Hand (Ssrc Sdst Sidx Sdinv Snrm2 Snrm Sdot1 Smsg64 Sscat64 Saggr64 Smsg2 Sscat2 Saggr2)
open Cert.LibMatmulRows (mmRows)
open Cert.LibColStats (colMean colVarK)

variable (m : (ℓ : Loc nD τ sig) → Buf (Elt Ideal) ℓ) (c : Dev nD)

/-! ## Buffers carried unchanged -/

theorem keep_main_arg1_0_1 : bd1 m c (Proc.devRef .tc main_arg1) = bd0 m c (Proc.devRef .tc main_arg1) :=
  calc bd1 m c (Proc.devRef .tc main_arg1)
    _ = bd0 m c (Proc.devRef .tc main_arg1) := bd1_of m c main_arg1 (by decide)

theorem keep_main_arg2_0_1 : bd1 m c (Proc.devRef .tc main_arg2) = bd0 m c (Proc.devRef .tc main_arg2) :=
  calc bd1 m c (Proc.devRef .tc main_arg2)
    _ = bd0 m c (Proc.devRef .tc main_arg2) := bd1_of m c main_arg2 (by decide)

theorem keep_main_arg3_0_2 : bd2 m c (Proc.devRef .tc main_arg3) = bd0 m c (Proc.devRef .tc main_arg3) :=
  calc bd2 m c (Proc.devRef .tc main_arg3)
    _ = bd1 m c (Proc.devRef .tc main_arg3) := bd2_of_ne m c main_arg3 (by decide)
    _ = bd0 m c (Proc.devRef .tc main_arg3) := bd1_of m c main_arg3 (by decide)

theorem keep_main_arg4_0_4 : bd4 m c (Proc.devRef .tc main_arg4) = bd0 m c (Proc.devRef .tc main_arg4) :=
  calc bd4 m c (Proc.devRef .tc main_arg4)
    _ = bd3 m c (Proc.devRef .tc main_arg4) := bd4_of_ne m c main_arg4 (by decide)
    _ = bd2 m c (Proc.devRef .tc main_arg4) := bd3_of m c main_arg4 (by decide)
    _ = bd1 m c (Proc.devRef .tc main_arg4) := bd2_of_ne m c main_arg4 (by decide)
    _ = bd0 m c (Proc.devRef .tc main_arg4) := bd1_of m c main_arg4 (by decide)

theorem keep_main_arg5_0_4 : bd4 m c (Proc.devRef .tc main_arg5) = bd0 m c (Proc.devRef .tc main_arg5) :=
  calc bd4 m c (Proc.devRef .tc main_arg5)
    _ = bd3 m c (Proc.devRef .tc main_arg5) := bd4_of_ne m c main_arg5 (by decide)
    _ = bd2 m c (Proc.devRef .tc main_arg5) := bd3_of m c main_arg5 (by decide)
    _ = bd1 m c (Proc.devRef .tc main_arg5) := bd2_of_ne m c main_arg5 (by decide)
    _ = bd0 m c (Proc.devRef .tc main_arg5) := bd1_of m c main_arg5 (by decide)

theorem keep_main_arg6_0_6 : bd6 m c (Proc.devRef .tc main_arg6) = bd0 m c (Proc.devRef .tc main_arg6) :=
  calc bd6 m c (Proc.devRef .tc main_arg6)
    _ = bd5 m c (Proc.devRef .tc main_arg6) := bd6_of_ne m c main_arg6 (by decide)
    _ = bd4 m c (Proc.devRef .tc main_arg6) := bd5_of m c main_arg6 (by decide)
    _ = bd3 m c (Proc.devRef .tc main_arg6) := bd4_of_ne m c main_arg6 (by decide)
    _ = bd2 m c (Proc.devRef .tc main_arg6) := bd3_of m c main_arg6 (by decide)
    _ = bd1 m c (Proc.devRef .tc main_arg6) := bd2_of_ne m c main_arg6 (by decide)
    _ = bd0 m c (Proc.devRef .tc main_arg6) := bd1_of m c main_arg6 (by decide)

theorem keep_main_arg7_0_7 : bd7 m c (Proc.devRef .tc main_arg7) = bd0 m c (Proc.devRef .tc main_arg7) :=
  calc bd7 m c (Proc.devRef .tc main_arg7)
    _ = bd6 m c (Proc.devRef .tc main_arg7) := bd7_of_ne m c main_arg7 (by decide)
    _ = bd5 m c (Proc.devRef .tc main_arg7) := bd6_of_ne m c main_arg7 (by decide)
    _ = bd4 m c (Proc.devRef .tc main_arg7) := bd5_of m c main_arg7 (by decide)
    _ = bd3 m c (Proc.devRef .tc main_arg7) := bd4_of_ne m c main_arg7 (by decide)
    _ = bd2 m c (Proc.devRef .tc main_arg7) := bd3_of m c main_arg7 (by decide)
    _ = bd1 m c (Proc.devRef .tc main_arg7) := bd2_of_ne m c main_arg7 (by decide)
    _ = bd0 m c (Proc.devRef .tc main_arg7) := bd1_of m c main_arg7 (by decide)

theorem keep_main_arg8_0_9 : bd9 m c (Proc.devRef .tc main_arg8) = bd0 m c (Proc.devRef .tc main_arg8) :=
  calc bd9 m c (Proc.devRef .tc main_arg8)
    _ = bd8 m c (Proc.devRef .tc main_arg8) := bd9_of_ne m c main_arg8 (by decide)
    _ = bd7 m c (Proc.devRef .tc main_arg8) := bd8_of m c main_arg8 (by decide)
    _ = bd6 m c (Proc.devRef .tc main_arg8) := bd7_of_ne m c main_arg8 (by decide)
    _ = bd5 m c (Proc.devRef .tc main_arg8) := bd6_of_ne m c main_arg8 (by decide)
    _ = bd4 m c (Proc.devRef .tc main_arg8) := bd5_of m c main_arg8 (by decide)
    _ = bd3 m c (Proc.devRef .tc main_arg8) := bd4_of_ne m c main_arg8 (by decide)
    _ = bd2 m c (Proc.devRef .tc main_arg8) := bd3_of m c main_arg8 (by decide)
    _ = bd1 m c (Proc.devRef .tc main_arg8) := bd2_of_ne m c main_arg8 (by decide)
    _ = bd0 m c (Proc.devRef .tc main_arg8) := bd1_of m c main_arg8 (by decide)

theorem keep_main_arg9_0_9 : bd9 m c (Proc.devRef .tc main_arg9) = bd0 m c (Proc.devRef .tc main_arg9) :=
  calc bd9 m c (Proc.devRef .tc main_arg9)
    _ = bd8 m c (Proc.devRef .tc main_arg9) := bd9_of_ne m c main_arg9 (by decide)
    _ = bd7 m c (Proc.devRef .tc main_arg9) := bd8_of m c main_arg9 (by decide)
    _ = bd6 m c (Proc.devRef .tc main_arg9) := bd7_of_ne m c main_arg9 (by decide)
    _ = bd5 m c (Proc.devRef .tc main_arg9) := bd6_of_ne m c main_arg9 (by decide)
    _ = bd4 m c (Proc.devRef .tc main_arg9) := bd5_of m c main_arg9 (by decide)
    _ = bd3 m c (Proc.devRef .tc main_arg9) := bd4_of_ne m c main_arg9 (by decide)
    _ = bd2 m c (Proc.devRef .tc main_arg9) := bd3_of m c main_arg9 (by decide)
    _ = bd1 m c (Proc.devRef .tc main_arg9) := bd2_of_ne m c main_arg9 (by decide)
    _ = bd0 m c (Proc.devRef .tc main_arg9) := bd1_of m c main_arg9 (by decide)

theorem keep_main_v3_1_2 : bd2 m c (Proc.devRef .tc main_v3) = bd1 m c (Proc.devRef .tc main_v3) :=
  calc bd2 m c (Proc.devRef .tc main_v3)
    _ = bd1 m c (Proc.devRef .tc main_v3) := bd2_of_ne m c main_v3 (by decide)

theorem keep_main_v6_1_2 : bd2 m c (Proc.devRef .tc main_v6) = bd1 m c (Proc.devRef .tc main_v6) :=
  calc bd2 m c (Proc.devRef .tc main_v6)
    _ = bd1 m c (Proc.devRef .tc main_v6) := bd2_of_ne m c main_v6 (by decide)

theorem keep_main_v31_1_2 : bd2 m c (Proc.devRef .tc main_v31) = bd1 m c (Proc.devRef .tc main_v31) :=
  calc bd2 m c (Proc.devRef .tc main_v31)
    _ = bd1 m c (Proc.devRef .tc main_v31) := bd2_of_ne m c main_v31 (by decide)

theorem keep_main_v3_1_7 : bd7 m c (Proc.devRef .tc main_v3) = bd1 m c (Proc.devRef .tc main_v3) :=
  calc bd7 m c (Proc.devRef .tc main_v3)
    _ = bd6 m c (Proc.devRef .tc main_v3) := bd7_of_ne m c main_v3 (by decide)
    _ = bd5 m c (Proc.devRef .tc main_v3) := bd6_of_ne m c main_v3 (by decide)
    _ = bd4 m c (Proc.devRef .tc main_v3) := bd5_of m c main_v3 (by decide)
    _ = bd3 m c (Proc.devRef .tc main_v3) := bd4_of_ne m c main_v3 (by decide)
    _ = bd2 m c (Proc.devRef .tc main_v3) := bd3_of m c main_v3 (by decide)
    _ = bd1 m c (Proc.devRef .tc main_v3) := bd2_of_ne m c main_v3 (by decide)

theorem keep_main_v6_1_7 : bd7 m c (Proc.devRef .tc main_v6) = bd1 m c (Proc.devRef .tc main_v6) :=
  calc bd7 m c (Proc.devRef .tc main_v6)
    _ = bd6 m c (Proc.devRef .tc main_v6) := bd7_of_ne m c main_v6 (by decide)
    _ = bd5 m c (Proc.devRef .tc main_v6) := bd6_of_ne m c main_v6 (by decide)
    _ = bd4 m c (Proc.devRef .tc main_v6) := bd5_of m c main_v6 (by decide)
    _ = bd3 m c (Proc.devRef .tc main_v6) := bd4_of_ne m c main_v6 (by decide)
    _ = bd2 m c (Proc.devRef .tc main_v6) := bd3_of m c main_v6 (by decide)
    _ = bd1 m c (Proc.devRef .tc main_v6) := bd2_of_ne m c main_v6 (by decide)

theorem keep_main_v31_1_7 : bd7 m c (Proc.devRef .tc main_v31) = bd1 m c (Proc.devRef .tc main_v31) :=
  calc bd7 m c (Proc.devRef .tc main_v31)
    _ = bd6 m c (Proc.devRef .tc main_v31) := bd7_of_ne m c main_v31 (by decide)
    _ = bd5 m c (Proc.devRef .tc main_v31) := bd6_of_ne m c main_v31 (by decide)
    _ = bd4 m c (Proc.devRef .tc main_v31) := bd5_of m c main_v31 (by decide)
    _ = bd3 m c (Proc.devRef .tc main_v31) := bd4_of_ne m c main_v31 (by decide)
    _ = bd2 m c (Proc.devRef .tc main_v31) := bd3_of m c main_v31 (by decide)
    _ = bd1 m c (Proc.devRef .tc main_v31) := bd2_of_ne m c main_v31 (by decide)

theorem keep_main_v53_3_5 : bd5 m c (Proc.devRef .tc main_v53) = bd3 m c (Proc.devRef .tc main_v53) :=
  calc bd5 m c (Proc.devRef .tc main_v53)
    _ = bd4 m c (Proc.devRef .tc main_v53) := bd5_of m c main_v53 (by decide)
    _ = bd3 m c (Proc.devRef .tc main_v53) := (bd4_arr m c 0).trans (((dat1 (tv3 m) c).arrAt_in 0 rfl _).trans (A_eq1 (tv3 m) c 0))

theorem keep_main_v54_0_4_5 : bd5 m c (Proc.devRef .tc main_v54_0) = bd4 m c (Proc.devRef .tc main_v54_0) :=
  calc bd5 m c (Proc.devRef .tc main_v54_0)
    _ = bd4 m c (Proc.devRef .tc main_v54_0) := bd5_of m c main_v54_0 (by decide)

theorem keep_main_v54_1_4_5 : bd5 m c (Proc.devRef .tc main_v54_1) = bd4 m c (Proc.devRef .tc main_v54_1) :=
  calc bd5 m c (Proc.devRef .tc main_v54_1)
    _ = bd4 m c (Proc.devRef .tc main_v54_1) := bd5_of m c main_v54_1 (by decide)

theorem keep_main_v79_8_10 : bd10 m c (Proc.devRef .tc main_v79) = bd8 m c (Proc.devRef .tc main_v79) :=
  calc bd10 m c (Proc.devRef .tc main_v79)
    _ = bd9 m c (Proc.devRef .tc main_v79) := bd10_of m c main_v79 (by decide)
    _ = bd8 m c (Proc.devRef .tc main_v79) := (bd9_arr m c 0).trans (((dat4 (tv8 m) c).arrAt_in 0 rfl _).trans (A_eq4 (tv8 m) c 0))

theorem keep_main_v80_0_9_10 : bd10 m c (Proc.devRef .tc main_v80_0) = bd9 m c (Proc.devRef .tc main_v80_0) :=
  calc bd10 m c (Proc.devRef .tc main_v80_0)
    _ = bd9 m c (Proc.devRef .tc main_v80_0) := bd10_of m c main_v80_0 (by decide)

theorem keep_main_v80_1_9_10 : bd10 m c (Proc.devRef .tc main_v80_1) = bd9 m c (Proc.devRef .tc main_v80_1) :=
  calc bd10 m c (Proc.devRef .tc main_v80_1)
    _ = bd9 m c (Proc.devRef .tc main_v80_1) := bd10_of m c main_v80_1 (by decide)

/-! ## The stages -/

/-- After the first host stretch: the edge sources, -/
theorem k_v3 : bd1 m c (Proc.devRef .tc main_v3) = Ssrc (bd0 m c (Proc.devRef .tc main_arg0)) := by
  show StableHlo.after hostOps0 (bd0 m c) (Proc.devRef .tc main_v3) = _
  simp only [hostOps0]; after_results_simp; rfl
/-- the edge targets, -/
theorem k_v6 : bd1 m c (Proc.devRef .tc main_v6) = Sdst (bd0 m c (Proc.devRef .tc main_arg0)) := by
  show StableHlo.after hostOps0 (bd0 m c) (Proc.devRef .tc main_v6) = _
  simp only [hostOps0]; after_results_simp; rfl
/-- the edge weights. -/
theorem k_v31 : bd1 m c (Proc.devRef .tc main_v31) = Snrm (bd0 m c (Proc.devRef .tc main_arg0)) := by
  show StableHlo.after hostOps0 (bd0 m c) (Proc.devRef .tc main_v31) = _
  simp only [hostOps0]; after_results_simp; rfl

/-- Region 0 leaves the product of the node features and the first weight matrix. -/
theorem k_v32 : bd2 m c (Proc.devRef .tc main_v32) = mmRows (bd1 m c (Proc.devRef .tc main_arg1)) (bd1 m c (Proc.devRef .tc main_arg2)) :=
  (bd2_arr m c 2).trans (final0 (tv1 m) c)

/-- The second host stretch aggregates it over the edges and adds the bias. -/
theorem k_v53 : bd3 m c (Proc.devRef .tc main_v53)
    = Saggr64 (bd2 m c (Proc.devRef .tc main_v32)) (bd2 m c (Proc.devRef .tc main_v3)) (bd2 m c (Proc.devRef .tc main_v6))
        (bd2 m c (Proc.devRef .tc main_v31)) (bd2 m c (Proc.devRef .tc main_arg3)) := by
  show StableHlo.after hostOps1 (bd2 m c) (Proc.devRef .tc main_v53) = _
  generalize bd2 m c = W
  simp only [hostOps1]; after_results_simp; rfl

/-- Region 1 leaves the column means and the column variances (mean of squares minus squared mean). -/
theorem k_v54_0 : bd4 m c (Proc.devRef .tc main_v54_0) = colMean (bd3 m c (Proc.devRef .tc main_v53)) (Ideal.ofBits .f32 0x47C35000#32) :=
  (bd4_arr m c 1).trans (final1_1 (tv3 m) c)
theorem k_v54_1 : bd4 m c (Proc.devRef .tc main_v54_1) = colVarK (bd3 m c (Proc.devRef .tc main_v53)) (Ideal.ofBits .f32 0x47C35000#32) :=
  (bd4_arr m c 2).trans (final1_2 (tv3 m) c)

/-- The third host stretch lays the scale and the shift out as rows. -/
theorem k_v55 : bd5 m c (Proc.devRef .tc main_v55) = shapeCast S1x64 (bd4 m c (Proc.devRef .tc main_arg4)) shapeCasts_S64_S1x64 := by
  show StableHlo.after hostOps2 (bd4 m c) (Proc.devRef .tc main_v55) = _
  generalize bd4 m c = W
  simp only [hostOps2]; after_results_simp; rfl
theorem k_v56 : bd5 m c (Proc.devRef .tc main_v56) = shapeCast S1x64 (bd4 m c (Proc.devRef .tc main_arg5)) shapeCasts_S64_S1x64 := by
  show StableHlo.after hostOps2 (bd4 m c) (Proc.devRef .tc main_v56) = _
  generalize bd4 m c = W
  simp only [hostOps2]; after_results_simp; rfl

/-- Region 2 normalises and rectifies. -/
theorem k_v57 : bd6 m c (Proc.devRef .tc main_v57)
    = bnRelu (bd5 m c (Proc.devRef .tc main_v53)) (bd5 m c (Proc.devRef .tc main_v54_0)) (bd5 m c (Proc.devRef .tc main_v54_1))
        (bd5 m c (Proc.devRef .tc main_v55)) (bd5 m c (Proc.devRef .tc main_v56)) :=
  (bd6_arr m c 5).trans (final2 (tv5 m) c)

/-- Region 3 leaves the product with the second weight matrix. -/
theorem k_v58 : bd7 m c (Proc.devRef .tc main_v58) = mmRows (bd6 m c (Proc.devRef .tc main_v57)) (bd6 m c (Proc.devRef .tc main_arg6)) :=
  (bd7_arr m c 2).trans (final3 (tv6 m) c)

/-- The fourth host stretch aggregates it over the edges and adds the bias. -/
theorem k_v79 : bd8 m c (Proc.devRef .tc main_v79)
    = Saggr2 (bd7 m c (Proc.devRef .tc main_v58)) (bd7 m c (Proc.devRef .tc main_v3)) (bd7 m c (Proc.devRef .tc main_v6))
        (bd7 m c (Proc.devRef .tc main_v31)) (bd7 m c (Proc.devRef .tc main_arg7)) := by
  show StableHlo.after hostOps4 (bd7 m c) (Proc.devRef .tc main_v79) = _
  generalize bd7 m c = W
  simp only [hostOps4]; after_results_simp; rfl

/-- Region 4 leaves the second layer's column means and variances. -/
theorem k_v80_0 : bd9 m c (Proc.devRef .tc main_v80_0) = colMean (bd8 m c (Proc.devRef .tc main_v79)) (Ideal.ofBits .f32 0x47C35000#32) :=
  (bd9_arr m c 1).trans (final4_1 (tv8 m) c)
theorem k_v80_1 : bd9 m c (Proc.devRef .tc main_v80_1) = colVarK (bd8 m c (Proc.devRef .tc main_v79)) (Ideal.ofBits .f32 0x47C35000#32) :=
  (bd9_arr m c 2).trans (final4_2 (tv8 m) c)

/-- The fifth host stretch lays the second scale and shift out as rows. -/
theorem k_v81 : bd10 m c (Proc.devRef .tc main_v81) = shapeCast S1x2 (bd9 m c (Proc.devRef .tc main_arg8)) shapeCasts_S2_S1x2 := by
  show StableHlo.after hostOps5 (bd9 m c) (Proc.devRef .tc main_v81) = _
  generalize bd9 m c = W
  simp only [hostOps5]; after_results_simp; rfl
theorem k_v82 : bd10 m c (Proc.devRef .tc main_v82) = shapeCast S1x2 (bd9 m c (Proc.devRef .tc main_arg9)) shapeCasts_S2_S1x2 := by
  show StableHlo.after hostOps5 (bd9 m c) (Proc.devRef .tc main_v82) = _
  generalize bd9 m c = W
  simp only [hostOps5]; after_results_simp; rfl

end Cert.KernelIdeal.Hand

end
-- ==== Proof.KIV5.lean ====
/- The value of region 5's output array after the region, over the extended reals: the [100000,2] matrix normalised column by column, scaled and shifted, then entry by entry through the logistic function (first result) and row by row through the softmax (second result). -/
import proofs.«122563_j12137577578919_1_alg».proof.Proof.KIR5
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when the region is entered, over the extended reals
variable (V : (c : Dev nD) → (b : Ref sig .tc) → Buf (Elt Ideal) ((c : Thread nD τ).loc b))

/-- The offset of a whole-shape rectangle is zero on both axes. -/
theorem hz5 : (![0, 0] : Fin 2 → Nat) = fun _ => 0 := funext fun a => by fin_cases a <;> rfl

/-- Two functions of a two-axis index agree when they agree at every pair of coordinates. -/
theorem funext_ix2_5 {n0 n1 : Nat} {α : Type} (f g : (⟨2, ![n0, n1]⟩ : Shape).Idx → α)
    (h : ∀ (p : Fin n0) (q : Fin n1), f (ix2 p q) = g (ix2 p q)) : f = g :=
  funext fun i => by rw [eq_ix2 i]; exact h _ _

/-! ## The three functions, for a matrix of any number of rows and two columns -/

/-- The normalised, scaled, shifted matrix: at `(r, q)`, with column `q`'s mean, variance, scale and shift,
    `scale · ((x − mean) · (variance + ε)^(−1/2)) + shift`, every operand in the order the body combines them. -/
def bnLin {n : Nat} (x : (⟨2, ![n, 2]⟩ : Shape).Idx → EReal) (mean var g beta : S1x2.Idx → EReal) : (⟨2, ![n, 2]⟩ : Shape).Idx → EReal :=
  fun i => g (ix2 (n0 := 1) (n1 := 2) 0 (i 1)) * ((x i - mean (ix2 (n0 := 1) (n1 := 2) 0 (i 1)))
      * Ideal.rsqrt (var (ix2 (n0 := 1) (n1 := 2) 0 (i 1)) + Ideal.ofBits .f32 0x3727C5AC#32)) + beta (ix2 (n0 := 1) (n1 := 2) 0 (i 1))

/-- The logistic function entry by entry: `1 / (1 + e^(−s))`. -/
def sigOf {n : Nat} (s : (⟨2, ![n, 2]⟩ : Shape).Idx → EReal) : (⟨2, ![n, 2]⟩ : Shape).Idx → EReal :=
  fun i => Ideal.div 1 (1 + Ideal.exp (-(s i)))

/-- A row's maximum over its two columns, folded from `−∞`. -/
def rowMax {n : Nat} (s : (⟨2, ![n, 2]⟩ : Shape).Idx → EReal) (r : Fin n) : EReal :=
  (Finset.univ : Finset (Fin 2)).fold max (Ideal.ofBits .f32 0xFF800000#32) fun k => s (ix2 r k)

/-- A row's sum over its two columns of `e^(s − row maximum)`. -/
def rowSum {n : Nat} (s : (⟨2, ![n, 2]⟩ : Shape).Idx → EReal) (r : Fin n) : EReal :=
  ∑ k : Fin 2, Ideal.exp (s (ix2 r k) - rowMax s r)

/-- The row-wise softmax: `e^(s − row maximum)` divided by its sum over the row. -/
def softOf {n : Nat} (s : (⟨2, ![n, 2]⟩ : Shape).Idx → EReal) : (⟨2, ![n, 2]⟩ : Shape).Idx → EReal :=
  fun i => Ideal.div (Ideal.exp (s i - rowMax s (i 0))) (rowSum s (i 0))

/-! ## The body's stored values, on a tile -/

/-- The body's affine value at entry `(p, q)` of the tile. -/
theorem pay5_1_at (x0 : Vec Ideal S2000x2 .f32) (x1 x2 x3 x4 : Vec Ideal S1x2 .f32) (p : Fin 2000) (q : Fin 2) :
    k5_pay1 x0 x1 x2 x3 x4 (ix2 p q)
      = x3 (ix2 0 q) * ((x0 (ix2 p q) - x1 (ix2 0 q)) * Ideal.rsqrt (x2 (ix2 0 q) + Ideal.ofBits .f32 0x3727C5AC#32)) + x4 (ix2 0 q) := by
  unfold k5_pay1
  simp only [shapeCast_self]
  have hb (v : Vec Ideal S1x2 .f32) : broadcastTo S2000x2 v broadcasts_S1x2_S2000x2 (ix2 p q) = v (ix2 0 q) :=
    broadcastTo_1b_ab_apply (a := 2000) (b := 2) v broadcasts_S1x2_S2000x2 p q
  show broadcastTo S2000x2 x3 broadcasts_S1x2_S2000x2 (ix2 p q)
        * ((x0 (ix2 p q) - broadcastTo S2000x2 x1 broadcasts_S1x2_S2000x2 (ix2 p q))
          * broadcastTo S2000x2 (rsqrt (addf x2 (broadcast S1x2 (Scalar.ofBits .f32 0x3727C5AC#32))) : FVec Ideal S1x2 .f32) broadcasts_S1x2_S2000x2 (ix2 p q))
        + broadcastTo S2000x2 x4 broadcasts_S1x2_S2000x2 (ix2 p q) = _
  rw [hb x3, hb x1, hb x4, hb]
  rfl

/-- So the affine value on a tile is the affine map of the tile and the four rows. -/
theorem pay5_1_eq (x0 : Vec Ideal S2000x2 .f32) (x1 x2 x3 x4 : Vec Ideal S1x2 .f32) :
    k5_pay1 x0 x1 x2 x3 x4 = bnLin (n := 2000) x0 x1 x2 x3 x4 :=
  funext_ix2_5 (n0 := 2000) (n1 := 2) _ _ fun p q => (pay5_1_at x0 x1 x2 x3 x4 p q).trans rfl

/-- The first stored value is the logistic of the affine map. -/
theorem pay5_2_eq (x0 : Vec Ideal S2000x2 .f32) (x1 x2 x3 x4 : Vec Ideal S1x2 .f32) :
    k5_pay2 x0 x1 x2 x3 x4 = sigOf (n := 2000) (bnLin (n := 2000) x0 x1 x2 x3 x4) := by
  unfold k5_pay2
  rw [pay5_1_eq]
  rfl

/-- A vector of one value per row, reshaped to a column and broadcast across the two columns, reads at `(p, q)` the
    value of row `p`. -/
theorem bcastCol_at (v : S2000.Idx → EReal) (p : Fin 2000) (q : Fin 2) :
    broadcastTo S2000x2 (shapeCast S2000x1 v shapeCasts_S2000_S2000x1) broadcasts_S2000x1_S2000x2 (ix2 p q) = v (ix1 p) := by
  refine (broadcastTo_apply _ broadcasts_S2000x1_S2000x2 (ix2 p q) (ix2 (n0 := 2000) (n1 := 1) p 0) fun a => ?_).trans ?_
  · match a with
    | ⟨0, _⟩ => show p.val = if (2000 : ℕ) = 1 then 0 else p.val; rw [if_neg (by decide)]
    | ⟨1, _⟩ => show (0 : ℕ) = if (1 : ℕ) = 1 then 0 else q.val; rw [if_pos rfl]
  · exact shapeCast_apply v shapeCasts_S2000_S2000x1 (ix2 (n0 := 2000) (n1 := 1) p 0) (ix1 p) (by
      rw [Shape.rowMajor_val_two, Shape.rowMajor_val_one]
      show p.val = p.val * 1 + 0
      omega)

/-- The index a reduction over the columns reads at row `p`, column `k`, is `(p, k)`. -/
theorem lift_row (p : Fin 2000) (k : Fin 2) : reduces_S2000x2_S2000.lift (ix1 p) k = ix2 p k :=
  funext fun a => Fin.ext (by
    match a with
    | ⟨0, _⟩ => rfl
    | ⟨1, _⟩ => rfl)

/-- The body's row maximum at row `p` is the row's maximum over its two columns. -/
theorem rowmax_at (z : FVec Ideal S2000x2 .f32) (p : Fin 2000) :
    multiReduction .maximumf [1] S2000 z 0xFF800000#32 reduces_S2000x2_S2000 (.inl rfl) rfl (ix1 p) = rowMax (n := 2000) z p := by
  refine (Ideal.multiReduction_maximumf_single z 0xFF800000#32 reduces_S2000x2_S2000 (.inl rfl) rfl (ix1 p)).trans ?_
  unfold rowMax
  refine congrArg (fun f => (Finset.univ : Finset (Fin 2)).fold max (Ideal.ofBits .f32 0xFF800000#32) f) (funext fun k => ?_)
  exact congrArg z (lift_row p k)

/-- The body's row sum at row `p` of a matrix `w` is the sum of `w` over the row's two columns. -/
theorem rowsum_at (w : FVec Ideal S2000x2 .f32) (p : Fin 2000) :
    multiReduction .add [1] S2000 w 0x00000000#32 reduces_S2000x2_S2000 (.inl rfl) rfl (ix1 p) = ∑ k : Fin 2, w (ix2 p k) := by
  refine (Ideal.multiReduction_add_single w 0x00000000#32 reduces_S2000x2_S2000 (.inl rfl) rfl (ix1 p)).trans ?_
  exact Finset.sum_congr rfl fun k _ => congrArg w (lift_row p k)

/-- THE SOFTMAX FROM ITS PARTS: with `M` reading the row maximum across row `p` and `S` at `(p, q)` the row's sum of
    `e^(z − M)`, the quotient `e^(z − M) / S` at `(p, q)` is the row-wise softmax of `z` there. -/
theorem soft_of_parts (z M S : FVec Ideal S2000x2 .f32) (p : Fin 2000) (q : Fin 2)
    (hM : ∀ q' : Fin 2, M (ix2 p q') = rowMax (n := 2000) z p)
    (hS : S (ix2 p q) = ∑ k : Fin 2, (exp (subf z M) : FVec Ideal S2000x2 .f32) (ix2 p k)) :
    (divf (exp (subf z M)) S : FVec Ideal S2000x2 .f32) (ix2 p q) = softOf (n := 2000) z (ix2 p q) := by
  show Ideal.div (Ideal.exp (z (ix2 p q) - M (ix2 p q))) (S (ix2 p q))
    = Ideal.div (Ideal.exp (z (ix2 p q) - rowMax (n := 2000) z p)) (rowSum (n := 2000) z p)
  rw [hS, hM q]
  refine congrArg _ ?_
  unfold rowSum
  exact Finset.sum_congr rfl fun k _ => by
    show Ideal.exp (z (ix2 p k) - M (ix2 p k)) = _
    rw [hM k]

/-- The second stored value is the row-wise softmax of the affine map. -/
theorem pay5_3_eq (x0 : Vec Ideal S2000x2 .f32) (x1 x2 x3 x4 : Vec Ideal S1x2 .f32) :
    k5_pay3 x0 x1 x2 x3 x4 = softOf (n := 2000) (bnLin (n := 2000) x0 x1 x2 x3 x4) := by
  unfold k5_pay3
  rw [pay5_1_eq]
  generalize bnLin (n := 2000) x0 x1 x2 x3 x4 = z
  refine funext_ix2_5 (n0 := 2000) (n1 := 2) _ _ fun p q => ?_
  exact soft_of_parts z _ _ p q (fun q' => (bcastCol_at _ p q').trans (rowmax_at z p))
    ((bcastCol_at _ p q).trans (rowsum_at _ p))

/-! ## From a tile to the array -/

/-- The affine map at an index, from its five operands: what joins a tile's entry to the whole array's. -/
theorem bnLin_at {n : Nat} (x : (⟨2, ![n, 2]⟩ : Shape).Idx → EReal) (mean var g beta : S1x2.Idx → EReal) (i : (⟨2, ![n, 2]⟩ : Shape).Idx)
    (v0 v1 v2 v3 v4 : EReal) (h0 : v0 = x i) (h1 : v1 = mean (ix2 (n0 := 1) (n1 := 2) 0 (i 1)))
    (h2 : v2 = var (ix2 (n0 := 1) (n1 := 2) 0 (i 1))) (h3 : v3 = g (ix2 (n0 := 1) (n1 := 2) 0 (i 1)))
    (h4 : v4 = beta (ix2 (n0 := 1) (n1 := 2) 0 (i 1))) :
    v3 * ((v0 - v1) * Ideal.rsqrt (v2 + Ideal.ofBits .f32 0x3727C5AC#32)) + v4 = bnLin x mean var g beta i := by
  subst h0 h1 h2 h3 h4; rfl

/-- The affine map of a tile at `(p, k)`, spelt out. -/
theorem bnLin_tile_at (x0 : Vec Ideal S2000x2 .f32) (x1 x2 x3 x4 : Vec Ideal S1x2 .f32) (p : Fin 2000) (k : Fin 2) :
    bnLin (n := 2000) x0 x1 x2 x3 x4 (ix2 p k)
      = x3 (ix2 0 k) * ((x0 (ix2 p k) - x1 (ix2 0 k)) * Ideal.rsqrt (x2 (ix2 0 k) + Ideal.ofBits .f32 0x3727C5AC#32)) + x4 (ix2 0 k) := rfl

/-- The logistic is entry by entry: equal entries give equal values. -/
theorem sigOf_at {n N : Nat} (zb : (⟨2, ![n, 2]⟩ : Shape).Idx → EReal) (zA : (⟨2, ![N, 2]⟩ : Shape).Idx → EReal)
    (j : (⟨2, ![n, 2]⟩ : Shape).Idx) (i : (⟨2, ![N, 2]⟩ : Shape).Idx) (h : zb j = zA i) : sigOf zb j = sigOf zA i := by
  show Ideal.div 1 (1 + Ideal.exp (-(zb j))) = Ideal.div 1 (1 + Ideal.exp (-(zA i)))
  rw [h]

/-- The softmax is row by row: when row `p` of `zb` is row `r` of `zA`, the two softmaxes agree along it. -/
theorem softOf_row {n N : Nat} (zb : (⟨2, ![n, 2]⟩ : Shape).Idx → EReal) (zA : (⟨2, ![N, 2]⟩ : Shape).Idx → EReal)
    (p : Fin n) (r : Fin N) (h : ∀ k : Fin 2, zb (ix2 p k) = zA (ix2 r k)) (q : Fin 2) :
    softOf zb (ix2 p q) = softOf zA (ix2 r q) := by
  have hm : rowMax zb p = rowMax zA r := by
    unfold rowMax
    exact congrArg (fun f => (Finset.univ : Finset (Fin 2)).fold max (Ideal.ofBits .f32 0xFF800000#32) f) (funext h)
  have hs : rowSum zb p = rowSum zA r := by
    unfold rowSum
    rw [hm]
    exact Finset.sum_congr rfl fun k _ => by rw [h k]
  show Ideal.div (Ideal.exp (zb (ix2 p q) - rowMax zb p)) (rowSum zb p) = Ideal.div (Ideal.exp (zA (ix2 r q) - rowMax zA r)) (rowSum zA r)
  rw [h q, hm, hs]

/-- The printed index maps over the 50 grid points: the matrix's and the two results' tiles are tile `t` along the rows
    and the only tile along the columns; each of the four rows is its array's only block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Row `p` of the affine map of point `t`'s blocks is row `2000·t + p` of the affine map of the arrays: stated at the
    array index of entry `(p, q)` of result one's tile. -/
theorem lin_row5_5 (c : Dev nD) (t : Fin cfg5.N) (p : Fin 2000) (q k : Fin 2) :
    bnLin (n := 2000) (iblk5 V c 0 t) (iblk5 V c 1 t) (iblk5 V c 2 t) (iblk5 V c 3 t) (iblk5 V c 4 t) (ix2 p k)
      = bnLin (n := 100000) (V c main_v79) (V c main_v80_0) (V c main_v80_1) (V c main_v81) (V c main_v82) (ix2 ((((cfg5.win 5).blk t).view.emb (ix2 p q)) 0) k) := by
  obtain ⟨e00, e01, e10, e11, e20, e21, e30, e31, e40, e41, e50, e51, e60, e61⟩ := idx_facts5 t
  refine (bnLin_tile_at (iblk5 V c 0 t) (iblk5 V c 1 t) (iblk5 V c 2 t) (iblk5 V c 3 t) (iblk5 V c 4 t) p k).trans ?_
  ·
    refine bnLin_at (n := 100000) (V c main_v79) (V c main_v80_0) (V c main_v80_1) (V c main_v81) (V c main_v82) (ix2 ((((cfg5.win 5).blk t).view.emb (ix2 p q)) 0) k) _ _ _ _ _ ?_ ?_ ?_ ?_ ?_
    · show V c main_v79 (((cfg5.win 0).blk t).view.emb (ix2 p k)) = V c main_v79 _
      refine congrArg _ (funext fun a => Fin.ext ?_)
      match a with
      | ⟨0, _⟩ => show win5_0.index t (0 : Fin 2) * 2000 + 1 * p.val = win5_5.index t (0 : Fin 2) * 2000 + 1 * p.val; omega
      | ⟨1, _⟩ => show win5_0.index t (1 : Fin 2) * 2 + 1 * k.val = k.val; omega
    · show V c main_v80_0 (((cfg5.win 1).blk t).view.emb (ix2 0 k)) = V c main_v80_0 _
      refine congrArg _ (funext fun a => Fin.ext ?_)
      match a with
      | ⟨0, _⟩ => show win5_1.index t (0 : Fin 2) * 1 + 1 * 0 = 0; omega
      | ⟨1, _⟩ => show win5_1.index t (1 : Fin 2) * 2 + 1 * k.val = k.val; omega
    · show V c main_v80_1 (((cfg5.win 2).blk t).view.emb (ix2 0 k)) = V c main_v80_1 _
      refine congrArg _ (funext fun a => Fin.ext ?_)
      match a with
      | ⟨0, _⟩ => show win5_2.index t (0 : Fin 2) * 1 + 1 * 0 = 0; omega
      | ⟨1, _⟩ => show win5_2.index t (1 : Fin 2) * 2 + 1 * k.val = k.val; omega
    · show V c main_v81 (((cfg5.win 3).blk t).view.emb (ix2 0 k)) = V c main_v81 _
      refine congrArg _ (funext fun a => Fin.ext ?_)
      match a with
      | ⟨0, _⟩ => show win5_3.index t (0 : Fin 2) * 1 + 1 * 0 = 0; omega
      | ⟨1, _⟩ => show win5_3.index t (1 : Fin 2) * 2 + 1 * k.val = k.val; omega
    · show V c main_v82 (((cfg5.win 4).blk t).view.emb (ix2 0 k)) = V c main_v82 _
      refine congrArg _ (funext fun a => Fin.ext ?_)
      match a with
      | ⟨0, _⟩ => show win5_4.index t (0 : Fin 2) * 1 + 1 * 0 = 0; omega
      | ⟨1, _⟩ => show win5_4.index t (1 : Fin 2) * 2 + 1 * k.val = k.val; omega

/-- The same at the array index of entry `(p, q)` of result two's tile. -/
theorem lin_row5_6 (c : Dev nD) (t : Fin cfg5.N) (p : Fin 2000) (q k : Fin 2) :
    bnLin (n := 2000) (iblk5 V c 0 t) (iblk5 V c 1 t) (iblk5 V c 2 t) (iblk5 V c 3 t) (iblk5 V c 4 t) (ix2 p k)
      = bnLin (n := 100000) (V c main_v79) (V c main_v80_0) (V c main_v80_1) (V c main_v81) (V c main_v82) (ix2 ((((cfg5.win 6).blk t).view.emb (ix2 p q)) 0) k) := by
  obtain ⟨e00, e01, e10, e11, e20, e21, e30, e31, e40, e41, e50, e51, e60, e61⟩ := idx_facts5 t
  refine (bnLin_tile_at (iblk5 V c 0 t) (iblk5 V c 1 t) (iblk5 V c 2 t) (iblk5 V c 3 t) (iblk5 V c 4 t) p k).trans ?_
  ·
    refine bnLin_at (n := 100000) (V c main_v79) (V c main_v80_0) (V c main_v80_1) (V c main_v81) (V c main_v82) (ix2 ((((cfg5.win 6).blk t).view.emb (ix2 p q)) 0) k) _ _ _ _ _ ?_ ?_ ?_ ?_ ?_
    · show V c main_v79 (((cfg5.win 0).blk t).view.emb (ix2 p k)) = V c main_v79 _
      refine congrArg _ (funext fun a => Fin.ext ?_)
      match a with
      | ⟨0, _⟩ => show win5_0.index t (0 : Fin 2) * 2000 + 1 * p.val = win5_6.index t (0 : Fin 2) * 2000 + 1 * p.val; omega
      | ⟨1, _⟩ => show win5_0.index t (1 : Fin 2) * 2 + 1 * k.val = k.val; omega
    · show V c main_v80_0 (((cfg5.win 1).blk t).view.emb (ix2 0 k)) = V c main_v80_0 _
      refine congrArg _ (funext fun a => Fin.ext ?_)
      match a with
      | ⟨0, _⟩ => show win5_1.index t (0 : Fin 2) * 1 + 1 * 0 = 0; omega
      | ⟨1, _⟩ => show win5_1.index t (1 : Fin 2) * 2 + 1 * k.val = k.val; omega
    · show V c main_v80_1 (((cfg5.win 2).blk t).view.emb (ix2 0 k)) = V c main_v80_1 _
      refine congrArg _ (funext fun a => Fin.ext ?_)
      match a with
      | ⟨0, _⟩ => show win5_2.index t (0 : Fin 2) * 1 + 1 * 0 = 0; omega
      | ⟨1, _⟩ => show win5_2.index t (1 : Fin 2) * 2 + 1 * k.val = k.val; omega
    · show V c main_v81 (((cfg5.win 3).blk t).view.emb (ix2 0 k)) = V c main_v81 _
      refine congrArg _ (funext fun a => Fin.ext ?_)
      match a with
      | ⟨0, _⟩ => show win5_3.index t (0 : Fin 2) * 1 + 1 * 0 = 0; omega
      | ⟨1, _⟩ => show win5_3.index t (1 : Fin 2) * 2 + 1 * k.val = k.val; omega
    · show V c main_v82 (((cfg5.win 4).blk t).view.emb (ix2 0 k)) = V c main_v82 _
      refine congrArg _ (funext fun a => Fin.ext ?_)
      match a with
      | ⟨0, _⟩ => show win5_4.index t (0 : Fin 2) * 1 + 1 * 0 = 0; omega
      | ⟨1, _⟩ => show win5_4.index t (1 : Fin 2) * 2 + 1 * k.val = k.val; omega

/-- The array index of entry `(p, q)` of a tile of result one is `(its row, q)`. -/
theorem emb5_5 (t : Fin cfg5.N) (p : Fin 2000) (q : Fin 2) :
    ((cfg5.win 5).blk t).view.emb (ix2 p q) = ix2 (n0 := 100000) (n1 := 2) ((((cfg5.win 5).blk t).view.emb (ix2 p q)) 0) q := by
  obtain ⟨e00, e01, e10, e11, e20, e21, e30, e31, e40, e41, e50, e51, e60, e61⟩ := idx_facts5 t
  refine funext fun a => Fin.ext ?_
  match a with
  | ⟨0, _⟩ => rfl
  | ⟨1, _⟩ => show win5_5.index t (1 : Fin 2) * 2 + 1 * q.val = q.val; omega

/-- The same for result two. -/
theorem emb5_6 (t : Fin cfg5.N) (p : Fin 2000) (q : Fin 2) :
    ((cfg5.win 6).blk t).view.emb (ix2 p q) = ix2 (n0 := 100000) (n1 := 2) ((((cfg5.win 6).blk t).view.emb (ix2 p q)) 0) q := by
  obtain ⟨e00, e01, e10, e11, e20, e21, e30, e31, e40, e41, e50, e51, e60, e61⟩ := idx_facts5 t
  refine funext fun a => Fin.ext ?_
  match a with
  | ⟨0, _⟩ => rfl
  | ⟨1, _⟩ => show win5_6.index t (1 : Fin 2) * 2 + 1 * q.val = q.val; omega

/-- WHAT POINT `t` WRITES BACK to result one is tile `t` of the logistic of the affine map of the five arrays. -/
theorem flushed5_5_eq (c : Dev nD) (t : Fin cfg5.N) :
    (dat5 V c).flushed 5 t = ((cfg5.win 5).blk t).view.read (Elt Ideal) (sigOf (n := 100000) (bnLin (n := 100000) (V c main_v79) (V c main_v80_0) (V c main_v80_1) (V c main_v81) (V c main_v82))) := by
  show (cfg5.win 5).cut (grid5.coords t) ((dat5 V c).after 5 t) = _
  rw [after5_5]
  unfold out5_5
  rw [View.canon_unit_zero hz5]
  simp only [View.ld_unit_zero (S := S2000x2) hz5, View.ld_unit_zero (S := S1x2) hz5]
  refine funext_ix2_5 (n0 := 2000) (n1 := 2) _ _ fun p q => ?_
  refine (congrFun (pay5_2_eq (iblk5 V c 0 t) (iblk5 V c 1 t) (iblk5 V c 2 t) (iblk5 V c 3 t) (iblk5 V c 4 t)) (ix2 p q)).trans ?_
  show sigOf (n := 2000) (bnLin (n := 2000) (iblk5 V c 0 t) (iblk5 V c 1 t) (iblk5 V c 2 t) (iblk5 V c 3 t) (iblk5 V c 4 t)) (ix2 p q)
    = sigOf (n := 100000) (bnLin (n := 100000) (V c main_v79) (V c main_v80_0) (V c main_v80_1) (V c main_v81) (V c main_v82)) (((cfg5.win 5).blk t).view.emb (ix2 p q))
  rw [emb5_5 t p q]
  exact sigOf_at _ _ _ _ (lin_row5_5 V c t p q q)

/-- WHAT POINT `t` WRITES BACK to result two is tile `t` of the row-wise softmax of the affine map of the five arrays. -/
theorem flushed5_6_eq (c : Dev nD) (t : Fin cfg5.N) :
    (dat5 V c).flushed 6 t = ((cfg5.win 6).blk t).view.read (Elt Ideal) (softOf (n := 100000) (bnLin (n := 100000) (V c main_v79) (V c main_v80_0) (V c main_v80_1) (V c main_v81) (V c main_v82))) := by
  show (cfg5.win 6).cut (grid5.coords t) ((dat5 V c).after 6 t) = _
  rw [after5_6]
  unfold out5_6
  rw [View.canon_unit_zero hz5]
  simp only [View.ld_unit_zero (S := S2000x2) hz5, View.ld_unit_zero (S := S1x2) hz5]
  refine funext_ix2_5 (n0 := 2000) (n1 := 2) _ _ fun p q => ?_
  refine (congrFun (pay5_3_eq (iblk5 V c 0 t) (iblk5 V c 1 t) (iblk5 V c 2 t) (iblk5 V c 3 t) (iblk5 V c 4 t)) (ix2 p q)).trans ?_
  show softOf (n := 2000) (bnLin (n := 2000) (iblk5 V c 0 t) (iblk5 V c 1 t) (iblk5 V c 2 t) (iblk5 V c 3 t) (iblk5 V c 4 t)) (ix2 p q)
    = softOf (n := 100000) (bnLin (n := 100000) (V c main_v79) (V c main_v80_0) (V c main_v80_1) (V c main_v81) (V c main_v82)) (((cfg5.win 6).blk t).view.emb (ix2 p q))
  rw [emb5_6 t p q]
  exact softOf_row _ _ p _ (fun k => lin_row5_6 V c t p q k) q

/-- An index of result one's array is in point `t`'s tile iff each coordinate is in the tile's range on its axis. -/
theorem mem_blk5_5 (t : Fin cfg5.N) (i : S100000x2.Idx) :
    i ∈ ((cfg5.win 5).blk t).view.set ↔ ∀ a : Fin 2, win5_5.index t a * S2000x2.size a ≤ (i a).val ∧ (i a).val < win5_5.index t a * S2000x2.size a + S2000x2.size a := by
  show i ∈ ((View.whole main_v83_0).slice (win5_5.rect t)).set ↔ _
  rw [View.set_slice_whole, Rect.mem_set_unit]
  exact Iff.rfl

/-- Every index of that array is in some point's tile: row `r` is in tile `r / 2000`. -/
theorem cover5_5_arr (i : S100000x2.Idx) : ∃ t : Fin cfg5.N, (cfg5.win 5).flush t = true ∧ i ∈ ((cfg5.win 5).blk t).view.set := by
  have hi0 : (i 0).val < 100000 := (i 0).isLt
  have hi1 : (i 1).val < 2 := (i 1).isLt
  let t : Fin cfg5.N := ⟨(i 0).val / 2000, by show (i 0).val / 2000 < 50; omega⟩
  obtain ⟨e00, e01, e10, e11, e20, e21, e30, e31, e40, e41, e50, e51, e60, e61⟩ := idx_facts5 t
  have e50' : win5_5.index t (0 : Fin 2) = (i 0).val / 2000 := e50
  have e60' : win5_6.index t (0 : Fin 2) = (i 0).val / 2000 := e60
  refine ⟨t, flush5_5 t, ?_⟩
  rw [mem_blk5_5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 2 ≤ (i 1).val ∧ (i 1).val < win5_5.index t (1 : Fin 2) * 2 + 2; omega

/-- An index of result two's array is in point `t`'s tile iff each coordinate is in the tile's range on its axis. -/
theorem mem_blk5_6 (t : Fin cfg5.N) (i : S100000x2.Idx) :
    i ∈ ((cfg5.win 6).blk t).view.set ↔ ∀ a : Fin 2, win5_6.index t a * S2000x2.size a ≤ (i a).val ∧ (i a).val < win5_6.index t a * S2000x2.size a + S2000x2.size a := by
  show i ∈ ((View.whole main_v83_1).slice (win5_6.rect t)).set ↔ _
  rw [View.set_slice_whole, Rect.mem_set_unit]
  exact Iff.rfl

/-- Every index of that array is in some point's tile: row `r` is in tile `r / 2000`. -/
theorem cover5_6_arr (i : S100000x2.Idx) : ∃ t : Fin cfg5.N, (cfg5.win 6).flush t = true ∧ i ∈ ((cfg5.win 6).blk t).view.set := by
  have hi0 : (i 0).val < 100000 := (i 0).isLt
  have hi1 : (i 1).val < 2 := (i 1).isLt
  let t : Fin cfg5.N := ⟨(i 0).val / 2000, by show (i 0).val / 2000 < 50; omega⟩
  obtain ⟨e00, e01, e10, e11, e20, e21, e30, e31, e40, e41, e50, e51, e60, e61⟩ := idx_facts5 t
  have e50' : win5_5.index t (0 : Fin 2) = (i 0).val / 2000 := e50
  have e60' : win5_6.index t (0 : Fin 2) = (i 0).val / 2000 := e60
  refine ⟨t, flush5_6 t, ?_⟩
  rw [mem_blk5_6]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 2 ≤ (i 1).val ∧ (i 1).val < win5_6.index t (1 : Fin 2) * 2 + 2; omega

/-- RESULT ONE's array after the region is the logistic of the affine map of the matrix and the four rows. -/
theorem final5_5 (c : Dev nD) : (dat5 V c).arrAt 5 cfg5.N = sigOf (n := 100000) (bnLin (n := 100000) (V c main_v79) (V c main_v80_0) (V c main_v80_1) (V c main_v81) (V c main_v82)) :=
  (dat5 V c).arrAt_eq_of_cover 5 (sigOf (n := 100000) (bnLin (n := 100000) (V c main_v79) (V c main_v80_0) (V c main_v80_1) (V c main_v81) (V c main_v82)))
    (fun t _ => flushed5_5_eq V c t) (cover5_5_arr)

/-- RESULT TWO's array after the region is the row-wise softmax of the same affine map. -/
theorem final5_6 (c : Dev nD) : (dat5 V c).arrAt 6 cfg5.N = softOf (n := 100000) (bnLin (n := 100000) (V c main_v79) (V c main_v80_0) (V c main_v80_1) (V c main_v81) (V c main_v82)) :=
  (dat5 V c).arrAt_eq_of_cover 6 (softOf (n := 100000) (bnLin (n := 100000) (V c main_v79) (V c main_v80_0) (V c main_v80_1) (V c main_v81) (V c main_v82)))
    (fun t _ => flushed5_6_eq V c t) (cover5_6_arr)

end Cert.KernelIdeal.Hand

end
-- ==== Proof.KIChain5.lean ====
import proofs.«122563_j12137577578919_1_alg».proof.Proof.KIChain
import proofs.«122563_j12137577578919_1_alg».proof.Proof.KIV5

/-!
# The last region: the two results as the logistic function and the row softmax of the normalised second layer
-/

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- Region 5's first result: the logistic function of the normalised table, entry by entry. -/
theorem k_v83_0 : bd11 m c (Proc.devRef .tc main_v83_0)
    = sigOf (n := 100000) (bnLin (n := 100000) (bd10 m c (Proc.devRef .tc main_v79)) (bd10 m c (Proc.devRef .tc main_v80_0))
        (bd10 m c (Proc.devRef .tc main_v80_1)) (bd10 m c (Proc.devRef .tc main_v81)) (bd10 m c (Proc.devRef .tc main_v82))) :=
  (bd11_arr m c 5).trans (final5_5 (tv10 m) c)

/-- Region 5's second result: the softmax of each row of the normalised table. -/
theorem k_v83_1 : bd11 m c (Proc.devRef .tc main_v83_1)
    = softOf (n := 100000) (bnLin (n := 100000) (bd10 m c (Proc.devRef .tc main_v79)) (bd10 m c (Proc.devRef .tc main_v80_0))
        (bd10 m c (Proc.devRef .tc main_v80_1)) (bd10 m c (Proc.devRef .tc main_v81)) (bd10 m c (Proc.devRef .tc main_v82))) :=
  (bd11_arr m c 6).trans (final5_6 (tv10 m) c)

end Cert.KernelIdeal.Hand

end
-- ==== Proof.RefFinite.lean ====
import proofs.«122563_j12137577578919_1_alg».proof.Proof.RefStages
import proofs.«122563_j12137577578919_1_alg».proof.Proof.LibIndexOps
import proofs.«122563_j12137577578919_1_alg».proof.Proof.LibMatmulRows
import Idealize.ShloMosaic.PureOps.Ideal
import Idealize.ShloMosaic.PureOps.Ideal.Laws
import Idealize.ShloMosaic.Lib.ValueIdx
import Idealize.ShloMosaic.Lib.Pipeline.Value

/-!
# The reference's stages keep real entries real

An array is *real* when every entry is a real number (neither infinity). Pointwise sums, differences and products of
real arrays are real; a broadcast or a gather of a real array only re-reads its entries; a scatter-add is an entry plus a
finite sum of updates; a matrix product is a finite sum of products.
-/

noncomputable section

namespace Cert.ReferenceIdeal.Hand

open Cert.ReferenceIdeal Idealize.ShloMosaic Idealize.ShloMosaic.ValueIdx
open scoped BigOperators

/-- Every entry is a real number. -/
def IsReal {S : Shape} (x : S.Idx → EReal) : Prop := ∀ i, ∃ r : ℝ, x i = (r : EReal)

/-- A finite sum of real numbers is a real number. -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

variable {S T : Shape}

theorem IsReal.mulf {x y : FVec Ideal S .f32} (hx : IsReal x) (hy : IsReal y) : IsReal (mulf (F := Ideal) x y) := fun i => by
  obtain ⟨r, hr⟩ := hx i; obtain ⟨q, hq⟩ := hy i
  exact ⟨r * q, by show x i * y i = _; rw [hr, hq, EReal.coe_mul]⟩

theorem IsReal.addf {x y : FVec Ideal S .f32} (hx : IsReal x) (hy : IsReal y) : IsReal (addf (F := Ideal) x y) := fun i => by
  obtain ⟨r, hr⟩ := hx i; obtain ⟨q, hq⟩ := hy i
  exact ⟨r + q, by show x i + y i = _; rw [hr, hq, EReal.coe_add]⟩

theorem IsReal.subf {x y : FVec Ideal S .f32} (hx : IsReal x) (hy : IsReal y) : IsReal (subf (F := Ideal) x y) := fun i => by
  obtain ⟨r, hr⟩ := hx i; obtain ⟨q, hq⟩ := hy i
  exact ⟨r - q, by show x i - y i = _; rw [hr, hq, EReal.coe_sub]⟩

/-- A broadcast only re-reads entries. -/
theorem IsReal.bcast {x : S.Idx → EReal} (hx : IsReal x) (dims : Fin S.rank → Fin T.rank) (h : S.BroadcastsInDim T dims) :
    IsReal (broadcastInDim T dims h x) := fun _ => hx _

/-- A gather only re-reads entries. -/
theorem IsReal.gather {si : Shape} {w : Nat} {x : S.Idx → EReal} (hx : IsReal x) (d : GatherDims S si T) (idx : IVec si w) :
    IsReal (Host.gather d x idx) := fun _ => hx _

/-- A scatter-add of real updates into a real operand is real: each entry is the operand's plus a finite sum of updates. -/
theorem IsReal.scatterAdd {si su : Shape} {w : Nat} {x : S.Idx → EReal} {upd : su.Idx → EReal} (hx : IsReal x) (hu : IsReal upd)
    (d : ScatterDims S si su) (idx : IVec si w) : IsReal (Ideal.hostScatterAdd d x idx upd) := fun i => by
  obtain ⟨r, hr⟩ := hx i
  obtain ⟨q, hq⟩ := real_sum (Finset.univ.filter fun j => d.resultIdx? j idx = some i) upd fun j _ => hu j
  exact ⟨r + q, by unfold Ideal.hostScatterAdd; rw [hr, hq, EReal.coe_add]⟩

/-- The host's scatter-add at the ideal floats is that sum. -/
theorem IsReal.hostScatterAdd {si su : Shape} {w : Nat} {x : FVec Ideal S .f32} {upd : FVec Ideal su .f32} (hx : IsReal x) (hu : IsReal upd)
    (d : ScatterDims S si su) (idx : IVec si w) : IsReal (Host.scatterAdd (F := Ideal) d x idx upd) :=
  IsReal.scatterAdd hx hu d idx

/-- The zero word is the real 0. -/
theorem real_zero : IsReal (constant (F := Ideal) S_ .f32 0x00000000#32) := fun i =>
  ⟨0, by rw [constant_apply, Ideal.ofBits_zero_f32]; rfl⟩

open Cert.LibMatmulRows in
/-- The rows-by-columns product of real matrices is real. -/
theorem real_mmRows {N K M : Nat} {A : (⟨2, ![N, K]⟩ : Shape).Idx → EReal} {B : (⟨2, ![K, M]⟩ : Shape).Idx → EReal}
    (hA : IsReal A) (hB : IsReal B) : IsReal (mmRows A B) := fun i =>
  real_sum _ _ fun k _ => by
    obtain ⟨r, hr⟩ := hA (ix2 (n0 := N) (n1 := K) (i 0) k); obtain ⟨q, hq⟩ := hB (ix2 (n0 := K) (n1 := M) k (i 1))
    exact ⟨r * q, by rw [hr, hq, EReal.coe_mul]⟩

open Cert.LibMatmulRows in
/-- The first dense product is the rows-by-columns product. -/
theorem Sdot1_eq (x : FVec Ideal S100000x64 .f32) (w : FVec Ideal S64x64 .f32) : Sdot1 x w = mmRows x w :=
  dotGeneralRows_eq _ none _ x w

open Cert.LibMatmulRows in
/-- The second dense product likewise. -/
theorem Sdot2_eq (x : FVec Ideal S100000x64 .f32) (w : FVec Ideal S64x2 .f32) : Sdot2 x w = mmRows x w :=
  dotGeneralRows_eq _ none _ x w

/-- The edge weights are real once the degree normalisation is. -/
theorem Snrm2_real {src dst : IVec S1700000 32} (hd : IsReal (Sdinv dst)) : IsReal (Snrm2 src dst) :=
  IsReal.mulf (hd.gather _ _) (hd.gather _ _)

/-- One aggregation of a real table with real weights and a real bias is real (64 columns). -/
theorem Saggr64_real {h : FVec Ideal S100000x64 .f32} {src dst : IVec S1700000 32} {nrm : FVec Ideal S1700000 .f32} {b : FVec Ideal S64 .f32}
    (hh : IsReal h) (hn : IsReal nrm) (hb : IsReal b) : IsReal (Saggr64 h src dst nrm b) :=
  IsReal.addf (IsReal.hostScatterAdd (real_zero.bcast _ _) (IsReal.mulf (hh.gather _ _) ((hn.bcast _ _).bcast _ _)) _ _)
    ((hb.bcast _ _).bcast _ _)

/-- The same with 2 columns. -/
theorem Saggr2_real {h : FVec Ideal S100000x2 .f32} {src dst : IVec S1700000 32} {nrm : FVec Ideal S1700000 .f32} {b : FVec Ideal S2 .f32}
    (hh : IsReal h) (hn : IsReal nrm) (hb : IsReal b) : IsReal (Saggr2 h src dst nrm b) :=
  IsReal.addf (IsReal.hostScatterAdd (real_zero.bcast _ _) (IsReal.mulf (hh.gather _ _) ((hn.bcast _ _).bcast _ _)) _ _)
    ((hb.bcast _ _).bcast _ _)

/-- The first layer before normalisation is real. -/
theorem SX1_real (a0 : IVec S2x1600000 32) {a1 : FVec Ideal S100000x64 .f32} {a2 : FVec Ideal S64x64 .f32} {a3 : FVec Ideal S64 .f32}
    (hd : IsReal (Sdinv (Sdst a0))) (h1 : IsReal a1) (h2 : IsReal a2) (h3 : IsReal a3) : IsReal (SX1 a0 a1 a2 a3) := by
  unfold SX1
  rw [Sdot1_eq]
  exact Saggr64_real (real_mmRows h1 h2) (Snrm2_real hd) h3

/-- The maximum of two real arrays is real. -/
theorem IsReal.maximumf {x y : FVec Ideal S .f32} (hx : IsReal x) (hy : IsReal y) : IsReal (maximumf (F := Ideal) x y) := fun i => by
  obtain ⟨r, hr⟩ := hx i; obtain ⟨q, hq⟩ := hy i
  refine ⟨max r q, ?_⟩
  show max (x i) (y i) = _
  rw [hr, hq]
  rcases le_total r q with h | h
  · rw [max_eq_right h, max_eq_right (EReal.coe_le_coe_iff.2 h)]
  · rw [max_eq_left h, max_eq_left (EReal.coe_le_coe_iff.2 h)]

/-- A float sum of a real array from a real initial value is real. -/
theorem IsReal.reduceAdd {u : Shape} {axes : List (Fin S.rank)} {x : FVec Ideal S .f32} {init : u.Idx → EReal} (hx : IsReal x)
    (hi : ∀ i, ∃ r : ℝ, init i = (r : EReal)) (h : S.ReducesTo axes T) (hu : 0 < u.numel) :
    IsReal (Host.reduceAdd (F := Ideal) x init h hu) := fun j => by
  obtain ⟨r, hr⟩ := hi (Shape.Idx.first hu)
  obtain ⟨q, hq⟩ := real_sum (Finset.univ.filter fun i => h.drop i = j) x fun i _ => hx i
  exact ⟨r + q, by
    show Ideal.hostReduceAdd h x (init (Shape.Idx.first hu)) j = _
    unfold Ideal.hostReduceAdd; rw [hr, hq, EReal.coe_add]⟩

/-- A real array divided entry by entry by a nonzero real constant is real. -/
theorem IsReal.divf_const {x y : FVec Ideal S .f32} (hx : IsReal x) (d : ℝ) (hd : d ≠ 0) (hy : ∀ i, y i = (d : EReal)) :
    IsReal (Host.divf (F := Ideal) x y) := fun i => by
  obtain ⟨r, hr⟩ := hx i
  refine ⟨r * (1 / d), ?_⟩
  show Ideal.div (x i) (y i) = _
  rw [hy i, Ideal.div_coe hd, hr, EReal.coe_mul]

/-- The word `0x47C35000` is the real 100000. -/
theorem ofBits_1e5 : Ideal.ofBits .f32 0x47C35000#32 = ((100000 : ℝ) : EReal) := by
  simp [Ideal.ofBits, Ideal.ieee, -EReal.coe_mul]; norm_num

/-- The word `0x3727C5AC` is a positive real. -/
theorem ofBits_eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

/-- The inverse square root of a positive real is a real. -/
theorem rsqrt_real_of_pos {r : ℝ} (hr : 0 < r) : ∃ q : ℝ, Ideal.rsqrt (r : EReal) = (q : EReal) := by
  refine ⟨(Real.sqrt r)⁻¹, ?_⟩
  show (if r < 0 then (⊥ : EReal) else if r = 0 then ⊤ else ((Real.sqrt r)⁻¹ : ℝ)) = _
  rw [if_neg (not_lt.2 hr.le), if_neg hr.ne']

/-- Column means of a real table are real (64 columns). -/
theorem Smean64_real {x : FVec Ideal S100000x64 .f32} (hx : IsReal x) : IsReal (Smean64 x) :=
  IsReal.divf_const (IsReal.reduceAdd hx (fun i => real_zero i) _ _) 100000 (by norm_num) fun _ => by
    show Ideal.ofBits .f32 0x47C35000#32 = _; exact ofBits_1e5

/-- Column means of a real table are real (2 columns). -/
theorem Smean2_real {x : FVec Ideal S100000x2 .f32} (hx : IsReal x) : IsReal (Smean2 x) :=
  IsReal.divf_const (IsReal.reduceAdd hx (fun i => real_zero i) _ _) 100000 (by norm_num) fun _ => by
    show Ideal.ofBits .f32 0x47C35000#32 = _; exact ofBits_1e5

/-- The inverse standard deviation `rsqrt (var + eps)` of a real, nonnegative variance row is real. -/
theorem rsqrt_var_real {C : Shape} {var : FVec Ideal C .f32} (eps : FVec Ideal C .f32)
    (he : ∀ j, eps j = Ideal.ofBits .f32 0x3727C5AC#32) (hv : ∀ j, ∃ r : ℝ, 0 ≤ r ∧ var j = (r : EReal)) :
    IsReal (Host.rsqrt (F := Ideal) (addf (F := Ideal) var eps)) := fun j => by
  obtain ⟨r, hr0, hr⟩ := hv j
  obtain ⟨e, he0, hee⟩ := ofBits_eps
  obtain ⟨q, hq⟩ := rsqrt_real_of_pos (r := r + e) (by linarith)
  refine ⟨q, ?_⟩
  show Ideal.rsqrt (var j + eps j) = _
  rw [hr, he j, hee, ← EReal.coe_add, hq]

/-- The first layer's normalise-and-rectify stage keeps a real table real, the variance row being real and nonnegative. -/
theorem Sbnrelu_real {x : FVec Ideal S100000x64 .f32} {mean var g beta : FVec Ideal S64 .f32}
    (hx : IsReal x) (hm : IsReal mean) (hv : ∀ j, ∃ r : ℝ, 0 ≤ r ∧ var j = (r : EReal)) (hg : IsReal g) (hb : IsReal beta) :
    IsReal (Sbnrelu x mean var g beta) :=
  IsReal.maximumf
    (IsReal.addf
      (IsReal.mulf (IsReal.mulf ((hg.bcast _ _).bcast _ _) (IsReal.subf hx ((hm.bcast _ _).bcast _ _)))
        (((rsqrt_var_real _ (fun _ => rfl) hv).bcast _ _).bcast _ _))
      ((hb.bcast _ _).bcast _ _))
    (real_zero.bcast _ _)

end Cert.ReferenceIdeal.Hand

end
-- ==== Proof.LibColReal.lean ====
import proofs.«122563_j12137577578919_1_alg».proof.Proof.LibColStats
import proofs.«122563_j12137577578919_1_alg».proof.Proof.LibVariance
import Mathlib.Tactic.Positivity
import Mathlib.Tactic.Linarith

/-!
# Column statistics of a real table are real, and the variance is not negative

For a table whose entries are all real numbers, divided by a positive real count: the column means are real, and the
mean of the squared deviations from the column mean is a real number that is not negative (a sum of squares over a
positive count).
-/

noncomputable section

open scoped BigOperators

namespace Cert.LibColStats

open Idealize.ShloMosaic Idealize.ShloMosaic.ValueIdx

variable {N C : ℕ}

/-- The column means of a real table, over a positive real count, are real. -/
theorem colMean_real (d : ℝ) (hd : d ≠ 0) (x : (⟨2, ![N, C]⟩ : Shape).Idx → EReal) (hx : ∀ i, ∃ r : ℝ, x i = (r : EReal))
    (i : (⟨2, ![1, C]⟩ : Shape).Idx) : ∃ r : ℝ, colMean x (d : EReal) i = (r : EReal) := by
  choose f hf using hx
  refine ⟨(∑ n : Fin N, f (ix2 n (i 1))) * (1 / d), ?_⟩
  unfold colMean
  rw [Ideal.div_coe hd]
  simp only [hf, ← Cert.LibVariance.coe_sum, ← EReal.coe_mul]

/-- The mean of squared deviations of a real table, over a positive real count, is a real number that is not negative. -/
theorem colVarR_nonneg (d : ℝ) (hd : 0 < d) (x : (⟨2, ![N, C]⟩ : Shape).Idx → EReal) (hx : ∀ i, ∃ r : ℝ, x i = (r : EReal))
    (i : (⟨2, ![1, C]⟩ : Shape).Idx) : ∃ r : ℝ, 0 ≤ r ∧ colVarR x (d : EReal) i = (r : EReal) := by
  obtain ⟨μ, hμ⟩ := colMean_real d hd.ne' x hx i
  choose f hf using hx
  refine ⟨(∑ n : Fin N, (f (ix2 n (i 1)) - μ) * (f (ix2 n (i 1)) - μ)) * (1 / d), ?_, ?_⟩
  · exact mul_nonneg (Finset.sum_nonneg fun n _ => mul_self_nonneg _) (by positivity)
  · unfold colVarR
    rw [Ideal.div_coe hd.ne', hμ]
    simp only [hf, ← EReal.coe_sub, ← EReal.coe_mul, ← Cert.LibVariance.coe_sum]

end Cert.LibColStats

end
-- ==== Proof.RefFinite2.lean ====
import proofs.«122563_j12137577578919_1_alg».proof.Proof.RefFinite
import proofs.«122563_j12137577578919_1_alg».proof.Proof.LibColReal

/-!
# The two layers' tables are real

Given real inputs and a real degree normalisation, the first layer's aggregated table is real; its normalised and
rectified output is real as soon as its variance row is real and not negative; and then so is the second layer's
aggregated table.
-/

noncomputable section

namespace Cert.ReferenceIdeal.Hand

open Cert.ReferenceIdeal Idealize.ShloMosaic Idealize.ShloMosaic.ValueIdx

/-- The first layer's output is real, its variance row being real and not negative. -/
theorem SH1_real (a0 : IVec S2x1600000 32) {a1 : FVec Ideal S100000x64 .f32} {a2 : FVec Ideal S64x64 .f32} {a3 a4 a5 : FVec Ideal S64 .f32}
    (hd : IsReal (Sdinv (Sdst a0))) (h1 : IsReal a1) (h2 : IsReal a2) (h3 : IsReal a3) (h4 : IsReal a4) (h5 : IsReal a5)
    (hv : ∀ j, ∃ r : ℝ, 0 ≤ r ∧ Svar64 (SX1 a0 a1 a2 a3) j = (r : EReal)) : IsReal (SH1 a0 a1 a2 a3 a4 a5) := by
  unfold SH1
  exact Sbnrelu_real (SX1_real a0 hd h1 h2 h3) (Smean64_real (SX1_real a0 hd h1 h2 h3)) hv h4 h5

/-- The second layer before normalisation is real. -/
theorem SX2_real (a0 : IVec S2x1600000 32) {a1 : FVec Ideal S100000x64 .f32} {a2 : FVec Ideal S64x64 .f32} {a3 a4 a5 : FVec Ideal S64 .f32}
    {a6 : FVec Ideal S64x2 .f32} {a7 : FVec Ideal S2 .f32}
    (hd : IsReal (Sdinv (Sdst a0))) (hH : IsReal (SH1 a0 a1 a2 a3 a4 a5)) (h6 : IsReal a6) (h7 : IsReal a7) :
    IsReal (SX2 a0 a1 a2 a3 a4 a5 a6 a7) := by
  unfold SX2
  rw [Sdot2_eq]
  exact Saggr2_real (real_mmRows hH h6) (Snrm2_real hd) h7

/-- A variance row that is the mean of squared deviations of a real table, over the count 100000, is real and not negative. -/
theorem var_nonneg_of_colVarR {C : ℕ} (X : (⟨2, ![100000, C]⟩ : Shape).Idx → EReal) (hX : ∀ i, ∃ r : ℝ, X i = (r : EReal))
    (i : (⟨2, ![1, C]⟩ : Shape).Idx) :
    ∃ r : ℝ, 0 ≤ r ∧ Cert.LibColStats.colVarR X (Ideal.ofBits .f32 0x47C35000#32) i = (r : EReal) := by
  rw [ofBits_1e5]
  exact Cert.LibColStats.colVarR_nonneg 100000 (by norm_num) X hX i

end Cert.ReferenceIdeal.Hand

end
-- ==== Proof.KIOut.lean ====
import proofs.«122563_j12137577578919_1_alg».proof.Proof.KIChain5
import proofs.«122563_j12137577578919_1_alg».proof.Proof.RefFinite2

/-!
# The kernel program's two results as the reference's stage functions of the arguments

Stage by stage the kernel program's buffers hold the reference's stage functions of the ten argument arrays: the shared
host stretches by the same operations, the two products as the rows-by-columns product, and the two normalisations through
the pointwise bridges (the kernel's mean-of-squares variance against the reference's mean of squared deviations, equal on
a real table; the two orders of one product of three factors). The bridges are taken as hypotheses here, in the form in
which they are proved.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.Hand (Ssrc Sdst Sdinv Snrm Sdot1 Sdot2 Saggr64 Saggr2 Smean64 Svar64 Sbnrelu Smean2 Svar2 Sbn2 Ssig Ssoft
  SX1 SH1 SX2 Sout Sdot1_eq Sdot2_eq IsReal SX1_real SH1_real SX2_real)
open Cert.LibMatmulRows (mmRows)
open Cert.LibColStats (colMean colVarK)

variable (m : (ℓ : Loc nD τ sig) → Buf (Elt Ideal) ℓ) (c : Dev nD)

/-- The first layer's bridge, for any real table. -/
abbrev Bridge1 : Prop := ∀ (X : FVec Ideal S100000x64 .f32), (∀ i, ∃ r : ℝ, X i = (r : EReal)) → ∀ (g beta : FVec Ideal S64 .f32),
  bnRelu X (colMean X (Ideal.ofBits .f32 0x47C35000#32)) (colVarK X (Ideal.ofBits .f32 0x47C35000#32))
      (shapeCast S1x64 g shapeCasts_S64_S1x64) (shapeCast S1x64 beta shapeCasts_S64_S1x64)
    = Sbnrelu X (Smean64 X) (Svar64 X) g beta

/-- The second layer's bridge, for any real table. -/
abbrev Bridge2 : Prop := ∀ (X : FVec Ideal S100000x2 .f32), (∀ i, ∃ r : ℝ, X i = (r : EReal)) → ∀ (g beta : FVec Ideal S2 .f32),
  bnLin (n := 100000) X (colMean X (Ideal.ofBits .f32 0x47C35000#32)) (colVarK X (Ideal.ofBits .f32 0x47C35000#32))
      (shapeCast S1x2 g shapeCasts_S2_S1x2) (shapeCast S1x2 beta shapeCasts_S2_S1x2)
    = Sbn2 X (Smean2 X) (Svar2 X) g beta

section
variable (B1 : Bridge1) (B2 : Bridge2)
  (B3 : ∀ s : FVec Ideal S100000x2 .f32, sigOf (n := 100000) s = Ssig s)
  (B4 : ∀ s : FVec Ideal S100000x2 .f32, softOf (n := 100000) s = Ssoft s)
  (hd : IsReal (S := S100000) (Sdinv (Sdst (bd0 m c (Proc.devRef .tc main_arg0)))))
  (h1 : IsReal (S := S100000x64) (bd0 m c (Proc.devRef .tc main_arg1))) (h2 : IsReal (S := S64x64) (bd0 m c (Proc.devRef .tc main_arg2)))
  (h3 : IsReal (S := S64) (bd0 m c (Proc.devRef .tc main_arg3))) (h4 : IsReal (S := S64) (bd0 m c (Proc.devRef .tc main_arg4)))
  (h5 : IsReal (S := S64) (bd0 m c (Proc.devRef .tc main_arg5))) (h6 : IsReal (S := S64x2) (bd0 m c (Proc.devRef .tc main_arg6)))
  (h7 : IsReal (S := S2) (bd0 m c (Proc.devRef .tc main_arg7)))
  (hv : ∀ (X : FVec Ideal S100000x64 .f32), (∀ i, ∃ r : ℝ, X i = (r : EReal)) → ∀ j : S64.Idx, ∃ r : ℝ, 0 ≤ r ∧ Svar64 X j = (r : EReal))

/-- After the second host stretch the aggregated first layer is the reference's, of the same four arguments. -/
theorem k_X1 : bd3 m c (Proc.devRef .tc main_v53)
    = SX1 (bd0 m c (Proc.devRef .tc main_arg0)) (bd0 m c (Proc.devRef .tc main_arg1)) (bd0 m c (Proc.devRef .tc main_arg2))
        (bd0 m c (Proc.devRef .tc main_arg3)) := by
  rw [k_v53, k_v32, keep_main_v3_1_2, keep_main_v6_1_2, keep_main_v31_1_2, k_v3, k_v6, k_v31, keep_main_arg1_0_1,
    keep_main_arg2_0_1, keep_main_arg3_0_2]
  unfold SX1
  rw [Sdot1_eq]

include B1 hd h1 h2 h3 in
/-- Region 2 leaves the reference's first layer output. -/
theorem k_H1 : bd6 m c (Proc.devRef .tc main_v57)
    = SH1 (bd0 m c (Proc.devRef .tc main_arg0)) (bd0 m c (Proc.devRef .tc main_arg1)) (bd0 m c (Proc.devRef .tc main_arg2))
        (bd0 m c (Proc.devRef .tc main_arg3)) (bd0 m c (Proc.devRef .tc main_arg4)) (bd0 m c (Proc.devRef .tc main_arg5)) := by
  rw [k_v57, keep_main_v54_0_4_5, keep_main_v54_1_4_5, k_v54_0, k_v54_1, keep_main_v53_3_5, k_v55, k_v56, k_X1,
    keep_main_arg4_0_4, keep_main_arg5_0_4]
  unfold SH1
  exact B1 _ (SX1_real _ hd h1 h2 h3) _ _

include B1 hd h1 h2 h3 in
/-- After the fourth host stretch the aggregated second layer is the reference's. -/
theorem k_X2 : bd8 m c (Proc.devRef .tc main_v79)
    = SX2 (bd0 m c (Proc.devRef .tc main_arg0)) (bd0 m c (Proc.devRef .tc main_arg1)) (bd0 m c (Proc.devRef .tc main_arg2))
        (bd0 m c (Proc.devRef .tc main_arg3)) (bd0 m c (Proc.devRef .tc main_arg4)) (bd0 m c (Proc.devRef .tc main_arg5))
        (bd0 m c (Proc.devRef .tc main_arg6)) (bd0 m c (Proc.devRef .tc main_arg7)) := by
  rw [k_v79, k_v58, keep_main_v3_1_7, keep_main_v6_1_7, keep_main_v31_1_7, k_v3, k_v6, k_v31, k_H1 m c B1 hd h1 h2 h3,
    keep_main_arg6_0_6, keep_main_arg7_0_7]
  unfold SX2
  rw [Sdot2_eq]

include B1 B2 hd h1 h2 h3 h4 h5 h6 h7 hv in
/-- The normalised second layer, as region 5 computes it from its five input arrays, is the reference's. -/
theorem k_out : bnLin (n := 100000) (bd10 m c (Proc.devRef .tc main_v79)) (bd10 m c (Proc.devRef .tc main_v80_0))
        (bd10 m c (Proc.devRef .tc main_v80_1)) (bd10 m c (Proc.devRef .tc main_v81)) (bd10 m c (Proc.devRef .tc main_v82))
    = Sout (bd0 m c (Proc.devRef .tc main_arg0)) (bd0 m c (Proc.devRef .tc main_arg1)) (bd0 m c (Proc.devRef .tc main_arg2))
        (bd0 m c (Proc.devRef .tc main_arg3)) (bd0 m c (Proc.devRef .tc main_arg4)) (bd0 m c (Proc.devRef .tc main_arg5))
        (bd0 m c (Proc.devRef .tc main_arg6)) (bd0 m c (Proc.devRef .tc main_arg7)) (bd0 m c (Proc.devRef .tc main_arg8))
        (bd0 m c (Proc.devRef .tc main_arg9)) := by
  rw [keep_main_v80_0_9_10, keep_main_v80_1_9_10, k_v80_0, k_v80_1, keep_main_v79_8_10, k_v81, k_v82, k_X2 m c B1 hd h1 h2 h3,
    keep_main_arg8_0_9, keep_main_arg9_0_9]
  unfold Sout
  refine B2 _ (SX2_real _ hd (SH1_real _ hd h1 h2 h3 h4 h5 (hv _ (SX1_real _ hd h1 h2 h3))) h6 h7) _ _

include B1 B2 B3 hd h1 h2 h3 h4 h5 h6 h7 hv in
/-- THE FIRST RESULT of the kernel program is the reference's logistic stage of the reference's normalised second layer. -/
theorem k_res0 : bd11 m c (Proc.devRef .tc main_v83_0)
    = Ssig (Sout (bd0 m c (Proc.devRef .tc main_arg0)) (bd0 m c (Proc.devRef .tc main_arg1)) (bd0 m c (Proc.devRef .tc main_arg2))
        (bd0 m c (Proc.devRef .tc main_arg3)) (bd0 m c (Proc.devRef .tc main_arg4)) (bd0 m c (Proc.devRef .tc main_arg5))
        (bd0 m c (Proc.devRef .tc main_arg6)) (bd0 m c (Proc.devRef .tc main_arg7)) (bd0 m c (Proc.devRef .tc main_arg8))
        (bd0 m c (Proc.devRef .tc main_arg9))) := by
  rw [k_v83_0, k_out m c B1 B2 hd h1 h2 h3 h4 h5 h6 h7 hv]
  exact B3 _

include B1 B2 B4 hd h1 h2 h3 h4 h5 h6 h7 hv in
/-- THE SECOND RESULT likewise, through the softmax stage. -/
theorem k_res1 : bd11 m c (Proc.devRef .tc main_v83_1)
    = Ssoft (Sout (bd0 m c (Proc.devRef .tc main_arg0)) (bd0 m c (Proc.devRef .tc main_arg1)) (bd0 m c (Proc.devRef .tc main_arg2))
        (bd0 m c (Proc.devRef .tc main_arg3)) (bd0 m c (Proc.devRef .tc main_arg4)) (bd0 m c (Proc.devRef .tc main_arg5))
        (bd0 m c (Proc.devRef .tc main_arg6)) (bd0 m c (Proc.devRef .tc main_arg7)) (bd0 m c (Proc.devRef .tc main_arg8))
        (bd0 m c (Proc.devRef .tc main_arg9))) := by
  rw [k_v83_1, k_out m c B1 B2 hd h1 h2 h3 h4 h5 h6 h7 hv]
  exact B4 _

end

end Cert.KernelIdeal.Hand

end
-- ==== Proof.RefValue.lean ====
/- The reference program's two results as a nested application of named stage functions of the ten argument
   arrays, at the ideal floats. The stages are defined in RefStages; the theorems here read the fold `after ops` window by window and identify each named value with its
   stage applied to the earlier ones. -/
import proofs.«122563_j12137577578919_1_alg».proof.Proof.RefRun
import proofs.«122563_j12137577578919_1_alg».proof.Proof.RefStages

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

/-! ## The first window (operations 1 … 60) -/

/-- The buffer contents after the first window. -/
def val0 (V : Valuation τ sig (Elt Ideal)) : Valuation τ sig (Elt Ideal) := after ops0 V

/-- A buffer the first window does not write keeps its contents through it. -/
theorem val0_keep (V : Valuation τ sig (Elt Ideal)) (r : Ref sig .tc) (h : r ∉ ops0_W) :
    val0 V (Proc.devRef .tc r) = V (Proc.devRef .tc r) := keep0 V r h
set_option maxRecDepth 8192 in
set_option maxHeartbeats 2000000 in
theorem val0_v3 (V : Valuation τ sig (Elt Ideal)) :
    val0 V (no_index (Proc.devRef .tc main_v3)) = Ssrc (V (Proc.devRef .tc main_arg0)) := by
  unfold val0
  simp only [ops0]
  after_results_simp <;> rfl

set_option maxRecDepth 8192 in
set_option maxHeartbeats 2000000 in
theorem val0_v6 (V : Valuation τ sig (Elt Ideal)) :
    val0 V (no_index (Proc.devRef .tc main_v6)) = Sdst (V (Proc.devRef .tc main_arg0)) := by
  unfold val0
  simp only [ops0]
  after_results_simp <;> rfl

set_option maxRecDepth 8192 in
set_option maxHeartbeats 2000000 in
theorem val0_v31 (V : Valuation τ sig (Elt Ideal)) :
    val0 V (no_index (Proc.devRef .tc main_v31)) = Snrm (V (Proc.devRef .tc main_arg0)) := by
  unfold val0
  simp only [ops0]
  after_results_simp <;> rfl

set_option maxRecDepth 8192 in
set_option maxHeartbeats 2000000 in
theorem val0_v32 (V : Valuation τ sig (Elt Ideal)) :
    val0 V (no_index (Proc.devRef .tc main_v32)) = Sdot1 (V (Proc.devRef .tc main_arg1)) (V (Proc.devRef .tc main_arg2)) := by
  unfold val0
  simp only [ops0]
  after_results_simp <;> rfl

set_option maxRecDepth 8192 in
set_option maxHeartbeats 2000000 in
theorem val0_v42 (V : Valuation τ sig (Elt Ideal)) :
    val0 V (no_index (Proc.devRef .tc main_v42)) = Smsg64 (Sdot1 (V (Proc.devRef .tc main_arg1)) (V (Proc.devRef .tc main_arg2))) (Ssrc (V (Proc.devRef .tc main_arg0))) (Snrm (V (Proc.devRef .tc main_arg0))) := by
  unfold val0
  simp only [ops0]
  after_results_simp <;> rfl

set_option maxRecDepth 8192 in
set_option maxHeartbeats 2000000 in
theorem val0_v43 (V : Valuation τ sig (Elt Ideal)) :
    val0 V (no_index (Proc.devRef .tc main_v43)) = broadcastInDim S100000x64 ![] bcast_S_S100000x64 (constant (F := Ideal) S_ .f32 0x00000000#32) := by
  unfold val0
  simp only [ops0]
  after_results_simp <;> rfl

set_option maxRecDepth 8192 in
set_option maxHeartbeats 2000000 in
theorem val0_v45 (V : Valuation τ sig (Elt Ideal)) :
    val0 V (no_index (Proc.devRef .tc main_v45)) = cmpi .slt (Sdst (V (Proc.devRef .tc main_arg0))) (broadcastInDim S1700000 ![] bcast_S_S1700000 (constantI S_ 32 0#32)) := by
  unfold val0
  simp only [ops0]
  after_results_simp <;> rfl

set_option maxRecDepth 8192 in
set_option maxHeartbeats 2000000 in
theorem val0_v46 (V : Valuation τ sig (Elt Ideal)) :
    val0 V (no_index (Proc.devRef .tc main_v46)) = broadcastInDim S1700000 ![] bcast_S_S1700000 (constantI S_ 32 100000#32) := by
  unfold val0
  simp only [ops0]
  after_results_simp <;> rfl

theorem val0_arg0 (V : Valuation τ sig (Elt Ideal)) :
    val0 V (no_index (Proc.devRef .tc main_arg0)) = V (Proc.devRef .tc main_arg0) := val0_keep V main_arg0 (by decide)
theorem val0_arg1 (V : Valuation τ sig (Elt Ideal)) :
    val0 V (no_index (Proc.devRef .tc main_arg1)) = V (Proc.devRef .tc main_arg1) := val0_keep V main_arg1 (by decide)
theorem val0_arg2 (V : Valuation τ sig (Elt Ideal)) :
    val0 V (no_index (Proc.devRef .tc main_arg2)) = V (Proc.devRef .tc main_arg2) := val0_keep V main_arg2 (by decide)
theorem val0_arg3 (V : Valuation τ sig (Elt Ideal)) :
    val0 V (no_index (Proc.devRef .tc main_arg3)) = V (Proc.devRef .tc main_arg3) := val0_keep V main_arg3 (by decide)
theorem val0_arg4 (V : Valuation τ sig (Elt Ideal)) :
    val0 V (no_index (Proc.devRef .tc main_arg4)) = V (Proc.devRef .tc main_arg4) := val0_keep V main_arg4 (by decide)
theorem val0_arg5 (V : Valuation τ sig (Elt Ideal)) :
    val0 V (no_index (Proc.devRef .tc main_arg5)) = V (Proc.devRef .tc main_arg5) := val0_keep V main_arg5 (by decide)
theorem val0_arg6 (V : Valuation τ sig (Elt Ideal)) :
    val0 V (no_index (Proc.devRef .tc main_arg6)) = V (Proc.devRef .tc main_arg6) := val0_keep V main_arg6 (by decide)
theorem val0_arg7 (V : Valuation τ sig (Elt Ideal)) :
    val0 V (no_index (Proc.devRef .tc main_arg7)) = V (Proc.devRef .tc main_arg7) := val0_keep V main_arg7 (by decide)
theorem val0_arg8 (V : Valuation τ sig (Elt Ideal)) :
    val0 V (no_index (Proc.devRef .tc main_arg8)) = V (Proc.devRef .tc main_arg8) := val0_keep V main_arg8 (by decide)
theorem val0_arg9 (V : Valuation τ sig (Elt Ideal)) :
    val0 V (no_index (Proc.devRef .tc main_arg9)) = V (Proc.devRef .tc main_arg9) := val0_keep V main_arg9 (by decide)

/-! ## The second window (operations 61 … 143), from any contents `W`

Each named value of the window as its stage applied to the window's earlier named values and to what the window
reads from before it. -/

set_option maxRecDepth 8192 in
set_option maxHeartbeats 4000000 in
/-- The first scatter-sum with its bias, over what the first window left: the zero table, the wrapped targets' comparison and offset, the targets, the per-edge rows. -/
theorem w1_v53 (W : Valuation τ sig (Elt Ideal)) :
    after ops1 W (Proc.devRef .tc main_v53) = addf (F := Ideal) (φ := .f32) (Host.scatterAdd (F := Ideal) (φ := .f32) scatter_S100000x64_S1700000x1_S1700000x64_1_0_0_1 (W (Proc.devRef .tc main_v43) : FVec Ideal S100000x64 .f32) (broadcastInDim S1700000x1 ![0] bcast_S1700000_S1700000x1_0 (select (W (Proc.devRef .tc main_v45) : IVec S1700000 1) (addi (W (Proc.devRef .tc main_v6) : IVec S1700000 32) (W (Proc.devRef .tc main_v46) : IVec S1700000 32)) (W (Proc.devRef .tc main_v6) : IVec S1700000 32))) (W (Proc.devRef .tc main_v42) : FVec Ideal S1700000x64 .f32)) (broadcastInDim S100000x64 ![0, 1] bcast_S1x64_S100000x64_0_1 (broadcastInDim S1x64 ![1] bcast_S64_S1x64_1 (W (Proc.devRef .tc main_arg3) : FVec Ideal S64 .f32))) := by
  simp only [ops1]
  after_results_simp <;> rfl

set_option maxRecDepth 8192 in
set_option maxHeartbeats 4000000 in
theorem w1_v56 (W : Valuation τ sig (Elt Ideal)) :
    after ops1 W (Proc.devRef .tc main_v56) = Smean64 (after ops1 W (Proc.devRef .tc main_v53)) := by
  simp only [ops1]
  after_results_simp <;> rfl

set_option maxRecDepth 8192 in
set_option maxHeartbeats 4000000 in
theorem w1_v57 (W : Valuation τ sig (Elt Ideal)) :
    after ops1 W (Proc.devRef .tc main_v57) = Svar64 (after ops1 W (Proc.devRef .tc main_v53)) := by
  simp only [ops1]
  after_results_simp <;> rfl

set_option maxRecDepth 8192 in
set_option maxHeartbeats 4000000 in
theorem w1_v73 (W : Valuation τ sig (Elt Ideal)) :
    after ops1 W (Proc.devRef .tc main_v73) = Sbnrelu (after ops1 W (Proc.devRef .tc main_v53)) (after ops1 W (Proc.devRef .tc main_v56)) (after ops1 W (Proc.devRef .tc main_v57)) (W (Proc.devRef .tc main_arg4)) (W (Proc.devRef .tc main_arg5)) := by
  simp only [ops1]
  after_results_simp <;> rfl

set_option maxRecDepth 8192 in
set_option maxHeartbeats 4000000 in
theorem w1_v74 (W : Valuation τ sig (Elt Ideal)) :
    after ops1 W (Proc.devRef .tc main_v74) = Sdot2 (after ops1 W (Proc.devRef .tc main_v73)) (W (Proc.devRef .tc main_arg6)) := by
  simp only [ops1]
  after_results_simp <;> rfl

set_option maxRecDepth 8192 in
set_option maxHeartbeats 4000000 in
theorem w1_v84 (W : Valuation τ sig (Elt Ideal)) :
    after ops1 W (Proc.devRef .tc main_v84) = Smsg2 (after ops1 W (Proc.devRef .tc main_v74)) (W (Proc.devRef .tc main_v3)) (W (Proc.devRef .tc main_v31)) := by
  simp only [ops1]
  after_results_simp <;> rfl

set_option maxRecDepth 8192 in
set_option maxHeartbeats 4000000 in
theorem w1_v95 (W : Valuation τ sig (Elt Ideal)) :
    after ops1 W (Proc.devRef .tc main_v95) = Sscat2 (after ops1 W (Proc.devRef .tc main_v84)) (W (Proc.devRef .tc main_v6)) (W (Proc.devRef .tc main_arg7)) := by
  simp only [ops1]
  after_results_simp <;> rfl

set_option maxRecDepth 8192 in
set_option maxHeartbeats 4000000 in
theorem w1_v96 (W : Valuation τ sig (Elt Ideal)) :
    after ops1 W (Proc.devRef .tc main_v96) = Host.reduceAdd (F := Ideal) (after ops1 W (Proc.devRef .tc main_v95) : FVec Ideal S100000x2 .f32) (constant (F := Ideal) S_ .f32 0x00000000#32) reducesTo_S100000x2_S2_d0 h_S_ := by
  simp only [ops1]
  after_results_simp <;> rfl

/-! ### The second window after the first -/

/-- The buffer contents after the first two windows. -/
def val1 (V : Valuation τ sig (Elt Ideal)) : Valuation τ sig (Elt Ideal) := after ops1 (val0 V)

theorem val1_keep (V : Valuation τ sig (Elt Ideal)) (r : Ref sig .tc) (h0 : r ∉ ops0_W) (h1 : r ∉ ops1_W) :
    val1 V (Proc.devRef .tc r) = V (Proc.devRef .tc r) := (keep1 (val0 V) r h1).trans (val0_keep V r h0)

theorem val1_v53 (V : Valuation τ sig (Elt Ideal)) :
    val1 V (no_index (Proc.devRef .tc main_v53)) = SX1 (V (Proc.devRef .tc main_arg0)) (V (Proc.devRef .tc main_arg1)) (V (Proc.devRef .tc main_arg2)) (V (Proc.devRef .tc main_arg3)) := by
  unfold val1
  rw [w1_v53]
  simp only [val0_v43, val0_v45, val0_v46, val0_v6, val0_v42, val0_arg3]
  rfl

theorem val1_v56 (V : Valuation τ sig (Elt Ideal)) :
    val1 V (no_index (Proc.devRef .tc main_v56)) = Smean64 (SX1 (V (Proc.devRef .tc main_arg0)) (V (Proc.devRef .tc main_arg1)) (V (Proc.devRef .tc main_arg2)) (V (Proc.devRef .tc main_arg3))) :=
  (w1_v56 (val0 V)).trans (congrArg Smean64 (val1_v53 V))

theorem val1_v57 (V : Valuation τ sig (Elt Ideal)) :
    val1 V (no_index (Proc.devRef .tc main_v57)) = Svar64 (SX1 (V (Proc.devRef .tc main_arg0)) (V (Proc.devRef .tc main_arg1)) (V (Proc.devRef .tc main_arg2)) (V (Proc.devRef .tc main_arg3))) :=
  (w1_v57 (val0 V)).trans (congrArg Svar64 (val1_v53 V))

theorem val1_v73 (V : Valuation τ sig (Elt Ideal)) :
    val1 V (no_index (Proc.devRef .tc main_v73)) = SH1 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  have h53 := val1_v53 V; have h56 := val1_v56 V; have h57 := val1_v57 V
  unfold val1 at h53 h56 h57 ⊢
  rw [w1_v73, h53, h56, h57, val0_arg4, val0_arg5]
  rfl

theorem val1_v74 (V : Valuation τ sig (Elt Ideal)) :
    val1 V (no_index (Proc.devRef .tc main_v74)) = Sdot2 (SH1 (V (Proc.devRef .tc main_arg0)) (V (Proc.devRef .tc main_arg1)) (V (Proc.devRef .tc main_arg2)) (V (Proc.devRef .tc main_arg3)) (V (Proc.devRef .tc main_arg4)) (V (Proc.devRef .tc main_arg5))) (V (Proc.devRef .tc main_arg6)) := by
  have h73 := val1_v73 V
  unfold val1 at h73 ⊢
  rw [w1_v74, h73, val0_arg6]

theorem val1_v95 (V : Valuation τ sig (Elt Ideal)) :
    val1 V (no_index (Proc.devRef .tc main_v95)) = SX2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  have h74 := val1_v74 V
  unfold val1 at h74 ⊢
  rw [w1_v95, w1_v84, h74, val0_v3, val0_v31, val0_v6, val0_arg7]
  rfl

theorem val1_v96 (V : Valuation τ sig (Elt Ideal)) :
    val1 V (no_index (Proc.devRef .tc main_v96)) = Host.reduceAdd (F := Ideal) (SX2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) (constant (F := Ideal) S_ .f32 0x00000000#32) reducesTo_S100000x2_S2_d0 h_S_ := by
  have h95 := val1_v95 V
  unfold val1 at h95 ⊢
  rw [w1_v96, h95]

theorem val1_arg8 (V : Valuation τ sig (Elt Ideal)) :
    val1 V (no_index (Proc.devRef .tc main_arg8)) = V (Proc.devRef .tc main_arg8) := val1_keep V main_arg8 (by decide) (by decide)
theorem val1_arg9 (V : Valuation τ sig (Elt Ideal)) :
    val1 V (no_index (Proc.devRef .tc main_arg9)) = V (Proc.devRef .tc main_arg9) := val1_keep V main_arg9 (by decide) (by decide)

/-! ## The third window (operations 144 … 207), from any contents `W` -/

set_option maxRecDepth 8192 in
set_option maxHeartbeats 4000000 in
theorem w2_v98 (W : Valuation τ sig (Elt Ideal)) :
    after ops2 W (Proc.devRef .tc main_v98) = Host.divf (F := Ideal) (W (Proc.devRef .tc main_v96) : FVec Ideal S2 .f32) (broadcastInDim S2 ![] bcast_S_S2 (constant (F := Ideal) S_ .f32 0x47C35000#32)) := by
  simp only [ops2]
  after_results_simp <;> rfl

set_option maxRecDepth 8192 in
set_option maxHeartbeats 4000000 in
theorem w2_v99 (W : Valuation τ sig (Elt Ideal)) :
    after ops2 W (Proc.devRef .tc main_v99) = Svar2 (W (Proc.devRef .tc main_v95)) := by
  simp only [ops2]
  after_results_simp <;> rfl

set_option maxRecDepth 8192 in
set_option maxHeartbeats 4000000 in
theorem w2_v114 (W : Valuation τ sig (Elt Ideal)) :
    after ops2 W (Proc.devRef .tc main_v114) = Sbn2 (W (Proc.devRef .tc main_v95)) (after ops2 W (Proc.devRef .tc main_v98)) (after ops2 W (Proc.devRef .tc main_v99)) (W (Proc.devRef .tc main_arg8)) (W (Proc.devRef .tc main_arg9)) := by
  simp only [ops2]
  after_results_simp <;> rfl

set_option maxRecDepth 8192 in
set_option maxHeartbeats 4000000 in
theorem w2_v120 (W : Valuation τ sig (Elt Ideal)) :
    after ops2 W (Proc.devRef .tc main_v120) = Ssig (after ops2 W (Proc.devRef .tc main_v114)) := by
  simp only [ops2]
  after_results_simp <;> rfl

set_option maxRecDepth 8192 in
set_option maxHeartbeats 4000000 in
theorem w2_v131 (W : Valuation τ sig (Elt Ideal)) :
    after ops2 W (Proc.devRef .tc main_v131) = Ssoft (after ops2 W (Proc.devRef .tc main_v114)) := by
  simp only [ops2]
  after_results_simp <;> rfl

/-! ### The third window after the first two -/

/-- The buffer contents after all three windows. -/
def val2 (V : Valuation τ sig (Elt Ideal)) : Valuation τ sig (Elt Ideal) := after ops2 (val1 V)

theorem after_ops_val (V : Valuation τ sig (Elt Ideal)) : after ops V = val2 V := after_ops V

theorem val2_v114 (V : Valuation τ sig (Elt Ideal)) :
    val2 V (no_index (Proc.devRef .tc main_v114)) = Sout (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  unfold val2
  rw [w2_v114, w2_v98, w2_v99, val1_v95, val1_v96, val1_arg8, val1_arg9]
  rfl

/-! ## The results -/

/-- The normalised second-layer output, as the nested stages of the ten argument arrays. -/
theorem ref_v114 (V : Valuation τ sig (Elt Ideal)) :
    after ops V (Proc.devRef .tc main_v114) = Sout (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_ops_val]; exact val2_v114 V

/-- The first returned value: the logistic function of the normalised output. -/
theorem ref_v120 (V : Valuation τ sig (Elt Ideal)) :
    after ops V (Proc.devRef .tc main_v120) = Ssig (Sout (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := by
  rw [after_ops_val]; unfold val2; rw [w2_v120]; exact congrArg Ssig (val2_v114 V)

/-- The second returned value: the softmax of the normalised output along the last axis. -/
theorem ref_v131 (V : Valuation τ sig (Elt Ideal)) :
    after ops V (Proc.devRef .tc main_v131) = Ssoft (Sout (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := by
  rw [after_ops_val]; unfold val2; rw [w2_v131]; exact congrArg Ssoft (val2_v114 V)

end Cert.ReferenceIdeal.Hand

end
-- ==== Proof.FiniteInputs.lean ====
import proofs.«122563_j12137577578919_1_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

/-!
# Every float input entry is a real number

The precondition tests, array by array, that every entry's absolute value is below the word of `+∞`, and joins the nine
tests by `and`. Read at the ideal instance each test says the entry is neither infinity, that is, a real number.
-/

noncomputable section

namespace Cert.FiniteInputs

open Idealize.ShloMosaic Cert.Pre_finite_inputs

/-- The word `0x7F800000` denotes `+∞`. -/
theorem ofBits_inf : Ideal.ofBits .f32 0x7F800000#32 = (⊤ : EReal) := by
  simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    unfold Ideal.cmp at h
    simp only [hn, decide_false, BitVec.ofBool_false] at h
    exact absurd h (by decide)
  induction x using EReal.rec with
  | bot => simp at hlt
  | coe r => exact ⟨r, rfl⟩
  | top => simp at hlt

instance : Subsingleton S_.Idx := ⟨fun a b => funext fun d => d.elim0⟩

/-- One array's test read at an entry: the entry is a real number. -/
theorem entry_real {S : Shape} (a : FVec Ideal S .f32) (top : FVec Ideal S .f32)
    (htop : ∀ i, top i = Ideal.ofBits .f32 0x7F800000#32) (i : S.Idx)
    (h : cmpf .olt (Host.absf a) top i = 1#1) : ∃ r : ℝ, a i = (r : EReal) := by
  refine real_of_abs_lt (a i) ?_
  rw [← htop i]
  exact h

/-- THE PRECONDITION DECODED: every entry of each of the nine float arguments is a real number. -/
theorem inputs_real [Facts] (a0 : IVec S2x1600000 32) (a1 : FVec Ideal S100000x64 .f32) (a2 : FVec Ideal S64x64 .f32)
    (a3 a4 a5 : FVec Ideal S64 .f32) (a6 : FVec Ideal S64x2 .f32) (a7 a8 a9 : FVec Ideal S2 .f32)
    (h : fn (F := Ideal) a0 a1 a2 a3 a4 a5 a6 a7 a8 a9 = fun _ => 1#1) :
    (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal)) := by
  have h0 := congrFun h ValueIdx.ix0
  dsimp only [fn, fn_part1, fn_part2] at h0
  have key : ∀ (p q : IVec S_ 1), andi p q ValueIdx.ix0 = 1#1 → p ValueIdx.ix0 = 1#1 ∧ q ValueIdx.ix0 = 1#1 :=
    fun p q e => IntOp.andi_eq_one.mp e
  obtain ⟨h8', h9⟩ := key _ _ h0
  obtain ⟨h7', h8⟩ := key _ _ h8'
  obtain ⟨h6', h7⟩ := key _ _ h7'
  obtain ⟨h5', h6⟩ := key _ _ h6'
  obtain ⟨h4', h5⟩ := key _ _ h5'
  obtain ⟨h3', h4⟩ := key _ _ h4'
  obtain ⟨h2', h3⟩ := key _ _ h3'
  obtain ⟨h1, h2⟩ := key _ _ h2'
  exact ⟨fun i => entry_real a1 _ (fun _ => rfl) i (Host.reduce_andi_all _ _ _ _ _ h1 i),
    fun i => entry_real a2 _ (fun _ => rfl) i (Host.reduce_andi_all _ _ _ _ _ h2 i),
    fun i => entry_real a3 _ (fun _ => rfl) i (Host.reduce_andi_all _ _ _ _ _ h3 i),
    fun i => entry_real a4 _ (fun _ => rfl) i (Host.reduce_andi_all _ _ _ _ _ h4 i),
    fun i => entry_real a5 _ (fun _ => rfl) i (Host.reduce_andi_all _ _ _ _ _ h5 i),
    fun i => entry_real a6 _ (fun _ => rfl) i (Host.reduce_andi_all _ _ _ _ _ h6 i),
    fun i => entry_real a7 _ (fun _ => rfl) i (Host.reduce_andi_all _ _ _ _ _ h7 i),
    fun i => entry_real a8 _ (fun _ => rfl) i (Host.reduce_andi_all _ _ _ _ _ h8 i),
    fun i => entry_real a9 _ (fun _ => rfl) i (Host.reduce_andi_all _ _ _ _ _ h9 i)⟩

end Cert.FiniteInputs

end
-- ==== Proof.Bridge1.lean ====
/- The first layer's normalise-and-rectify value, two ways: the kernel's closed form over column means and
   variances of extended reals, and the reference's stage over its own column statistics. The reference's stages
   are first read at an index; the column statistics then agree (for real entries the two forms of the variance
   coincide), and the two formulas differ by one reassociation of a product. -/
import proofs.«122563_j12137577578919_1_alg».proof.Proof.RefStages
import proofs.«122563_j12137577578919_1_alg».proof.Proof.KIV2
import proofs.«122563_j12137577578919_1_alg».proof.Proof.LibColStats
import proofs.«122563_j12137577578919_1_alg».proof.Proof.RefFinite
import proofs.«122563_j12137577578919_1_alg».proof.Proof.RefFinite2
import Idealize.ShloMosaic.Lib.ValueIdx
import Idealize.ShloMosaic.Lib.ValueIdxCoords
import Idealize.ShloMosaic.Lib.ValueLayout
import Idealize.ShloMosaic.Lib.KernelVsHost
import Idealize.ShloMosaic.Lib.Pipeline.Value
import Idealize.ShloMosaic.PureOps.Ideal.Laws

noncomputable section

open scoped BigOperators

namespace Cert.Bridge

open Cert.ReferenceIdeal Cert.ReferenceIdeal.Hand Idealize.ShloMosaic Idealize.ShloMosaic.ValueIdx
open Cert.ReferenceIdeal.Facts₀ Cert.ReferenceIdeal.Facts

/-! ## Operations read at an index -/

section Reads
variable {α : Type}

/-- A vector of C entries laid out as the one row [1, C], read at (u, j): its entry j. -/
theorem bcast_row_apply {C : Nat} (h : (⟨1, ![C]⟩ : Shape).BroadcastsInDim ⟨2, ![1, C]⟩ ![1])
    (y : (⟨1, ![C]⟩ : Shape).Idx → α) (u : Fin 1) (j : Fin C) :
    broadcastInDim ⟨2, ![1, C]⟩ ![1] h y (ix2 u j) = y (ix1 j) := by
  refine broadcastInDim_apply ![1] h y (ix2 u j) (ix1 j) ?_
  intro a
  fin_cases a
  show j.val = if C = 1 then 0 else j.val
  split_ifs with hC
  · have := j.isLt; omega
  · rfl

/-- The host's quotient at an index, at the ideal floats. -/
theorem hostDivf_apply {s : Shape} {φ : FTy} (a b : FVec Ideal s φ) (i : s.Idx) :
    Host.divf (F := Ideal) a b i = Ideal.div (a i) (b i) := rfl

/-- The host's inverse square root at an index, at the ideal floats. -/
theorem hostRsqrt_apply {s : Shape} {φ : FTy} (a : FVec Ideal s φ) (i : s.Idx) :
    Host.rsqrt (F := Ideal) a i = Ideal.rsqrt (a i) := rfl

end Reads

/-- The index a reduction over the rows inserts at column j: row n of column j. -/
theorem lift64 (h : S100000x64.Reduces [0] S64) (j : Fin 64) (n : Fin 100000) : h.lift (ix1 j) n = ix2 n j := by
  funext a
  fin_cases a <;> rfl

/-- The integer zero converted is the real zero. -/
theorem sitofp0 : FloatOps.sitofp (F := Ideal) .f32 (0#32 : BitVec 32) = (0 : EReal) := by
  show ((((0#32 : BitVec 32).toInt : ℤ) : ℝ) : EReal) = 0
  simp

/-- The row count, as a float, is positive: the guard of the variance's select holds. -/
theorem guard_true :
    FloatOps.cmpf (F := Ideal) .ogt (Ideal.ofBits .f32 0x47C35000#32 - FloatOps.sitofp (F := Ideal) .f32 (0#32 : BitVec 32))
      (Ideal.ofBits .f32 0x00000000#32) = 1#1 := by
  rw [sitofp0, sub_zero, Cert.LibColStats.ofBits_1e5, Ideal.ofBits_zero_f32]
  show BitVec.ofBool (decide ((0 : EReal) < ((100000 : ℝ) : EReal))) = 1#1
  rw [decide_eq_true (by exact_mod_cast (by norm_num : (0 : ℝ) < 100000))]
  rfl

/-! ## The column mean -/

/-- The reference's column mean at column j: the initial value plus the column's sum, over the row-count word. -/
theorem Smean64_apply (X : FVec Ideal S100000x64 .f32) (j : Fin 64) :
    Smean64 X (ix1 j)
      = Ideal.div (Ideal.ofBits .f32 0x00000000#32 + ∑ n : Fin 100000, X (ix2 n j)) (Ideal.ofBits .f32 0x47C35000#32) := by
  have hR : S100000x64.Reduces [0] S64 := by decide
  show Ideal.div (Ideal.hostReduceAdd reducesTo_S100000x64_S64_d0 X (Ideal.ofBits .f32 0x00000000#32) (ix1 j))
      (Ideal.ofBits .f32 0x47C35000#32) = _
  rw [Ideal.hostReduceAdd_single reducesTo_S100000x64_S64_d0 hR]
  refine congrArg (fun s => Ideal.div (Ideal.ofBits .f32 0x00000000#32 + s) (Ideal.ofBits .f32 0x47C35000#32)) ?_
  exact Finset.sum_congr rfl fun n _ => congrArg X (lift64 hR j n)

/-- It is the table's column mean with the row-count word as divisor. -/
theorem Smean64_eq_colMean (X : FVec Ideal S100000x64 .f32) (j : Fin 64) :
    Smean64 X (ix1 j) = Cert.LibColStats.colMean X (Ideal.ofBits .f32 0x47C35000#32) (ix2 0 j) := by
  rw [Smean64_apply, Ideal.ofBits_zero_f32, zero_add]
  rfl

/-! ## The column variance -/

/-- The deviations from the column means, as the reference computes them. -/
def dev64 (X : FVec Ideal S100000x64 .f32) : FVec Ideal S100000x64 .f32 :=
  subf (F := Ideal) X (broadcastInDim S100000x64 ![0, 1] bcast_S1x64_S100000x64_0_1 (Host.divf (F := Ideal) (broadcastInDim S1x64 ![1] bcast_S64_S1x64_1 (Host.reduceAdd (F := Ideal) X (constant (F := Ideal) S_ .f32 0x00000000#32) reducesTo_S100000x64_S64_d0 h_S_)) (broadcastInDim S1x64 ![] bcast_S_S1x64 (constant (F := Ideal) S_ .f32 0x47C35000#32))))

/-- The reference's variance stage over those deviations. -/
theorem Svar64_unfold (X : FVec Ideal S100000x64 .f32) :
    Svar64 X = select (broadcastInDim S64 ![] bcast_S_S64 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (dev64 X) (dev64 X)) (constant (F := Ideal) S_ .f32 0x00000000#32) reducesTo_S100000x64_S64_d0 h_S_) (broadcastInDim S64 ![] bcast_S_S64 (subf (F := Ideal) (constant (F := Ideal) S_ .f32 0x47C35000#32) (sitofp (F := Ideal) .f32 (constantI S_ 32 0#32))))) (broadcastInDim S64 ![] bcast_S_S64 (constant (F := Ideal) S_ .f32 0x7FC00000#32)) := rfl

/-- A deviation at (n, j): the entry less its column's mean. -/
theorem dev64_apply (X : FVec Ideal S100000x64 .f32) (n : Fin 100000) (j : Fin 64) :
    dev64 X (ix2 n j) = X (ix2 n j) - Smean64 X (ix1 j) := by
  unfold dev64
  rw [subf_apply, broadcastInDim_oneRow_apply, hostDivf_apply, bcast_row_apply]
  rfl

/-- The reference's column variance at column j: the guard holds, so it is the quotient: the initial value plus the
    sum of the squared deviations, over the row-count word. -/
theorem Svar64_apply (X : FVec Ideal S100000x64 .f32) (j : Fin 64) :
    Svar64 X (ix1 j)
      = Ideal.div (Ideal.ofBits .f32 0x00000000#32
          + ∑ n : Fin 100000, (X (ix2 n j) - Smean64 X (ix1 j)) * (X (ix2 n j) - Smean64 X (ix1 j)))
        (Ideal.ofBits .f32 0x47C35000#32) := by
  have hR : S100000x64.Reduces [0] S64 := by decide
  rw [Svar64_unfold]
  show Scalar.select
      (FloatOps.cmpf (F := Ideal) .ogt (Ideal.ofBits .f32 0x47C35000#32 - FloatOps.sitofp (F := Ideal) .f32 (0#32 : BitVec 32))
        (Ideal.ofBits .f32 0x00000000#32))
      (Ideal.div (Ideal.hostReduceAdd reducesTo_S100000x64_S64_d0 (mulf (F := Ideal) (dev64 X) (dev64 X))
          (Ideal.ofBits .f32 0x00000000#32) (ix1 j))
        (Ideal.ofBits .f32 0x47C35000#32 - FloatOps.sitofp (F := Ideal) .f32 (0#32 : BitVec 32)))
      (Ideal.ofBits .f32 0x7FC00000#32) = _
  rw [guard_true, select_one, sitofp0, sub_zero, Ideal.hostReduceAdd_single reducesTo_S100000x64_S64_d0 hR]
  refine congrArg (fun s => Ideal.div (Ideal.ofBits .f32 0x00000000#32 + s) (Ideal.ofBits .f32 0x47C35000#32)) ?_
  show (∑ n : Fin 100000, mulf (F := Ideal) (dev64 X) (dev64 X) (hR.lift (ix1 j) n)) = _
  refine Finset.sum_congr rfl fun n _ => ?_
  rw [lift64 hR j n, mulf_apply, dev64_apply]

/-- It is the table's column variance as the mean of the squared deviations. -/
theorem Svar64_eq_colVarR (X : FVec Ideal S100000x64 .f32) (j : Fin 64) :
    Svar64 X (ix1 j) = Cert.LibColStats.colVarR X (Ideal.ofBits .f32 0x47C35000#32) (ix2 0 j) := by
  rw [Svar64_apply, Ideal.ofBits_zero_f32, zero_add]
  simp only [Smean64_eq_colMean]
  rfl

/-! ## Normalise and rectify -/

/-- The reference's normalise-and-rectify stage at (n, j). -/
theorem Sbnrelu_apply (x : FVec Ideal S100000x64 .f32) (mean var g beta : FVec Ideal S64 .f32) (n : Fin 100000) (j : Fin 64) :
    Sbnrelu x mean var g beta (ix2 n j)
      = max (g (ix1 j) * (x (ix2 n j) - mean (ix1 j)) * Ideal.rsqrt (var (ix1 j) + Ideal.ofBits .f32 0x3727C5AC#32) + beta (ix1 j))
          (Ideal.ofBits .f32 0x00000000#32) := by
  unfold Sbnrelu
  simp only [maximumf_apply, addf_apply, mulf_apply, subf_apply]
  rw [broadcastInDim_oneRow_apply, broadcastInDim_oneRow_apply, broadcastInDim_oneRow_apply, broadcastInDim_oneRow_apply,
    bcast_row_apply, bcast_row_apply, bcast_row_apply, bcast_row_apply]
  rfl

/-- The kernel's normalise-and-rectify value over the table's own column statistics is the reference's stage, for a
    table of real entries: the two variances agree, and the two products differ by one reassociation. -/
theorem bnRelu_eq (X : FVec Ideal S100000x64 .f32) (hX : ∀ i, ∃ r : ℝ, X i = (r : EReal)) (g beta : FVec Ideal S64 .f32)
    (hsc : S64.ShapeCasts S1x64) :
    Cert.KernelIdeal.Hand.bnRelu X (Cert.LibColStats.colMean X (Ideal.ofBits .f32 0x47C35000#32))
        (Cert.LibColStats.colVarK X (Ideal.ofBits .f32 0x47C35000#32)) (shapeCast S1x64 g hsc) (shapeCast S1x64 beta hsc)
      = Sbnrelu X (Smean64 X) (Svar64 X) g beta := by
  have hw : Ideal.ofBits .f32 0x47C35000#32 = (((100000 : ℕ) : ℝ) : EReal) := by
    rw [Cert.LibColStats.ofBits_1e5]; norm_num
  have hv : Cert.LibColStats.colVarK X (Ideal.ofBits .f32 0x47C35000#32) = Cert.LibColStats.colVarR X (Ideal.ofBits .f32 0x47C35000#32) := by
    rw [hw]; exact Cert.LibColStats.colVar_eq (N := 100000) (by norm_num) X hX
  funext i
  obtain ⟨n, j, rfl⟩ : ∃ (n : Fin 100000) (j : Fin 64), i = ix2 n j := ⟨i 0, i 1, eq_ix2 i⟩
  rw [Sbnrelu_apply, Smean64_eq_colMean, Svar64_eq_colVarR, hv]
  unfold Cert.KernelIdeal.Hand.bnRelu
  simp only [ix2_1]
  rw [shapeCast_a_1a_apply, shapeCast_a_1a_apply, mul_assoc]

/-- The reference's column variances of a table of real entries are nonnegative reals: each is a mean of squares. -/
theorem Svar64_nonneg (X : FVec Ideal S100000x64 .f32) (hX : ∀ i, ∃ r : ℝ, X i = (r : EReal)) :
    ∀ j : S64.Idx, ∃ r : ℝ, 0 ≤ r ∧ Svar64 X j = (r : EReal) := fun j => by
  obtain ⟨q, rfl⟩ : ∃ q : Fin 64, j = ix1 q := ⟨j 0, eq_ix1 j⟩
  rw [Svar64_eq_colVarR]
  exact Cert.ReferenceIdeal.Hand.var_nonneg_of_colVarR X hX _

end Cert.Bridge

end
-- ==== Proof.Bridge2.lean ====
/- The second layer, pointwise: two closed forms of the kernel's last region — the logistic and the row-wise softmax — are
   the reference's stage functions, entry by entry. -/
import proofs.«122563_j12137577578919_1_alg».proof.Proof.KIV5
import proofs.«122563_j12137577578919_1_alg».proof.Proof.RefStages
import proofs.«122563_j12137577578919_1_alg».proof.Proof.LibColStats
import proofs.«122563_j12137577578919_1_alg».proof.Proof.RefFinite
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

open scoped BigOperators

namespace Cert.Bridge

open Cert.ReferenceIdeal Cert.ReferenceIdeal.Hand Idealize.ShloMosaic Idealize.ShloMosaic.ValueIdx
open Cert.ReferenceIdeal.Facts₀ Cert.ReferenceIdeal.Facts

/-! ## The logistic -/

/-- The single-precision pattern of `1.0` denotes the real one. -/
theorem ofBits_one : Ideal.ofBits .f32 0x3F800000#32 = (1 : EReal) := by
  simp [Ideal.ofBits, Ideal.ieee, -EReal.coe_mul] <;> norm_num

/-- The kernel's logistic of a table is the reference's: both are `1 / (1 + e^(−s))` entry by entry. -/
theorem sig_eq (s : FVec Ideal S100000x2 .f32) : Cert.KernelIdeal.Hand.sigOf (n := 100000) s = Ssig s := by
  funext i
  show Ideal.div 1 (1 + Ideal.exp (-(s i)))
    = Ideal.div (Ideal.ofBits .f32 0x3F800000#32) (Ideal.ofBits .f32 0x3F800000#32 + Ideal.exp (-(s i)))
  rw [ofBits_one]

/-! ## The row-wise softmax -/

/-- The fact behind reading a reduction over the columns at a row. -/
theorem red1 : S100000x2.Reduces [1] S100000 := by decide

/-- The index a reduction over the columns reads at row `r`, column `k`, is `(r, k)`. -/
theorem lift1 (r : Fin 100000) (k : Fin 2) : red1.lift (ix1 r) k = ix2 r k :=
  funext fun a => Fin.ext (by
    match a with
    | ⟨0, _⟩ => rfl
    | ⟨1, _⟩ => rfl)

/-- A vector of one value per row, made a column and broadcast across the two columns, reads at `(r, q)` the value of row `r`. -/
theorem bcastCol (m : S100000.Idx → EReal) (r : Fin 100000) (q : Fin 2) :
    broadcastInDim S100000x2 ![0, 1] bcast_S100000x1_S100000x2_0_1 (broadcastInDim S100000x1 ![0] bcast_S100000_S100000x1_0 m) (ix2 r q)
      = m (ix1 r) := by
  unfold broadcastInDim
  refine congrArg m (funext fun a => Fin.ext ?_)
  match a with
  | ⟨0, _⟩ => rfl

/-- The reference's row maximum — the larger of `−∞` and the fold of the maximum over the row's two columns from `−∞` — is the
    row's maximum as the kernel's closed form spells it: the fold already dominates its starting value. -/
theorem hostmax_at (s : FVec Ideal S100000x2 .f32) (r : Fin 100000) :
    (maximumf (F := Ideal) (broadcastInDim S100000 ![] bcast_S_S100000 (constant (F := Ideal) S_ .f32 0xFF800000#32))
        (Host.reduce (FloatOps.maximumf (F := Ideal)) s (constant (F := Ideal) S_ .f32 0xFF800000#32) reducesTo_S100000x2_S100000_d1 h_S_)) (ix1 r)
      = Cert.KernelIdeal.Hand.rowMax (n := 100000) s r := by
  show max (Ideal.ofBits .f32 0xFF800000#32)
      (Host.reduce (FloatOps.maximumf (F := Ideal)) s (constant (F := Ideal) S_ .f32 0xFF800000#32) reducesTo_S100000x2_S100000_d1 h_S_ (ix1 r)) = _
  refine (congrArg (max (Ideal.ofBits .f32 0xFF800000#32))
    (Host.reduce_eq_fold_single (FloatOps.maximumf (F := Ideal)) s (constant (F := Ideal) S_ .f32 0xFF800000#32)
      reducesTo_S100000x2_S100000_d1 red1 h_S_ (ix1 r))).trans ?_
  have e : (Finset.univ : Finset (Fin 2)).fold (FloatOps.maximumf (F := Ideal) (φ := .f32)) (Ideal.ofBits .f32 0xFF800000#32) (s ∘ red1.lift (ix1 r))
      = Cert.KernelIdeal.Hand.rowMax (n := 100000) s r := by
    unfold Cert.KernelIdeal.Hand.rowMax
    exact congrArg (fun f => (Finset.univ : Finset (Fin 2)).fold max (Ideal.ofBits .f32 0xFF800000#32) f)
      (funext fun k => congrArg s (lift1 r k))
  refine (congrArg (max (Ideal.ofBits .f32 0xFF800000#32)) e).trans ?_
  unfold Cert.KernelIdeal.Hand.rowMax
  exact max_eq_right ((Finset.le_fold_max _).2 (Or.inl le_rfl))

/-- The reference's row sum of a table `E` at row `r`: zero plus the sum of `E` over the row's two columns. -/
theorem hostsum_at (E : FVec Ideal S100000x2 .f32) (r : Fin 100000) :
    Host.reduceAdd (F := Ideal) E (constant (F := Ideal) S_ .f32 0x00000000#32) reducesTo_S100000x2_S100000_d1 h_S_ (ix1 r)
      = ∑ k : Fin 2, E (ix2 r k) := by
  show Ideal.hostReduceAdd reducesTo_S100000x2_S100000_d1 E (Ideal.ofBits .f32 0x00000000#32) (ix1 r) = _
  refine (Ideal.hostReduceAdd_single reducesTo_S100000x2_S100000_d1 red1 E _ (ix1 r)).trans ?_
  rw [Ideal.ofBits_zero_f32, zero_add]
  exact Finset.sum_congr rfl fun k _ => congrArg E (lift1 r k)

/-- THE SOFTMAX FROM ITS PARTS, on the reference's side: with `M` reading the row maximum across row `r` and `S` at `(r, q)`
    the row's sum of `e^(s − M)`, the row-wise softmax of `s` at `(r, q)` is the quotient `e^(s − M) / S` there. -/
theorem soft_of_parts_ref (s M S : FVec Ideal S100000x2 .f32) (r : Fin 100000) (q : Fin 2)
    (hM : ∀ q' : Fin 2, M (ix2 r q') = Cert.KernelIdeal.Hand.rowMax (n := 100000) s r)
    (hS : S (ix2 r q) = ∑ k : Fin 2, (Host.exp (F := Ideal) (subf (F := Ideal) s M)) (ix2 r k)) :
    Cert.KernelIdeal.Hand.softOf (n := 100000) s (ix2 r q)
      = (Host.divf (F := Ideal) (Host.exp (F := Ideal) (subf (F := Ideal) s M)) S) (ix2 r q) := by
  show Ideal.div (Ideal.exp (s (ix2 r q) - Cert.KernelIdeal.Hand.rowMax (n := 100000) s r)) (Cert.KernelIdeal.Hand.rowSum (n := 100000) s r)
    = Ideal.div (Ideal.exp (s (ix2 r q) - M (ix2 r q))) (S (ix2 r q))
  rw [hS, hM q]
  refine congrArg _ ?_
  unfold Cert.KernelIdeal.Hand.rowSum
  exact Finset.sum_congr rfl fun k _ => by
    show Ideal.exp (s (ix2 r k) - Cert.KernelIdeal.Hand.rowMax (n := 100000) s r) = Ideal.exp (s (ix2 r k) - M (ix2 r k))
    rw [hM k]

/-- The kernel's row-wise softmax of a table is the reference's: `e^(s − row maximum)` over its sum along the row. -/
theorem soft_eq (s : FVec Ideal S100000x2 .f32) : Cert.KernelIdeal.Hand.softOf (n := 100000) s = Ssoft s := by
  refine (funext fun i => ?_ : Cert.KernelIdeal.Hand.softOf (n := 100000) s = Ssoft s)
  obtain ⟨r, q, rfl⟩ : ∃ (r : Fin 100000) (q : Fin 2), i = ix2 r q := ⟨i 0, i 1, eq_ix2 i⟩
  unfold Ssoft
  exact soft_of_parts_ref s _ _ r q (fun q' => (bcastCol _ r q').trans (hostmax_at s r))
    ((bcastCol _ r q).trans (hostsum_at _ r))

end Cert.Bridge

end
-- ==== Proof.Bridge3.lean ====
/- The second layer's normalisation, two ways: the kernel's closed form over column means and variances of
   extended reals, and the reference's stage over its own column statistics, for a table of two columns. As for
   the first layer: the reference's stages read at an index, the column statistics agree for real entries, and
   the two formulas differ by one reassociation of a product. -/
import proofs.«122563_j12137577578919_1_alg».proof.Proof.Bridge1
import proofs.«122563_j12137577578919_1_alg».proof.Proof.KIV5

noncomputable section

open scoped BigOperators

namespace Cert.Bridge

open Cert.ReferenceIdeal Cert.ReferenceIdeal.Hand Idealize.ShloMosaic Idealize.ShloMosaic.ValueIdx
open Cert.ReferenceIdeal.Facts₀ Cert.ReferenceIdeal.Facts

/-- The index a reduction over the rows inserts at column j: row n of column j (two columns). -/
theorem lift2 (h : S100000x2.Reduces [0] S2) (j : Fin 2) (n : Fin 100000) : h.lift (ix1 j) n = ix2 n j := by
  funext a
  fin_cases a <;> rfl

/-! ## The column mean -/

/-- The reference's column mean at column j: the initial value plus the column's sum, over the row-count word. -/
theorem Smean2_apply (X : FVec Ideal S100000x2 .f32) (j : Fin 2) :
    Smean2 X (ix1 j)
      = Ideal.div (Ideal.ofBits .f32 0x00000000#32 + ∑ n : Fin 100000, X (ix2 n j)) (Ideal.ofBits .f32 0x47C35000#32) := by
  have hR : S100000x2.Reduces [0] S2 := by decide
  show Ideal.div (Ideal.hostReduceAdd reducesTo_S100000x2_S2_d0 X (Ideal.ofBits .f32 0x00000000#32) (ix1 j))
      (Ideal.ofBits .f32 0x47C35000#32) = _
  rw [Ideal.hostReduceAdd_single reducesTo_S100000x2_S2_d0 hR]
  refine congrArg (fun s => Ideal.div (Ideal.ofBits .f32 0x00000000#32 + s) (Ideal.ofBits .f32 0x47C35000#32)) ?_
  exact Finset.sum_congr rfl fun n _ => congrArg X (lift2 hR j n)

/-- It is the table's column mean with the row-count word as divisor. -/
theorem Smean2_eq_colMean (X : FVec Ideal S100000x2 .f32) (j : Fin 2) :
    Smean2 X (ix1 j) = Cert.LibColStats.colMean X (Ideal.ofBits .f32 0x47C35000#32) (ix2 0 j) := by
  rw [Smean2_apply, Ideal.ofBits_zero_f32, zero_add]
  rfl

/-! ## The column variance -/

/-- The deviations from the column means, as the reference computes them. -/
def dev2 (X : FVec Ideal S100000x2 .f32) : FVec Ideal S100000x2 .f32 :=
  subf (F := Ideal) X (broadcastInDim S100000x2 ![0, 1] bcast_S1x2_S100000x2_0_1 (Host.divf (F := Ideal) (broadcastInDim S1x2 ![1] bcast_S2_S1x2_1 (Host.reduceAdd (F := Ideal) X (constant (F := Ideal) S_ .f32 0x00000000#32) reducesTo_S100000x2_S2_d0 h_S_)) (broadcastInDim S1x2 ![] bcast_S_S1x2 (constant (F := Ideal) S_ .f32 0x47C35000#32))))

/-- The reference's variance stage over those deviations. -/
theorem Svar2_unfold (X : FVec Ideal S100000x2 .f32) :
    Svar2 X = select (broadcastInDim S2 ![] bcast_S_S2 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (dev2 X) (dev2 X)) (constant (F := Ideal) S_ .f32 0x00000000#32) reducesTo_S100000x2_S2_d0 h_S_) (broadcastInDim S2 ![] bcast_S_S2 (subf (F := Ideal) (constant (F := Ideal) S_ .f32 0x47C35000#32) (sitofp (F := Ideal) .f32 (constantI S_ 32 0#32))))) (broadcastInDim S2 ![] bcast_S_S2 (constant (F := Ideal) S_ .f32 0x7FC00000#32)) := rfl

/-- A deviation at (n, j): the entry less its column's mean. -/
theorem dev2_apply (X : FVec Ideal S100000x2 .f32) (n : Fin 100000) (j : Fin 2) :
    dev2 X (ix2 n j) = X (ix2 n j) - Smean2 X (ix1 j) := by
  unfold dev2
  rw [subf_apply, broadcastInDim_oneRow_apply, hostDivf_apply, bcast_row_apply]
  rfl

/-- The reference's column variance at column j: the guard holds, so it is the quotient: the initial value plus the
    sum of the squared deviations, over the row-count word. -/
theorem Svar2_apply (X : FVec Ideal S100000x2 .f32) (j : Fin 2) :
    Svar2 X (ix1 j)
      = Ideal.div (Ideal.ofBits .f32 0x00000000#32
          + ∑ n : Fin 100000, (X (ix2 n j) - Smean2 X (ix1 j)) * (X (ix2 n j) - Smean2 X (ix1 j)))
        (Ideal.ofBits .f32 0x47C35000#32) := by
  have hR : S100000x2.Reduces [0] S2 := by decide
  rw [Svar2_unfold]
  show Scalar.select
      (FloatOps.cmpf (F := Ideal) .ogt (Ideal.ofBits .f32 0x47C35000#32 - FloatOps.sitofp (F := Ideal) .f32 (0#32 : BitVec 32))
        (Ideal.ofBits .f32 0x00000000#32))
      (Ideal.div (Ideal.hostReduceAdd reducesTo_S100000x2_S2_d0 (mulf (F := Ideal) (dev2 X) (dev2 X))
          (Ideal.ofBits .f32 0x00000000#32) (ix1 j))
        (Ideal.ofBits .f32 0x47C35000#32 - FloatOps.sitofp (F := Ideal) .f32 (0#32 : BitVec 32)))
      (Ideal.ofBits .f32 0x7FC00000#32) = _
  rw [guard_true, select_one, sitofp0, sub_zero, Ideal.hostReduceAdd_single reducesTo_S100000x2_S2_d0 hR]
  refine congrArg (fun s => Ideal.div (Ideal.ofBits .f32 0x00000000#32 + s) (Ideal.ofBits .f32 0x47C35000#32)) ?_
  show (∑ n : Fin 100000, mulf (F := Ideal) (dev2 X) (dev2 X) (hR.lift (ix1 j) n)) = _
  refine Finset.sum_congr rfl fun n _ => ?_
  rw [lift2 hR j n, mulf_apply, dev2_apply]

/-- It is the table's column variance as the mean of the squared deviations. -/
theorem Svar2_eq_colVarR (X : FVec Ideal S100000x2 .f32) (j : Fin 2) :
    Svar2 X (ix1 j) = Cert.LibColStats.colVarR X (Ideal.ofBits .f32 0x47C35000#32) (ix2 0 j) := by
  rw [Svar2_apply, Ideal.ofBits_zero_f32, zero_add]
  simp only [Smean2_eq_colMean]
  rfl

/-- The reference's column variances of a two-column table of real entries are nonnegative reals. -/
theorem Svar2_nonneg (X : FVec Ideal S100000x2 .f32) (hX : ∀ i, ∃ r : ℝ, X i = (r : EReal)) :
    ∀ j : S2.Idx, ∃ r : ℝ, 0 ≤ r ∧ Svar2 X j = (r : EReal) := fun j => by
  obtain ⟨q, rfl⟩ : ∃ q : Fin 2, j = ix1 q := ⟨j 0, eq_ix1 j⟩
  rw [Svar2_eq_colVarR]
  exact Cert.ReferenceIdeal.Hand.var_nonneg_of_colVarR X hX _

/-! ## The normalisation -/

/-- The reference's normalisation stage at (n, j). -/
theorem Sbn2_apply (x : FVec Ideal S100000x2 .f32) (mean var g beta : FVec Ideal S2 .f32) (n : Fin 100000) (j : Fin 2) :
    Sbn2 x mean var g beta (ix2 n j)
      = g (ix1 j) * (x (ix2 n j) - mean (ix1 j)) * Ideal.rsqrt (var (ix1 j) + Ideal.ofBits .f32 0x3727C5AC#32) + beta (ix1 j) := by
  unfold Sbn2
  simp only [addf_apply, mulf_apply, subf_apply]
  rw [broadcastInDim_oneRow_apply, broadcastInDim_oneRow_apply, broadcastInDim_oneRow_apply, broadcastInDim_oneRow_apply,
    bcast_row_apply, bcast_row_apply, bcast_row_apply, bcast_row_apply]
  rfl

/-- The kernel's normalisation value over the table's own column statistics is the reference's stage, for a table
    of real entries: the two variances agree, and the two products differ by one reassociation. -/
theorem bn2_eq (X : FVec Ideal S100000x2 .f32) (hX : ∀ i, ∃ r : ℝ, X i = (r : EReal)) (g beta : FVec Ideal S2 .f32)
    (hsc : S2.ShapeCasts S1x2) :
    Cert.KernelIdeal.Hand.bnLin (n := 100000) X (Cert.LibColStats.colMean X (Ideal.ofBits .f32 0x47C35000#32))
        (Cert.LibColStats.colVarK X (Ideal.ofBits .f32 0x47C35000#32)) (shapeCast S1x2 g hsc) (shapeCast S1x2 beta hsc)
      = Sbn2 X (Smean2 X) (Svar2 X) g beta := by
  have hw : Ideal.ofBits .f32 0x47C35000#32 = (((100000 : ℕ) : ℝ) : EReal) := by
    rw [Cert.LibColStats.ofBits_1e5]; norm_num
  have hv : Cert.LibColStats.colVarK X (Ideal.ofBits .f32 0x47C35000#32) = Cert.LibColStats.colVarR X (Ideal.ofBits .f32 0x47C35000#32) := by
    rw [hw]; exact Cert.LibColStats.colVar_eq (N := 100000) (by norm_num) X hX
  funext i
  obtain ⟨n, j, rfl⟩ : ∃ (n : Fin 100000) (j : Fin 2), i = ix2 n j := ⟨i 0, i 1, eq_ix2 i⟩
  rw [Sbn2_apply, Smean2_eq_colMean, Svar2_eq_colVarR, hv]
  unfold Cert.KernelIdeal.Hand.bnLin
  simp only [ix2_1]
  rw [shapeCast_a_1a_apply, shapeCast_a_1a_apply, mul_assoc]

end Cert.Bridge

end
-- ==== Proof.RefDeg.lean ====
/-
  The degree normalisation of the reference is real.

  The target list of the edges is row 1 of the edge table followed by the node numbers 0 … 99999 (one self loop per
  node). The degree of node n is the number of entries of that list whose index word — a negative word first raised by
  100000 —, read signed, is n: a sum of 1700000 terms each 0 or 1, hence a real number; and it is at least 1, because
  entry 1600000 + n of the list is the node number n itself, which is not negative and reads as n. The inverse square
  root of a positive real is a real.
-/
import proofs.«122563_j12137577578919_1_alg».proof.Proof.RefStages
import proofs.«122563_j12137577578919_1_alg».proof.Proof.LibIndexOps
import proofs.«122563_j12137577578919_1_alg».proof.Proof.LibVariance
import Idealize.ShloMosaic.PureOps.Ideal
import Idealize.ShloMosaic.PureOps.Ideal.Laws
import Idealize.ShloMosaic.Lib.ValueIdx
import Idealize.ShloMosaic.Lib.DynamicIndex
import Idealize.ShloMosaic.Lib.Pipeline.Value

noncomputable section

open scoped BigOperators

namespace Cert.ReferenceIdeal.Hand

open Cert.ReferenceIdeal Idealize.ShloMosaic Idealize.ShloMosaic.ValueIdx
open Cert.ReferenceIdeal.Facts₀ Cert.ReferenceIdeal.Facts

/-- The single-precision pattern of `1.0` denotes `1`. -/
theorem ofBits_one_f32 : Ideal.ofBits .f32 0x3F800000#32 = 1 := by
  simp [Ideal.ofBits, Ideal.ieee, -EReal.coe_mul]; norm_num

/-- Entry `j` of the one-column index table: the word, raised by 100000 if it is negative. -/
theorem Sidx_apply (x : IVec S1700000 32) (j : Fin 1700000) :
    Sidx x (ix2 j 0)
      = Scalar.select (IntOp.cmpi .slt (x (ix1 j)) 0#32) (IntOp.addi (x (ix1 j)) 100000#32) (x (ix1 j)) := by
  unfold Sidx
  refine (broadcastInDim_apply ![0] bcast_S1700000_S1700000x1_0 _ (ix2 j 0) (ix1 j) (fun a => ?_)).trans ?_
  · obtain rfl : a = 0 := Subsingleton.elim _ _
    rw [if_neg (by decide)]
    rfl
  · rfl

/-- A word that is not negative is left alone. -/
theorem select_nonneg (w a : BitVec 32) (h : 0 ≤ w.toInt) :
    Scalar.select (IntOp.cmpi .slt w 0#32) a w = w := by
  have hlt : w.slt 0#32 = false := by
    simp only [BitVec.slt, BitVec.toInt_zero, decide_eq_false_iff_not, Int.not_lt]
    exact h
  show (if BitVec.ofBool (w.slt 0#32) = 1 then a else w) = w
  rw [hlt]
  rfl

/-- Entry `1600000 + n` of the target list is the node number `n`. -/
theorem Sdst_loop (a0 : IVec S2x1600000 32) (n : Fin 100000) (h : 1600000 + n.val < 1700000) :
    Sdst a0 (ix1 ⟨1600000 + n.val, h⟩) = BitVec.ofNat 32 n.val := by
  unfold Sdst
  refine (Cert.LibIndexOps.concatFlat_apply 1600000 100000 1700000 _ _ concatenates_S1600000_S100000_S1700000_d0
    ⟨1600000 + n.val, h⟩).trans ?_
  rw [dif_neg (by show ¬(1600000 + n.val < 1600000); omega)]
  show BitVec.ofNat 32 (1600000 + n.val - 1600000) = BitVec.ofNat 32 n.val
  rw [Nat.add_sub_cancel_left]

/-- So the index word of entry `1600000 + n`, read signed, is `n`. -/
theorem Sidx_loop (a0 : IVec S2x1600000 32) (n : Fin 100000) (h : 1600000 + n.val < 1700000) :
    (Sidx (Sdst a0) (ix2 ⟨1600000 + n.val, h⟩ 0)).toInt = (n.val : Int) := by
  have hn : n.val < 2 ^ 31 := lt_trans n.isLt (by norm_num)
  have ht : (BitVec.ofNat 32 n.val).toInt = (n.val : Int) := toInt_ofNat_of_lt hn
  rw [Sidx_apply, Sdst_loop a0 n h, select_nonneg _ _ (by rw [ht]; exact Int.natCast_nonneg _), ht]

/-- The scatter-add of the reference read at node `n`. -/
theorem scat_apply (x : FVec Ideal S100000 .f32) (idx : IVec S1700000x1 32) (upd : FVec Ideal S1700000 .f32) (n : Fin 100000) :
    Host.scatterAdd (F := Ideal) scatter_S100000_S1700000x1_S1700000_n_0_0_1 x idx upd (ix1 n)
      = x (ix1 n) + ∑ j : Fin 1700000, if (idx (ix2 j 0)).toInt = (n.val : Int) then upd (ix1 j) else 0 :=
  Cert.LibIndexOps.scatterAddFlat_apply scatter_S100000_S1700000x1_S1700000_n_0_0_1_wf x idx upd n

/-- The zero vector reads `0` everywhere, the vector of ones `1`. -/
theorem zeros_apply (i : S100000.Idx) :
    broadcastInDim S100000 ![] bcast_S_S100000 (constant (F := Ideal) S_ .f32 0x00000000#32) i = 0 := by
  show Ideal.ofBits .f32 0x00000000#32 = 0
  exact Ideal.ofBits_zero_f32
theorem ones_apply (i : S1700000.Idx) :
    broadcastInDim S1700000 ![] bcast_S_S1700000 (constant (F := Ideal) S_ .f32 0x3F800000#32) i = 1 := by
  show Ideal.ofBits .f32 0x3F800000#32 = 1
  exact ofBits_one_f32

/-- The degree of node `n`: the count of the entries of the target list whose index word reads `n`. -/
theorem deg_apply (a0 : IVec S2x1600000 32) (n : Fin 100000) :
    Host.scatterAdd (F := Ideal) scatter_S100000_S1700000x1_S1700000_n_0_0_1
        (broadcastInDim S100000 ![] bcast_S_S100000 (constant (F := Ideal) S_ .f32 0x00000000#32)) (Sidx (Sdst a0))
        (broadcastInDim S1700000 ![] bcast_S_S1700000 (constant (F := Ideal) S_ .f32 0x3F800000#32)) (ix1 n)
      = 0 + ∑ j : Fin 1700000, if (Sidx (Sdst a0) (ix2 j 0)).toInt = (n.val : Int) then (1 : EReal) else 0 := by
  rw [scat_apply, zeros_apply]
  refine congrArg (fun v : EReal => 0 + v) (Finset.sum_congr rfl fun j _ => ?_)
  exact if_congr Iff.rfl (ones_apply (ix1 j)) rfl
/-- A count is a real number, and it is at least the indicator of any one of its terms. -/
theorem count_real {M : ℕ} (P : Fin M → Prop) [DecidablePred P] (j0 : Fin M) (h0 : P j0) :
    ∃ r : ℝ, 1 ≤ r ∧ (∑ j : Fin M, if P j then (1 : EReal) else 0) = (r : EReal) := by
  refine ⟨∑ j : Fin M, if P j then (1 : ℝ) else 0, ?_, ?_⟩
  · have h := Finset.single_le_sum (f := fun j : Fin M => if P j then (1 : ℝ) else 0)
      (fun j _ => by split_ifs <;> norm_num) (Finset.mem_univ j0)
    simpa [h0] using h
  · rw [Cert.LibVariance.coe_sum]
    refine Finset.sum_congr rfl fun j _ => ?_
    split_ifs <;> simp

/-- The inverse square root of a vector at an entry that is a positive real is a real. -/
theorem rsqrt_real_at (D : FVec Ideal S100000 .f32) (i : S100000.Idx) (r : ℝ) (hr : 0 < r) (hx : D i = (r : EReal)) :
    ∃ q : ℝ, Host.rsqrt (F := Ideal) D i = (q : EReal) := by
  refine ⟨(Real.sqrt r)⁻¹, ?_⟩
  show Ideal.rsqrt (D i) = _
  rw [hx, Ideal.rsqrt_coe, if_neg (not_lt.2 hr.le), if_neg hr.ne']

/-- THE DEGREE NORMALISATION IS REAL: every node's inverse square root of its degree is a real number. -/
theorem Sdinv_real (a0 : IVec S2x1600000 32) : ∀ i : S100000.Idx, ∃ r : ℝ, Sdinv (Sdst a0) i = (r : EReal) := by
  intro i
  obtain ⟨n, rfl⟩ : ∃ n : Fin 100000, i = ix1 n := ⟨i 0, eq_ix1 i⟩
  have hb : 1600000 + n.val < 1700000 := by have := n.isLt; omega
  obtain ⟨r, hr1, hr⟩ := count_real (fun j : Fin 1700000 => (Sidx (Sdst a0) (ix2 j 0)).toInt = (n.val : Int))
    ⟨1600000 + n.val, hb⟩ (Sidx_loop a0 n hb)
  have hpos : 0 < r := lt_of_lt_of_le one_pos hr1
  have hx : Host.scatterAdd (F := Ideal) scatter_S100000_S1700000x1_S1700000_n_0_0_1
        (broadcastInDim S100000 ![] bcast_S_S100000 (constant (F := Ideal) S_ .f32 0x00000000#32)) (Sidx (Sdst a0))
        (broadcastInDim S1700000 ![] bcast_S_S1700000 (constant (F := Ideal) S_ .f32 0x3F800000#32)) (ix1 n) = (r : EReal) := by
    rw [deg_apply a0 n, hr, zero_add]
  unfold Sdinv
  exact rsqrt_real_at _ (ix1 n) r hpos hx

end Cert.ReferenceIdeal.Hand

end
-- ==== Proof.Algebraic.lean ====
import proofs.«122563_j12137577578919_1_alg».proof.Defs
import proofs.«122563_j12137577578919_1_alg».proof.Proof.KIOut
import proofs.«122563_j12137577578919_1_alg».proof.Proof.RefValue
import proofs.«122563_j12137577578919_1_alg».proof.Proof.FiniteInputs
import proofs.«122563_j12137577578919_1_alg».proof.Proof.Gen.Pre_finite_inputs
import proofs.«122563_j12137577578919_1_alg».proof.Proof.Gen.KernelIdeal
import proofs.«122563_j12137577578919_1_alg».proof.Proof.Gen.ReferenceIdeal
import proofs.«122563_j12137577578919_1_alg».proof.Proof.Bridge1
import proofs.«122563_j12137577578919_1_alg».proof.Proof.Bridge2
import proofs.«122563_j12137577578919_1_alg».proof.Proof.Bridge3
import proofs.«122563_j12137577578919_1_alg».proof.Proof.RefDeg

/-!
# The two idealised programs end with equal results

The kernel program's run leaves each unscoped buffer at the last boundary's contents; its two results there are the
reference's logistic and softmax stages of the reference's normalised second layer of the ten argument arrays, by the
stage-by-stage chain and the pointwise bridges, every float input entry being real by the precondition. The reference's run
leaves its two results at the same stage functions of its own arguments, which agree with the kernel program's.
-/

set_option maxRecDepth 16384

noncomputable section

namespace Cert.Proof

open Idealize.ShloMosaic Idealize.ShloMosaic.TcCoe Idealize.SL.Sem
open Cert.KernelIdeal.Hand (bd0 bd11 run_all mem_uc k_res0 k_res1)

theorem algebraic : Cert.algebraic_KernelIdeal_ReferenceIdeal := by
  intro m ρ m' ρ' hpre hagree
  refine ⟨fun c => bd11 m c (Proc.devRef .tc Cert.KernelIdeal.main_v83_0),
    fun c => bd11 m c (Proc.devRef .tc Cert.KernelIdeal.main_v83_1), ?_, ?_⟩
  · refine (θ_run Cert.KernelIdeal.defs _ _).mono (fun r h c => ?_) (run_all (F := Ideal) m ρ)
    exact ⟨h c _ (mem_uc Cert.KernelIdeal.main_v83_0 (by decide)), h c _ (mem_uc Cert.KernelIdeal.main_v83_1 (by decide)),
      (h c _ (mem_uc Cert.KernelIdeal.main_arg0 (by decide))).trans (Cert.KernelIdeal.Hand.bd11_main_arg0 m c),
      (h c _ (mem_uc Cert.KernelIdeal.main_arg1 (by decide))).trans (Cert.KernelIdeal.Hand.bd11_main_arg1 m c),
      (h c _ (mem_uc Cert.KernelIdeal.main_arg2 (by decide))).trans (Cert.KernelIdeal.Hand.bd11_main_arg2 m c),
      (h c _ (mem_uc Cert.KernelIdeal.main_arg3 (by decide))).trans (Cert.KernelIdeal.Hand.bd11_main_arg3 m c),
      (h c _ (mem_uc Cert.KernelIdeal.main_arg4 (by decide))).trans (Cert.KernelIdeal.Hand.bd11_main_arg4 m c),
      (h c _ (mem_uc Cert.KernelIdeal.main_arg5 (by decide))).trans (Cert.KernelIdeal.Hand.bd11_main_arg5 m c),
      (h c _ (mem_uc Cert.KernelIdeal.main_arg6 (by decide))).trans (Cert.KernelIdeal.Hand.bd11_main_arg6 m c),
      (h c _ (mem_uc Cert.KernelIdeal.main_arg7 (by decide))).trans (Cert.KernelIdeal.Hand.bd11_main_arg7 m c),
      (h c _ (mem_uc Cert.KernelIdeal.main_arg8 (by decide))).trans (Cert.KernelIdeal.Hand.bd11_main_arg8 m c),
      (h c _ (mem_uc Cert.KernelIdeal.main_arg9 (by decide))).trans (Cert.KernelIdeal.Hand.bd11_main_arg9 m c)⟩
  · refine (θ_run Cert.ReferenceIdeal.defs _ _).mono (fun r h c => ?_) (Cert.ReferenceIdeal.Hand.run (F := Ideal) m' ρ')
    obtain ⟨h120, h131, hargs⟩ := h c
    obtain ⟨r1, r2, r3, r4, r5, r6, r7, r8, r9⟩ := Cert.FiniteInputs.inputs_real _ _ _ _ _ _ _ _ _ _ (hpre c)
    have B1 : Cert.KernelIdeal.Hand.Bridge1 := fun X hX g beta => Cert.Bridge.bnRelu_eq X hX g beta _
    have B2 : Cert.KernelIdeal.Hand.Bridge2 := fun X hX g beta => Cert.Bridge.bn2_eq X hX g beta _
    have B3 : ∀ s : FVec Ideal Cert.KernelIdeal.S100000x2 .f32, Cert.KernelIdeal.Hand.sigOf (n := 100000) s = Cert.ReferenceIdeal.Hand.Ssig s := Cert.Bridge.sig_eq
    have B4 : ∀ s : FVec Ideal Cert.KernelIdeal.S100000x2 .f32, Cert.KernelIdeal.Hand.softOf (n := 100000) s = Cert.ReferenceIdeal.Hand.Ssoft s := Cert.Bridge.soft_eq
    have hd : Cert.ReferenceIdeal.Hand.IsReal (S := Cert.KernelIdeal.S100000) (Cert.ReferenceIdeal.Hand.Sdinv (Cert.ReferenceIdeal.Hand.Sdst (bd0 m c (Proc.devRef .tc Cert.KernelIdeal.main_arg0)))) :=
      Cert.ReferenceIdeal.Hand.Sdinv_real _
    have hv : ∀ (X : FVec Ideal Cert.KernelIdeal.S100000x64 .f32), (∀ i, ∃ r : ℝ, X i = (r : EReal)) → ∀ j : Cert.KernelIdeal.S64.Idx, ∃ r : ℝ, 0 ≤ r ∧ Cert.ReferenceIdeal.Hand.Svar64 X j = (r : EReal) :=
      fun X hX => Cert.Bridge.Svar64_nonneg X hX
    have e0 : StableHlo.launchContents m' c (Proc.devRef .tc Cert.ReferenceIdeal.main_arg0) = bd0 m c (Proc.devRef .tc Cert.KernelIdeal.main_arg0) := (hagree c).1
    have e1 : StableHlo.launchContents m' c (Proc.devRef .tc Cert.ReferenceIdeal.main_arg1) = bd0 m c (Proc.devRef .tc Cert.KernelIdeal.main_arg1) := (hagree c).2.1
    have e2 : StableHlo.launchContents m' c (Proc.devRef .tc Cert.ReferenceIdeal.main_arg2) = bd0 m c (Proc.devRef .tc Cert.KernelIdeal.main_arg2) := (hagree c).2.2.1
    have e3 : StableHlo.launchContents m' c (Proc.devRef .tc Cert.ReferenceIdeal.main_arg3) = bd0 m c (Proc.devRef .tc Cert.KernelIdeal.main_arg3) := (hagree c).2.2.2.1
    have e4 : StableHlo.launchContents m' c (Proc.devRef .tc Cert.ReferenceIdeal.main_arg4) = bd0 m c (Proc.devRef .tc Cert.KernelIdeal.main_arg4) := (hagree c).2.2.2.2.1
    have e5 : StableHlo.launchContents m' c (Proc.devRef .tc Cert.ReferenceIdeal.main_arg5) = bd0 m c (Proc.devRef .tc Cert.KernelIdeal.main_arg5) := (hagree c).2.2.2.2.2.1
    have e6 : StableHlo.launchContents m' c (Proc.devRef .tc Cert.ReferenceIdeal.main_arg6) = bd0 m c (Proc.devRef .tc Cert.KernelIdeal.main_arg6) := (hagree c).2.2.2.2.2.2.1
    have e7 : StableHlo.launchContents m' c (Proc.devRef .tc Cert.ReferenceIdeal.main_arg7) = bd0 m c (Proc.devRef .tc Cert.KernelIdeal.main_arg7) := (hagree c).2.2.2.2.2.2.2.1
    have e8 : StableHlo.launchContents m' c (Proc.devRef .tc Cert.ReferenceIdeal.main_arg8) = bd0 m c (Proc.devRef .tc Cert.KernelIdeal.main_arg8) := (hagree c).2.2.2.2.2.2.2.2.1
    have e9 : StableHlo.launchContents m' c (Proc.devRef .tc Cert.ReferenceIdeal.main_arg9) = bd0 m c (Proc.devRef .tc Cert.KernelIdeal.main_arg9) := (hagree c).2.2.2.2.2.2.2.2.2
    refine ⟨h120.trans ?_, h131.trans ?_, hargs⟩
    · show _ = bd11 m c (Proc.devRef .tc Cert.KernelIdeal.main_v83_0)
      rw [Cert.ReferenceIdeal.Hand.ref_v120, k_res0 m c B1 B2 B3 hd r1 r2 r3 r4 r5 r6 r7 hv, e0, e1, e2, e3, e4, e5, e6, e7, e8, e9]
    · show _ = bd11 m c (Proc.devRef .tc Cert.KernelIdeal.main_v83_1)
      rw [Cert.ReferenceIdeal.Hand.ref_v131, k_res1 m c B1 B2 B4 hd r1 r2 r3 r4 r5 r6 r7 hv, e0, e1, e2, e3, e4, e5, e6, e7, e8, e9]

end Cert.Proof

end
-- ==== Proof.lean ====
/-
  The certificate of a two-layer graph convolution with batch normalisation: six kernel regions (two row-tiled matrix
  products, two column-statistics passes that accumulate sums and sums of squares over fifty row tiles, a
  normalise-and-rectify pass, and a normalise-then-logistic-and-softmax pass) among host stretches that build the
  self-looped edge lists, the symmetric degree normalisation and the gather / scatter-add aggregation.

  The three frames: the kernel program, at the word level and at the ideal instance, runs its eleven items in order,
  each region's windows split out of the core's buffers and put back, the two statistics regions carrying their
  accumulators in scratch from tile to tile; the reference is a straight line of host operations. The idealisation
  rewrote no operation, so nothing is owed for it.

  The results agree at the ideal instance: the host stretches are the same operations in both programs; a row-tiled
  product is the whole product; fifty tile sums are one column sum; the kernel's variance, the mean of squares minus the
  squared mean, is the reference's mean of squared deviations on a table of real numbers, and the tables are real because
  every input entry is (the precondition) and every node has its self loop, so no degree is zero; the normalisations
  differ by the order of one product of three factors.
-/
import proofs.«122563_j12137577578919_1_alg».proof.Defs
import proofs.«122563_j12137577578919_1_alg».proof.Proof.Gen.Kernel
import proofs.«122563_j12137577578919_1_alg».proof.Proof.Gen.KernelIdeal
import proofs.«122563_j12137577578919_1_alg».proof.Proof.Gen.ReferenceIdeal
import proofs.«122563_j12137577578919_1_alg».proof.Proof.Gen.Pre_finite_inputs
import proofs.«122563_j12137577578919_1_alg».proof.Proof.KFrame
import proofs.«122563_j12137577578919_1_alg».proof.Proof.KIFrame
import proofs.«122563_j12137577578919_1_alg».proof.Proof.RefRun
import proofs.«122563_j12137577578919_1_alg».proof.Proof.Algebraic
import Idealize.ShloMosaic.Adequacy
import Idealize.ShloMosaic.Init

noncomputable section

namespace Cert.Proof

open Idealize.ShloMosaic Idealize.SL.Sem

/-- The word-level kernel program terminates, faults nowhere and leaves its arguments as launched. -/
theorem frame_k : Cert.frame_Kernel := fun m ρ _ => Cert.Kernel.Hand.frame (F := Bits) m ρ

/-- The same program read at the ideal instance. -/
theorem frame_ki : Cert.frame_KernelIdeal := fun m ρ _ => Cert.KernelIdeal.Hand.frame (F := Ideal) m ρ

/-- The reference, a straight line of host operations, likewise. -/
theorem frame_ri : Cert.frame_ReferenceIdeal := Cert.ReferenceIdeal.Hand.frame_ri

/-- The idealisation rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
